-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x56x56 : Shape := ⟨4, ![32, 64, 56, 56]⟩
abbrev S7x7x64x64 : Shape := ⟨4, ![7, 7, 64, 64]⟩
abbrev S64 : Shape := ⟨1, ![64]⟩
abbrev S_ : Shape := ⟨0, ![]⟩

class Facts : Prop where
  bcast_S_S32x64x56x56 : S_.BroadcastsInDim S32x64x56x56 (![] : Fin 0 → Fin S32x64x56x56.rank)
  reducesTo_S32x64x56x56_S_d0_1_2_3 : S32x64x56x56.ReducesTo [0, 1, 2, 3] S_
  h_S_ : 0 < S_.numel
  bcast_S_S7x7x64x64 : S_.BroadcastsInDim S7x7x64x64 (![] : Fin 0 → Fin S7x7x64x64.rank)
  reducesTo_S7x7x64x64_S_d0_1_2_3 : S7x7x64x64.ReducesTo [0, 1, 2, 3] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_arg8 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S64 .f32) (main_arg5 : FVec F S7x7x64x64 .f32) (main_arg6 : FVec F S64 .f32) (main_arg7 : FVec F S64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S7x7x64x64 .f32 := Host.absf main_arg5
  let main_cst_8 : FVec F S_ .f32 := constant S_ .f32 0x7F800000#32
  let main_v25 : FVec F S7x7x64x64 .f32 := broadcastInDim S7x7x64x64 ![] bcast_S_S7x7x64x64 main_cst_8
  let main_v26 : IVec S7x7x64x64 1 := cmpf .olt main_v24 main_v25
  let main_c_9 : IVec S_ 1 := constantI S_ 1 1#1
  let main_v27 : IVec S_ 1 := (fun x v => Host.reduce IntOp.andi x v reducesTo_S7x7x64x64_S_d0_1_2_3 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S32x64x56x56 .f32) (main_arg1 : FVec F S7x7x64x64 .f32) (main_arg2 : FVec F S64 .f32) (main_arg3 : FVec F S64 .f32) (main_arg4 : FVec F S64 .f32) (main_arg5 : FVec F S7x7x64x64 .f32) (main_arg6 : FVec F S64 .f32) (main_arg7 : FVec F S64 .f32) (main_arg8 : FVec F S64 .f32) : IVec S_ 1 :=
  let main_v0 : FVec F S32x64x56x56 .f32 := Host.absf main_arg0
  let main_cst : FVec F S_ .f32 := constant S_ .f32 0x7F800000#32
  let main_v1 : FVec F S32x64x56x56 .f32 := broadcastInDim S32x64x56x56 ![] bcast_S_S32x64x56x56 main_cst
  let main_v2 : IVec S32x64x56x56 1 := cmpf .olt main_v0 main_v1
  let main_c : IVec S_ 1 := constantI S_ 1 1#1
  let main_v3 : IVec S_ 1 := (fun x v => Host.reduce IntOp.andi x v reducesTo_S32x64x56x56_S_d0_1_2_3 h_S_) main_v2 main_c
  let main_v4 : FVec F S7x7x64x64 .f32 := Host.absf main_arg1
  let main_cst_0 : FVec F S_ .f32 := constant S_ .f32 0x7F800000#32
  let main_v5 : FVec F S7x7x64x64 .f32 := broadcastInDim S7x7x64x64 ![] bcast_S_S7x7x64x64 main_cst_0
  let main_v6 : IVec S7x7x64x64 1 := cmpf .olt main_v4 main_v5
  let main_c_1 : IVec S_ 1 := constantI S_ 1 1#1
  let main_v7 : IVec S_ 1 := (fun x v => Host.reduce IntOp.andi x v reducesTo_S7x7x64x64_S_d0_1_2_3 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_v13 main_v16
-- ==== Kernel.lean ====
abbrev S32x64x56x56 : Shape := ⟨4, ![32, 64, 56, 56]⟩
abbrev S7x7x64x64 : Shape := ⟨4, ![7, 7, 64, 64]⟩
abbrev S64 : Shape := ⟨1, ![64]⟩
abbrev S32x56x56x64 : Shape := ⟨4, ![32, 56, 56, 64]⟩
abbrev S7x448x64 : Shape := ⟨3, ![7, 448, 64]⟩
abbrev S1x64 : Shape := ⟨2, ![1, 64]⟩
abbrev S32x3136x64 : Shape := ⟨3, ![32, 3136, 64]⟩
abbrev S32x2x64 : Shape := ⟨3, ![32, 2, 64]⟩
abbrev S1x56x56x64 : Shape := ⟨4, ![1, 56, 56, 64]⟩
abbrev S1x3136x64 : Shape := ⟨3, ![1, 3136, 64]⟩
abbrev S1x2x64 : Shape := ⟨3, ![1, 2, 64]⟩
abbrev S62x62x64 : Shape := ⟨3, ![62, 62, 64]⟩
abbrev S3472x448 : Shape := ⟨2, ![3472, 448]⟩
abbrev S56x56x64 : Shape := ⟨3, ![56, 56, 64]⟩
abbrev S56x58x64 : Shape := ⟨3, ![56, 58, 64]⟩
abbrev S62x56x64 : Shape := ⟨3, ![62, 56, 64]⟩
abbrev S3472x64 : Shape := ⟨2, ![3472, 64]⟩
abbrev S3136x64 : Shape := ⟨2, ![3136, 64]⟩
abbrev S3136x448 : Shape := ⟨2, ![3136, 448]⟩
abbrev S1x448x64 : Shape := ⟨3, ![1, 448, 64]⟩
abbrev S448x64 : Shape := ⟨2, ![448, 64]⟩
abbrev S2x64 : Shape := ⟨2, ![2, 64]⟩
abbrev S_ : Shape := ⟨0, ![]⟩
abbrev S32x784x64 : Shape := ⟨3, ![32, 784, 64]⟩
abbrev S1x784x64 : Shape := ⟨3, ![1, 784, 64]⟩
abbrev S28x2x56x64 : Shape := ⟨4, ![28, 2, 56, 64]⟩
abbrev S28x1x56x64 : Shape := ⟨4, ![28, 1, 56, 64]⟩
abbrev S28x56x64 : Shape := ⟨3, ![28, 56, 64]⟩
abbrev S28x28x2x64 : Shape := ⟨4, ![28, 28, 2, 64]⟩
abbrev S28x28x1x64 : Shape := ⟨4, ![28, 28, 1, 64]⟩
abbrev S28x28x64 : Shape := ⟨3, ![28, 28, 64]⟩
abbrev S784x64 : Shape := ⟨2, ![784, 64]⟩
abbrev S8x784x64 : Shape := ⟨3, ![8, 784, 64]⟩
abbrev S1x1x64 : Shape := ⟨3, ![1, 1, 64]⟩
abbrev S32x28x28x64 : Shape := ⟨4, ![32, 28, 28, 64]⟩
abbrev S32x64x28x28 : Shape := ⟨4, ![32, 64, 28, 28]⟩

abbrev nBuf : Space → Nat
  | .hbm => 76
  | .vmem => 28
  | .smem => 0
  | _ => 0

abbrev bufTy : (tb : Table) → Fin (tcTables nBuf tb) → BufTy
  | .hbm, ⟨0, _⟩ => ⟨S32x64x56x56, .f32⟩
  | .hbm, ⟨1, _⟩ => ⟨S7x7x64x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S7x7x64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S32x56x56x64, .f32⟩
  | .hbm, ⟨10, _⟩ => ⟨S32x56x56x64, .bf16⟩
  | .hbm, ⟨11, _⟩ => ⟨S7x448x64, .f32⟩
  | .hbm, ⟨12, _⟩ => ⟨S7x448x64, .bf16⟩
  | .hbm, ⟨13, _⟩ => ⟨S7x448x64, .f32⟩
  | .hbm, ⟨14, _⟩ => ⟨S7x448x64, .bf16⟩
  | .hbm, ⟨15, _⟩ => ⟨S1x64, .f32⟩
  | .hbm, ⟨16, _⟩ => ⟨S1x64, .f32⟩
  | .hbm, ⟨17, _⟩ => ⟨S32x3136x64, .bf16⟩
  | .hbm, ⟨18, _⟩ => ⟨S32x2x64, .f32⟩
  | .hbm, ⟨19, _⟩ => ⟨S_, .f32⟩
  | .hbm, ⟨20, _⟩ => ⟨S2x64, .f32⟩
  | .hbm, ⟨21, _⟩ => ⟨S1x64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S1x64, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S64, .f32⟩
  | .hbm, ⟨40, _⟩ => ⟨S64, .f32⟩
  | .hbm, ⟨41, _⟩ => ⟨S64, .f32⟩
  | .hbm, ⟨42, _⟩ => ⟨S64, .f32⟩
  | .hbm, ⟨43, _⟩ => ⟨S1x64, .f32⟩
  | .hbm, ⟨44, _⟩ => ⟨S1x64, .f32⟩
  | .hbm, ⟨45, _⟩ => ⟨S32x784x64, .bf16⟩
  | .hbm, ⟨46, _⟩ => ⟨S32x2x64, .f32⟩
  | .hbm, ⟨47, _⟩ => ⟨S_, .f32⟩
  | .hbm, ⟨48, _⟩ => ⟨S2x64, .f32⟩
  | .hbm, ⟨49, _⟩ => ⟨S1x64, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S1x64, .f32⟩
  | .hbm, ⟨55, _⟩ => ⟨S64, .f32⟩
  | .hbm, ⟨56, _⟩ => ⟨S_, .f32⟩
  | .hbm, ⟨57, _⟩ => ⟨S64, .f32⟩
  | .hbm, ⟨58, _⟩ => ⟨S64, .f32⟩
  | .hbm, ⟨59, _⟩ => ⟨S64, .f32⟩
  | .hbm, ⟨60, _⟩ => ⟨S64, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S_, .f32⟩
  | .hbm, ⟨65, _⟩ => ⟨S64, .f32⟩
  | .hbm, ⟨66, _⟩ => ⟨S64, .f32⟩
  | .hbm, ⟨67, _⟩ => ⟨S64, .f32⟩
  | .hbm, ⟨68, _⟩ => ⟨S64, .f32⟩
  | .hbm, ⟨69, _⟩ => ⟨S64, .f32⟩
  | .hbm, ⟨70, _⟩ => ⟨S64, .f32⟩
  | .hbm, ⟨71, _⟩ => ⟨S1x64, .f32⟩
  | .hbm, ⟨72, _⟩ => ⟨S1x64, .f32⟩
  | .hbm, ⟨73, _⟩ => ⟨S32x784x64, .f32⟩
  | .hbm, ⟨74, _⟩ => ⟨S32x28x28x64, .f32⟩
  | .hbm, ⟨75, _⟩ => ⟨S32x64x28x28, .f32⟩
  | .local _ .vmem, ⟨0, _⟩ => ⟨S1x56x56x64, .bf16⟩
  | .local _ .vmem, ⟨1, _⟩ => ⟨S1x56x56x64, .bf16⟩
  | .local _ .vmem, ⟨2, _⟩ => ⟨S7x448x64, .bf16⟩
  | .local _ .vmem, ⟨3, _⟩ => ⟨S1x64, .f32⟩
  | .local _ .vmem, ⟨4, _⟩ => ⟨S1x3136x64, .bf16⟩
  | .local _ .vmem, ⟨5, _⟩ => ⟨S1x3136x64, .bf16⟩
  | .local _ .vmem, ⟨6, _⟩ => ⟨S1x2x64, .f32⟩
  | .local _ .vmem, ⟨7, _⟩ => ⟨S1x2x64, .f32⟩
  | .local _ .vmem, ⟨8, _⟩ => ⟨S62x62x64, .bf16⟩
  | .local _ .vmem, ⟨9, _⟩ => ⟨S3472x448, .bf16⟩
  | .local _ .vmem, ⟨10, _⟩ => ⟨S1x3136x64, .bf16⟩
  | .local _ .vmem, ⟨11, _⟩ => ⟨S1x3136x64, .bf16⟩
  | .local _ .vmem, ⟨12, _⟩ => ⟨S1x64, .f32⟩
  | .local _ .vmem, ⟨13, _⟩ => ⟨S1x64, .f32⟩
  | .local _ .vmem, ⟨14, _⟩ => ⟨S7x448x64, .bf16⟩
  | .local _ .vmem, ⟨15, _⟩ => ⟨S1x64, .f32⟩
  | .local _ .vmem, ⟨16, _⟩ => ⟨S1x784x64, .bf16⟩
  | .local _ .vmem, ⟨17, _⟩ => ⟨S1x784x64, .bf16⟩
  | .local _ .vmem, ⟨18, _⟩ => ⟨S1x2x64, .f32⟩
  | .local _ .vmem, ⟨19, _⟩ => ⟨S1x2x64, .f32⟩
  | .local _ .vmem, ⟨20, _⟩ => ⟨S62x62x64, .bf16⟩
  | .local _ .vmem, ⟨21, _⟩ => ⟨S3472x448, .bf16⟩
  | .local _ .vmem, ⟨22, _⟩ => ⟨S8x784x64, .bf16⟩
  | .local _ .vmem, ⟨23, _⟩ => ⟨S8x784x64, .bf16⟩
  | .local _ .vmem, ⟨24, _⟩ => ⟨S1x64, .f32⟩
  | .local _ .vmem, ⟨25, _⟩ => ⟨S1x64, .f32⟩
  | .local _ .vmem, ⟨26, _⟩ => ⟨S8x784x64, .f32⟩
  | .local _ .vmem, ⟨27, _⟩ => ⟨S8x784x64, .f32⟩
  | _, _ => ⟨S32x64x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30_0 : Ref sig .tc := ⟨.hbm, 45, rfl⟩
abbrev main_v30_1 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_scratch0 : Ref sig .tc := ⟨.vmem, 20, rfl⟩
abbrev cc1_scratch1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x56x56x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x448x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x3136x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x3136x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S7x448x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x784x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x2x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S8x784x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8x784x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  transposes_S32x64x56x56_S32x56x56x64_0_2_3_1 : S32x64x56x56.Transposes [0, 2, 3, 1] S32x56x56x64
  bitsLt_bf16_f32 : FTy.bits .bf16 < FTy.bits .f32
  shapeCasts_S7x7x64x64_S7x448x64 : S7x7x64x64.ShapeCasts S7x448x64
  shapeCasts_S64_S1x64 : S64.ShapeCasts S1x64
  inb_S62x62x64_S62x62x64_0_0_0 : ∀ a, (![0, 0, 0] : Fin 3 → Nat) a + S62x62x64.size a ≤ S62x62x64.size a
  h_S62x62x64 : 0 < S62x62x64.numel
  shapeCasts_S62x62x64_S62x62x64 : S62x62x64.ShapeCasts S62x62x64
  packedbf16_S62x62x64_S62x62x64_0_0_0 : (Rect.unit (s := S62x62x64) ![0, 0, 0] S62x62x64.size inb_S62x62x64_S62x62x64_0_0_0).PackedRows (EltTy.packing .bf16)
  inb_S1x56x56x64_S1x56x56x64_0_0_0_0 : ∀ a, (![0, 0, 0, 0] : Fin 4 → Nat) a + S1x56x56x64.size a ≤ S1x56x56x64.size a
  h_S1x56x56x64 : 0 < S1x56x56x64.numel
  shapeCasts_S1x56x56x64_S56x56x64 : S1x56x56x64.ShapeCasts S56x56x64
  inb_S62x62x64_S56x56x64_3_3_0 : ∀ a, (![3, 3, 0] : Fin 3 → Nat) a + S56x56x64.size a ≤ S62x62x64.size a
  h_S56x56x64 : 0 < S56x56x64.numel
  shapeCasts_S56x56x64_S56x56x64 : S56x56x64.ShapeCasts S56x56x64
  inb_S62x62x64_S56x58x64_3_2_0 : ∀ a, (![3, 2, 0] : Fin 3 → Nat) a + S56x58x64.size a ≤ S62x62x64.size a
  h_S56x58x64 : 0 < S56x58x64.numel
  slices_S56x58x64_S56x56x64_0_1_0 : S56x58x64.Slices ![0, 1, 0] S56x56x64
  packedbf16_S62x62x64_S56x58x64_3_2_0 : (Rect.unit (s := S62x62x64) ![3, 2, 0] S56x58x64.size inb_S62x62x64_S56x58x64_3_2_0).PackedRows (EltTy.packing .bf16)
  inb_S62x62x64_S62x56x64_0_0_0 : ∀ a, (![0, 0, 0] : Fin 3 → Nat) a + S62x56x64.size a ≤ S62x62x64.size a
  h_S62x56x64 : 0 < S62x56x64.numel
  shapeCasts_S62x56x64_S3472x64 : S62x56x64.ShapeCasts S3472x64
  inb_S3472x448_S3472x64_0_0 : ∀ a, (![0, 0] : Fin 2 → Nat) a + S3472x64.size a ≤ S3472x448.size a
  h_S3472x64 : 0 < S3472x64.numel
  shapeCasts_S3472x64_S3472x64 : S3472x64.ShapeCasts S3472x64
  packedbf16_S3472x448_S3472x64_0_0 : (Rect.unit (s := S3472x448) ![0, 0] S3472x64.size inb_S3472x448_S3472x64_0_0).PackedRows (EltTy.packing .bf16)
  inb_S62x62x64_S62x56x64_0_1_0 : ∀ a, (![0, 1, 0] : Fin 3 → Nat) a + S62x56x64.size a ≤ S62x62x64.size a
  inb_S3472x448_S3472x64_0_64 : ∀ a, (![0, 64] : Fin 2 → Nat) a + S3472x64.size a ≤ S3472x448.size a
  packedbf16_S3472x448_S3472x64_0_64 : (Rect.unit (s := S3472x448) ![0, 64] S3472x64.size inb_S3472x448_S3472x64_0_64).PackedRows (EltTy.packing .bf16)
  inb_S62x62x64_S62x56x64_0_2_0 : ∀ a, (![0, 2, 0] : Fin 3 → Nat) a + S62x56x64.size a ≤ S62x62x64.size a
  inb_S3472x448_S3472x64_0_128 : ∀ a, (![0, 128] : Fin 2 → Nat) a + S3472x64.size a ≤ S3472x448.size a
  packedbf16_S3472x448_S3472x64_0_128 : (Rect.unit (s := S3472x448) ![0, 128] S3472x64.size inb_S3472x448_S3472x64_0_128).PackedRows (EltTy.packing .bf16)
  inb_S62x62x64_S62x56x64_0_3_0 : ∀ a, (![0, 3, 0] : Fin 3 → Nat) a + S62x56x64.size a ≤ S62x62x64.size a
  inb_S3472x448_S3472x64_0_192 : ∀ a, (![0, 192] : Fin 2 → Nat) a + S3472x64.size a ≤ S3472x448.size a
  packedbf16_S3472x448_S3472x64_0_192 : (Rect.unit (s := S3472x448) ![0, 192] S3472x64.size inb_S3472x448_S3472x64_0_192).PackedRows (EltTy.packing .bf16)
  inb_S62x62x64_S62x56x64_0_4_0 : ∀ a, (![0, 4, 0] : Fin 3 → Nat) a + S62x56x64.size a ≤ S62x62x64.size a
  inb_S3472x448_S3472x64_0_256 : ∀ a, (![0, 256] : Fin 2 → Nat) a + S3472x64.size a ≤ S3472x448.size a
  packedbf16_S3472x448_S3472x64_0_256 : (Rect.unit (s := S3472x448) ![0, 256] S3472x64.size inb_S3472x448_S3472x64_0_256).PackedRows (EltTy.packing .bf16)
  inb_S62x62x64_S62x56x64_0_5_0 : ∀ a, (![0, 5, 0] : Fin 3 → Nat) a + S62x56x64.size a ≤ S62x62x64.size a
  inb_S3472x448_S3472x64_0_320 : ∀ a, (![0, 320] : Fin 2 → Nat) a + S3472x64.size a ≤ S3472x448.size a
  packedbf16_S3472x448_S3472x64_0_320 : (Rect.unit (s := S3472x448) ![0, 320] S3472x64.size inb_S3472x448_S3472x64_0_320).PackedRows (EltTy.packing .bf16)
  inb_S62x62x64_S62x56x64_0_6_0 : ∀ a, (![0, 6, 0] : Fin 3 → Nat) a + S62x56x64.size a ≤ S62x62x64.size a
  inb_S3472x448_S3472x64_0_384 : ∀ a, (![0, 384] : Fin 2 → Nat) a + S3472x64.size a ≤ S3472x448.size a
  packedbf16_S3472x448_S3472x64_0_384 : (Rect.unit (s := S3472x448) ![0, 384] S3472x64.size inb_S3472x448_S3472x64_0_384).PackedRows (EltTy.packing .bf16)
  inb_S3472x448_S3136x448_0_0 : ∀ a, (![0, 0] : Fin 2 → Nat) a + S3136x448.size a ≤ S3472x448.size a
  h_S3136x448 : 0 < S3136x448.numel
  inb_S7x448x64_S1x448x64_0_0_0 : ∀ a, (![0, 0, 0] : Fin 3 → Nat) a + S1x448x64.size a ≤ S7x448x64.size a
  h_S1x448x64 : 0 < S1x448x64.numel
  shapeCasts_S1x448x64_S448x64 : S1x448x64.ShapeCasts S448x64
  inb_S3472x448_S3136x448_56_0 : ∀ a, (![56, 0] : Fin 2 → Nat) a + S3136x448.size a ≤ S3472x448.size a
  inb_S7x448x64_S1x448x64_1_0_0 : ∀ a, (![1, 0, 0] : Fin 3 → Nat) a + S1x448x64.size a ≤ S7x448x64.size a
  inb_S3472x448_S3136x448_112_0 : ∀ a, (![112, 0] : Fin 2 → Nat) a + S3136x448.size a ≤ S3472x448.size a
  inb_S7x448x64_S1x448x64_2_0_0 : ∀ a, (![2, 0, 0] : Fin 3 → Nat) a + S1x448x64.size a ≤ S7x448x64.size a
  inb_S3472x448_S3136x448_168_0 : ∀ a, (![168, 0] : Fin 2 → Nat) a + S3136x448.size a ≤ S3472x448.size a
  inb_S7x448x64_S1x448x64_3_0_0 : ∀ a, (![3, 0, 0] : Fin 3 → Nat) a + S1x448x64.size a ≤ S7x448x64.size a
  inb_S3472x448_S3136x448_224_0 : ∀ a, (![224, 0] : Fin 2 → Nat) a + S3136x448.size a ≤ S3472x448.size a
  inb_S7x448x64_S1x448x64_4_0_0 : ∀ a, (![4, 0, 0] : Fin 3 → Nat) a + S1x448x64.size a ≤ S7x448x64.size a
  inb_S3472x448_S3136x448_280_0 : ∀ a, (![280, 0] : Fin 2 → Nat) a + S3136x448.size a ≤ S3472x448.size a
  inb_S7x448x64_S1x448x64_5_0_0 : ∀ a, (![5, 0, 0] : Fin 3 → Nat) a + S1x448x64.size a ≤ S7x448x64.size a
  inb_S3472x448_S3136x448_336_0 : ∀ a, (![336, 0] : Fin 2 → Nat) a + S3136x448.size a ≤ S3472x448.size a
  inb_S7x448x64_S1x448x64_6_0_0 : ∀ a, (![6, 0, 0] : Fin 3 → Nat) a + S1x448x64.size a ≤ S7x448x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3136x64 : S1x64.Broadcasts S3136x64
  inb_S1x3136x64_S1x3136x64_0_0_0 : ∀ a, (![0, 0, 0] : Fin 3 → Nat) a + S1x3136x64.size a ≤ S1x3136x64.size a
  h_S1x3136x64 : 0 < S1x3136x64.numel
  shapeCasts_S1x3136x64_S3136x64 : S1x3136x64.ShapeCasts S3136x64
  shapeCasts_S3136x64_S1x3136x64 : S3136x64.ShapeCasts S1x3136x64
  packedbf16_S1x3136x64_S1x3136x64_0_0_0 : (Rect.unit (s := S1x3136x64) ![0, 0, 0] S1x3136x64.size inb_S1x3136x64_S1x3136x64_0_0_0).PackedRows (EltTy.packing .bf16)
  reduces_S3136x64_S64 : S3136x64.Reduces [0] S64
  concatenates_S1x64_S1x64_S2x64_d0 : Shape.Concatenates [S1x64, S1x64] S2x64 0
  inb_S1x2x64_S1x2x64_0_0_0 : ∀ a, (![0, 0, 0] : Fin 3 → Nat) a + S1x2x64.size a ≤ S1x2x64.size a
  h_S1x2x64 : 0 < S1x2x64.numel
  shapeCasts_S1x2x64_S2x64 : S1x2x64.ShapeCasts S2x64
  shapeCasts_S2x64_S1x2x64 : S2x64.ShapeCasts S1x2x64
  reducesTo_S32x2x64_S2x64_d0 : S32x2x64.ReducesTo [0] S2x64
  h_S_ : 0 < S_.numel
  slices_S2x64_S1x64_0_0 : S2x64.Slices ![0, 0] S1x64
  shapeCasts_S1x64_S64 : S1x64.ShapeCasts S64
  bcast_S_S64 : S_.BroadcastsInDim S64 (![] : Fin 0 → Fin S64.rank)
  slices_S2x64_S1x64_1_0 : S2x64.Slices ![1, 0] S1x64
  shapeCasts_S3136x64_S56x56x64 : S3136x64.ShapeCasts S56x56x64
  shapeCasts_S3136x64_S28x2x56x64 : S3136x64.ShapeCasts S28x2x56x64
  slices_S28x2x56x64_o0_0_0_0_S28x1x56x64 : S28x2x56x64.Slices ![0, 0, 0, 0] S28x1x56x64
  shapeCasts_S28x1x56x64_S28x56x64 : S28x1x56x64.ShapeCasts S28x56x64
  slices_S28x2x56x64_o0_1_0_0_S28x1x56x64 : S28x2x56x64.Slices ![0, 1, 0, 0] S28x1x56x64
  shapeCasts_S28x56x64_S28x28x2x64 : S28x56x64.ShapeCasts S28x28x2x64
  slices_S28x28x2x64_o0_0_0_0_S28x28x1x64 : S28x28x2x64.Slices ![0, 0, 0, 0] S28x28x1x64
  shapeCasts_S28x28x1x64_S28x28x64 : S28x28x1x64.ShapeCasts S28x28x64
  slices_S28x28x2x64_o0_0_1_0_S28x28x1x64 : S28x28x2x64.Slices ![0, 0, 1, 0] S28x28x1x64
  shapeCasts_S28x28x64_S784x64 : S28x28x64.ShapeCasts S784x64
  inb_S1x784x64_S1x784x64_0_0_0 : ∀ a, (![0, 0, 0] : Fin 3 → Nat) a + S1x784x64.size a ≤ S1x784x64.size a
  h_S1x784x64 : 0 < S1x784x64.numel
  shapeCasts_S1x784x64_S784x64 : S1x784x64.ShapeCasts S784x64
  shapeCasts_S784x64_S1x784x64 : S784x64.ShapeCasts S1x784x64
  packedbf16_S1x784x64_S1x784x64_0_0_0 : (Rect.unit (s := S1x784x64) ![0, 0, 0] S1x784x64.size inb_S1x784x64_S1x784x64_0_0_0).PackedRows (EltTy.packing .bf16)
  reduces_S784x64_S64 : S784x64.Reduces [0] S64
  inb_S8x784x64_S8x784x64_0_0_0 : ∀ a, (![0, 0, 0] : Fin 3 → Nat) a + S8x784x64.size a ≤ S8x784x64.size a
  h_S8x784x64 : 0 < S8x784x64.numel
  shapeCasts_S8x784x64_S8x784x64 : S8x784x64.ShapeCasts S8x784x64
  shapeCasts_S1x64_S1x1x64 : S1x64.ShapeCasts S1x1x64
  broadcasts_S1x1x64_S8x784x64 : S1x1x64.Broadcasts S8x784x64
  shapeCasts_S32x784x64_S32x28x28x64 : S32x784x64.ShapeCasts S32x28x28x64
  transposes_S32x28x28x64_S32x64x28x28_0_3_1_2 : S32x28x28x64.Transposes [0, 3, 1, 2] S32x64x28x28
  dot_S3136x448_S448x64_S3136x64_1_0_0_1_n_n_wf : DotDims.WF S3136x448 S448x64 S3136x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x56x56x64.size a ≤ S32x56x56x64.size a
  hwx0_0 : ∀ i : grid0.Coords, EltTy.bits .bf16 = 32 ∨ (Rect.block (s := S32x56x56x64) S1x56x56x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x448x64.size a ≤ S7x448x64.size a
  hwx0_1 : ∀ i : grid0.Coords, EltTy.bits .bf16 = 32 ∨ (Rect.block (s := S7x448x64) S7x448x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3136x64.size a ≤ S32x3136x64.size a
  hwx0_3 : ∀ i : grid0.Coords, EltTy.bits .bf16 = 32 ∨ (Rect.block (s := S32x3136x64) S1x3136x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2x64.size a ≤ S32x2x64.size a
  hwx0_4 : ∀ i : grid0.Coords, EltTy.bits .f32 = 32 ∨ (Rect.block (s := S32x2x64) S1x2x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3136x64.size a ≤ S32x3136x64.size a
  hwx1_0 : ∀ i : grid1.Coords, EltTy.bits .bf16 = 32 ∨ (Rect.block (s := S32x3136x64) S1x3136x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S7x448x64.size a ≤ S7x448x64.size a
  hwx1_3 : ∀ i : grid1.Coords, EltTy.bits .bf16 = 32 ∨ (Rect.block (s := S7x448x64) S7x448x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x784x64.size a ≤ S32x784x64.size a
  hwx1_5 : ∀ i : grid1.Coords, EltTy.bits .bf16 = 32 ∨ (Rect.block (s := S32x784x64) S1x784x64.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x2x64.size a ≤ S32x2x64.size a
  hwx1_6 : ∀ i : grid1.Coords, EltTy.bits .f32 = 32 ∨ (Rect.block (s := S32x2x64) S1x2x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x784x64.size a ≤ S32x784x64.size a
  hwx2_0 : ∀ i : grid2.Coords, EltTy.bits .bf16 = 32 ∨ (Rect.block (s := S32x784x64) S8x784x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8x784x64.size a ≤ S32x784x64.size a
  hwx2_3 : ∀ i : grid2.Coords, EltTy.bits .f32 = 32 ∨ (Rect.block (s := S32x784x64) S8x784x64.size (cc2_transform_3 i) (hinb2_3 i)).WholeWords (EltTy.packing .f32)

variable [Facts₀]

def dot_S3136x448_S448x64_S3136x64_1_0_0_1_n_n : DotDims S3136x448 S448x64 S3136x64 where
  lhsContracting := [1]
  rhsContracting := [0]
  lhsNonContracting := [0]
  rhsNonContracting := [1]
  lhsBatch := []
  rhsBatch := []
  wf := dot_S3136x448_S448x64_S3136x64_1_0_0_1_n_n_wf

abbrev win0_0 : Pipeline.Window sig grid0 :=
  Pipeline.Window.ofSpec (Memref.whole main_v1) S1x56x56x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S7x448x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S1x3136x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S1x2x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v8_0) S1x3136x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S7x448x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30_0) S1x784x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v30_1) S1x2x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v30_0) S8x784x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S8x784x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S32x64x56x56 : Shape := ⟨4, ![32, 64, 56, 56]⟩
abbrev S7x7x64x64 : Shape := ⟨4, ![7, 7, 64, 64]⟩
abbrev S64 : Shape := ⟨1, ![64]⟩
abbrev S32x56x56x64 : Shape := ⟨4, ![32, 56, 56, 64]⟩
abbrev S3136x64 : Shape := ⟨2, ![3136, 64]⟩
abbrev S1x64 : Shape := ⟨2, ![1, 64]⟩
abbrev S32x3136x64 : Shape := ⟨3, ![32, 3136, 64]⟩
abbrev S32x2x64 : Shape := ⟨3, ![32, 2, 64]⟩
abbrev S1x56x56x64 : Shape := ⟨4, ![1, 56, 56, 64]⟩
abbrev S1x3136x64 : Shape := ⟨3, ![1, 3136, 64]⟩
abbrev S1x2x64 : Shape := ⟨3, ![1, 2, 64]⟩
abbrev S62x62x64 : Shape := ⟨3, ![62, 62, 64]⟩
abbrev S3136x3136 : Shape := ⟨2, ![3136, 3136]⟩
abbrev S56x56x64 : Shape := ⟨3, ![56, 56, 64]⟩
abbrev S2x64 : Shape := ⟨2, ![2, 64]⟩
abbrev S_ : Shape := ⟨0, ![]⟩
abbrev S32x784x64 : Shape := ⟨3, ![32, 784, 64]⟩
abbrev S1x784x64 : Shape := ⟨3, ![1, 784, 64]⟩
abbrev S28x2x56x64 : Shape := ⟨4, ![28, 2, 56, 64]⟩
abbrev S28x1x56x64 : Shape := ⟨4, ![28, 1, 56, 64]⟩
abbrev S28x56x64 : Shape := ⟨3, ![28, 56, 64]⟩
abbrev S1568x64 : Shape := ⟨2, ![1568, 64]⟩
abbrev S784x1568 : Shape := ⟨2, ![784, 1568]⟩
abbrev S784x64 : Shape := ⟨2, ![784, 64]⟩
abbrev S32x28x28x64 : Shape := ⟨4, ![32, 28, 28, 64]⟩
abbrev S32x64x28x28 : Shape := ⟨4, ![32, 64, 28, 28]⟩

abbrev nBuf : Space → Nat
  | .hbm => 73
  | .vmem => 28
  | .smem => 0
  | _ => 0

abbrev bufTy : (tb : Table) → Fin (tcTables nBuf tb) → BufTy
  | .hbm, ⟨0, _⟩ => ⟨S32x64x56x56, .f32⟩
  | .hbm, ⟨1, _⟩ => ⟨S7x7x64x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S7x7x64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S32x56x56x64, .f32⟩
  | .hbm, ⟨10, _⟩ => ⟨S3136x64, .f32⟩
  | .hbm, ⟨11, _⟩ => ⟨S3136x64, .f32⟩
  | .hbm, ⟨12, _⟩ => ⟨S1x64, .f32⟩
  | .hbm, ⟨13, _⟩ => ⟨S1x64, .f32⟩
  | .hbm, ⟨14, _⟩ => ⟨S32x3136x64, .f32⟩
  | .hbm, ⟨15, _⟩ => ⟨S32x2x64, .f32⟩
  | .hbm, ⟨16, _⟩ => ⟨S_, .f32⟩
  | .hbm, ⟨17, _⟩ => ⟨S2x64, .f32⟩
  | .hbm, ⟨18, _⟩ => ⟨S1x64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S1x64, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S64, .f32⟩
  | .hbm, ⟨37, _⟩ => ⟨S64, .f32⟩
  | .hbm, ⟨38, _⟩ => ⟨S64, .f32⟩
  | .hbm, ⟨39, _⟩ => ⟨S64, .f32⟩
  | .hbm, ⟨40, _⟩ => ⟨S1x64, .f32⟩
  | .hbm, ⟨41, _⟩ => ⟨S1x64, .f32⟩
  | .hbm, ⟨42, _⟩ => ⟨S32x784x64, .f32⟩
  | .hbm, ⟨43, _⟩ => ⟨S32x2x64, .f32⟩
  | .hbm, ⟨44, _⟩ => ⟨S_, .f32⟩
  | .hbm, ⟨45, _⟩ => ⟨S2x64, .f32⟩
  | .hbm, ⟨46, _⟩ => ⟨S1x64, .f32⟩
  | .hbm, ⟨47, _⟩ => ⟨S64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S1x64, .f32⟩
  | .hbm, ⟨52, _⟩ => ⟨S64, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S64, .f32⟩
  | .hbm, ⟨57, _⟩ => ⟨S64, .f32⟩
  | .hbm, ⟨58, _⟩ => ⟨S_, .f32⟩
  | .hbm, ⟨59, _⟩ => ⟨S64, .f32⟩
  | .hbm, ⟨60, _⟩ => ⟨S64, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S64, .f32⟩
  | .hbm, ⟨65, _⟩ => ⟨S64, .f32⟩
  | .hbm, ⟨66, _⟩ => ⟨S64, .f32⟩
  | .hbm, ⟨67, _⟩ => ⟨S64, .f32⟩
  | .hbm, ⟨68, _⟩ => ⟨S1x64, .f32⟩
  | .hbm, ⟨69, _⟩ => ⟨S1x64, .f32⟩
  | .hbm, ⟨70, _⟩ => ⟨S32x784x64, .f32⟩
  | .hbm, ⟨71, _⟩ => ⟨S32x28x28x64, .f32⟩
  | .hbm, ⟨72, _⟩ => ⟨S32x64x28x28, .f32⟩
  | .local _ .vmem, ⟨0, _⟩ => ⟨S1x56x56x64, .f32⟩
  | .local _ .vmem, ⟨1, _⟩ => ⟨S1x56x56x64, .f32⟩
  | .local _ .vmem, ⟨2, _⟩ => ⟨S3136x64, .f32⟩
  | .local _ .vmem, ⟨3, _⟩ => ⟨S1x64, .f32⟩
  | .local _ .vmem, ⟨4, _⟩ => ⟨S1x3136x64, .f32⟩
  | .local _ .vmem, ⟨5, _⟩ => ⟨S1x3136x64, .f32⟩
  | .local _ .vmem, ⟨6, _⟩ => ⟨S1x2x64, .f32⟩
  | .local _ .vmem, ⟨7, _⟩ => ⟨S1x2x64, .f32⟩
  | .local _ .vmem, ⟨8, _⟩ => ⟨S62x62x64, .f32⟩
  | .local _ .vmem, ⟨9, _⟩ => ⟨S3136x3136, .f32⟩
  | .local _ .vmem, ⟨10, _⟩ => ⟨S1x3136x64, .f32⟩
  | .local _ .vmem, ⟨11, _⟩ => ⟨S1x3136x64, .f32⟩
  | .local _ .vmem, ⟨12, _⟩ => ⟨S1x64, .f32⟩
  | .local _ .vmem, ⟨13, _⟩ => ⟨S1x64, .f32⟩
  | .local _ .vmem, ⟨14, _⟩ => ⟨S3136x64, .f32⟩
  | .local _ .vmem, ⟨15, _⟩ => ⟨S1x64, .f32⟩
  | .local _ .vmem, ⟨16, _⟩ => ⟨S1x784x64, .f32⟩
  | .local _ .vmem, ⟨17, _⟩ => ⟨S1x784x64, .f32⟩
  | .local _ .vmem, ⟨18, _⟩ => ⟨S1x2x64, .f32⟩
  | .local _ .vmem, ⟨19, _⟩ => ⟨S1x2x64, .f32⟩
  | .local _ .vmem, ⟨20, _⟩ => ⟨S62x62x64, .f32⟩
  | .local _ .vmem, ⟨21, _⟩ => ⟨S3136x3136, .f32⟩
  | .local _ .vmem, ⟨22, _⟩ => ⟨S1x784x64, .f32⟩
  | .local _ .vmem, ⟨23, _⟩ => ⟨S1x784x64, .f32⟩
  | .local _ .vmem, ⟨24, _⟩ => ⟨S1x64, .f32⟩
  | .local _ .vmem, ⟨25, _⟩ => ⟨S1x64, .f32⟩
  | .local _ .vmem, ⟨26, _⟩ => ⟨S1x784x64, .f32⟩
  | .local _ .vmem, ⟨27, _⟩ => ⟨S1x784x64, .f32⟩
  | _, _ => ⟨S32x64x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27_0 : Ref sig .tc := ⟨.hbm, 42, rfl⟩
abbrev main_v27_1 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_scratch0 : Ref sig .tc := ⟨.vmem, 20, rfl⟩
abbrev cc1_scratch1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x56x56x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3136x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x3136x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x3136x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3136x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x784x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x2x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x784x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x784x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  transposes_S32x64x56x56_S32x56x56x64_0_2_3_1 : S32x64x56x56.Transposes [0, 2, 3, 1] S32x56x56x64
  shapeCasts_S7x7x64x64_S3136x64 : S7x7x64x64.ShapeCasts S3136x64
  shapeCasts_S64_S1x64 : S64.ShapeCasts S1x64
  inb_S62x62x64_S62x62x64_0_0_0 : ∀ a, (![0, 0, 0] : Fin 3 → Nat) a + S62x62x64.size a ≤ S62x62x64.size a
  h_S62x62x64 : 0 < S62x62x64.numel
  shapeCasts_S62x62x64_S62x62x64 : S62x62x64.ShapeCasts S62x62x64
  inb_S1x56x56x64_S1x56x56x64_0_0_0_0 : ∀ a, (![0, 0, 0, 0] : Fin 4 → Nat) a + S1x56x56x64.size a ≤ S1x56x56x64.size a
  h_S1x56x56x64 : 0 < S1x56x56x64.numel
  shapeCasts_S1x56x56x64_S56x56x64 : S1x56x56x64.ShapeCasts S56x56x64
  inb_S62x62x64_S56x56x64_3_3_0 : ∀ a, (![3, 3, 0] : Fin 3 → Nat) a + S56x56x64.size a ≤ S62x62x64.size a
  h_S56x56x64 : 0 < S56x56x64.numel
  shapeCasts_S56x56x64_S56x56x64 : S56x56x64.ShapeCasts S56x56x64
  inb_S62x62x64_S56x56x64_0_0_0 : ∀ a, (![0, 0, 0] : Fin 3 → Nat) a + S56x56x64.size a ≤ S62x62x64.size a
  shapeCasts_S56x56x64_S3136x64 : S56x56x64.ShapeCasts S3136x64
  inb_S3136x3136_S3136x64_0_0 : ∀ a, (![0, 0] : Fin 2 → Nat) a + S3136x64.size a ≤ S3136x3136.size a
  h_S3136x64 : 0 < S3136x64.numel
  shapeCasts_S3136x64_S3136x64 : S3136x64.ShapeCasts S3136x64
  inb_S62x62x64_S56x56x64_0_1_0 : ∀ a, (![0, 1, 0] : Fin 3 → Nat) a + S56x56x64.size a ≤ S62x62x64.size a
  inb_S3136x3136_S3136x64_0_64 : ∀ a, (![0, 64] : Fin 2 → Nat) a + S3136x64.size a ≤ S3136x3136.size a
  inb_S62x62x64_S56x56x64_0_2_0 : ∀ a, (![0, 2, 0] : Fin 3 → Nat) a + S56x56x64.size a ≤ S62x62x64.size a
  inb_S3136x3136_S3136x64_0_128 : ∀ a, (![0, 128] : Fin 2 → Nat) a + S3136x64.size a ≤ S3136x3136.size a
  inb_S62x62x64_S56x56x64_0_3_0 : ∀ a, (![0, 3, 0] : Fin 3 → Nat) a + S56x56x64.size a ≤ S62x62x64.size a
  inb_S3136x3136_S3136x64_0_192 : ∀ a, (![0, 192] : Fin 2 → Nat) a + S3136x64.size a ≤ S3136x3136.size a
  inb_S62x62x64_S56x56x64_0_4_0 : ∀ a, (![0, 4, 0] : Fin 3 → Nat) a + S56x56x64.size a ≤ S62x62x64.size a
  inb_S3136x3136_S3136x64_0_256 : ∀ a, (![0, 256] : Fin 2 → Nat) a + S3136x64.size a ≤ S3136x3136.size a
  inb_S62x62x64_S56x56x64_0_5_0 : ∀ a, (![0, 5, 0] : Fin 3 → Nat) a + S56x56x64.size a ≤ S62x62x64.size a
  inb_S3136x3136_S3136x64_0_320 : ∀ a, (![0, 320] : Fin 2 → Nat) a + S3136x64.size a ≤ S3136x3136.size a
  inb_S62x62x64_S56x56x64_0_6_0 : ∀ a, (![0, 6, 0] : Fin 3 → Nat) a + S56x56x64.size a ≤ S62x62x64.size a
  inb_S3136x3136_S3136x64_0_384 : ∀ a, (![0, 384] : Fin 2 → Nat) a + S3136x64.size a ≤ S3136x3136.size a
  inb_S62x62x64_S56x56x64_1_0_0 : ∀ a, (![1, 0, 0] : Fin 3 → Nat) a + S56x56x64.size a ≤ S62x62x64.size a
  inb_S3136x3136_S3136x64_0_448 : ∀ a, (![0, 448] : Fin 2 → Nat) a + S3136x64.size a ≤ S3136x3136.size a
  inb_S62x62x64_S56x56x64_1_1_0 : ∀ a, (![1, 1, 0] : Fin 3 → Nat) a + S56x56x64.size a ≤ S62x62x64.size a
  inb_S3136x3136_S3136x64_0_512 : ∀ a, (![0, 512] : Fin 2 → Nat) a + S3136x64.size a ≤ S3136x3136.size a
  inb_S62x62x64_S56x56x64_1_2_0 : ∀ a, (![1, 2, 0] : Fin 3 → Nat) a + S56x56x64.size a ≤ S62x62x64.size a
  inb_S3136x3136_S3136x64_0_576 : ∀ a, (![0, 576] : Fin 2 → Nat) a + S3136x64.size a ≤ S3136x3136.size a
  inb_S62x62x64_S56x56x64_1_3_0 : ∀ a, (![1, 3, 0] : Fin 3 → Nat) a + S56x56x64.size a ≤ S62x62x64.size a
  inb_S3136x3136_S3136x64_0_640 : ∀ a, (![0, 640] : Fin 2 → Nat) a + S3136x64.size a ≤ S3136x3136.size a
  inb_S62x62x64_S56x56x64_1_4_0 : ∀ a, (![1, 4, 0] : Fin 3 → Nat) a + S56x56x64.size a ≤ S62x62x64.size a
  inb_S3136x3136_S3136x64_0_704 : ∀ a, (![0, 704] : Fin 2 → Nat) a + S3136x64.size a ≤ S3136x3136.size a
  inb_S62x62x64_S56x56x64_1_5_0 : ∀ a, (![1, 5, 0] : Fin 3 → Nat) a + S56x56x64.size a ≤ S62x62x64.size a
  inb_S3136x3136_S3136x64_0_768 : ∀ a, (![0, 768] : Fin 2 → Nat) a + S3136x64.size a ≤ S3136x3136.size a
  inb_S62x62x64_S56x56x64_1_6_0 : ∀ a, (![1, 6, 0] : Fin 3 → Nat) a + S56x56x64.size a ≤ S62x62x64.size a
  inb_S3136x3136_S3136x64_0_832 : ∀ a, (![0, 832] : Fin 2 → Nat) a + S3136x64.size a ≤ S3136x3136.size a
  inb_S62x62x64_S56x56x64_2_0_0 : ∀ a, (![2, 0, 0] : Fin 3 → Nat) a + S56x56x64.size a ≤ S62x62x64.size a
  inb_S3136x3136_S3136x64_0_896 : ∀ a, (![0, 896] : Fin 2 → Nat) a + S3136x64.size a ≤ S3136x3136.size a
  inb_S62x62x64_S56x56x64_2_1_0 : ∀ a, (![2, 1, 0] : Fin 3 → Nat) a + S56x56x64.size a ≤ S62x62x64.size a
  inb_S3136x3136_S3136x64_0_960 : ∀ a, (![0, 960] : Fin 2 → Nat) a + S3136x64.size a ≤ S3136x3136.size a
  inb_S62x62x64_S56x56x64_2_2_0 : ∀ a, (![2, 2, 0] : Fin 3 → Nat) a + S56x56x64.size a ≤ S62x62x64.size a
  inb_S3136x3136_S3136x64_0_1024 : ∀ a, (![0, 1024] : Fin 2 → Nat) a + S3136x64.size a ≤ S3136x3136.size a
  inb_S62x62x64_S56x56x64_2_3_0 : ∀ a, (![2, 3, 0] : Fin 3 → Nat) a + S56x56x64.size a ≤ S62x62x64.size a
  inb_S3136x3136_S3136x64_0_1088 : ∀ a, (![0, 1088] : Fin 2 → Nat) a + S3136x64.size a ≤ S3136x3136.size a
  inb_S62x62x64_S56x56x64_2_4_0 : ∀ a, (![2, 4, 0] : Fin 3 → Nat) a + S56x56x64.size a ≤ S62x62x64.size a
  inb_S3136x3136_S3136x64_0_1152 : ∀ a, (![0, 1152] : Fin 2 → Nat) a + S3136x64.size a ≤ S3136x3136.size a
  inb_S62x62x64_S56x56x64_2_5_0 : ∀ a, (![2, 5, 0] : Fin 3 → Nat) a + S56x56x64.size a ≤ S62x62x64.size a
  inb_S3136x3136_S3136x64_0_1216 : ∀ a, (![0, 1216] : Fin 2 → Nat) a + S3136x64.size a ≤ S3136x3136.size a
  inb_S62x62x64_S56x56x64_2_6_0 : ∀ a, (![2, 6, 0] : Fin 3 → Nat) a + S56x56x64.size a ≤ S62x62x64.size a
  inb_S3136x3136_S3136x64_0_1280 : ∀ a, (![0, 1280] : Fin 2 → Nat) a + S3136x64.size a ≤ S3136x3136.size a
  inb_S62x62x64_S56x56x64_3_0_0 : ∀ a, (![3, 0, 0] : Fin 3 → Nat) a + S56x56x64.size a ≤ S62x62x64.size a
  inb_S3136x3136_S3136x64_0_1344 : ∀ a, (![0, 1344] : Fin 2 → Nat) a + S3136x64.size a ≤ S3136x3136.size a
  inb_S62x62x64_S56x56x64_3_1_0 : ∀ a, (![3, 1, 0] : Fin 3 → Nat) a + S56x56x64.size a ≤ S62x62x64.size a
  inb_S3136x3136_S3136x64_0_1408 : ∀ a, (![0, 1408] : Fin 2 → Nat) a + S3136x64.size a ≤ S3136x3136.size a
  inb_S62x62x64_S56x56x64_3_2_0 : ∀ a, (![3, 2, 0] : Fin 3 → Nat) a + S56x56x64.size a ≤ S62x62x64.size a
  inb_S3136x3136_S3136x64_0_1472 : ∀ a, (![0, 1472] : Fin 2 → Nat) a + S3136x64.size a ≤ S3136x3136.size a
  inb_S3136x3136_S3136x64_0_1536 : ∀ a, (![0, 1536] : Fin 2 → Nat) a + S3136x64.size a ≤ S3136x3136.size a
  inb_S62x62x64_S56x56x64_3_4_0 : ∀ a, (![3, 4, 0] : Fin 3 → Nat) a + S56x56x64.size a ≤ S62x62x64.size a
  inb_S3136x3136_S3136x64_0_1600 : ∀ a, (![0, 1600] : Fin 2 → Nat) a + S3136x64.size a ≤ S3136x3136.size a
  inb_S62x62x64_S56x56x64_3_5_0 : ∀ a, (![3, 5, 0] : Fin 3 → Nat) a + S56x56x64.size a ≤ S62x62x64.size a
  inb_S3136x3136_S3136x64_0_1664 : ∀ a, (![0, 1664] : Fin 2 → Nat) a + S3136x64.size a ≤ S3136x3136.size a
  inb_S62x62x64_S56x56x64_3_6_0 : ∀ a, (![3, 6, 0] : Fin 3 → Nat) a + S56x56x64.size a ≤ S62x62x64.size a
  inb_S3136x3136_S3136x64_0_1728 : ∀ a, (![0, 1728] : Fin 2 → Nat) a + S3136x64.size a ≤ S3136x3136.size a
  inb_S62x62x64_S56x56x64_4_0_0 : ∀ a, (![4, 0, 0] : Fin 3 → Nat) a + S56x56x64.size a ≤ S62x62x64.size a
  inb_S3136x3136_S3136x64_0_1792 : ∀ a, (![0, 1792] : Fin 2 → Nat) a + S3136x64.size a ≤ S3136x3136.size a
  inb_S62x62x64_S56x56x64_4_1_0 : ∀ a, (![4, 1, 0] : Fin 3 → Nat) a + S56x56x64.size a ≤ S62x62x64.size a
  inb_S3136x3136_S3136x64_0_1856 : ∀ a, (![0, 1856] : Fin 2 → Nat) a + S3136x64.size a ≤ S3136x3136.size a
  inb_S62x62x64_S56x56x64_4_2_0 : ∀ a, (![4, 2, 0] : Fin 3 → Nat) a + S56x56x64.size a ≤ S62x62x64.size a
  inb_S3136x3136_S3136x64_0_1920 : ∀ a, (![0, 1920] : Fin 2 → Nat) a + S3136x64.size a ≤ S3136x3136.size a
  inb_S62x62x64_S56x56x64_4_3_0 : ∀ a, (![4, 3, 0] : Fin 3 → Nat) a + S56x56x64.size a ≤ S62x62x64.size a
  inb_S3136x3136_S3136x64_0_1984 : ∀ a, (![0, 1984] : Fin 2 → Nat) a + S3136x64.size a ≤ S3136x3136.size a
  inb_S62x62x64_S56x56x64_4_4_0 : ∀ a, (![4, 4, 0] : Fin 3 → Nat) a + S56x56x64.size a ≤ S62x62x64.size a
  inb_S3136x3136_S3136x64_0_2048 : ∀ a, (![0, 2048] : Fin 2 → Nat) a + S3136x64.size a ≤ S3136x3136.size a
  inb_S62x62x64_S56x56x64_4_5_0 : ∀ a, (![4, 5, 0] : Fin 3 → Nat) a + S56x56x64.size a ≤ S62x62x64.size a
  inb_S3136x3136_S3136x64_0_2112 : ∀ a, (![0, 2112] : Fin 2 → Nat) a + S3136x64.size a ≤ S3136x3136.size a
  inb_S62x62x64_S56x56x64_4_6_0 : ∀ a, (![4, 6, 0] : Fin 3 → Nat) a + S56x56x64.size a ≤ S62x62x64.size a
  inb_S3136x3136_S3136x64_0_2176 : ∀ a, (![0, 2176] : Fin 2 → Nat) a + S3136x64.size a ≤ S3136x3136.size a
  inb_S62x62x64_S56x56x64_5_0_0 : ∀ a, (![5, 0, 0] : Fin 3 → Nat) a + S56x56x64.size a ≤ S62x62x64.size a
  inb_S3136x3136_S3136x64_0_2240 : ∀ a, (![0, 2240] : Fin 2 → Nat) a + S3136x64.size a ≤ S3136x3136.size a
  inb_S62x62x64_S56x56x64_5_1_0 : ∀ a, (![5, 1, 0] : Fin 3 → Nat) a + S56x56x64.size a ≤ S62x62x64.size a
  inb_S3136x3136_S3136x64_0_2304 : ∀ a, (![0, 2304] : Fin 2 → Nat) a + S3136x64.size a ≤ S3136x3136.size a
  inb_S62x62x64_S56x56x64_5_2_0 : ∀ a, (![5, 2, 0] : Fin 3 → Nat) a + S56x56x64.size a ≤ S62x62x64.size a
  inb_S3136x3136_S3136x64_0_2368 : ∀ a, (![0, 2368] : Fin 2 → Nat) a + S3136x64.size a ≤ S3136x3136.size a
  inb_S62x62x64_S56x56x64_5_3_0 : ∀ a, (![5, 3, 0] : Fin 3 → Nat) a + S56x56x64.size a ≤ S62x62x64.size a
  inb_S3136x3136_S3136x64_0_2432 : ∀ a, (![0, 2432] : Fin 2 → Nat) a + S3136x64.size a ≤ S3136x3136.size a
  inb_S62x62x64_S56x56x64_5_4_0 : ∀ a, (![5, 4, 0] : Fin 3 → Nat) a + S56x56x64.size a ≤ S62x62x64.size a
  inb_S3136x3136_S3136x64_0_2496 : ∀ a, (![0, 2496] : Fin 2 → Nat) a + S3136x64.size a ≤ S3136x3136.size a
  inb_S62x62x64_S56x56x64_5_5_0 : ∀ a, (![5, 5, 0] : Fin 3 → Nat) a + S56x56x64.size a ≤ S62x62x64.size a
  inb_S3136x3136_S3136x64_0_2560 : ∀ a, (![0, 2560] : Fin 2 → Nat) a + S3136x64.size a ≤ S3136x3136.size a
  inb_S62x62x64_S56x56x64_5_6_0 : ∀ a, (![5, 6, 0] : Fin 3 → Nat) a + S56x56x64.size a ≤ S62x62x64.size a
  inb_S3136x3136_S3136x64_0_2624 : ∀ a, (![0, 2624] : Fin 2 → Nat) a + S3136x64.size a ≤ S3136x3136.size a
  inb_S62x62x64_S56x56x64_6_0_0 : ∀ a, (![6, 0, 0] : Fin 3 → Nat) a + S56x56x64.size a ≤ S62x62x64.size a
  inb_S3136x3136_S3136x64_0_2688 : ∀ a, (![0, 2688] : Fin 2 → Nat) a + S3136x64.size a ≤ S3136x3136.size a
  inb_S62x62x64_S56x56x64_6_1_0 : ∀ a, (![6, 1, 0] : Fin 3 → Nat) a + S56x56x64.size a ≤ S62x62x64.size a
  inb_S3136x3136_S3136x64_0_2752 : ∀ a, (![0, 2752] : Fin 2 → Nat) a + S3136x64.size a ≤ S3136x3136.size a
  inb_S62x62x64_S56x56x64_6_2_0 : ∀ a, (![6, 2, 0] : Fin 3 → Nat) a + S56x56x64.size a ≤ S62x62x64.size a
  inb_S3136x3136_S3136x64_0_2816 : ∀ a, (![0, 2816] : Fin 2 → Nat) a + S3136x64.size a ≤ S3136x3136.size a
  inb_S62x62x64_S56x56x64_6_3_0 : ∀ a, (![6, 3, 0] : Fin 3 → Nat) a + S56x56x64.size a ≤ S62x62x64.size a
  inb_S3136x3136_S3136x64_0_2880 : ∀ a, (![0, 2880] : Fin 2 → Nat) a + S3136x64.size a ≤ S3136x3136.size a
  inb_S62x62x64_S56x56x64_6_4_0 : ∀ a, (![6, 4, 0] : Fin 3 → Nat) a + S56x56x64.size a ≤ S62x62x64.size a
  inb_S3136x3136_S3136x64_0_2944 : ∀ a, (![0, 2944] : Fin 2 → Nat) a + S3136x64.size a ≤ S3136x3136.size a
  inb_S62x62x64_S56x56x64_6_5_0 : ∀ a, (![6, 5, 0] : Fin 3 → Nat) a + S56x56x64.size a ≤ S62x62x64.size a
  inb_S3136x3136_S3136x64_0_3008 : ∀ a, (![0, 3008] : Fin 2 → Nat) a + S3136x64.size a ≤ S3136x3136.size a
  inb_S62x62x64_S56x56x64_6_6_0 : ∀ a, (![6, 6, 0] : Fin 3 → Nat) a + S56x56x64.size a ≤ S62x62x64.size a
  inb_S3136x3136_S3136x64_0_3072 : ∀ a, (![0, 3072] : Fin 2 → Nat) a + S3136x64.size a ≤ S3136x3136.size a
  inb_S3136x3136_S3136x3136_0_0 : ∀ a, (![0, 0] : Fin 2 → Nat) a + S3136x3136.size a ≤ S3136x3136.size a
  h_S3136x3136 : 0 < S3136x3136.numel
  inb_S3136x64_S3136x64_0_0 : ∀ a, (![0, 0] : Fin 2 → Nat) a + S3136x64.size a ≤ S3136x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3136x64 : S1x64.Broadcasts S3136x64
  inb_S1x3136x64_S1x3136x64_0_0_0 : ∀ a, (![0, 0, 0] : Fin 3 → Nat) a + S1x3136x64.size a ≤ S1x3136x64.size a
  h_S1x3136x64 : 0 < S1x3136x64.numel
  shapeCasts_S1x3136x64_S3136x64 : S1x3136x64.ShapeCasts S3136x64
  shapeCasts_S3136x64_S1x3136x64 : S3136x64.ShapeCasts S1x3136x64
  reduces_S3136x64_S64 : S3136x64.Reduces [0] S64
  concatenates_S1x64_S1x64_S2x64_d0 : Shape.Concatenates [S1x64, S1x64] S2x64 0
  inb_S1x2x64_S1x2x64_0_0_0 : ∀ a, (![0, 0, 0] : Fin 3 → Nat) a + S1x2x64.size a ≤ S1x2x64.size a
  h_S1x2x64 : 0 < S1x2x64.numel
  shapeCasts_S1x2x64_S2x64 : S1x2x64.ShapeCasts S2x64
  shapeCasts_S2x64_S1x2x64 : S2x64.ShapeCasts S1x2x64
  reducesTo_S32x2x64_S2x64_d0 : S32x2x64.ReducesTo [0] S2x64
  h_S_ : 0 < S_.numel
  slices_S2x64_S1x64_0_0 : S2x64.Slices ![0, 0] S1x64
  shapeCasts_S1x64_S64 : S1x64.ShapeCasts S64
  bcast_S_S64 : S_.BroadcastsInDim S64 (![] : Fin 0 → Fin S64.rank)
  slices_S2x64_S1x64_1_0 : S2x64.Slices ![1, 0] S1x64
  shapeCasts_S3136x64_S56x56x64 : S3136x64.ShapeCasts S56x56x64
  shapeCasts_S3136x64_S28x2x56x64 : S3136x64.ShapeCasts S28x2x56x64
  slices_S28x2x56x64_o0_0_0_0_S28x1x56x64 : S28x2x56x64.Slices ![0, 0, 0, 0] S28x1x56x64
  shapeCasts_S28x1x56x64_S28x56x64 : S28x1x56x64.ShapeCasts S28x56x64
  slices_S28x2x56x64_o0_1_0_0_S28x1x56x64 : S28x2x56x64.Slices ![0, 1, 0, 0] S28x1x56x64
  shapeCasts_S28x56x64_S1568x64 : S28x56x64.ShapeCasts S1568x64
  iota_S784x1568_d0_w32 : S784x1568.Iotas .tc 32 [0]
  iota_S784x1568_d1_w32 : S784x1568.Iotas .tc 32 [1]
  natLt_1_32 : 1 < 32
  inb_S1x784x64_S1x784x64_0_0_0 : ∀ a, (![0, 0, 0] : Fin 3 → Nat) a + S1x784x64.size a ≤ S1x784x64.size a
  h_S1x784x64 : 0 < S1x784x64.numel
  shapeCasts_S1x784x64_S784x64 : S1x784x64.ShapeCasts S784x64
  shapeCasts_S784x64_S1x784x64 : S784x64.ShapeCasts S1x784x64
  reduces_S784x64_S64 : S784x64.Reduces [0] S64
  broadcasts_S1x64_S784x64 : S1x64.Broadcasts S784x64
  shapeCasts_S32x784x64_S32x28x28x64 : S32x784x64.ShapeCasts S32x28x28x64
  transposes_S32x28x28x64_S32x64x28x28_0_3_1_2 : S32x28x28x64.Transposes [0, 3, 1, 2] S32x64x28x28
  dot_S3136x3136_S3136x64_S3136x64_1_0_0_1_n_n_wf : DotDims.WF S3136x3136 S3136x64 S3136x64 [1] [0] [0] [1] [] []
  dot_S784x1568_S1568x64_S784x64_1_0_0_1_n_n_wf : DotDims.WF S784x1568 S1568x64 S784x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x56x56x64.size a ≤ S32x56x56x64.size a
  hwx0_0 : ∀ i : grid0.Coords, EltTy.bits .f32 = 32 ∨ (Rect.block (s := S32x56x56x64) S1x56x56x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3136x64.size a ≤ S3136x64.size a
  hwx0_1 : ∀ i : grid0.Coords, EltTy.bits .f32 = 32 ∨ (Rect.block (s := S3136x64) S3136x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3136x64.size a ≤ S32x3136x64.size a
  hwx0_3 : ∀ i : grid0.Coords, EltTy.bits .f32 = 32 ∨ (Rect.block (s := S32x3136x64) S1x3136x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2x64.size a ≤ S32x2x64.size a
  hwx0_4 : ∀ i : grid0.Coords, EltTy.bits .f32 = 32 ∨ (Rect.block (s := S32x2x64) S1x2x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3136x64.size a ≤ S32x3136x64.size a
  hwx1_0 : ∀ i : grid1.Coords, EltTy.bits .f32 = 32 ∨ (Rect.block (s := S32x3136x64) S1x3136x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3136x64.size a ≤ S3136x64.size a
  hwx1_3 : ∀ i : grid1.Coords, EltTy.bits .f32 = 32 ∨ (Rect.block (s := S3136x64) S3136x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x784x64.size a ≤ S32x784x64.size a
  hwx1_5 : ∀ i : grid1.Coords, EltTy.bits .f32 = 32 ∨ (Rect.block (s := S32x784x64) S1x784x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x2x64.size a ≤ S32x2x64.size a
  hwx1_6 : ∀ i : grid1.Coords, EltTy.bits .f32 = 32 ∨ (Rect.block (s := S32x2x64) S1x2x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x784x64.size a ≤ S32x784x64.size a
  hwx2_0 : ∀ i : grid2.Coords, EltTy.bits .f32 = 32 ∨ (Rect.block (s := S32x784x64) S1x784x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x784x64.size a ≤ S32x784x64.size a
  hwx2_3 : ∀ i : grid2.Coords, EltTy.bits .f32 = 32 ∨ (Rect.block (s := S32x784x64) S1x784x64.size (cc2_transform_3 i) (hinb2_3 i)).WholeWords (EltTy.packing .f32)

variable [Facts₀]

def dot_S3136x3136_S3136x64_S3136x64_1_0_0_1_n_n : DotDims S3136x3136 S3136x64 S3136x64 where
  lhsContracting := [1]
  rhsContracting := [0]
  lhsNonContracting := [0]
  rhsNonContracting := [1]
  lhsBatch := []
  rhsBatch := []
  wf := dot_S3136x3136_S3136x64_S3136x64_1_0_0_1_n_n_wf
def dot_S784x1568_S1568x64_S784x64_1_0_0_1_n_n : DotDims S784x1568 S1568x64 S784x64 where
  lhsContracting := [1]
  rhsContracting := [0]
  lhsNonContracting := [0]
  rhsNonContracting := [1]
  lhsBatch := []
  rhsBatch := []
  wf := dot_S784x1568_S1568x64_S784x64_1_0_0_1_n_n_wf

abbrev win0_0 : Pipeline.Window sig grid0 :=
  Pipeline.Window.ofSpec (Memref.whole main_v0) S1x56x56x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3136x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1x3136x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1x2x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v5_0) S1x3136x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S3136x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27_0) S1x784x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v27_1) S1x2x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v27_0) S1x784x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S1x784x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== Proof.Body0Kernel.lean ====
import proofs.«154663_g2000405482023969_pallasbulk_1176_2_alg».proof.Proof.Gen.Kernel.Skeleton
import Idealize.ShloMosaic.Lib.Pipeline.Kit
import Idealize.ShloMosaic.Lib.Pipeline.FrameBody
import Idealize.ShloMosaic.Lib.Pipeline.FrameSuffix
import Idealize.ShloMosaic.Lib.Ring
import Idealize.ShloMosaic.Lib.Tactic

set_option maxRecDepth 16384

/-!
# pallas_call 0: the kernel body run once on symbolic operands

A 7×7 'same' convolution of one 56×56×64 image with bias and positive part, and the column sums of the result and of its square: the image is written into the interior of a zeroed 62×62×64 buffer, seven column-shifted copies of it fill a 3472×448 patch buffer, and seven matrix products over row windows of that buffer are added.
The body is run symbolically once, on arbitrary whole memrefs; what it leaves in the two output buffers is a
list of stored pieces the run finds, and those pieces tile each output block.
-/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The body of pallas_call 0 on any whole staging memrefs -/

set_option maxHeartbeats 4000000 in
/-- What the body's stores leave in its two output buffers, as lists of pieces (last store first), together with
    the proof that from whole memrefs — the inputs holding `x0 …`, the two outputs and the two scratch buffers
    holding anything — the body runs to its return with the inputs as they were, each output buffer overwritten by
    its pieces, and the scratch buffers holding something. The pieces are found by the symbolic run: the padded
    image is zeroed and its interior written through the words that contain it, the column slabs of the patch
    buffer are copied out of it, and the two outputs are stored whole. -/
noncomputable def kernelRun0 (c : Dev nD) (i : grid0.Coords) (arg1 : Memref sig .tc .vmem S1x56x56x64 .bf16) (harg1 : arg1.IsWhole) (arg2 : Memref sig .tc .vmem S7x448x64 .bf16) (harg2 : arg2.IsWhole) (arg3 : Memref sig .tc .vmem S1x64 .f32) (harg3 : arg3.IsWhole) (arg4 : Memref sig .tc .vmem S1x3136x64 .bf16) (harg4 : arg4.IsWhole) (arg5 : Memref sig .tc .vmem S1x2x64 .f32) (harg5 : arg5.IsWhole) (arg6 : Memref sig .tc .vmem S62x62x64 .bf16) (harg6 : arg6.IsWhole) (arg7 : Memref sig .tc .vmem S3472x448 .bf16) (harg7 : arg7.IsWhole)
    (x0 : Vec F S1x56x56x64 .bf16) (x1 : Vec F S7x448x64 .bf16) (x2 : Vec F S1x64 .f32) :
    Σ' (LA : List (View.Piece (Elt F) S1x3136x64 .bf16)), { LB : List (View.Piece (Elt F) S1x2x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f LA)
                ∗ (∃ f, arg5.view.loc (c : Thread nD τ) ↦[arg5.view.set]{fullShare} arg5.view.writes (Elt F) f LB)
                ∗ (∃ d, owns (c : Thread nD τ) arg6 fullShare d) ∗ (∃ d, owns (c : Thread nD τ) arg7 fullShare d)) -∗ K ⟨⟩))
          ⊢ wp frame (wpE (defs₀ (F := F)) Variants.none c none) E (cc0_body i arg1 harg1 arg2 harg2 arg3 harg3 arg4 harg4 arg5 harg5 arg6 harg6 arg7 harg7) K } := by
  refine ⟨?_, ?_, fun E K => ?run⟩
  case run =>
    simp only [cc0_body_eq_skeleton]; unfold cc0_body_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, ⟨%ds1, %fs1, -, HS1⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]
    · iexists _, _; isplitr; swap; · iexact HS0
      ipureintro; rfl
    iexists _, _; isplitr; swap; · iexact HS1
    ipureintro; rfl

/-- The first output's pieces tile its block, so every index of the block lies in one of them. -/
theorem cover0_A (c : Dev nD) (i : grid0.Coords) (arg1 : Memref sig .tc .vmem S1x56x56x64 .bf16) (harg1 : arg1.IsWhole) (arg2 : Memref sig .tc .vmem S7x448x64 .bf16) (harg2 : arg2.IsWhole) (arg3 : Memref sig .tc .vmem S1x64 .f32) (harg3 : arg3.IsWhole) (arg4 : Memref sig .tc .vmem S1x3136x64 .bf16) (harg4 : arg4.IsWhole) (arg5 : Memref sig .tc .vmem S1x2x64 .f32) (harg5 : arg5.IsWhole) (arg6 : Memref sig .tc .vmem S62x62x64 .bf16) (harg6 : arg6.IsWhole) (arg7 : Memref sig .tc .vmem S3472x448 .bf16) (harg7 : arg7.IsWhole)
    (x0 : Vec F S1x56x56x64 .bf16) (x1 : Vec F S7x448x64 .bf16) (x2 : Vec F S1x64 .f32) (y : S1x3136x64.Idx) :
    ∃ pc ∈ (kernelRun0 c i arg1 harg1 arg2 harg2 arg3 harg3 arg4 harg4 arg5 harg5 arg6 harg6 arg7 harg7 x0 x1 x2).1, y ∈ pc.1.set :=
  View.cover_of_tiledL (kernelRun0 c i arg1 harg1 arg2 harg2 arg3 harg3 arg4 harg4 arg5 harg5 arg6 harg6 arg7 harg7 x0 x1 x2).1 S1x3136x64.size (by sl_kernel_rfl) y

/-- The second output's pieces tile its block. -/
theorem cover0_B (c : Dev nD) (i : grid0.Coords) (arg1 : Memref sig .tc .vmem S1x56x56x64 .bf16) (harg1 : arg1.IsWhole) (arg2 : Memref sig .tc .vmem S7x448x64 .bf16) (harg2 : arg2.IsWhole) (arg3 : Memref sig .tc .vmem S1x64 .f32) (harg3 : arg3.IsWhole) (arg4 : Memref sig .tc .vmem S1x3136x64 .bf16) (harg4 : arg4.IsWhole) (arg5 : Memref sig .tc .vmem S1x2x64 .f32) (harg5 : arg5.IsWhole) (arg6 : Memref sig .tc .vmem S62x62x64 .bf16) (harg6 : arg6.IsWhole) (arg7 : Memref sig .tc .vmem S3472x448 .bf16) (harg7 : arg7.IsWhole)
    (x0 : Vec F S1x56x56x64 .bf16) (x1 : Vec F S7x448x64 .bf16) (x2 : Vec F S1x64 .f32) (y : S1x2x64.Idx) :
    ∃ pc ∈ (kernelRun0 c i arg1 harg1 arg2 harg2 arg3 harg3 arg4 harg4 arg5 harg5 arg6 harg6 arg7 harg7 x0 x1 x2).2.1, y ∈ pc.1.set :=
  View.cover_of_tiledL (kernelRun0 c i arg1 harg1 arg2 harg2 arg3 harg3 arg4 harg4 arg5 harg5 arg6 harg6 arg7 harg7 x0 x1 x2).2.1 S1x2x64.size (by sl_kernel_rfl) y

/-- One staging buffer of each output window, through which the outputs' contents are stated (the pieces cover the
    block, so the choice of buffer and of what lay under the pieces does not matter). -/
abbrev VO0_A : View sig .tc .vmem S1x3136x64 .bf16 := (Memref.whole cc0_stg3_0 : Memref sig .tc .vmem S1x3136x64 .bf16).view
abbrev VO0_B : View sig .tc .vmem S1x2x64 .f32 := (Memref.whole cc0_stg4_0 : Memref sig .tc .vmem S1x2x64 .f32).view

/-- What the body leaves in its first output's buffer: the pieces read back. -/
def out0_A (c : Dev nD) (i : grid0.Coords) (arg1 : Memref sig .tc .vmem S1x56x56x64 .bf16) (harg1 : arg1.IsWhole) (arg2 : Memref sig .tc .vmem S7x448x64 .bf16) (harg2 : arg2.IsWhole) (arg3 : Memref sig .tc .vmem S1x64 .f32) (harg3 : arg3.IsWhole) (arg4 : Memref sig .tc .vmem S1x3136x64 .bf16) (harg4 : arg4.IsWhole) (arg5 : Memref sig .tc .vmem S1x2x64 .f32) (harg5 : arg5.IsWhole) (arg6 : Memref sig .tc .vmem S62x62x64 .bf16) (harg6 : arg6.IsWhole) (arg7 : Memref sig .tc .vmem S3472x448 .bf16) (harg7 : arg7.IsWhole)
    (x0 : Vec F S1x56x56x64 .bf16) (x1 : Vec F S7x448x64 .bf16) (x2 : Vec F S1x64 .f32) : Vec F S1x3136x64 .bf16 :=
  VO0_A.read (Elt F) (VO0_A.writes (Elt F) VO0_A.junk (kernelRun0 c i arg1 harg1 arg2 harg2 arg3 harg3 arg4 harg4 arg5 harg5 arg6 harg6 arg7 harg7 x0 x1 x2).1)

/-- What the body leaves in its second output's buffer: the pieces read back. -/
def out0_B (c : Dev nD) (i : grid0.Coords) (arg1 : Memref sig .tc .vmem S1x56x56x64 .bf16) (harg1 : arg1.IsWhole) (arg2 : Memref sig .tc .vmem S7x448x64 .bf16) (harg2 : arg2.IsWhole) (arg3 : Memref sig .tc .vmem S1x64 .f32) (harg3 : arg3.IsWhole) (arg4 : Memref sig .tc .vmem S1x3136x64 .bf16) (harg4 : arg4.IsWhole) (arg5 : Memref sig .tc .vmem S1x2x64 .f32) (harg5 : arg5.IsWhole) (arg6 : Memref sig .tc .vmem S62x62x64 .bf16) (harg6 : arg6.IsWhole) (arg7 : Memref sig .tc .vmem S3472x448 .bf16) (harg7 : arg7.IsWhole)
    (x0 : Vec F S1x56x56x64 .bf16) (x1 : Vec F S7x448x64 .bf16) (x2 : Vec F S1x64 .f32) : Vec F S1x2x64 .f32 :=
  VO0_B.read (Elt F) (VO0_B.writes (Elt F) VO0_B.junk (kernelRun0 c i arg1 harg1 arg2 harg2 arg3 harg3 arg4 harg4 arg5 harg5 arg6 harg6 arg7 harg7 x0 x1 x2).2.1)

end Cert.Kernel.Hand

end
-- ==== Proof.Body1Kernel.lean ====
import proofs.«154663_g2000405482023969_pallasbulk_1176_2_alg».proof.Proof.Gen.Kernel.Skeleton
import Idealize.ShloMosaic.Lib.Pipeline.Kit
import Idealize.ShloMosaic.Lib.Pipeline.FrameBody
import Idealize.ShloMosaic.Lib.Pipeline.FrameSuffix
import Idealize.ShloMosaic.Lib.Ring
import Idealize.ShloMosaic.Lib.Tactic

set_option maxRecDepth 16384

/-!
# pallas_call 1: the kernel body run once on symbolic operands

The per-channel affine map of the first stage's output, then the same 7×7 convolution with bias and positive part, a 2×2 maximum over rows and columns, and the column sums of the pooled result and of its square.
The body is run symbolically once, on arbitrary whole memrefs; what it leaves in the two output buffers is a
list of stored pieces the run finds, and those pieces tile each output block.
-/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The body of pallas_call 1 on any whole staging memrefs -/

set_option maxHeartbeats 4000000 in
/-- What the body's stores leave in its two output buffers, as lists of pieces (last store first), together with
    the proof that from whole memrefs — the inputs holding `x0 …`, the two outputs and the two scratch buffers
    holding anything — the body runs to its return with the inputs as they were, each output buffer overwritten by
    its pieces, and the scratch buffers holding something. The pieces are found by the symbolic run: the padded
    image is zeroed and its interior written through the words that contain it, the column slabs of the patch
    buffer are copied out of it, and the two outputs are stored whole. -/
noncomputable def kernelRun1 (c : Dev nD) (i : grid1.Coords) (arg1 : Memref sig .tc .vmem S1x3136x64 .bf16) (harg1 : arg1.IsWhole) (arg2 : Memref sig .tc .vmem S1x64 .f32) (harg2 : arg2.IsWhole) (arg3 : Memref sig .tc .vmem S1x64 .f32) (harg3 : arg3.IsWhole) (arg4 : Memref sig .tc .vmem S7x448x64 .bf16) (harg4 : arg4.IsWhole) (arg5 : Memref sig .tc .vmem S1x64 .f32) (harg5 : arg5.IsWhole) (arg6 : Memref sig .tc .vmem S1x784x64 .bf16) (harg6 : arg6.IsWhole) (arg7 : Memref sig .tc .vmem S1x2x64 .f32) (harg7 : arg7.IsWhole) (arg8 : Memref sig .tc .vmem S62x62x64 .bf16) (harg8 : arg8.IsWhole) (arg9 : Memref sig .tc .vmem S3472x448 .bf16) (harg9 : arg9.IsWhole)
    (x0 : Vec F S1x3136x64 .bf16) (x1 : Vec F S1x64 .f32) (x2 : Vec F S1x64 .f32) (x3 : Vec F S7x448x64 .bf16) (x4 : Vec F S1x64 .f32) :
    Σ' (LA : List (View.Piece (Elt F) S1x784x64 .bf16)), { LB : List (View.Piece (Elt F) S1x2x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f LA)
                ∗ (∃ f, arg7.view.loc (c : Thread nD τ) ↦[arg7.view.set]{fullShare} arg7.view.writes (Elt F) f LB)
                ∗ (∃ d, owns (c : Thread nD τ) arg8 fullShare d) ∗ (∃ d, owns (c : Thread nD τ) arg9 fullShare d)) -∗ K ⟨⟩))
          ⊢ wp frame (wpE (defs₀ (F := F)) Variants.none c none) E (cc1_body i arg1 harg1 arg2 harg2 arg3 harg3 arg4 harg4 arg5 harg5 arg6 harg6 arg7 harg7 arg8 harg8 arg9 harg9) K } := by
  refine ⟨?_, ?_, fun E K => ?run⟩
  case run =>
    simp only [cc1_body_eq_skeleton]; unfold cc1_body_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS0]
    · iexists _, _; isplitr; swap; · iexact HS0
      ipureintro; rfl
    iexists _, _; isplitr; swap; · iexact HS1
    ipureintro; rfl

/-- The first output's pieces tile its block, so every index of the block lies in one of them. -/
theorem cover1_A (c : Dev nD) (i : grid1.Coords) (arg1 : Memref sig .tc .vmem S1x3136x64 .bf16) (harg1 : arg1.IsWhole) (arg2 : Memref sig .tc .vmem S1x64 .f32) (harg2 : arg2.IsWhole) (arg3 : Memref sig .tc .vmem S1x64 .f32) (harg3 : arg3.IsWhole) (arg4 : Memref sig .tc .vmem S7x448x64 .bf16) (harg4 : arg4.IsWhole) (arg5 : Memref sig .tc .vmem S1x64 .f32) (harg5 : arg5.IsWhole) (arg6 : Memref sig .tc .vmem S1x784x64 .bf16) (harg6 : arg6.IsWhole) (arg7 : Memref sig .tc .vmem S1x2x64 .f32) (harg7 : arg7.IsWhole) (arg8 : Memref sig .tc .vmem S62x62x64 .bf16) (harg8 : arg8.IsWhole) (arg9 : Memref sig .tc .vmem S3472x448 .bf16) (harg9 : arg9.IsWhole)
    (x0 : Vec F S1x3136x64 .bf16) (x1 : Vec F S1x64 .f32) (x2 : Vec F S1x64 .f32) (x3 : Vec F S7x448x64 .bf16) (x4 : Vec F S1x64 .f32) (y : S1x784x64.Idx) :
    ∃ pc ∈ (kernelRun1 c i arg1 harg1 arg2 harg2 arg3 harg3 arg4 harg4 arg5 harg5 arg6 harg6 arg7 harg7 arg8 harg8 arg9 harg9 x0 x1 x2 x3 x4).1, y ∈ pc.1.set :=
  View.cover_of_tiledL (kernelRun1 c i arg1 harg1 arg2 harg2 arg3 harg3 arg4 harg4 arg5 harg5 arg6 harg6 arg7 harg7 arg8 harg8 arg9 harg9 x0 x1 x2 x3 x4).1 S1x784x64.size (by sl_kernel_rfl) y

/-- The second output's pieces tile its block. -/
theorem cover1_B (c : Dev nD) (i : grid1.Coords) (arg1 : Memref sig .tc .vmem S1x3136x64 .bf16) (harg1 : arg1.IsWhole) (arg2 : Memref sig .tc .vmem S1x64 .f32) (harg2 : arg2.IsWhole) (arg3 : Memref sig .tc .vmem S1x64 .f32) (harg3 : arg3.IsWhole) (arg4 : Memref sig .tc .vmem S7x448x64 .bf16) (harg4 : arg4.IsWhole) (arg5 : Memref sig .tc .vmem S1x64 .f32) (harg5 : arg5.IsWhole) (arg6 : Memref sig .tc .vmem S1x784x64 .bf16) (harg6 : arg6.IsWhole) (arg7 : Memref sig .tc .vmem S1x2x64 .f32) (harg7 : arg7.IsWhole) (arg8 : Memref sig .tc .vmem S62x62x64 .bf16) (harg8 : arg8.IsWhole) (arg9 : Memref sig .tc .vmem S3472x448 .bf16) (harg9 : arg9.IsWhole)
    (x0 : Vec F S1x3136x64 .bf16) (x1 : Vec F S1x64 .f32) (x2 : Vec F S1x64 .f32) (x3 : Vec F S7x448x64 .bf16) (x4 : Vec F S1x64 .f32) (y : S1x2x64.Idx) :
    ∃ pc ∈ (kernelRun1 c i arg1 harg1 arg2 harg2 arg3 harg3 arg4 harg4 arg5 harg5 arg6 harg6 arg7 harg7 arg8 harg8 arg9 harg9 x0 x1 x2 x3 x4).2.1, y ∈ pc.1.set :=
  View.cover_of_tiledL (kernelRun1 c i arg1 harg1 arg2 harg2 arg3 harg3 arg4 harg4 arg5 harg5 arg6 harg6 arg7 harg7 arg8 harg8 arg9 harg9 x0 x1 x2 x3 x4).2.1 S1x2x64.size (by sl_kernel_rfl) y

/-- One staging buffer of each output window, through which the outputs' contents are stated (the pieces cover the
    block, so the choice of buffer and of what lay under the pieces does not matter). -/
abbrev VO1_A : View sig .tc .vmem S1x784x64 .bf16 := (Memref.whole cc1_stg5_0 : Memref sig .tc .vmem S1x784x64 .bf16).view
abbrev VO1_B : View sig .tc .vmem S1x2x64 .f32 := (Memref.whole cc1_stg6_0 : Memref sig .tc .vmem S1x2x64 .f32).view

/-- What the body leaves in its first output's buffer: the pieces read back. -/
def out1_A (c : Dev nD) (i : grid1.Coords) (arg1 : Memref sig .tc .vmem S1x3136x64 .bf16) (harg1 : arg1.IsWhole) (arg2 : Memref sig .tc .vmem S1x64 .f32) (harg2 : arg2.IsWhole) (arg3 : Memref sig .tc .vmem S1x64 .f32) (harg3 : arg3.IsWhole) (arg4 : Memref sig .tc .vmem S7x448x64 .bf16) (harg4 : arg4.IsWhole) (arg5 : Memref sig .tc .vmem S1x64 .f32) (harg5 : arg5.IsWhole) (arg6 : Memref sig .tc .vmem S1x784x64 .bf16) (harg6 : arg6.IsWhole) (arg7 : Memref sig .tc .vmem S1x2x64 .f32) (harg7 : arg7.IsWhole) (arg8 : Memref sig .tc .vmem S62x62x64 .bf16) (harg8 : arg8.IsWhole) (arg9 : Memref sig .tc .vmem S3472x448 .bf16) (harg9 : arg9.IsWhole)
    (x0 : Vec F S1x3136x64 .bf16) (x1 : Vec F S1x64 .f32) (x2 : Vec F S1x64 .f32) (x3 : Vec F S7x448x64 .bf16) (x4 : Vec F S1x64 .f32) : Vec F S1x784x64 .bf16 :=
  VO1_A.read (Elt F) (VO1_A.writes (Elt F) VO1_A.junk (kernelRun1 c i arg1 harg1 arg2 harg2 arg3 harg3 arg4 harg4 arg5 harg5 arg6 harg6 arg7 harg7 arg8 harg8 arg9 harg9 x0 x1 x2 x3 x4).1)

/-- What the body leaves in its second output's buffer: the pieces read back. -/
def out1_B (c : Dev nD) (i : grid1.Coords) (arg1 : Memref sig .tc .vmem S1x3136x64 .bf16) (harg1 : arg1.IsWhole) (arg2 : Memref sig .tc .vmem S1x64 .f32) (harg2 : arg2.IsWhole) (arg3 : Memref sig .tc .vmem S1x64 .f32) (harg3 : arg3.IsWhole) (arg4 : Memref sig .tc .vmem S7x448x64 .bf16) (harg4 : arg4.IsWhole) (arg5 : Memref sig .tc .vmem S1x64 .f32) (harg5 : arg5.IsWhole) (arg6 : Memref sig .tc .vmem S1x784x64 .bf16) (harg6 : arg6.IsWhole) (arg7 : Memref sig .tc .vmem S1x2x64 .f32) (harg7 : arg7.IsWhole) (arg8 : Memref sig .tc .vmem S62x62x64 .bf16) (harg8 : arg8.IsWhole) (arg9 : Memref sig .tc .vmem S3472x448 .bf16) (harg9 : arg9.IsWhole)
    (x0 : Vec F S1x3136x64 .bf16) (x1 : Vec F S1x64 .f32) (x2 : Vec F S1x64 .f32) (x3 : Vec F S7x448x64 .bf16) (x4 : Vec F S1x64 .f32) : Vec F S1x2x64 .f32 :=
  VO1_B.read (Elt F) (VO1_B.writes (Elt F) VO1_B.junk (kernelRun1 c i arg1 harg1 arg2 harg2 arg3 harg3 arg4 harg4 arg5 harg5 arg6 harg6 arg7 harg7 arg8 harg8 arg9 harg9 x0 x1 x2 x3 x4).2.1)

end Cert.Kernel.Hand

end
-- ==== Proof.DataKernel.lean ====
import proofs.«154663_g2000405482023969_pallasbulk_1176_2_alg».proof.Proof.PatchedLaunchKernel
import proofs.«154663_g2000405482023969_pallasbulk_1176_2_alg».proof.Proof.Gen.Kernel.Skeleton
import proofs.«154663_g2000405482023969_pallasbulk_1176_2_alg».proof.Proof.Gen.Kernel.Points
import proofs.«154663_g2000405482023969_pallasbulk_1176_2_alg».proof.Proof.Body0Kernel
import proofs.«154663_g2000405482023969_pallasbulk_1176_2_alg».proof.Proof.Body1Kernel
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
# The three pallas_calls as pipelines: blocks, proof data and body obligations

Everything here is stated at an arbitrary valuation `V` of the TensorCore's buffers at the moment a region is
entered. For each pallas_call: a window's block at a grid point is its array read through the block's rectangle; an
input's staging buffer holds its block at every point; after the body the inputs are unchanged and the outputs hold
what the body stored (for the two convolution stages the pieces the symbolic run found, for the affine stage one
store of a pointwise expression); the scratch buffers and the generator register ride along in the invariant.
-/

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # pallas_call 0 at the entry contents `V` -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof data
    whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof data
    whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point `t`, spelled as the pipeline passes it to the body, and its wholeness. -/
abbrev ms0_0 (t : Fin cfg0.N) : Memref sig .tc .vmem S1x56x56x64 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S7x448x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3136x64 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x64 .f32 := win0_4.stage (cfg0.slots t 4)
abbrev hs0_4 (t : Fin cfg0.N) : (ms0_4 t).IsWhole := hstage0_4 ((cfg0.slots t 4).cast nbuf0_4)
/-- The two scratch operands: whole buffers of the kernel's own, passed beside the windows. -/
abbrev scM0_0 : Memref sig .tc .vmem S62x62x64 .bf16 := Memref.whole cc0_scratch0
abbrev scM0_1 : Memref sig .tc .vmem S3472x448 .bf16 := Memref.whole cc0_scratch1

/-- The invariant carried between grid points, with the two scratch operands as memrefs owned at some contents: what
    the body is handed and gives back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r)) := by
  unfold Pipeline.ΦA; rw [scopedRest0_eq]; simp only [scM0_0, scM0_1, owns_whole]; try rfl

/-- What the two output buffers hold after the body at point `t`: the run's contents at the point's memrefs and input blocks. -/
def outsAt0 (c : Dev nD) (t : Fin cfg0.N) : Vec F S1x3136x64 .bf16 × Vec F S1x2x64 .f32 :=
  (out0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) (iblk0 V c 2 t),
   out0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) (iblk0 V c 2 t))

/-- The proof data of pipeline 0 on core `c`: the arrays as the region finds them; after the body at point `t` each
    input's buffer still at its block and the two outputs' at `outsAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t).1
    | ⟨4, _⟩ => (outsAt0 V c t).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t).1 := by dsimp only [dat0]
theorem after0_4 (c : Dev nD) (t : Fin cfg0.N) : (dat0 V c).after 4 t = (outsAt0 V c t).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

/-- The body at any point: the inputs' memrefs hold their blocks, so the run applies; the invariant hands the body its
    two scratch buffers at some contents and takes them back at some contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  rw [show (dat0 V c).Φ t.castSucc = Pipeline.ΦA spec0 c from rfl, PhiA0_eq]
  unfold outsAt0
  unfold out0_A out0_B; (try dsimp only)
  iintro ⟨⟨⟨HS0, HS1, HR2, HR3, HR4, HR5, HR6, HR7, HR8, HR9, HR10, HR11, HR12, HR13, HR14, HR15, HR16, HR17, HR18, HR19⟩, Hg⟩, Ho, ⟨%d0, H0⟩, ⟨%d1, H1⟩, ⟨%d2, H2⟩, ⟨%d3, H3⟩, ⟨%d4, H4⟩⟩
  iapply ((kernelRun0 c (grid0.coords t) _ _ _ _ _ _ _ _ _ _ _ _ _ _ (iblk0 V c 0 t) (iblk0 V c 1 t) (iblk0 V c 2 t)).2.2 Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  iintro ⟨H0, H1, H2, ⟨%e3, H3⟩, ⟨%e4, H4⟩, HS0, HS1⟩
  isplitl [HS0 HS1 HR2 HR3 HR4 HR5 HR6 HR7 HR8 HR9 HR10 HR11 HR12 HR13 HR14 HR15 HR16 HR17 HR18 HR19 Hg]
  · isplitl [HS0 HS1 HR2 HR3 HR4 HR5 HR6 HR7 HR8 HR9 HR10 HR11 HR12 HR13 HR14 HR15 HR16 HR17 HR18 HR19]
    ·
      isplitl [HS0]
      · iexact HS0
      isplitl [HS1]
      · iexact HS1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HR13]
      · iexact HR13
      isplitl [HR14]
      · iexact HR14
      isplitl [HR15]
      · iexact HR15
      isplitl [HR16]
      · iexact HR16
      isplitl [HR17]
      · iexact HR17
      isplitl [HR18]
      · iexact HR18
      iexact HR19
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A c _ _ _ _ _ _ _ _ _ _ _ _ _ _ _ _ _ _)
  unfold owns; iexists _; isplitr
  swap; · iexact H4
  ipureintro; exact View.read_writes_of_cover _ _ _ _ _ (cover0_B c _ _ _ _ _ _ _ _ _ _ _ _ _ _ _ _ _ _)

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

/-! # pallas_call 1 at the entry contents `V` -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof data
    whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof data
    whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof data
    whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof data
    whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, spelled as the pipeline passes it to the body, and its wholeness. -/
abbrev ms1_0 (t : Fin cfg1.N) : Memref sig .tc .vmem S1x3136x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S7x448x64 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x784x64 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x2x64 .f32 := win1_6.stage (cfg1.slots t 6)
abbrev hs1_6 (t : Fin cfg1.N) : (ms1_6 t).IsWhole := hstage1_6 ((cfg1.slots t 6).cast nbuf1_6)
/-- The two scratch operands: whole buffers of the kernel's own, passed beside the windows. -/
abbrev scM1_0 : Memref sig .tc .vmem S62x62x64 .bf16 := Memref.whole cc1_scratch0
abbrev scM1_1 : Memref sig .tc .vmem S3472x448 .bf16 := Memref.whole cc1_scratch1

/-- The invariant carried between grid points, with the two scratch operands as memrefs owned at some contents: what
    the body is handed and gives back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ d, owns (c : Thread nD τ) scM1_1 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r)) := by
  unfold Pipeline.ΦA; rw [scopedRest1_eq]; simp only [scM1_0, scM1_1, owns_whole]; try rfl

/-- What the two output buffers hold after the body at point `t`: the run's contents at the point's memrefs and input blocks. -/
def outsAt1 (c : Dev nD) (t : Fin cfg1.N) : Vec F S1x784x64 .bf16 × Vec F S1x2x64 .f32 :=
  (out1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t),
   out1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t))

/-- The proof data of pipeline 1 on core `c`: the arrays as the region finds them; after the body at point `t` each
    input's buffer still at its block and the two outputs' at `outsAt1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t).1
    | ⟨6, _⟩ => (outsAt1 V c t).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t).1 := by dsimp only [dat1]
theorem after1_6 (c : Dev nD) (t : Fin cfg1.N) : (dat1 V c).after 6 t = (outsAt1 V c t).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

/-- The body at any point: the inputs' memrefs hold their blocks, so the run applies; the invariant hands the body its
    two scratch buffers at some contents and takes them back at some contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  rw [show (dat1 V c).Φ t.castSucc = Pipeline.ΦA spec1 c from rfl, PhiA1_eq]
  unfold outsAt1
  unfold out1_A out1_B; (try dsimp only)
  iintro ⟨⟨⟨HR0, HR1, HR2, HR3, HR4, HR5, HR6, HR7, HR8, HR9, HS0, HS1, HR12, HR13, HR14, HR15, HR16, HR17⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun1 c (grid1.coords t) _ _ _ _ _ _ _ _ _ _ _ _ _ _ _ _ _ _ (iblk1 V c 0 t) (iblk1 V c 1 t) (iblk1 V c 2 t) (iblk1 V c 3 t) (iblk1 V c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  iintro ⟨H0, H1, H2, H3, H4, ⟨%e5, H5⟩, ⟨%e6, H6⟩, HS0, HS1⟩
  isplitl [HR0 HR1 HR2 HR3 HR4 HR5 HR6 HR7 HR8 HR9 HS0 HS1 HR12 HR13 HR14 HR15 HR16 HR17 Hg]
  · isplitl [HR0 HR1 HR2 HR3 HR4 HR5 HR6 HR7 HR8 HR9 HS0 HS1 HR12 HR13 HR14 HR15 HR16 HR17]
    ·
      isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HS0]
      · iexact HS0
      isplitl [HS1]
      · iexact HS1
      isplitl [HR12]
      · iexact HR12
      isplitl [HR13]
      · iexact HR13
      isplitl [HR14]
      · iexact HR14
      isplitl [HR15]
      · iexact HR15
      isplitl [HR16]
      · iexact HR16
      iexact HR17
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover1_A c _ _ _ _ _ _ _ _ _ _ _ _ _ _ _ _ _ _ _ _ _ _ _ _)
  unfold owns; iexists _; isplitr
  swap; · iexact H6
  ipureintro; exact View.read_writes_of_cover _ _ _ _ _ (cover1_B c _ _ _ _ _ _ _ _ _ _ _ _ _ _ _ _ _ _ _ _ _ _ _ _)

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

/-! # pallas_call 2 at the entry contents `V` -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body's accesses: the whole 8×784×64 block and the whole 1×64 row. -/
abbrev r2_0 : Rect S8x784x64 := Rect.unit (s := S8x784x64) ![0, 0, 0] S8x784x64.size inb_S8x784x64_S8x784x64_0_0_0
abbrev r2_1 : Rect S1x64 := Rect.unit (s := S1x64) ![0, 0] S1x64.size inb_S1x64_S1x64_0_0

/-- The output block after the body, from the input blocks: its one store, of the eight images' entries times the
    scale row plus the shift row. -/
def out2 (x0 : Vec F S8x784x64 .bf16) (x1 : Vec F S1x64 .f32) (x2 : Vec F S1x64 .f32) : Vec F S8x784x64 .f32 :=
  View.canon [⟨r2_0, k2_pay1 (View.ld x0 r2_0) (View.ld x1 r2_1) (View.ld x2 r2_1)⟩]

/-- The one store covers the block. -/
theorem cover2 (p0 : Vec F S8x784x64 .f32) (y : S8x784x64.Idx) :
    ∃ pc ∈ ([⟨r2_0, p0⟩] : List (View.Piece (Elt F) S8x784x64 .f32)), y ∈ pc.1.set :=
  View.cover_of_tiled [⟨r2_0, p0⟩] S8x784x64.size (by rfl) y

set_option maxHeartbeats 1000000 in
/-- The body on whole staging memrefs, the inputs' holding `x0 x1 x2` and the output's anything, runs to its return
    with the inputs as they were and the output at `out2` of them. -/
theorem sound_kernel2 (c : Dev nD) (E : Set ℕ) (i : grid2.Coords) (arg1 : Memref sig .tc .vmem S8x784x64 .bf16) (harg1 : arg1.IsWhole) (arg2 : Memref sig .tc .vmem S1x64 .f32) (harg2 : arg2.IsWhole) (arg3 : Memref sig .tc .vmem S1x64 .f32) (harg3 : arg3.IsWhole) (arg4 : Memref sig .tc .vmem S8x784x64 .f32) (harg4 : arg4.IsWhole)
    (x0 : Vec F S8x784x64 .bf16) (x1 : Vec F S1x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2 x0 x1 x2)) -∗ K ⟨⟩))
      ⊢ wp frame (wpE (defs₀ (F := F)) Variants.none c none) E (cc2__affine_kernel i arg1 harg1 arg2 harg2 arg3 harg3 arg4 harg4) K := by
  simp only [cc2__affine_kernel_eq_skeleton]; unfold cc2__affine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-- The proof data of pipeline 2 on core `c`: the arrays as the region finds them; after the body at point `t` each
    input's buffer at its block and the output's at `out2` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Regions

end Cert.Kernel.Hand

end
-- ==== Proof.RunKernel.lean ====
import proofs.«154663_g2000405482023969_pallasbulk_1176_2_alg».proof.Proof.DataKernel
import proofs.«154663_g2000405482023969_pallasbulk_1176_2_alg».proof.Proof.PatchedRegionsKernel
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
# The run of @main: four stretches of host operations around three pallas_calls

The contents of the TensorCore's unscoped buffers are followed from the launch to the return: a host stretch
changes them to the fold of its operations; a pallas_call changes only its windows' arrays, each to what its
pipeline leaves (the inputs as entered, each output's write-backs folded over the grid). Every weakly fair execution
terminates without a fault in a state whose unscoped buffers hold the last of these contents; in particular every
argument array ends as launched, because no host operation writes one and no window's array is an argument.
-/

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After the host stretch before pallas_call 0: the region's entry contents. -/
abbrev W1 : Dev nD → Valuation τ sig (Elt F) := fun c => StableHlo.after hostOps0 (W0 m ρ c)
/-- The same, read at the TensorCore's references (what the region's proof data take). -/
abbrev V1 : (c : Dev nD) → (b : Ref sig .tc) → Buf (Elt F) ((c : Thread nD τ).loc b) := fun c b => W1 m ρ c b
/-- At the region's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch before pallas_call 1: the region's entry contents. -/
abbrev W3 : Dev nD → Valuation τ sig (Elt F) := fun c => StableHlo.after hostOps1 (W2 m ρ c)
/-- The same, read at the TensorCore's references (what the region's proof data take). -/
abbrev V3 : (c : Dev nD) → (b : Ref sig .tc) → Buf (Elt F) ((c : Thread nD τ).loc b) := fun c b => W3 m ρ c b
/-- At the region's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch before pallas_call 2: the region's entry contents. -/
abbrev W5 : Dev nD → Valuation τ sig (Elt F) := fun c => StableHlo.after hostOps2 (W4 m ρ c)
/-- The same, read at the TensorCore's references (what the region's proof data take). -/
abbrev V5 : (c : Dev nD) → (b : Ref sig .tc) → Buf (Elt F) ((c : Thread nD τ).loc b) := fun c b => W5 m ρ c b
/-- At the region's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch. -/
abbrev W7 : Dev nD → Valuation τ sig (Elt F) := fun c => StableHlo.after hostOps3 (W6 m ρ c)

/-- A buffer that no host operation writes and that is no window's array ends as launched. -/
theorem W7_of_untouched (c : Dev nD) (r : Ref sig .tc)
    (h0 : r ∉ hostOps0_W) (h1 : r ∉ hostOps1_W) (h2 : r ∉ hostOps2_W) (h3 : r ∉ hostOps3_W)
    (n0 : ∀ w, Pipeline.arrRef spec0 w ≠ r) (n1 : ∀ w, Pipeline.arrRef spec1 w ≠ r) (n2 : ∀ w, Pipeline.arrRef spec2 w ≠ r) :
    W7 m ρ c (Proc.devRef .tc r) = m ((c : Thread nD τ).loc r) :=
  calc W7 m ρ c (Proc.devRef .tc r)
    _ = W6 m ρ c (Proc.devRef .tc r) := StableHlo.after_of_writes_sub hostOps3 _ hostOps3_writes h3
    _ = W5 m ρ c (Proc.devRef .tc r) := W6_of_ne m ρ c r n2
    _ = W4 m ρ c (Proc.devRef .tc r) := StableHlo.after_of_writes_sub hostOps2 _ hostOps2_writes h2
    _ = W3 m ρ c (Proc.devRef .tc r) := W4_of_ne m ρ c r n1
    _ = W2 m ρ c (Proc.devRef .tc r) := StableHlo.after_of_writes_sub hostOps1 _ hostOps1_writes h1
    _ = W1 m ρ c (Proc.devRef .tc r) := W2_of_ne m ρ c r n0
    _ = W0 m ρ c (Proc.devRef .tc r) := StableHlo.after_of_writes_sub hostOps0 _ hostOps0_writes h0
    _ = m ((c : Thread nD τ).loc r) := rfl

theorem W7_main_arg0 (c : Dev nD) : W7 m ρ c (Proc.devRef .tc main_arg0) = m ((c : Thread nD τ).loc main_arg0) :=
  W7_of_untouched m ρ c main_arg0 (by decide) (by decide) (by decide) (by decide) (by decide) (by decide) (by decide)
theorem W7_main_arg1 (c : Dev nD) : W7 m ρ c (Proc.devRef .tc main_arg1) = m ((c : Thread nD τ).loc main_arg1) :=
  W7_of_untouched m ρ c main_arg1 (by decide) (by decide) (by decide) (by decide) (by decide) (by decide) (by decide)
theorem W7_main_arg2 (c : Dev nD) : W7 m ρ c (Proc.devRef .tc main_arg2) = m ((c : Thread nD τ).loc main_arg2) :=
  W7_of_untouched m ρ c main_arg2 (by decide) (by decide) (by decide) (by decide) (by decide) (by decide) (by decide)
theorem W7_main_arg3 (c : Dev nD) : W7 m ρ c (Proc.devRef .tc main_arg3) = m ((c : Thread nD τ).loc main_arg3) :=
  W7_of_untouched m ρ c main_arg3 (by decide) (by decide) (by decide) (by decide) (by decide) (by decide) (by decide)
theorem W7_main_arg4 (c : Dev nD) : W7 m ρ c (Proc.devRef .tc main_arg4) = m ((c : Thread nD τ).loc main_arg4) :=
  W7_of_untouched m ρ c main_arg4 (by decide) (by decide) (by decide) (by decide) (by decide) (by decide) (by decide)
theorem W7_main_arg5 (c : Dev nD) : W7 m ρ c (Proc.devRef .tc main_arg5) = m ((c : Thread nD τ).loc main_arg5) :=
  W7_of_untouched m ρ c main_arg5 (by decide) (by decide) (by decide) (by decide) (by decide) (by decide) (by decide)
theorem W7_main_arg6 (c : Dev nD) : W7 m ρ c (Proc.devRef .tc main_arg6) = m ((c : Thread nD τ).loc main_arg6) :=
  W7_of_untouched m ρ c main_arg6 (by decide) (by decide) (by decide) (by decide) (by decide) (by decide) (by decide)
theorem W7_main_arg7 (c : Dev nD) : W7 m ρ c (Proc.devRef .tc main_arg7) = m ((c : Thread nD τ).loc main_arg7) :=
  W7_of_untouched m ρ c main_arg7 (by decide) (by decide) (by decide) (by decide) (by decide) (by decide) (by decide)
theorem W7_main_arg8 (c : Dev nD) : W7 m ρ c (Proc.devRef .tc main_arg8) = m ((c : Thread nD τ).loc main_arg8) :=
  W7_of_untouched m ρ c main_arg8 (by decide) (by decide) (by decide) (by decide) (by decide) (by decide) (by decide)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- pallas_call 0 as a segment of @main over the thread state "every unscoped buffer at the boundary's contents":
    its arrays are split out of the unscoped buffers at entry and put back at the exit contents; the generator
    register goes into the invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 1 as a segment of @main over the thread state "every unscoped buffer at the boundary's contents":
    its arrays are split out of the unscoped buffers at entry and put back at the exit contents; the generator
    register goes into the invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 2 as a segment of @main over the thread state "every unscoped buffer at the boundary's contents":
    its arrays are split out of the unscoped buffers at entry and put back at the exit contents; the generator
    register goes into the invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (segs m ρ) := (main_chain c).trans (by chain_rfl)

set_option backward.isDefEq.respectTransparency.types false in
/-- THE RUN. From any memory with zero counters, every weakly fair execution of @main on the TensorCores terminates,
    nothing faulting, and in every final state each core's unscoped buffers hold the last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c)⟩)
    (run_all m ρ)

end Cert.Kernel.Hand

end
-- ==== Proof.Body0KernelIdeal.lean ====
import proofs.«154663_g2000405482023969_pallasbulk_1176_2_alg».proof.Proof.Gen.KernelIdeal.Skeleton
import Idealize.ShloMosaic.Lib.Pipeline.Kit
import Idealize.ShloMosaic.Lib.Pipeline.FrameBody
import Idealize.ShloMosaic.Lib.Pipeline.FrameSuffix
import Idealize.ShloMosaic.Lib.Ring
import Idealize.ShloMosaic.Lib.Tactic

set_option maxRecDepth 16384

/-!
# pallas_call 0: the kernel body run once on symbolic operands

A 7×7 'same' convolution of one 56×56×64 image with bias and positive part, and the column sums of the result and of its square: the image is written into the interior of a zeroed 62×62×64 buffer, seven column-shifted copies of it fill a 3472×448 patch buffer, and seven matrix products over row windows of that buffer are added.
The body is run symbolically once, on arbitrary whole memrefs; what it leaves in the two output buffers is a
list of stored pieces the run finds, and those pieces tile each output block.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The body of pallas_call 0 on any whole staging memrefs -/

set_option maxHeartbeats 4000000 in
/-- What the body's stores leave in its two output buffers, as lists of pieces (last store first), together with
    the proof that from whole memrefs — the inputs holding `x0 …`, the two outputs and the two scratch buffers
    holding anything — the body runs to its return with the inputs as they were, each output buffer overwritten by
    its pieces, and the scratch buffers holding something. The pieces are found by the symbolic run: the padded
    image is zeroed and its interior written through the words that contain it, the column slabs of the patch
    buffer are copied out of it, and the two outputs are stored whole. -/
noncomputable def kernelRun0 (c : Dev nD) (i : grid0.Coords) (arg1 : Memref sig .tc .vmem S1x56x56x64 .bf16) (harg1 : arg1.IsWhole) (arg2 : Memref sig .tc .vmem S7x448x64 .bf16) (harg2 : arg2.IsWhole) (arg3 : Memref sig .tc .vmem S1x64 .f32) (harg3 : arg3.IsWhole) (arg4 : Memref sig .tc .vmem S1x3136x64 .bf16) (harg4 : arg4.IsWhole) (arg5 : Memref sig .tc .vmem S1x2x64 .f32) (harg5 : arg5.IsWhole) (arg6 : Memref sig .tc .vmem S62x62x64 .bf16) (harg6 : arg6.IsWhole) (arg7 : Memref sig .tc .vmem S3472x448 .bf16) (harg7 : arg7.IsWhole)
    (x0 : Vec F S1x56x56x64 .bf16) (x1 : Vec F S7x448x64 .bf16) (x2 : Vec F S1x64 .f32) :
    Σ' (LA : List (View.Piece (Elt F) S1x3136x64 .bf16)), { LB : List (View.Piece (Elt F) S1x2x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f LA)
                ∗ (∃ f, arg5.view.loc (c : Thread nD τ) ↦[arg5.view.set]{fullShare} arg5.view.writes (Elt F) f LB)
                ∗ (∃ d, owns (c : Thread nD τ) arg6 fullShare d) ∗ (∃ d, owns (c : Thread nD τ) arg7 fullShare d)) -∗ K ⟨⟩))
          ⊢ wp frame (wpE (defs₀ (F := F)) Variants.none c none) E (cc0_body i arg1 harg1 arg2 harg2 arg3 harg3 arg4 harg4 arg5 harg5 arg6 harg6 arg7 harg7) K } := by
  refine ⟨?_, ?_, fun E K => ?run⟩
  case run =>
    simp only [cc0_body_eq_skeleton]; unfold cc0_body_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, ⟨%ds1, %fs1, -, HS1⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]
    · iexists _, _; isplitr; swap; · iexact HS0
      ipureintro; rfl
    iexists _, _; isplitr; swap; · iexact HS1
    ipureintro; rfl

/-- The first output's pieces tile its block, so every index of the block lies in one of them. -/
theorem cover0_A (c : Dev nD) (i : grid0.Coords) (arg1 : Memref sig .tc .vmem S1x56x56x64 .bf16) (harg1 : arg1.IsWhole) (arg2 : Memref sig .tc .vmem S7x448x64 .bf16) (harg2 : arg2.IsWhole) (arg3 : Memref sig .tc .vmem S1x64 .f32) (harg3 : arg3.IsWhole) (arg4 : Memref sig .tc .vmem S1x3136x64 .bf16) (harg4 : arg4.IsWhole) (arg5 : Memref sig .tc .vmem S1x2x64 .f32) (harg5 : arg5.IsWhole) (arg6 : Memref sig .tc .vmem S62x62x64 .bf16) (harg6 : arg6.IsWhole) (arg7 : Memref sig .tc .vmem S3472x448 .bf16) (harg7 : arg7.IsWhole)
    (x0 : Vec F S1x56x56x64 .bf16) (x1 : Vec F S7x448x64 .bf16) (x2 : Vec F S1x64 .f32) (y : S1x3136x64.Idx) :
    ∃ pc ∈ (kernelRun0 c i arg1 harg1 arg2 harg2 arg3 harg3 arg4 harg4 arg5 harg5 arg6 harg6 arg7 harg7 x0 x1 x2).1, y ∈ pc.1.set :=
  View.cover_of_tiledL (kernelRun0 c i arg1 harg1 arg2 harg2 arg3 harg3 arg4 harg4 arg5 harg5 arg6 harg6 arg7 harg7 x0 x1 x2).1 S1x3136x64.size (by sl_kernel_rfl) y

/-- The second output's pieces tile its block. -/
theorem cover0_B (c : Dev nD) (i : grid0.Coords) (arg1 : Memref sig .tc .vmem S1x56x56x64 .bf16) (harg1 : arg1.IsWhole) (arg2 : Memref sig .tc .vmem S7x448x64 .bf16) (harg2 : arg2.IsWhole) (arg3 : Memref sig .tc .vmem S1x64 .f32) (harg3 : arg3.IsWhole) (arg4 : Memref sig .tc .vmem S1x3136x64 .bf16) (harg4 : arg4.IsWhole) (arg5 : Memref sig .tc .vmem S1x2x64 .f32) (harg5 : arg5.IsWhole) (arg6 : Memref sig .tc .vmem S62x62x64 .bf16) (harg6 : arg6.IsWhole) (arg7 : Memref sig .tc .vmem S3472x448 .bf16) (harg7 : arg7.IsWhole)
    (x0 : Vec F S1x56x56x64 .bf16) (x1 : Vec F S7x448x64 .bf16) (x2 : Vec F S1x64 .f32) (y : S1x2x64.Idx) :
    ∃ pc ∈ (kernelRun0 c i arg1 harg1 arg2 harg2 arg3 harg3 arg4 harg4 arg5 harg5 arg6 harg6 arg7 harg7 x0 x1 x2).2.1, y ∈ pc.1.set :=
  View.cover_of_tiledL (kernelRun0 c i arg1 harg1 arg2 harg2 arg3 harg3 arg4 harg4 arg5 harg5 arg6 harg6 arg7 harg7 x0 x1 x2).2.1 S1x2x64.size (by sl_kernel_rfl) y

/-- One staging buffer of each output window, through which the outputs' contents are stated (the pieces cover the
    block, so the choice of buffer and of what lay under the pieces does not matter). -/
abbrev VO0_A : View sig .tc .vmem S1x3136x64 .bf16 := (Memref.whole cc0_stg3_0 : Memref sig .tc .vmem S1x3136x64 .bf16).view
abbrev VO0_B : View sig .tc .vmem S1x2x64 .f32 := (Memref.whole cc0_stg4_0 : Memref sig .tc .vmem S1x2x64 .f32).view

/-- What the body leaves in its first output's buffer: the pieces read back. -/
def out0_A (c : Dev nD) (i : grid0.Coords) (arg1 : Memref sig .tc .vmem S1x56x56x64 .bf16) (harg1 : arg1.IsWhole) (arg2 : Memref sig .tc .vmem S7x448x64 .bf16) (harg2 : arg2.IsWhole) (arg3 : Memref sig .tc .vmem S1x64 .f32) (harg3 : arg3.IsWhole) (arg4 : Memref sig .tc .vmem S1x3136x64 .bf16) (harg4 : arg4.IsWhole) (arg5 : Memref sig .tc .vmem S1x2x64 .f32) (harg5 : arg5.IsWhole) (arg6 : Memref sig .tc .vmem S62x62x64 .bf16) (harg6 : arg6.IsWhole) (arg7 : Memref sig .tc .vmem S3472x448 .bf16) (harg7 : arg7.IsWhole)
    (x0 : Vec F S1x56x56x64 .bf16) (x1 : Vec F S7x448x64 .bf16) (x2 : Vec F S1x64 .f32) : Vec F S1x3136x64 .bf16 :=
  VO0_A.read (Elt F) (VO0_A.writes (Elt F) VO0_A.junk (kernelRun0 c i arg1 harg1 arg2 harg2 arg3 harg3 arg4 harg4 arg5 harg5 arg6 harg6 arg7 harg7 x0 x1 x2).1)

/-- What the body leaves in its second output's buffer: the pieces read back. -/
def out0_B (c : Dev nD) (i : grid0.Coords) (arg1 : Memref sig .tc .vmem S1x56x56x64 .bf16) (harg1 : arg1.IsWhole) (arg2 : Memref sig .tc .vmem S7x448x64 .bf16) (harg2 : arg2.IsWhole) (arg3 : Memref sig .tc .vmem S1x64 .f32) (harg3 : arg3.IsWhole) (arg4 : Memref sig .tc .vmem S1x3136x64 .bf16) (harg4 : arg4.IsWhole) (arg5 : Memref sig .tc .vmem S1x2x64 .f32) (harg5 : arg5.IsWhole) (arg6 : Memref sig .tc .vmem S62x62x64 .bf16) (harg6 : arg6.IsWhole) (arg7 : Memref sig .tc .vmem S3472x448 .bf16) (harg7 : arg7.IsWhole)
    (x0 : Vec F S1x56x56x64 .bf16) (x1 : Vec F S7x448x64 .bf16) (x2 : Vec F S1x64 .f32) : Vec F S1x2x64 .f32 :=
  VO0_B.read (Elt F) (VO0_B.writes (Elt F) VO0_B.junk (kernelRun0 c i arg1 harg1 arg2 harg2 arg3 harg3 arg4 harg4 arg5 harg5 arg6 harg6 arg7 harg7 x0 x1 x2).2.1)

end Cert.KernelIdeal.Hand

end
-- ==== Proof.Body1KernelIdeal.lean ====
import proofs.«154663_g2000405482023969_pallasbulk_1176_2_alg».proof.Proof.Gen.KernelIdeal.Skeleton
import Idealize.ShloMosaic.Lib.Pipeline.Kit
import Idealize.ShloMosaic.Lib.Pipeline.FrameBody
import Idealize.ShloMosaic.Lib.Pipeline.FrameSuffix
import Idealize.ShloMosaic.Lib.Ring
import Idealize.ShloMosaic.Lib.Tactic

set_option maxRecDepth 16384

/-!
# pallas_call 1: the kernel body run once on symbolic operands

The per-channel affine map of the first stage's output, then the same 7×7 convolution with bias and positive part, a 2×2 maximum over rows and columns, and the column sums of the pooled result and of its square.
The body is run symbolically once, on arbitrary whole memrefs; what it leaves in the two output buffers is a
list of stored pieces the run finds, and those pieces tile each output block.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The body of pallas_call 1 on any whole staging memrefs -/

set_option maxHeartbeats 4000000 in
/-- What the body's stores leave in its two output buffers, as lists of pieces (last store first), together with
    the proof that from whole memrefs — the inputs holding `x0 …`, the two outputs and the two scratch buffers
    holding anything — the body runs to its return with the inputs as they were, each output buffer overwritten by
    its pieces, and the scratch buffers holding something. The pieces are found by the symbolic run: the padded
    image is zeroed and its interior written through the words that contain it, the column slabs of the patch
    buffer are copied out of it, and the two outputs are stored whole. -/
noncomputable def kernelRun1 (c : Dev nD) (i : grid1.Coords) (arg1 : Memref sig .tc .vmem S1x3136x64 .bf16) (harg1 : arg1.IsWhole) (arg2 : Memref sig .tc .vmem S1x64 .f32) (harg2 : arg2.IsWhole) (arg3 : Memref sig .tc .vmem S1x64 .f32) (harg3 : arg3.IsWhole) (arg4 : Memref sig .tc .vmem S7x448x64 .bf16) (harg4 : arg4.IsWhole) (arg5 : Memref sig .tc .vmem S1x64 .f32) (harg5 : arg5.IsWhole) (arg6 : Memref sig .tc .vmem S1x784x64 .bf16) (harg6 : arg6.IsWhole) (arg7 : Memref sig .tc .vmem S1x2x64 .f32) (harg7 : arg7.IsWhole) (arg8 : Memref sig .tc .vmem S62x62x64 .bf16) (harg8 : arg8.IsWhole) (arg9 : Memref sig .tc .vmem S3472x448 .bf16) (harg9 : arg9.IsWhole)
    (x0 : Vec F S1x3136x64 .bf16) (x1 : Vec F S1x64 .f32) (x2 : Vec F S1x64 .f32) (x3 : Vec F S7x448x64 .bf16) (x4 : Vec F S1x64 .f32) :
    Σ' (LA : List (View.Piece (Elt F) S1x784x64 .bf16)), { LB : List (View.Piece (Elt F) S1x2x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f LA)
                ∗ (∃ f, arg7.view.loc (c : Thread nD τ) ↦[arg7.view.set]{fullShare} arg7.view.writes (Elt F) f LB)
                ∗ (∃ d, owns (c : Thread nD τ) arg8 fullShare d) ∗ (∃ d, owns (c : Thread nD τ) arg9 fullShare d)) -∗ K ⟨⟩))
          ⊢ wp frame (wpE (defs₀ (F := F)) Variants.none c none) E (cc1_body i arg1 harg1 arg2 harg2 arg3 harg3 arg4 harg4 arg5 harg5 arg6 harg6 arg7 harg7 arg8 harg8 arg9 harg9) K } := by
  refine ⟨?_, ?_, fun E K => ?run⟩
  case run =>
    simp only [cc1_body_eq_skeleton]; unfold cc1_body_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS0]
    · iexists _, _; isplitr; swap; · iexact HS0
      ipureintro; rfl
    iexists _, _; isplitr; swap; · iexact HS1
    ipureintro; rfl

/-- The first output's pieces tile its block, so every index of the block lies in one of them. -/
theorem cover1_A (c : Dev nD) (i : grid1.Coords) (arg1 : Memref sig .tc .vmem S1x3136x64 .bf16) (harg1 : arg1.IsWhole) (arg2 : Memref sig .tc .vmem S1x64 .f32) (harg2 : arg2.IsWhole) (arg3 : Memref sig .tc .vmem S1x64 .f32) (harg3 : arg3.IsWhole) (arg4 : Memref sig .tc .vmem S7x448x64 .bf16) (harg4 : arg4.IsWhole) (arg5 : Memref sig .tc .vmem S1x64 .f32) (harg5 : arg5.IsWhole) (arg6 : Memref sig .tc .vmem S1x784x64 .bf16) (harg6 : arg6.IsWhole) (arg7 : Memref sig .tc .vmem S1x2x64 .f32) (harg7 : arg7.IsWhole) (arg8 : Memref sig .tc .vmem S62x62x64 .bf16) (harg8 : arg8.IsWhole) (arg9 : Memref sig .tc .vmem S3472x448 .bf16) (harg9 : arg9.IsWhole)
    (x0 : Vec F S1x3136x64 .bf16) (x1 : Vec F S1x64 .f32) (x2 : Vec F S1x64 .f32) (x3 : Vec F S7x448x64 .bf16) (x4 : Vec F S1x64 .f32) (y : S1x784x64.Idx) :
    ∃ pc ∈ (kernelRun1 c i arg1 harg1 arg2 harg2 arg3 harg3 arg4 harg4 arg5 harg5 arg6 harg6 arg7 harg7 arg8 harg8 arg9 harg9 x0 x1 x2 x3 x4).1, y ∈ pc.1.set :=
  View.cover_of_tiledL (kernelRun1 c i arg1 harg1 arg2 harg2 arg3 harg3 arg4 harg4 arg5 harg5 arg6 harg6 arg7 harg7 arg8 harg8 arg9 harg9 x0 x1 x2 x3 x4).1 S1x784x64.size (by sl_kernel_rfl) y

/-- The second output's pieces tile its block. -/
theorem cover1_B (c : Dev nD) (i : grid1.Coords) (arg1 : Memref sig .tc .vmem S1x3136x64 .bf16) (harg1 : arg1.IsWhole) (arg2 : Memref sig .tc .vmem S1x64 .f32) (harg2 : arg2.IsWhole) (arg3 : Memref sig .tc .vmem S1x64 .f32) (harg3 : arg3.IsWhole) (arg4 : Memref sig .tc .vmem S7x448x64 .bf16) (harg4 : arg4.IsWhole) (arg5 : Memref sig .tc .vmem S1x64 .f32) (harg5 : arg5.IsWhole) (arg6 : Memref sig .tc .vmem S1x784x64 .bf16) (harg6 : arg6.IsWhole) (arg7 : Memref sig .tc .vmem S1x2x64 .f32) (harg7 : arg7.IsWhole) (arg8 : Memref sig .tc .vmem S62x62x64 .bf16) (harg8 : arg8.IsWhole) (arg9 : Memref sig .tc .vmem S3472x448 .bf16) (harg9 : arg9.IsWhole)
    (x0 : Vec F S1x3136x64 .bf16) (x1 : Vec F S1x64 .f32) (x2 : Vec F S1x64 .f32) (x3 : Vec F S7x448x64 .bf16) (x4 : Vec F S1x64 .f32) (y : S1x2x64.Idx) :
    ∃ pc ∈ (kernelRun1 c i arg1 harg1 arg2 harg2 arg3 harg3 arg4 harg4 arg5 harg5 arg6 harg6 arg7 harg7 arg8 harg8 arg9 harg9 x0 x1 x2 x3 x4).2.1, y ∈ pc.1.set :=
  View.cover_of_tiledL (kernelRun1 c i arg1 harg1 arg2 harg2 arg3 harg3 arg4 harg4 arg5 harg5 arg6 harg6 arg7 harg7 arg8 harg8 arg9 harg9 x0 x1 x2 x3 x4).2.1 S1x2x64.size (by sl_kernel_rfl) y

/-- One staging buffer of each output window, through which the outputs' contents are stated (the pieces cover the
    block, so the choice of buffer and of what lay under the pieces does not matter). -/
abbrev VO1_A : View sig .tc .vmem S1x784x64 .bf16 := (Memref.whole cc1_stg5_0 : Memref sig .tc .vmem S1x784x64 .bf16).view
abbrev VO1_B : View sig .tc .vmem S1x2x64 .f32 := (Memref.whole cc1_stg6_0 : Memref sig .tc .vmem S1x2x64 .f32).view

/-- What the body leaves in its first output's buffer: the pieces read back. -/
def out1_A (c : Dev nD) (i : grid1.Coords) (arg1 : Memref sig .tc .vmem S1x3136x64 .bf16) (harg1 : arg1.IsWhole) (arg2 : Memref sig .tc .vmem S1x64 .f32) (harg2 : arg2.IsWhole) (arg3 : Memref sig .tc .vmem S1x64 .f32) (harg3 : arg3.IsWhole) (arg4 : Memref sig .tc .vmem S7x448x64 .bf16) (harg4 : arg4.IsWhole) (arg5 : Memref sig .tc .vmem S1x64 .f32) (harg5 : arg5.IsWhole) (arg6 : Memref sig .tc .vmem S1x784x64 .bf16) (harg6 : arg6.IsWhole) (arg7 : Memref sig .tc .vmem S1x2x64 .f32) (harg7 : arg7.IsWhole) (arg8 : Memref sig .tc .vmem S62x62x64 .bf16) (harg8 : arg8.IsWhole) (arg9 : Memref sig .tc .vmem S3472x448 .bf16) (harg9 : arg9.IsWhole)
    (x0 : Vec F S1x3136x64 .bf16) (x1 : Vec F S1x64 .f32) (x2 : Vec F S1x64 .f32) (x3 : Vec F S7x448x64 .bf16) (x4 : Vec F S1x64 .f32) : Vec F S1x784x64 .bf16 :=
  VO1_A.read (Elt F) (VO1_A.writes (Elt F) VO1_A.junk (kernelRun1 c i arg1 harg1 arg2 harg2 arg3 harg3 arg4 harg4 arg5 harg5 arg6 harg6 arg7 harg7 arg8 harg8 arg9 harg9 x0 x1 x2 x3 x4).1)

/-- What the body leaves in its second output's buffer: the pieces read back. -/
def out1_B (c : Dev nD) (i : grid1.Coords) (arg1 : Memref sig .tc .vmem S1x3136x64 .bf16) (harg1 : arg1.IsWhole) (arg2 : Memref sig .tc .vmem S1x64 .f32) (harg2 : arg2.IsWhole) (arg3 : Memref sig .tc .vmem S1x64 .f32) (harg3 : arg3.IsWhole) (arg4 : Memref sig .tc .vmem S7x448x64 .bf16) (harg4 : arg4.IsWhole) (arg5 : Memref sig .tc .vmem S1x64 .f32) (harg5 : arg5.IsWhole) (arg6 : Memref sig .tc .vmem S1x784x64 .bf16) (harg6 : arg6.IsWhole) (arg7 : Memref sig .tc .vmem S1x2x64 .f32) (harg7 : arg7.IsWhole) (arg8 : Memref sig .tc .vmem S62x62x64 .bf16) (harg8 : arg8.IsWhole) (arg9 : Memref sig .tc .vmem S3472x448 .bf16) (harg9 : arg9.IsWhole)
    (x0 : Vec F S1x3136x64 .bf16) (x1 : Vec F S1x64 .f32) (x2 : Vec F S1x64 .f32) (x3 : Vec F S7x448x64 .bf16) (x4 : Vec F S1x64 .f32) : Vec F S1x2x64 .f32 :=
  VO1_B.read (Elt F) (VO1_B.writes (Elt F) VO1_B.junk (kernelRun1 c i arg1 harg1 arg2 harg2 arg3 harg3 arg4 harg4 arg5 harg5 arg6 harg6 arg7 harg7 arg8 harg8 arg9 harg9 x0 x1 x2 x3 x4).2.1)

end Cert.KernelIdeal.Hand

end
-- ==== Proof.DataKernelIdeal.lean ====
import proofs.«154663_g2000405482023969_pallasbulk_1176_2_alg».proof.Proof.PatchedLaunchKernelIdeal
import proofs.«154663_g2000405482023969_pallasbulk_1176_2_alg».proof.Proof.Gen.KernelIdeal.Skeleton
import proofs.«154663_g2000405482023969_pallasbulk_1176_2_alg».proof.Proof.Gen.KernelIdeal.Points
import proofs.«154663_g2000405482023969_pallasbulk_1176_2_alg».proof.Proof.Body0KernelIdeal
import proofs.«154663_g2000405482023969_pallasbulk_1176_2_alg».proof.Proof.Body1KernelIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
# The three pallas_calls as pipelines: blocks, proof data and body obligations

Everything here is stated at an arbitrary valuation `V` of the TensorCore's buffers at the moment a region is
entered. For each pallas_call: a window's block at a grid point is its array read through the block's rectangle; an
input's staging buffer holds its block at every point; after the body the inputs are unchanged and the outputs hold
what the body stored (for the two convolution stages the pieces the symbolic run found, for the affine stage one
store of a pointwise expression); the scratch buffers and the generator register ride along in the invariant.
-/

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # pallas_call 0 at the entry contents `V` -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof data
    whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof data
    whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point `t`, spelled as the pipeline passes it to the body, and its wholeness. -/
abbrev ms0_0 (t : Fin cfg0.N) : Memref sig .tc .vmem S1x56x56x64 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S7x448x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3136x64 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x64 .f32 := win0_4.stage (cfg0.slots t 4)
abbrev hs0_4 (t : Fin cfg0.N) : (ms0_4 t).IsWhole := hstage0_4 ((cfg0.slots t 4).cast nbuf0_4)
/-- The two scratch operands: whole buffers of the kernel's own, passed beside the windows. -/
abbrev scM0_0 : Memref sig .tc .vmem S62x62x64 .bf16 := Memref.whole cc0_scratch0
abbrev scM0_1 : Memref sig .tc .vmem S3472x448 .bf16 := Memref.whole cc0_scratch1

/-- The invariant carried between grid points, with the two scratch operands as memrefs owned at some contents: what
    the body is handed and gives back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r)) := by
  unfold Pipeline.ΦA; rw [scopedRest0_eq]; simp only [scM0_0, scM0_1, owns_whole]; try rfl

/-- What the two output buffers hold after the body at point `t`: the run's contents at the point's memrefs and input blocks. -/
def outsAt0 (c : Dev nD) (t : Fin cfg0.N) : Vec F S1x3136x64 .bf16 × Vec F S1x2x64 .f32 :=
  (out0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) (iblk0 V c 2 t),
   out0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) (iblk0 V c 2 t))

/-- The proof data of pipeline 0 on core `c`: the arrays as the region finds them; after the body at point `t` each
    input's buffer still at its block and the two outputs' at `outsAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t).1
    | ⟨4, _⟩ => (outsAt0 V c t).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t).1 := by dsimp only [dat0]
theorem after0_4 (c : Dev nD) (t : Fin cfg0.N) : (dat0 V c).after 4 t = (outsAt0 V c t).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

/-- The body at any point: the inputs' memrefs hold their blocks, so the run applies; the invariant hands the body its
    two scratch buffers at some contents and takes them back at some contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  rw [show (dat0 V c).Φ t.castSucc = Pipeline.ΦA spec0 c from rfl, PhiA0_eq]
  unfold outsAt0
  unfold out0_A out0_B; (try dsimp only)
  iintro ⟨⟨⟨HS0, HS1, HR2, HR3, HR4, HR5, HR6, HR7, HR8, HR9, HR10, HR11, HR12, HR13, HR14, HR15, HR16, HR17, HR18, HR19⟩, Hg⟩, Ho, ⟨%d0, H0⟩, ⟨%d1, H1⟩, ⟨%d2, H2⟩, ⟨%d3, H3⟩, ⟨%d4, H4⟩⟩
  iapply ((kernelRun0 c (grid0.coords t) _ _ _ _ _ _ _ _ _ _ _ _ _ _ (iblk0 V c 0 t) (iblk0 V c 1 t) (iblk0 V c 2 t)).2.2 Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  iintro ⟨H0, H1, H2, ⟨%e3, H3⟩, ⟨%e4, H4⟩, HS0, HS1⟩
  isplitl [HS0 HS1 HR2 HR3 HR4 HR5 HR6 HR7 HR8 HR9 HR10 HR11 HR12 HR13 HR14 HR15 HR16 HR17 HR18 HR19 Hg]
  · isplitl [HS0 HS1 HR2 HR3 HR4 HR5 HR6 HR7 HR8 HR9 HR10 HR11 HR12 HR13 HR14 HR15 HR16 HR17 HR18 HR19]
    ·
      isplitl [HS0]
      · iexact HS0
      isplitl [HS1]
      · iexact HS1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HR13]
      · iexact HR13
      isplitl [HR14]
      · iexact HR14
      isplitl [HR15]
      · iexact HR15
      isplitl [HR16]
      · iexact HR16
      isplitl [HR17]
      · iexact HR17
      isplitl [HR18]
      · iexact HR18
      iexact HR19
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A c _ _ _ _ _ _ _ _ _ _ _ _ _ _ _ _ _ _)
  unfold owns; iexists _; isplitr
  swap; · iexact H4
  ipureintro; exact View.read_writes_of_cover _ _ _ _ _ (cover0_B c _ _ _ _ _ _ _ _ _ _ _ _ _ _ _ _ _ _)

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

/-! # pallas_call 1 at the entry contents `V` -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof data
    whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof data
    whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof data
    whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof data
    whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, spelled as the pipeline passes it to the body, and its wholeness. -/
abbrev ms1_0 (t : Fin cfg1.N) : Memref sig .tc .vmem S1x3136x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S7x448x64 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x784x64 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x2x64 .f32 := win1_6.stage (cfg1.slots t 6)
abbrev hs1_6 (t : Fin cfg1.N) : (ms1_6 t).IsWhole := hstage1_6 ((cfg1.slots t 6).cast nbuf1_6)
/-- The two scratch operands: whole buffers of the kernel's own, passed beside the windows. -/
abbrev scM1_0 : Memref sig .tc .vmem S62x62x64 .bf16 := Memref.whole cc1_scratch0
abbrev scM1_1 : Memref sig .tc .vmem S3472x448 .bf16 := Memref.whole cc1_scratch1

/-- The invariant carried between grid points, with the two scratch operands as memrefs owned at some contents: what
    the body is handed and gives back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ d, owns (c : Thread nD τ) scM1_1 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r)) := by
  unfold Pipeline.ΦA; rw [scopedRest1_eq]; simp only [scM1_0, scM1_1, owns_whole]; try rfl

/-- What the two output buffers hold after the body at point `t`: the run's contents at the point's memrefs and input blocks. -/
def outsAt1 (c : Dev nD) (t : Fin cfg1.N) : Vec F S1x784x64 .bf16 × Vec F S1x2x64 .f32 :=
  (out1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t),
   out1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t))

/-- The proof data of pipeline 1 on core `c`: the arrays as the region finds them; after the body at point `t` each
    input's buffer still at its block and the two outputs' at `outsAt1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t).1
    | ⟨6, _⟩ => (outsAt1 V c t).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t).1 := by dsimp only [dat1]
theorem after1_6 (c : Dev nD) (t : Fin cfg1.N) : (dat1 V c).after 6 t = (outsAt1 V c t).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

/-- The body at any point: the inputs' memrefs hold their blocks, so the run applies; the invariant hands the body its
    two scratch buffers at some contents and takes them back at some contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  rw [show (dat1 V c).Φ t.castSucc = Pipeline.ΦA spec1 c from rfl, PhiA1_eq]
  unfold outsAt1
  unfold out1_A out1_B; (try dsimp only)
  iintro ⟨⟨⟨HR0, HR1, HR2, HR3, HR4, HR5, HR6, HR7, HR8, HR9, HS0, HS1, HR12, HR13, HR14, HR15, HR16, HR17⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun1 c (grid1.coords t) _ _ _ _ _ _ _ _ _ _ _ _ _ _ _ _ _ _ (iblk1 V c 0 t) (iblk1 V c 1 t) (iblk1 V c 2 t) (iblk1 V c 3 t) (iblk1 V c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  iintro ⟨H0, H1, H2, H3, H4, ⟨%e5, H5⟩, ⟨%e6, H6⟩, HS0, HS1⟩
  isplitl [HR0 HR1 HR2 HR3 HR4 HR5 HR6 HR7 HR8 HR9 HS0 HS1 HR12 HR13 HR14 HR15 HR16 HR17 Hg]
  · isplitl [HR0 HR1 HR2 HR3 HR4 HR5 HR6 HR7 HR8 HR9 HS0 HS1 HR12 HR13 HR14 HR15 HR16 HR17]
    ·
      isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HS0]
      · iexact HS0
      isplitl [HS1]
      · iexact HS1
      isplitl [HR12]
      · iexact HR12
      isplitl [HR13]
      · iexact HR13
      isplitl [HR14]
      · iexact HR14
      isplitl [HR15]
      · iexact HR15
      isplitl [HR16]
      · iexact HR16
      iexact HR17
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover1_A c _ _ _ _ _ _ _ _ _ _ _ _ _ _ _ _ _ _ _ _ _ _ _ _)
  unfold owns; iexists _; isplitr
  swap; · iexact H6
  ipureintro; exact View.read_writes_of_cover _ _ _ _ _ (cover1_B c _ _ _ _ _ _ _ _ _ _ _ _ _ _ _ _ _ _ _ _ _ _ _ _)

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

/-! # pallas_call 2 at the entry contents `V` -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body's accesses: the whole 8×784×64 block and the whole 1×64 row. -/
abbrev r2_0 : Rect S8x784x64 := Rect.unit (s := S8x784x64) ![0, 0, 0] S8x784x64.size inb_S8x784x64_S8x784x64_0_0_0
abbrev r2_1 : Rect S1x64 := Rect.unit (s := S1x64) ![0, 0] S1x64.size inb_S1x64_S1x64_0_0

/-- The output block after the body, from the input blocks: its one store, of the eight images' entries times the
    scale row plus the shift row. -/
def out2 (x0 : Vec F S8x784x64 .bf16) (x1 : Vec F S1x64 .f32) (x2 : Vec F S1x64 .f32) : Vec F S8x784x64 .f32 :=
  View.canon [⟨r2_0, k2_pay1 (View.ld x0 r2_0) (View.ld x1 r2_1) (View.ld x2 r2_1)⟩]

/-- The one store covers the block. -/
theorem cover2 (p0 : Vec F S8x784x64 .f32) (y : S8x784x64.Idx) :
    ∃ pc ∈ ([⟨r2_0, p0⟩] : List (View.Piece (Elt F) S8x784x64 .f32)), y ∈ pc.1.set :=
  View.cover_of_tiled [⟨r2_0, p0⟩] S8x784x64.size (by rfl) y

set_option maxHeartbeats 1000000 in
/-- The body on whole staging memrefs, the inputs' holding `x0 x1 x2` and the output's anything, runs to its return
    with the inputs as they were and the output at `out2` of them. -/
theorem sound_kernel2 (c : Dev nD) (E : Set ℕ) (i : grid2.Coords) (arg1 : Memref sig .tc .vmem S8x784x64 .bf16) (harg1 : arg1.IsWhole) (arg2 : Memref sig .tc .vmem S1x64 .f32) (harg2 : arg2.IsWhole) (arg3 : Memref sig .tc .vmem S1x64 .f32) (harg3 : arg3.IsWhole) (arg4 : Memref sig .tc .vmem S8x784x64 .f32) (harg4 : arg4.IsWhole)
    (x0 : Vec F S8x784x64 .bf16) (x1 : Vec F S1x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2 x0 x1 x2)) -∗ K ⟨⟩))
      ⊢ wp frame (wpE (defs₀ (F := F)) Variants.none c none) E (cc2__affine_kernel i arg1 harg1 arg2 harg2 arg3 harg3 arg4 harg4) K := by
  simp only [cc2__affine_kernel_eq_skeleton]; unfold cc2__affine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-- The proof data of pipeline 2 on core `c`: the arrays as the region finds them; after the body at point `t` each
    input's buffer at its block and the output's at `out2` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Regions

end Cert.KernelIdeal.Hand

end
-- ==== Proof.RunKernelIdeal.lean ====
import proofs.«154663_g2000405482023969_pallasbulk_1176_2_alg».proof.Proof.DataKernelIdeal
import proofs.«154663_g2000405482023969_pallasbulk_1176_2_alg».proof.Proof.PatchedRegionsKernelIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

/-!
# The run of @main: four stretches of host operations around three pallas_calls

The contents of the TensorCore's unscoped buffers are followed from the launch to the return: a host stretch
changes them to the fold of its operations; a pallas_call changes only its windows' arrays, each to what its
pipeline leaves (the inputs as entered, each output's write-backs folded over the grid). Every weakly fair execution
terminates without a fault in a state whose unscoped buffers hold the last of these contents; in particular every
argument array ends as launched, because no host operation writes one and no window's array is an argument.
-/

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After the host stretch before pallas_call 0: the region's entry contents. -/
abbrev W1 : Dev nD → Valuation τ sig (Elt F) := fun c => StableHlo.after hostOps0 (W0 m ρ c)
/-- The same, read at the TensorCore's references (what the region's proof data take). -/
abbrev V1 : (c : Dev nD) → (b : Ref sig .tc) → Buf (Elt F) ((c : Thread nD τ).loc b) := fun c b => W1 m ρ c b
/-- At the region's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch before pallas_call 1: the region's entry contents. -/
abbrev W3 : Dev nD → Valuation τ sig (Elt F) := fun c => StableHlo.after hostOps1 (W2 m ρ c)
/-- The same, read at the TensorCore's references (what the region's proof data take). -/
abbrev V3 : (c : Dev nD) → (b : Ref sig .tc) → Buf (Elt F) ((c : Thread nD τ).loc b) := fun c b => W3 m ρ c b
/-- At the region's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch before pallas_call 2: the region's entry contents. -/
abbrev W5 : Dev nD → Valuation τ sig (Elt F) := fun c => StableHlo.after hostOps2 (W4 m ρ c)
/-- The same, read at the TensorCore's references (what the region's proof data take). -/
abbrev V5 : (c : Dev nD) → (b : Ref sig .tc) → Buf (Elt F) ((c : Thread nD τ).loc b) := fun c b => W5 m ρ c b
/-- At the region's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch. -/
abbrev W7 : Dev nD → Valuation τ sig (Elt F) := fun c => StableHlo.after hostOps3 (W6 m ρ c)

/-- A buffer that no host operation writes and that is no window's array ends as launched. -/
theorem W7_of_untouched (c : Dev nD) (r : Ref sig .tc)
    (h0 : r ∉ hostOps0_W) (h1 : r ∉ hostOps1_W) (h2 : r ∉ hostOps2_W) (h3 : r ∉ hostOps3_W)
    (n0 : ∀ w, Pipeline.arrRef spec0 w ≠ r) (n1 : ∀ w, Pipeline.arrRef spec1 w ≠ r) (n2 : ∀ w, Pipeline.arrRef spec2 w ≠ r) :
    W7 m ρ c (Proc.devRef .tc r) = m ((c : Thread nD τ).loc r) :=
  calc W7 m ρ c (Proc.devRef .tc r)
    _ = W6 m ρ c (Proc.devRef .tc r) := StableHlo.after_of_writes_sub hostOps3 _ hostOps3_writes h3
    _ = W5 m ρ c (Proc.devRef .tc r) := W6_of_ne m ρ c r n2
    _ = W4 m ρ c (Proc.devRef .tc r) := StableHlo.after_of_writes_sub hostOps2 _ hostOps2_writes h2
    _ = W3 m ρ c (Proc.devRef .tc r) := W4_of_ne m ρ c r n1
    _ = W2 m ρ c (Proc.devRef .tc r) := StableHlo.after_of_writes_sub hostOps1 _ hostOps1_writes h1
    _ = W1 m ρ c (Proc.devRef .tc r) := W2_of_ne m ρ c r n0
    _ = W0 m ρ c (Proc.devRef .tc r) := StableHlo.after_of_writes_sub hostOps0 _ hostOps0_writes h0
    _ = m ((c : Thread nD τ).loc r) := rfl

theorem W7_main_arg0 (c : Dev nD) : W7 m ρ c (Proc.devRef .tc main_arg0) = m ((c : Thread nD τ).loc main_arg0) :=
  W7_of_untouched m ρ c main_arg0 (by decide) (by decide) (by decide) (by decide) (by decide) (by decide) (by decide)
theorem W7_main_arg1 (c : Dev nD) : W7 m ρ c (Proc.devRef .tc main_arg1) = m ((c : Thread nD τ).loc main_arg1) :=
  W7_of_untouched m ρ c main_arg1 (by decide) (by decide) (by decide) (by decide) (by decide) (by decide) (by decide)
theorem W7_main_arg2 (c : Dev nD) : W7 m ρ c (Proc.devRef .tc main_arg2) = m ((c : Thread nD τ).loc main_arg2) :=
  W7_of_untouched m ρ c main_arg2 (by decide) (by decide) (by decide) (by decide) (by decide) (by decide) (by decide)
theorem W7_main_arg3 (c : Dev nD) : W7 m ρ c (Proc.devRef .tc main_arg3) = m ((c : Thread nD τ).loc main_arg3) :=
  W7_of_untouched m ρ c main_arg3 (by decide) (by decide) (by decide) (by decide) (by decide) (by decide) (by decide)
theorem W7_main_arg4 (c : Dev nD) : W7 m ρ c (Proc.devRef .tc main_arg4) = m ((c : Thread nD τ).loc main_arg4) :=
  W7_of_untouched m ρ c main_arg4 (by decide) (by decide) (by decide) (by decide) (by decide) (by decide) (by decide)
theorem W7_main_arg5 (c : Dev nD) : W7 m ρ c (Proc.devRef .tc main_arg5) = m ((c : Thread nD τ).loc main_arg5) :=
  W7_of_untouched m ρ c main_arg5 (by decide) (by decide) (by decide) (by decide) (by decide) (by decide) (by decide)
theorem W7_main_arg6 (c : Dev nD) : W7 m ρ c (Proc.devRef .tc main_arg6) = m ((c : Thread nD τ).loc main_arg6) :=
  W7_of_untouched m ρ c main_arg6 (by decide) (by decide) (by decide) (by decide) (by decide) (by decide) (by decide)
theorem W7_main_arg7 (c : Dev nD) : W7 m ρ c (Proc.devRef .tc main_arg7) = m ((c : Thread nD τ).loc main_arg7) :=
  W7_of_untouched m ρ c main_arg7 (by decide) (by decide) (by decide) (by decide) (by decide) (by decide) (by decide)
theorem W7_main_arg8 (c : Dev nD) : W7 m ρ c (Proc.devRef .tc main_arg8) = m ((c : Thread nD τ).loc main_arg8) :=
  W7_of_untouched m ρ c main_arg8 (by decide) (by decide) (by decide) (by decide) (by decide) (by decide) (by decide)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- pallas_call 0 as a segment of @main over the thread state "every unscoped buffer at the boundary's contents":
    its arrays are split out of the unscoped buffers at entry and put back at the exit contents; the generator
    register goes into the invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 1 as a segment of @main over the thread state "every unscoped buffer at the boundary's contents":
    its arrays are split out of the unscoped buffers at entry and put back at the exit contents; the generator
    register goes into the invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 2 as a segment of @main over the thread state "every unscoped buffer at the boundary's contents":
    its arrays are split out of the unscoped buffers at entry and put back at the exit contents; the generator
    register goes into the invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (segs m ρ) := (main_chain c).trans (by chain_rfl)

set_option backward.isDefEq.respectTransparency.types false in
/-- THE RUN. From any memory with zero counters, every weakly fair execution of @main on the TensorCores terminates,
    nothing faulting, and in every final state each core's unscoped buffers hold the last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c)⟩)
    (run_all m ρ)

end Cert.KernelIdeal.Hand

end
-- ==== Proof.RunReferenceIdeal.lean ====
import proofs.«154663_g2000405482023969_pallasbulk_1176_2_alg».proof.Proof.PatchedFrameReferenceIdeal

set_option maxRecDepth 16384

/-!
# The reference's run, with every unscoped buffer's final contents

Following the buffer contents through @main (`W0 … W7`: a host stretch changes them to the fold of its operations, a
pallas_call only its windows' arrays) gives more than the frame: in every final state each core's unscoped buffers hold
the last boundary's contents `W7` — which is what a claim about the RESULT array needs.
-/

noncomputable section

namespace Cert.ReferenceIdeal.Hand

open Cert.ReferenceIdeal Cert.ReferenceIdeal.Gen Cert.ReferenceIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of the reference's @main terminates, nothing
    faulting, and in every final state each core's unscoped buffers hold the last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.ReferenceIdeal.Hand

end
-- ==== Proof.HostK.lean ====
import proofs.«154663_g2000405482023969_pallasbulk_1176_2_alg».proof.Proof.RunKernelIdeal
import Idealize.ShloMosaic.Lib.StableHlo.Run
import Idealize.ShloMosaic.PureOps.Ideal
import Idealize.ShloMosaic.PureOps.Ideal.Laws

set_option maxRecDepth 16384

/-!
# The host stretches of the kernel program, read as functions

Between two pallas_calls the host reduces the per-image column sums over the 32 images, divides by the number of
entries per channel to get the mean and the mean of squares, takes the variance as their difference clipped at zero,
and returns `scale = gamma · rsqrt (var + eps)` and `shift = beta - mean · scale`, each as a 1 × 64 row. The same
twenty-six operations stand in the kernel program and in the reference, with the same literals; they are written
here once, as a function of the sums' array, gamma, beta and the count's word. The first stretch only re-lays the
arguments out (a change of float format is the identity on extended reals), the last recasts and transposes the result.
-/

noncomputable section

/-! ## The host functions both programs share -/

namespace Cert.KernelIdeal.HandValue

open Cert.KernelIdeal Cert.KernelIdeal.Gen
open Idealize.ShloMosaic Idealize.ShloMosaic.TcCoe Idealize.SL.Sem

/-- The column sums over the 32 images: row 0 the sums, row 1 the sums of squares. -/
def bnSums (st : FVec Ideal S32x2x64 .f32) : FVec Ideal S2x64 .f32 :=
  Host.reduceAdd (F := Ideal) st (constant (F := Ideal) S_ .f32 0x00000000#32) reducesTo_S32x2x64_S2x64_d0 h_S_

/-- Row 0 of the sums divided by the count (the mean), and row 1 (the mean of squares). -/
def bnMean0 (cnt : BitVec 32) (st : FVec Ideal S32x2x64 .f32) : FVec Ideal S64 .f32 :=
  Host.divf (F := Ideal) (fun i => shapeCast S64 (extractStridedSlice S1x64 ![0, 0] (bnSums st) slices_S2x64_S1x64_0_0) shapeCasts_S1x64_S64 i)
    (broadcastInDim S64 ![] bcast_S_S64 (constant (F := Ideal) S_ .f32 cnt))
def bnMean1 (cnt : BitVec 32) (st : FVec Ideal S32x2x64 .f32) : FVec Ideal S64 .f32 :=
  Host.divf (F := Ideal) (fun i => shapeCast S64 (extractStridedSlice S1x64 ![1, 0] (bnSums st) slices_S2x64_S1x64_1_0) shapeCasts_S1x64_S64 i)
    (broadcastInDim S64 ![] bcast_S_S64 (constant (F := Ideal) S_ .f32 cnt))

/-- `gamma · rsqrt (max (meanSq - mean²) 0 + eps)`. -/
def bnScale64 (cnt : BitVec 32) (st : FVec Ideal S32x2x64 .f32) (g : FVec Ideal S64 .f32) : FVec Ideal S64 .f32 :=
  mulf g (Host.rsqrt (F := Ideal) (addf (maximumf (subf (bnMean1 cnt st) (mulf (bnMean0 cnt st) (bnMean0 cnt st)))
      (broadcastInDim S64 ![] bcast_S_S64 (constant (F := Ideal) S_ .f32 0x00000000#32)))
    (broadcastInDim S64 ![] bcast_S_S64 (constant (F := Ideal) S_ .f32 0x3727C5AC#32))))

/-- `beta - mean · scale`. -/
def bnShift64 (cnt : BitVec 32) (st : FVec Ideal S32x2x64 .f32) (g be : FVec Ideal S64 .f32) : FVec Ideal S64 .f32 :=
  subf be (mulf (bnMean0 cnt st) (bnScale64 cnt st g))

/-- The two results as 1 × 64 rows. -/
def bnScale (cnt : BitVec 32) (st : FVec Ideal S32x2x64 .f32) (g : FVec Ideal S64 .f32) : FVec Ideal S1x64 .f32 :=
  fun i => shapeCast S1x64 (bnScale64 cnt st g) shapeCasts_S64_S1x64 i
def bnShift (cnt : BitVec 32) (st : FVec Ideal S32x2x64 .f32) (g be : FVec Ideal S64 .f32) : FVec Ideal S1x64 .f32 :=
  fun i => shapeCast S1x64 (bnShift64 cnt st g be) shapeCasts_S64_S1x64 i

/-- The last two host operations: 32 × 784 × 64 recast as 32 × 28 × 28 × 64, then the channel axis moved to second place. -/
def tail (a : FVec Ideal S32x784x64 .f32) : FVec Ideal S32x64x28x28 .f32 :=
  transpose S32x64x28x28 [0, 3, 1, 2] (fun i => shapeCast S32x28x28x64 a shapeCasts_S32x784x64_S32x28x28x64 i) transposes_S32x28x28x64_S32x64x28x28_0_3_1_2

/-- The image array as the first stage reads it: channels last. -/
def toNHWC (x : FVec Ideal S32x64x56x56 .f32) : FVec Ideal S32x56x56x64 .f32 :=
  transpose S32x56x56x64 [0, 2, 3, 1] x transposes_S32x64x56x56_S32x56x56x64_0_2_3_1

/-- A 64-vector as a 1 × 64 row. -/
def toRow (b : FVec Ideal S64 .f32) : FVec Ideal S1x64 .f32 := fun i => shapeCast S1x64 b shapeCasts_S64_S1x64 i

end Cert.KernelIdeal.HandValue

namespace Cert.KernelIdeal.HandValue

open Cert.KernelIdeal Cert.KernelIdeal.Gen Cert.KernelIdeal.GenP Cert.KernelIdeal.Hand
open Idealize.ShloMosaic Idealize.ShloMosaic.TcCoe Idealize.SL.Sem

variable (m : (ℓ : Loc nD τ sig) → Buf (Elt Ideal) ℓ) (ρ : Dev nD → PrngReg)

/-! ## What no later segment touches -/

/-- A buffer the first pallas_call does not write and the second host stretch does not write is, at the second
    pallas_call's entry, what the first host stretch left. -/
theorem W3_keep (c : Dev nD) (r : Ref sig .tc) (h1 : r ∉ hostOps1_W) (n0 : ∀ w, Pipeline.arrRef spec0 w ≠ r) :
    W3 (F := Ideal) m ρ c (Proc.devRef .tc r) = W1 m ρ c (Proc.devRef .tc r) :=
  (StableHlo.after_of_writes_sub hostOps1 _ hostOps1_writes h1).trans (W2_of_ne m ρ c r n0)

theorem W2_keep (c : Dev nD) (r : Ref sig .tc) (n0 : ∀ w, Pipeline.arrRef spec0 w ≠ r) :
    W2 (F := Ideal) m ρ c (Proc.devRef .tc r) = W1 m ρ c (Proc.devRef .tc r) := W2_of_ne m ρ c r n0

theorem W1_keep (c : Dev nD) (r : Ref sig .tc) (h0 : r ∉ hostOps0_W) :
    W1 (F := Ideal) m ρ c (Proc.devRef .tc r) = m ((c : Thread nD τ).loc r) :=
  StableHlo.after_of_writes_sub hostOps0 _ hostOps0_writes h0

theorem W4_keep (c : Dev nD) (r : Ref sig .tc) (n1 : ∀ w, Pipeline.arrRef spec1 w ≠ r) :
    W4 (F := Ideal) m ρ c (Proc.devRef .tc r) = W3 m ρ c (Proc.devRef .tc r) := W4_of_ne m ρ c r n1

theorem W5_keep (c : Dev nD) (r : Ref sig .tc) (h2 : r ∉ hostOps2_W) :
    W5 (F := Ideal) m ρ c (Proc.devRef .tc r) = W4 m ρ c (Proc.devRef .tc r) :=
  StableHlo.after_of_writes_sub hostOps2 _ hostOps2_writes h2

/-! ## The first stretch: the arguments re-laid out -/

theorem W1_image (c : Dev nD) :
    W1 (F := Ideal) m ρ c (Proc.devRef .tc main_v1) = toNHWC (m ((c : Thread nD τ).loc main_arg0)) := by
  show StableHlo.after hostOps0 (W0 m ρ c) (Proc.devRef .tc main_v1) = _
  after_results
  rfl

theorem W1_weights1 (c : Dev nD) :
    W1 (F := Ideal) m ρ c (Proc.devRef .tc main_v3)
      = fun i => shapeCast S7x448x64 (m ((c : Thread nD τ).loc main_arg1) : FVec Ideal S7x7x64x64 .f32) shapeCasts_S7x7x64x64_S7x448x64 i := by
  show StableHlo.after hostOps0 (W0 m ρ c) (Proc.devRef .tc main_v3) = _
  after_results
  rfl

theorem W1_weights2 (c : Dev nD) :
    W1 (F := Ideal) m ρ c (Proc.devRef .tc main_v5)
      = fun i => shapeCast S7x448x64 (m ((c : Thread nD τ).loc main_arg5) : FVec Ideal S7x7x64x64 .f32) shapeCasts_S7x7x64x64_S7x448x64 i := by
  show StableHlo.after hostOps0 (W0 m ρ c) (Proc.devRef .tc main_v5) = _
  after_results
  rfl

theorem W1_bias1 (c : Dev nD) :
    W1 (F := Ideal) m ρ c (Proc.devRef .tc main_v6) = toRow (m ((c : Thread nD τ).loc main_arg2)) := by
  show StableHlo.after hostOps0 (W0 m ρ c) (Proc.devRef .tc main_v6) = _
  after_results
  rfl

theorem W1_bias2 (c : Dev nD) :
    W1 (F := Ideal) m ρ c (Proc.devRef .tc main_v7) = toRow (m ((c : Thread nD τ).loc main_arg6)) := by
  show StableHlo.after hostOps0 (W0 m ρ c) (Proc.devRef .tc main_v7) = _
  after_results
  rfl

/-! ## The two normalisation stretches -/

set_option maxHeartbeats 4000000 in
theorem W3_scale (c : Dev nD) :
    W3 (F := Ideal) m ρ c (Proc.devRef .tc main_v28)
      = bnScale 0x47C40000#32 (W2 m ρ c (Proc.devRef .tc main_v8_1)) (W2 m ρ c (Proc.devRef .tc main_arg3)) := by
  show StableHlo.after hostOps1 (W2 m ρ c) (Proc.devRef .tc main_v28) = _
  after_results_simp
  rfl

set_option maxHeartbeats 4000000 in
theorem W3_shift (c : Dev nD) :
    W3 (F := Ideal) m ρ c (Proc.devRef .tc main_v29)
      = bnShift 0x47C40000#32 (W2 m ρ c (Proc.devRef .tc main_v8_1)) (W2 m ρ c (Proc.devRef .tc main_arg3)) (W2 m ρ c (Proc.devRef .tc main_arg4)) := by
  show StableHlo.after hostOps1 (W2 m ρ c) (Proc.devRef .tc main_v29) = _
  after_results_simp
  rfl

set_option maxHeartbeats 4000000 in
theorem W5_scale (c : Dev nD) :
    W5 (F := Ideal) m ρ c (Proc.devRef .tc main_v50)
      = bnScale 0x46C40000#32 (W4 m ρ c (Proc.devRef .tc main_v30_1)) (W4 m ρ c (Proc.devRef .tc main_arg7)) := by
  show StableHlo.after hostOps2 (W4 m ρ c) (Proc.devRef .tc main_v50) = _
  after_results_simp
  rfl

set_option maxHeartbeats 4000000 in
theorem W5_shift (c : Dev nD) :
    W5 (F := Ideal) m ρ c (Proc.devRef .tc main_v51)
      = bnShift 0x46C40000#32 (W4 m ρ c (Proc.devRef .tc main_v30_1)) (W4 m ρ c (Proc.devRef .tc main_arg7)) (W4 m ρ c (Proc.devRef .tc main_arg8)) := by
  show StableHlo.after hostOps2 (W4 m ρ c) (Proc.devRef .tc main_v51) = _
  after_results_simp
  rfl

/-! ## The last stretch -/

theorem W7_result (c : Dev nD) :
    W7 (F := Ideal) m ρ c (Proc.devRef .tc main_v54) = tail (W6 m ρ c (Proc.devRef .tc main_v52)) := by
  show StableHlo.after hostOps3 (W6 m ρ c) (Proc.devRef .tc main_v54) = _
  after_results
  rfl

end Cert.KernelIdeal.HandValue

end
-- ==== Proof.HostR.lean ====
import proofs.«154663_g2000405482023969_pallasbulk_1176_2_alg».proof.Proof.RunReferenceIdeal
import proofs.«154663_g2000405482023969_pallasbulk_1176_2_alg».proof.Proof.HostK
import Idealize.ShloMosaic.Lib.StableHlo.Run
import Idealize.ShloMosaic.PureOps.Ideal
import Idealize.ShloMosaic.PureOps.Ideal.Laws

set_option maxRecDepth 16384

/-!
# The host stretches of the reference, read as the same functions

The reference's host operations are the kernel program's: the same transposition of the input, the same recasts of the
biases, the same twenty-six operations from the column sums to the scale and shift rows (with the same literals), the
same recast and transposition of the result. Only the weights are laid out differently — as one 3136 × 64 matrix
rather than seven 448 × 64 slabs.
-/

noncomputable section

namespace Cert.ReferenceIdeal.HandValue

open Cert.ReferenceIdeal Cert.ReferenceIdeal.Gen Cert.ReferenceIdeal.GenP
open Idealize.ShloMosaic Idealize.ShloMosaic.TcCoe Idealize.SL.Sem

variable (m : (ℓ : Loc nD τ sig) → Buf (Elt Ideal) ℓ) (ρ : Dev nD → PrngReg)

/-! ## What no later segment touches -/

theorem W1_arg3 (c : Dev nD) : W1 (F := Ideal) m ρ c (Proc.devRef .tc main_arg3) = W0 m ρ c (Proc.devRef .tc main_arg3) :=
  StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_arg4 (c : Dev nD) : W1 (F := Ideal) m ρ c (Proc.devRef .tc main_arg4) = W0 m ρ c (Proc.devRef .tc main_arg4) :=
  StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_arg7 (c : Dev nD) : W1 (F := Ideal) m ρ c (Proc.devRef .tc main_arg7) = W0 m ρ c (Proc.devRef .tc main_arg7) :=
  StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_arg8 (c : Dev nD) : W1 (F := Ideal) m ρ c (Proc.devRef .tc main_arg8) = W0 m ρ c (Proc.devRef .tc main_arg8) :=
  StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W3_arg7 (c : Dev nD) : W3 (F := Ideal) m ρ c (Proc.devRef .tc main_arg7) = W2 m ρ c (Proc.devRef .tc main_arg7) :=
  StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W3_arg8 (c : Dev nD) : W3 (F := Ideal) m ρ c (Proc.devRef .tc main_arg8) = W2 m ρ c (Proc.devRef .tc main_arg8) :=
  StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W3_weights2 (c : Dev nD) : W3 (F := Ideal) m ρ c (Proc.devRef .tc main_v2) = W2 m ρ c (Proc.devRef .tc main_v2) :=
  StableHlo.after_of_forall_not_mem (b := Proc.devRef .tc main_v2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W3_bias2 (c : Dev nD) : W3 (F := Ideal) m ρ c (Proc.devRef .tc main_v4) = W2 m ρ c (Proc.devRef .tc main_v4) :=
  StableHlo.after_of_forall_not_mem (b := Proc.devRef .tc main_v4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W3_stage1 (c : Dev nD) : W3 (F := Ideal) m ρ c (Proc.devRef .tc main_v5_0) = W2 m ρ c (Proc.devRef .tc main_v5_0) :=
  StableHlo.after_of_forall_not_mem (b := Proc.devRef .tc main_v5_0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W5_stage2 (c : Dev nD) : W5 (F := Ideal) m ρ c (Proc.devRef .tc main_v27_0) = W4 m ρ c (Proc.devRef .tc main_v27_0) :=
  StableHlo.after_of_forall_not_mem (b := Proc.devRef .tc main_v27_0) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ## The first stretch: the arguments re-laid out -/

theorem W1_image (c : Dev nD) :
    W1 (F := Ideal) m ρ c (Proc.devRef .tc main_v0) = Cert.KernelIdeal.HandValue.toNHWC (m ((c : Thread nD τ).loc main_arg0)) := by
  show StableHlo.after hostOps0 (W0 m ρ c) (Proc.devRef .tc main_v0) = _
  after_results
  rfl

theorem W1_weights1 (c : Dev nD) :
    W1 (F := Ideal) m ρ c (Proc.devRef .tc main_v1)
      = fun i => shapeCast S3136x64 (m ((c : Thread nD τ).loc main_arg1) : FVec Ideal S7x7x64x64 .f32) shapeCasts_S7x7x64x64_S3136x64 i := by
  show StableHlo.after hostOps0 (W0 m ρ c) (Proc.devRef .tc main_v1) = _
  after_results
  rfl

theorem W1_weights2 (c : Dev nD) :
    W1 (F := Ideal) m ρ c (Proc.devRef .tc main_v2)
      = fun i => shapeCast S3136x64 (m ((c : Thread nD τ).loc main_arg5) : FVec Ideal S7x7x64x64 .f32) shapeCasts_S7x7x64x64_S3136x64 i := by
  show StableHlo.after hostOps0 (W0 m ρ c) (Proc.devRef .tc main_v2) = _
  after_results
  rfl

theorem W1_bias1 (c : Dev nD) :
    W1 (F := Ideal) m ρ c (Proc.devRef .tc main_v3) = Cert.KernelIdeal.HandValue.toRow (m ((c : Thread nD τ).loc main_arg2)) := by
  show StableHlo.after hostOps0 (W0 m ρ c) (Proc.devRef .tc main_v3) = _
  after_results
  rfl

theorem W1_bias2 (c : Dev nD) :
    W1 (F := Ideal) m ρ c (Proc.devRef .tc main_v4) = Cert.KernelIdeal.HandValue.toRow (m ((c : Thread nD τ).loc main_arg6)) := by
  show StableHlo.after hostOps0 (W0 m ρ c) (Proc.devRef .tc main_v4) = _
  after_results
  rfl

/-! ## The two normalisation stretches -/

set_option maxHeartbeats 4000000 in
theorem W3_scale (c : Dev nD) :
    W3 (F := Ideal) m ρ c (Proc.devRef .tc main_v25)
      = Cert.KernelIdeal.HandValue.bnScale 0x47C40000#32 (W2 m ρ c (Proc.devRef .tc main_v5_1)) (W2 m ρ c (Proc.devRef .tc main_arg3)) := by
  show StableHlo.after hostOps1 (W2 m ρ c) (Proc.devRef .tc main_v25) = _
  after_results_simp
  rfl

set_option maxHeartbeats 4000000 in
theorem W3_shift (c : Dev nD) :
    W3 (F := Ideal) m ρ c (Proc.devRef .tc main_v26)
      = Cert.KernelIdeal.HandValue.bnShift 0x47C40000#32 (W2 m ρ c (Proc.devRef .tc main_v5_1)) (W2 m ρ c (Proc.devRef .tc main_arg3)) (W2 m ρ c (Proc.devRef .tc main_arg4)) := by
  show StableHlo.after hostOps1 (W2 m ρ c) (Proc.devRef .tc main_v26) = _
  after_results_simp
  rfl

set_option maxHeartbeats 4000000 in
theorem W5_scale (c : Dev nD) :
    W5 (F := Ideal) m ρ c (Proc.devRef .tc main_v47)
      = Cert.KernelIdeal.HandValue.bnScale 0x46C40000#32 (W4 m ρ c (Proc.devRef .tc main_v27_1)) (W4 m ρ c (Proc.devRef .tc main_arg7)) := by
  show StableHlo.after hostOps2 (W4 m ρ c) (Proc.devRef .tc main_v47) = _
  after_results_simp
  rfl

set_option maxHeartbeats 4000000 in
theorem W5_shift (c : Dev nD) :
    W5 (F := Ideal) m ρ c (Proc.devRef .tc main_v48)
      = Cert.KernelIdeal.HandValue.bnShift 0x46C40000#32 (W4 m ρ c (Proc.devRef .tc main_v27_1)) (W4 m ρ c (Proc.devRef .tc main_arg7)) (W4 m ρ c (Proc.devRef .tc main_arg8)) := by
  show StableHlo.after hostOps2 (W4 m ρ c) (Proc.devRef .tc main_v48) = _
  after_results_simp
  rfl

/-! ## The last stretch -/

theorem W7_result (c : Dev nD) :
    W7 (F := Ideal) m ρ c (Proc.devRef .tc main_v51) = Cert.KernelIdeal.HandValue.tail (W6 m ρ c (Proc.devRef .tc main_v49)) := by
  show StableHlo.after hostOps3 (W6 m ρ c) (Proc.devRef .tc main_v51) = _
  after_results
  rfl

end Cert.ReferenceIdeal.HandValue

end
-- ==== Proof.LibWeightLayouts.lean ====
import Idealize.ShloMosaic.Lib.Pipeline.Value
import Idealize.ShloMosaic.Lib.ValueIdx

/-!
# Two layouts of the 7 × 7 × 64 × 64 weights

Recast row-major as seven 448 × 64 slabs, or as one 3136 × 64 matrix, the weights hold the same entry at slab
`t / 448`, row `t % 448` and at row `t`: both are the entry `(kh, kw, ci, co)` with `t = (kh·7 + kw)·64 + ci`.
-/

noncomputable section

namespace Cert.Bridge

open Idealize.ShloMosaic Idealize.ShloMosaic.ValueIdx

/-- The two recasts of one 7 × 7 × 64 × 64 array agree entry by entry. -/
theorem weights_layouts {α : Type} (a : (⟨4, ![7, 7, 64, 64]⟩ : Shape).Idx → α)
    (hK : (⟨4, ![7, 7, 64, 64]⟩ : Shape).ShapeCasts ⟨3, ![7, 448, 64]⟩) (hR : (⟨4, ![7, 7, 64, 64]⟩ : Shape).ShapeCasts ⟨2, ![3136, 64]⟩)
    (t : Fin 3136) (co : Fin 64) :
    shapeCast ⟨3, ![7, 448, 64]⟩ a hK (ix3 (⟨t.val / 448, by have := t.isLt; omega⟩ : Fin 7) (⟨t.val % 448, by omega⟩ : Fin 448) co)
      = shapeCast ⟨2, ![3136, 64]⟩ a hR (ix2 t co) := by
  have ht := t.isLt
  have hco := co.isLt
  have e1 : shapeCast ⟨3, ![7, 448, 64]⟩ a hK (ix3 (⟨t.val / 448, by omega⟩ : Fin 7) (⟨t.val % 448, by omega⟩ : Fin 448) co)
      = a (ix4 (⟨t.val / 448, by omega⟩ : Fin 7) (⟨t.val % 448 / 64, by omega⟩ : Fin 7) (⟨t.val % 64, by omega⟩ : Fin 64) co) := by
    refine shapeCast_apply a hK _ _ ?_
    rw [Shape.rowMajor_val_four, Shape.rowMajor_val_three]
    show ((t.val / 448 * 7 + t.val % 448 / 64) * 64 + t.val % 64) * 64 + co.val = (t.val / 448 * 448 + t.val % 448) * 64 + co.val
    omega
  have e2 : shapeCast ⟨2, ![3136, 64]⟩ a hR (ix2 t co)
      = a (ix4 (⟨t.val / 448, by omega⟩ : Fin 7) (⟨t.val % 448 / 64, by omega⟩ : Fin 7) (⟨t.val % 64, by omega⟩ : Fin 64) co) := by
    refine shapeCast_apply a hR _ _ ?_
    rw [Shape.rowMajor_val_four, Shape.rowMajor_val_two]
    show ((t.val / 448 * 7 + t.val % 448 / 64) * 64 + t.val % 64) * 64 + co.val = t.val * 64 + co.val
    omega
  rw [e1, e2]

end Cert.Bridge

end
-- ==== Proof.Bridge0.lean ====
import proofs.«154663_g2000405482023969_pallasbulk_1176_2_alg».proof.Proof.HostK
import proofs.«154663_g2000405482023969_pallasbulk_1176_2_alg».proof.Proof.HostR
import proofs.«154663_g2000405482023969_pallasbulk_1176_2_alg».proof.Proof.LibWeightLayouts
import Idealize.ShloMosaic.Lib.Pipeline.Value
import Idealize.ShloMosaic.Lib.ValueIdx

set_option maxRecDepth 16384

/-!
# The two programs at the first pallas_call's entry

From memories that agree on the arguments, the two programs' first host stretches leave the same channels-last image
array and the same bias rows, and weights that agree entry by entry (seven 448 × 64 slabs against one 3136 × 64
matrix); gamma and beta reach the two normalisation stretches as launched, in both programs.
-/

noncomputable section

namespace Cert.Bridge

open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (ρ' : Dev Cert.ReferenceIdeal.nD → PrngReg)

/-- The channels-last image array is the same in both programs. -/
theorem image_eq (h0 : ∀ c : Dev Cert.KernelIdeal.nD, m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (c : Dev Cert.KernelIdeal.nD) :
    Cert.KernelIdeal.Hand.W1 (F := Ideal) m ρ c (Proc.devRef .tc Cert.KernelIdeal.main_v1)
      = Cert.ReferenceIdeal.GenP.W1 (F := Ideal) m' ρ' c (Proc.devRef .tc Cert.ReferenceIdeal.main_v0) := by
  rw [Cert.KernelIdeal.HandValue.W1_image, Cert.ReferenceIdeal.HandValue.W1_image, h0 c]

/-- The bias rows are the same. -/
theorem bias1_eq (h2 : ∀ c : Dev Cert.KernelIdeal.nD, m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (c : Dev Cert.KernelIdeal.nD) :
    Cert.KernelIdeal.Hand.W1 (F := Ideal) m ρ c (Proc.devRef .tc Cert.KernelIdeal.main_v6)
      = Cert.ReferenceIdeal.GenP.W1 (F := Ideal) m' ρ' c (Proc.devRef .tc Cert.ReferenceIdeal.main_v3) := by
  rw [Cert.KernelIdeal.HandValue.W1_bias1, Cert.ReferenceIdeal.HandValue.W1_bias1, h2 c]

theorem bias2_eq (h6 : ∀ c : Dev Cert.KernelIdeal.nD, m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (c : Dev Cert.KernelIdeal.nD) :
    Cert.KernelIdeal.Hand.W1 (F := Ideal) m ρ c (Proc.devRef .tc Cert.KernelIdeal.main_v7)
      = Cert.ReferenceIdeal.GenP.W1 (F := Ideal) m' ρ' c (Proc.devRef .tc Cert.ReferenceIdeal.main_v4) := by
  rw [Cert.KernelIdeal.HandValue.W1_bias2, Cert.ReferenceIdeal.HandValue.W1_bias2, h6 c]

/-- The weights agree entry by entry: slab `t / 448`, row `t % 448` against row `t`. -/
theorem weights1_eq (h1 : ∀ c : Dev Cert.KernelIdeal.nD, m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (c : Dev Cert.KernelIdeal.nD) (t : Fin 3136) (co : Fin 64) :
    Cert.KernelIdeal.Hand.W1 (F := Ideal) m ρ c (Proc.devRef .tc Cert.KernelIdeal.main_v3) (ix3 (⟨t.val / 448, by have := t.isLt; omega⟩ : Fin 7) (⟨t.val % 448, by omega⟩ : Fin 448) co)
      = Cert.ReferenceIdeal.GenP.W1 (F := Ideal) m' ρ' c (Proc.devRef .tc Cert.ReferenceIdeal.main_v1) (ix2 t co) := by
  rw [Cert.KernelIdeal.HandValue.W1_weights1, Cert.ReferenceIdeal.HandValue.W1_weights1, h1 c]
  exact weights_layouts _ _ _ t co

theorem weights2_eq (h5 : ∀ c : Dev Cert.KernelIdeal.nD, m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (c : Dev Cert.KernelIdeal.nD) (t : Fin 3136) (co : Fin 64) :
    Cert.KernelIdeal.Hand.W1 (F := Ideal) m ρ c (Proc.devRef .tc Cert.KernelIdeal.main_v5) (ix3 (⟨t.val / 448, by have := t.isLt; omega⟩ : Fin 7) (⟨t.val % 448, by omega⟩ : Fin 448) co)
      = Cert.ReferenceIdeal.GenP.W1 (F := Ideal) m' ρ' c (Proc.devRef .tc Cert.ReferenceIdeal.main_v2) (ix2 t co) := by
  rw [Cert.KernelIdeal.HandValue.W1_weights2, Cert.ReferenceIdeal.HandValue.W1_weights2, h5 c]
  exact weights_layouts _ _ _ t co

end Cert.Bridge

end
-- ==== Proof.Spec.lean ====
import Idealize.ShloMosaic.PureOps.Ideal

/-!
# The block's stages as functions on the extended reals

One image is `z h w ci` (56 × 56 positions, 64 channels). A 7×7 convolution with "same" zero padding reads the
image with a border of three zeros on each side; written as one matrix product, output row `r = h·56 + w` meets
weight row `t = (kh·7 + kw)·64 + ci` at the padded position `(h + kh, w + kw)`, channel `ci`. Every function here
is total on the extended reals: sums are finite sums in a commutative monoid and `0 · x = 0` for every `x`, so no
finiteness assumption is needed to regroup them.
-/

noncomputable section

namespace Cert.Spec

open scoped BigOperators

/-- The image with a border of three zeros on each side, read at padded coordinates `(a, b)`. -/
def padded (z : Fin 56 → Fin 56 → Fin 64 → EReal) (a b : ℕ) (ci : Fin 64) : EReal :=
  if h : (3 ≤ a ∧ a < 59) ∧ (3 ≤ b ∧ b < 59) then z ⟨a - 3, by omega⟩ ⟨b - 3, by omega⟩ ci else 0

/-- One entry of the patch matrix: output row `r = h·56 + w`, column `t = (kh·7 + kw)·64 + ci`. -/
def patch (z : Fin 56 → Fin 56 → Fin 64 → EReal) (r t : Fin 3136) : EReal :=
  padded z (r.val / 56 + t.val / 448) (r.val % 56 + t.val % 448 / 64) ⟨t.val % 64, Nat.mod_lt _ (by norm_num)⟩

/-- The 7×7 "same" convolution of one image against the weights as a 3136 × 64 matrix, plus the bias, positive part. -/
def conv (z : Fin 56 → Fin 56 → Fin 64 → EReal) (wf : Fin 3136 → Fin 64 → EReal) (b : Fin 64 → EReal)
    (r : Fin 3136) (co : Fin 64) : EReal :=
  max ((∑ t : Fin 3136, patch z r t * wf t co) + b co) 0

/-- The sum of a column, and of its squares, over the `n` rows of one image's result. -/
def colSum {n : ℕ} (y : Fin n → Fin 64 → EReal) (co : Fin 64) : EReal := ∑ r : Fin n, y r co
def colSumSq {n : ℕ} (y : Fin n → Fin 64 → EReal) (co : Fin 64) : EReal := ∑ r : Fin n, y r co * y r co

/-- The per-channel affine map of a row-major image (the normalisation applied with a given scale and shift). -/
def affine {n : ℕ} (y : Fin n → Fin 64 → EReal) (sc sh : Fin 64 → EReal) (r : Fin n) (co : Fin 64) : EReal :=
  y r co * sc co + sh co

/-- A row-major 56 × 56 image as a function of its two coordinates. -/
def unflat (y : Fin 3136 → Fin 64 → EReal) (h w : Fin 56) (ci : Fin 64) : EReal :=
  y ⟨h.val * 56 + w.val, by have := h.isLt; have := w.isLt; omega⟩ ci

/-- The 2×2 maximum with stride 2: pooled row `q = ho·28 + wo` is the largest of the four entries at rows
    `2ho, 2ho+1` and columns `2wo, 2wo+1` (first over the two rows, then over the two columns). -/
def pool (y : Fin 3136 → Fin 64 → EReal) (q : Fin 784) (co : Fin 64) : EReal :=
  have hq := q.isLt
  max (max (y ⟨(2 * (q.val / 28)) * 56 + 2 * (q.val % 28), by omega⟩ co)
           (y ⟨(2 * (q.val / 28) + 1) * 56 + 2 * (q.val % 28), by omega⟩ co))
      (max (y ⟨(2 * (q.val / 28)) * 56 + (2 * (q.val % 28) + 1), by omega⟩ co)
           (y ⟨(2 * (q.val / 28) + 1) * 56 + (2 * (q.val % 28) + 1), by omega⟩ co))

end Cert.Spec

end
-- ==== Proof.SpecLaws.lean ====
import proofs.«154663_g2000405482023969_pallasbulk_1176_2_alg».proof.Proof.Spec

/-!
# The specification's functions depend only on their arguments' values

Pointwise-equal images, weights and biases give the same convolution; pointwise-equal activations give the same column
sums, the same affine image and the same pooled image.
-/

noncomputable section

namespace Cert.Spec

theorem conv_congr {z z' : Fin 56 → Fin 56 → Fin 64 → EReal} {wf wf' : Fin 3136 → Fin 64 → EReal} {b b' : Fin 64 → EReal}
    (hz : ∀ h w ci, z h w ci = z' h w ci) (hw : ∀ t co, wf t co = wf' t co) (hb : ∀ co, b co = b' co) :
    conv z wf b = conv z' wf' b' := by
  have e1 : z = z' := funext fun h => funext fun w => funext fun ci => hz h w ci
  have e2 : wf = wf' := funext fun t => funext fun co => hw t co
  have e3 : b = b' := funext hb
  rw [e1, e2, e3]

theorem colSum_congr {n : ℕ} {y y' : Fin n → Fin 64 → EReal} (h : ∀ r co, y r co = y' r co) : colSum y = colSum y' := by
  have e : y = y' := funext fun r => funext fun co => h r co
  rw [e]

theorem colSumSq_congr {n : ℕ} {y y' : Fin n → Fin 64 → EReal} (h : ∀ r co, y r co = y' r co) : colSumSq y = colSumSq y' := by
  have e : y = y' := funext fun r => funext fun co => h r co
  rw [e]

theorem affine_congr {n : ℕ} {y y' : Fin n → Fin 64 → EReal} {sc sc' sh sh' : Fin 64 → EReal}
    (hy : ∀ r co, y r co = y' r co) (hsc : ∀ co, sc co = sc' co) (hsh : ∀ co, sh co = sh' co) :
    affine y sc sh = affine y' sc' sh' := by
  have e1 : y = y' := funext fun r => funext fun co => hy r co
  have e2 : sc = sc' := funext hsc
  have e3 : sh = sh' := funext hsh
  rw [e1, e2, e3]

theorem pool_congr {y y' : Fin 3136 → Fin 64 → EReal} (h : ∀ r co, y r co = y' r co) : pool y = pool y' := by
  have e : y = y' := funext fun r => funext fun co => h r co
  rw [e]

theorem unflat_congr {y y' : Fin 3136 → Fin 64 → EReal} (h : ∀ r co, y r co = y' r co) : unflat y = unflat y' := by
  have e : y = y' := funext fun r => funext fun co => h r co
  rw [e]

end Cert.Spec

end
-- ==== Proof.ArrK0.lean ====
import proofs.«154663_g2000405482023969_pallasbulk_1176_2_alg».proof.Proof.DataKernelIdeal
import Idealize.ShloMosaic.Lib.Pipeline.Value
import Idealize.ShloMosaic.Lib.ValueIdx

set_option maxRecDepth 16384

/-!
# pallas_call 0: whole arrays and blocks

At an arbitrary valuation `V` of the buffers at region entry: the image window's block at grid point `t` is image `t`
of the input array; the filter and bias windows are their whole arrays at every point; after the 32 points the
activation array and the column-sum array hold, image by image, what each point's body stored.
-/

noncomputable section

namespace Cert.KernelIdeal.HandValue

open Cert.KernelIdeal Cert.KernelIdeal.Gen Cert.KernelIdeal.GenP Cert.KernelIdeal.Hand
open Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-- The grid has 32 points. -/
theorem lt32 (t : Fin cfg0.N) : t.val < 32 := by have h := t.isLt; have e : cfg0.N = 32 := N_0; omega
theorem lt_N0 {n : Nat} (h : n < 32) : n < cfg0.N := by have e : cfg0.N = 32 := N_0; omega

/-! ## The input windows -/

/-- Window 0's block index at point `t` is `t` on the image axis and zero on the others. -/
theorem index0_0 : ∀ t : Fin cfg0.N, win0_0.index t (0 : Fin 4) = t.val ∧ win0_0.index t (1 : Fin 4) = 0 ∧ win0_0.index t (2 : Fin 4) = 0 ∧ win0_0.index t (3 : Fin 4) = 0 :=
  (by decide +kernel : ∀ t : Fin grid0.N, _)

/-- The image window: point `t` reads image `t`. -/
theorem iblk0_0_apply (c : Dev nD) (t : Fin cfg0.N) (x1 : Fin 56) (x2 : Fin 56) (x3 : Fin 64) :
    iblk0 V c 0 t (ix4 0 x1 x2 x3) = (V c main_v1 : S32x56x56x64.Idx → Elt F .bf16) (ix4 ⟨t.val, lt32 t⟩ x1 x2 x3) := by
  obtain ⟨e0, e1, e2, e3⟩ := index0_0 t
  unfold iblk0
  rw [View.read_apply]
  show V c main_v1 _ = V c main_v1 _
  congr 1
  funext a
  apply Fin.ext
  match a with
  | ⟨0, _⟩ => show win0_0.index t (0 : Fin 4) * 1 + 1 * 0 = t.val; omega
  | ⟨1, _⟩ => show win0_0.index t (1 : Fin 4) * 56 + 1 * x1.val = x1.val; omega
  | ⟨2, _⟩ => show win0_0.index t (2 : Fin 4) * 56 + 1 * x2.val = x2.val; omega
  | ⟨3, _⟩ => show win0_0.index t (3 : Fin 4) * 64 + 1 * x3.val = x3.val; omega

/-- Window 1's block index is zero on every axis at every point. -/
theorem index0_1 : ∀ t : Fin cfg0.N, win0_1.index t (0 : Fin 3) = 0 ∧ win0_1.index t (1 : Fin 3) = 0 ∧ win0_1.index t (2 : Fin 3) = 0 :=
  (by decide +kernel : ∀ t : Fin grid0.N, _)

/-- The filter array is read whole at every point. -/
theorem iblk0_1_eq (c : Dev nD) (t : Fin cfg0.N) :
    (iblk0 V c 1 t : S7x448x64.Idx → Elt F .bf16) = (V c main_v3 : S7x448x64.Idx → Elt F .bf16) := by
  obtain ⟨e0, e1, e2⟩ := index0_1 t
  funext y
  unfold iblk0
  rw [View.read_apply]
  show V c main_v3 _ = V c main_v3 _
  congr 1
  funext a
  apply Fin.ext
  match a with
  | ⟨0, _⟩ => show win0_1.index t (0 : Fin 3) * 7 + 1 * (y 0).val = (y 0).val; omega
  | ⟨1, _⟩ => show win0_1.index t (1 : Fin 3) * 448 + 1 * (y 1).val = (y 1).val; omega
  | ⟨2, _⟩ => show win0_1.index t (2 : Fin 3) * 64 + 1 * (y 2).val = (y 2).val; omega

/-- Window 2's block index is zero on every axis at every point. -/
theorem index0_2 : ∀ t : Fin cfg0.N, win0_2.index t (0 : Fin 2) = 0 ∧ win0_2.index t (1 : Fin 2) = 0 :=
  (by decide +kernel : ∀ t : Fin grid0.N, _)

/-- The bias row is read whole at every point. -/
theorem iblk0_2_eq (c : Dev nD) (t : Fin cfg0.N) :
    (iblk0 V c 2 t : S1x64.Idx → Elt F .f32) = (V c main_v6 : S1x64.Idx → Elt F .f32) := by
  obtain ⟨e0, e1⟩ := index0_2 t
  funext y
  unfold iblk0
  rw [View.read_apply]
  show V c main_v6 _ = V c main_v6 _
  congr 1
  funext a
  apply Fin.ext
  match a with
  | ⟨0, _⟩ => show win0_2.index t (0 : Fin 2) * 1 + 1 * (y 0).val = (y 0).val; omega
  | ⟨1, _⟩ => show win0_2.index t (1 : Fin 2) * 64 + 1 * (y 1).val = (y 1).val; omega

/-! ## The two output arrays after the region -/

/-- Window 3's block index at point `t` is `t` on the image axis and zero on the others. -/
theorem index0_3 : ∀ t : Fin cfg0.N, win0_3.index t (0 : Fin 3) = t.val ∧ win0_3.index t (1 : Fin 3) = 0 ∧ win0_3.index t (2 : Fin 3) = 0 :=
  (by decide +kernel : ∀ t : Fin grid0.N, _)

/-- The activation array after the region: image `n`'s part is what point `n` stored. -/
def arr0_3 (c : Dev nD) : S32x3136x64.Idx → Elt F .bf16 := fun j =>
  (outsAt0 V c ⟨(j 0).val, lt_N0 (j 0).isLt⟩).1 (ix3 (0 : Fin 1) (⟨(j 1).val, (j 1).isLt⟩ : Fin 3136) (⟨(j 2).val, (j 2).isLt⟩ : Fin 64))

/-- The same at an index given by its coordinates' values. -/
theorem arr0_3_of (c : Dev nD) (t : Fin cfg0.N) (r : Fin 3136) (co : Fin 64) (j : S32x3136x64.Idx)
    (h0 : (j 0).val = t.val) (h1 : (j 1).val = r.val) (h2 : (j 2).val = co.val) :
    arr0_3 V c j = (outsAt0 V c t).1 (ix3 0 r co) := by
  obtain rfl : t = ⟨(j 0).val, lt_N0 (j 0).isLt⟩ := Fin.ext h0.symm
  obtain rfl : r = ⟨(j 1).val, (j 1).isLt⟩ := Fin.ext h1.symm
  obtain rfl : co = ⟨(j 2).val, (j 2).isLt⟩ := Fin.ext h2.symm
  rfl

theorem arr0_3_apply (c : Dev nD) (t : Fin cfg0.N) (r : Fin 3136) (co : Fin 64) :
    arr0_3 V c (ix3 ⟨t.val, lt32 t⟩ r co) = (outsAt0 V c t).1 (ix3 0 r co) :=
  arr0_3_of V c t r co _ rfl rfl rfl

/-- What point `t` writes back is block `t` of that array. -/
theorem flushed0_3 (c : Dev nD) (t : Fin cfg0.N) :
    (dat0 V c).flushed 3 t = ((cfg0.win 3).blk t).view.read (Elt F) (arr0_3 V c) := by
  obtain ⟨e0, e1, e2⟩ := index0_3 t
  show (cfg0.win 3).cut (grid0.coords t) ((dat0 V c).after 3 t) = _
  rw [after0_3]
  funext y
  obtain ⟨y0, r, co, rfl⟩ : ∃ (y0 : Fin 1) (r : Fin 3136) (co : Fin 64), y = ix3 y0 r co := ⟨y 0, y 1, y 2, eq_ix3 y⟩
  obtain rfl : y0 = 0 := Subsingleton.elim _ _
  rw [View.read_apply]
  show (outsAt0 V c t).1 _ = arr0_3 V c _
  refine Eq.trans (congrArg _ ?_) (arr0_3_of V c t r co _ ?_ ?_ ?_).symm
  · funext a
    match a with
    | ⟨0, _⟩ => rfl
    | ⟨1, _⟩ => rfl
    | ⟨2, _⟩ => rfl
  · show win0_3.index t (0 : Fin 3) * 1 + 1 * 0 = t.val; omega
  · show win0_3.index t (1 : Fin 3) * 3136 + 1 * r.val = r.val; omega
  · show win0_3.index t (2 : Fin 3) * 64 + 1 * co.val = co.val; omega

/-- An index of the array is in point `t`'s block iff each coordinate is in the block's range on its axis. -/
theorem mem_blk0_3 (t : Fin cfg0.N) (i : S32x3136x64.Idx) :
    i ∈ ((cfg0.win 3).blk t).view.set ↔ ∀ a : Fin 3, win0_3.index t a * S1x3136x64.size a ≤ (i a).val ∧ (i a).val < win0_3.index t a * S1x3136x64.size a + S1x3136x64.size a := by
  show i ∈ ((View.whole main_v8_0).slice (win0_3.rect t)).set ↔ _
  rw [View.set_slice_whole, Rect.mem_set_unit]
  exact Iff.rfl

/-- Every index of the array is in the block of the point numbered by its image coordinate. -/
theorem cover0_3 (i : S32x3136x64.Idx) : ∃ t : Fin cfg0.N, (cfg0.win 3).flush t = true ∧ i ∈ ((cfg0.win 3).blk t).view.set := by
  have hi0 : (i 0).val < 32 := (i 0).isLt
  have hi1 : (i 1).val < 3136 := (i 1).isLt
  have hi2 : (i 2).val < 64 := (i 2).isLt
  refine ⟨⟨(i 0).val, lt_N0 hi0⟩, flush0_3 _, ?_⟩
  obtain ⟨e0, e1, e2⟩ := index0_3 ⟨(i 0).val, lt_N0 hi0⟩
  rw [mem_blk0_3]
  intro a
  match a with
  | ⟨0, _⟩ => show win0_3.index ⟨(i 0).val, lt_N0 hi0⟩ (0 : Fin 3) * 1 ≤ (i 0).val ∧ (i 0).val < win0_3.index ⟨(i 0).val, lt_N0 hi0⟩ (0 : Fin 3) * 1 + 1; simp only [e0]; omega
  | ⟨1, _⟩ => show win0_3.index ⟨(i 0).val, lt_N0 hi0⟩ (1 : Fin 3) * 3136 ≤ (i 1).val ∧ (i 1).val < win0_3.index ⟨(i 0).val, lt_N0 hi0⟩ (1 : Fin 3) * 3136 + 3136; omega
  | ⟨2, _⟩ => show win0_3.index ⟨(i 0).val, lt_N0 hi0⟩ (2 : Fin 3) * 64 ≤ (i 2).val ∧ (i 2).val < win0_3.index ⟨(i 0).val, lt_N0 hi0⟩ (2 : Fin 3) * 64 + 64; omega

/-- The activation array after the whole grid. -/
theorem arrAt0_3 (c : Dev nD) : (dat0 V c).arrAt 3 cfg0.N = arr0_3 V c :=
  (dat0 V c).arrAt_eq_of_cover 3 (arr0_3 V c) (fun t _ => flushed0_3 V c t) cover0_3

/-- Window 4's block index at point `t` is `t` on the image axis and zero on the others. -/
theorem index0_4 : ∀ t : Fin cfg0.N, win0_4.index t (0 : Fin 3) = t.val ∧ win0_4.index t (1 : Fin 3) = 0 ∧ win0_4.index t (2 : Fin 3) = 0 :=
  (by decide +kernel : ∀ t : Fin grid0.N, _)

/-- The column-sum array after the region: image `n`'s part is what point `n` stored. -/
def arr0_4 (c : Dev nD) : S32x2x64.Idx → Elt F .f32 := fun j =>
  (outsAt0 V c ⟨(j 0).val, lt_N0 (j 0).isLt⟩).2 (ix3 (0 : Fin 1) (⟨(j 1).val, (j 1).isLt⟩ : Fin 2) (⟨(j 2).val, (j 2).isLt⟩ : Fin 64))

/-- The same at an index given by its coordinates' values. -/
theorem arr0_4_of (c : Dev nD) (t : Fin cfg0.N) (k : Fin 2) (co : Fin 64) (j : S32x2x64.Idx)
    (h0 : (j 0).val = t.val) (h1 : (j 1).val = k.val) (h2 : (j 2).val = co.val) :
    arr0_4 V c j = (outsAt0 V c t).2 (ix3 0 k co) := by
  obtain rfl : t = ⟨(j 0).val, lt_N0 (j 0).isLt⟩ := Fin.ext h0.symm
  obtain rfl : k = ⟨(j 1).val, (j 1).isLt⟩ := Fin.ext h1.symm
  obtain rfl : co = ⟨(j 2).val, (j 2).isLt⟩ := Fin.ext h2.symm
  rfl

theorem arr0_4_apply (c : Dev nD) (t : Fin cfg0.N) (k : Fin 2) (co : Fin 64) :
    arr0_4 V c (ix3 ⟨t.val, lt32 t⟩ k co) = (outsAt0 V c t).2 (ix3 0 k co) :=
  arr0_4_of V c t k co _ rfl rfl rfl

/-- What point `t` writes back is block `t` of that array. -/
theorem flushed0_4 (c : Dev nD) (t : Fin cfg0.N) :
    (dat0 V c).flushed 4 t = ((cfg0.win 4).blk t).view.read (Elt F) (arr0_4 V c) := by
  obtain ⟨e0, e1, e2⟩ := index0_4 t
  show (cfg0.win 4).cut (grid0.coords t) ((dat0 V c).after 4 t) = _
  rw [after0_4]
  funext y
  obtain ⟨y0, k, co, rfl⟩ : ∃ (y0 : Fin 1) (k : Fin 2) (co : Fin 64), y = ix3 y0 k co := ⟨y 0, y 1, y 2, eq_ix3 y⟩
  obtain rfl : y0 = 0 := Subsingleton.elim _ _
  rw [View.read_apply]
  show (outsAt0 V c t).2 _ = arr0_4 V c _
  refine Eq.trans (congrArg _ ?_) (arr0_4_of V c t k co _ ?_ ?_ ?_).symm
  · funext a
    match a with
    | ⟨0, _⟩ => rfl
    | ⟨1, _⟩ => rfl
    | ⟨2, _⟩ => rfl
  · show win0_4.index t (0 : Fin 3) * 1 + 1 * 0 = t.val; omega
  · show win0_4.index t (1 : Fin 3) * 2 + 1 * k.val = k.val; omega
  · show win0_4.index t (2 : Fin 3) * 64 + 1 * co.val = co.val; omega

/-- An index of the array is in point `t`'s block iff each coordinate is in the block's range on its axis. -/
theorem mem_blk0_4 (t : Fin cfg0.N) (i : S32x2x64.Idx) :
    i ∈ ((cfg0.win 4).blk t).view.set ↔ ∀ a : Fin 3, win0_4.index t a * S1x2x64.size a ≤ (i a).val ∧ (i a).val < win0_4.index t a * S1x2x64.size a + S1x2x64.size a := by
  show i ∈ ((View.whole main_v8_1).slice (win0_4.rect t)).set ↔ _
  rw [View.set_slice_whole, Rect.mem_set_unit]
  exact Iff.rfl

/-- Every index of the array is in the block of the point numbered by its image coordinate. -/
theorem cover0_4 (i : S32x2x64.Idx) : ∃ t : Fin cfg0.N, (cfg0.win 4).flush t = true ∧ i ∈ ((cfg0.win 4).blk t).view.set := by
  have hi0 : (i 0).val < 32 := (i 0).isLt
  have hi1 : (i 1).val < 2 := (i 1).isLt
  have hi2 : (i 2).val < 64 := (i 2).isLt
  refine ⟨⟨(i 0).val, lt_N0 hi0⟩, flush0_4 _, ?_⟩
  obtain ⟨e0, e1, e2⟩ := index0_4 ⟨(i 0).val, lt_N0 hi0⟩
  rw [mem_blk0_4]
  intro a
  match a with
  | ⟨0, _⟩ => show win0_4.index ⟨(i 0).val, lt_N0 hi0⟩ (0 : Fin 3) * 1 ≤ (i 0).val ∧ (i 0).val < win0_4.index ⟨(i 0).val, lt_N0 hi0⟩ (0 : Fin 3) * 1 + 1; simp only [e0]; omega
  | ⟨1, _⟩ => show win0_4.index ⟨(i 0).val, lt_N0 hi0⟩ (1 : Fin 3) * 2 ≤ (i 1).val ∧ (i 1).val < win0_4.index ⟨(i 0).val, lt_N0 hi0⟩ (1 : Fin 3) * 2 + 2; omega
  | ⟨2, _⟩ => show win0_4.index ⟨(i 0).val, lt_N0 hi0⟩ (2 : Fin 3) * 64 ≤ (i 2).val ∧ (i 2).val < win0_4.index ⟨(i 0).val, lt_N0 hi0⟩ (2 : Fin 3) * 64 + 64; omega

/-- The column-sum array after the whole grid. -/
theorem arrAt0_4 (c : Dev nD) : (dat0 V c).arrAt 4 cfg0.N = arr0_4 V c :=
  (dat0 V c).arrAt_eq_of_cover 4 (arr0_4 V c) (fun t _ => flushed0_4 V c t) cover0_4

end Cert.KernelIdeal.HandValue

end
-- ==== Proof.V0KDefs.lean ====
import proofs.«154663_g2000405482023969_pallasbulk_1176_2_alg».proof.Proof.Body0KernelIdeal
import Idealize.ShloMosaic.Lib.ValueIdx
import Idealize.ShloMosaic.PureOps.Ideal

set_option maxRecDepth 16384

/-!
# pallas_call 0 of the kernel: its three operands as functions on the extended reals

The image block is read by row, column and channel; the seven weight slabs are stacked into one 3136 × 64 matrix,
row `t = kh·448 + k` being row `k` of slab `kh`; the bias is read by channel.
-/

noncomputable section

namespace Cert.KernelIdeal.HandValue

open Cert.KernelIdeal
open Idealize.ShloMosaic Idealize.ShloMosaic.ValueIdx

/-- The image block as a function of row, column and channel. -/
def img (x0 : Vec Ideal S1x56x56x64 .bf16) : Fin 56 → Fin 56 → Fin 64 → EReal :=
  fun h w ci => x0 (ix4 (0 : Fin 1) h w ci)

/-- The seven 448 × 64 weight slabs as one 3136 × 64 matrix: row `t` is row `t % 448` of slab `t / 448`. -/
def wmat (x1 : Vec Ideal S7x448x64 .bf16) : Fin 3136 → Fin 64 → EReal :=
  fun t co => x1 (ix3 (⟨t.val / 448, by have := t.isLt; omega⟩ : Fin 7) (⟨t.val % 448, Nat.mod_lt _ (by norm_num)⟩ : Fin 448) co)

/-- The bias row as a function of the channel. -/
def bias (x2 : Vec Ideal S1x64 .f32) : Fin 64 → EReal := fun co => x2 (ix2 (0 : Fin 1) co)

end Cert.KernelIdeal.HandValue

end
-- ==== Proof.V0KPad.lean ====
import proofs.«154663_g2000405482023969_pallasbulk_1176_2_alg».proof.Proof.V0KDefs
import proofs.«154663_g2000405482023969_pallasbulk_1176_2_alg».proof.Proof.Spec
import Idealize.ShloMosaic.Lib.Pipeline.Value
import Idealize.ShloMosaic.Lib.IdealHost
import Idealize.ShloMosaic.Lib.Tactic

set_option maxRecDepth 16384

/-!
# pallas_call 0 of the kernel: the padded buffer

The 62 × 62 × 64 buffer is filled with zeros and the 56 × 56 × 64 image block is then stored into rows and columns
3 … 58. That store moves whole words: it rewrites columns 2 … 59 of rows 3 … 58, putting the image in columns
3 … 58 and putting back, in columns 2 and 59, what the zero fill had left there. So the buffer reads the image
with a border of three zeros on each side: `Cert.Spec.padded`.
-/

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.Tactic Idealize.ShloMosaic.ValueIdx
open scoped BigOperators

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The zero block the buffer is first filled with reads the extended real zero everywhere. -/
theorem zeroBlock_apply (y : S62x62x64.Idx) : k0_pay4 (F := Ideal) y = 0 := by
  unfold k0_pay4
  rw [shapeCast_self]
  exact Ideal.ofBits_zero_bf16

/-- The image block as the interior store carries it: entry (p, q, ci) of the 56 × 56 × 64 block. -/
theorem imageBlock_apply (arg1 : Memref sig .tc .vmem S1x56x56x64 .bf16) (harg1 : arg1.IsWhole)
    (x0 : Vec Ideal S1x56x56x64 .bf16) (p q : Fin 56) (ci : Fin 64) :
    k0_pay5 (F := Ideal) (View.readAt (Elt Ideal) arg1.view
        (Rect.unit (s := S1x56x56x64) ![0, 0, 0, 0] S1x56x56x64.size inb_S1x56x56x64_S1x56x56x64_0_0_0_0).toLoadRect
        (harg1.unread x0)) (ix3 p q ci) = img x0 p q ci := by
  unfold k0_pay5
  rw [shapeCast_self, View.readAt_eq_ld, harg1.read_unread, View.ld_unit_zero (S := S1x56x56x64) hz4]
  refine (shapeCast_apply _ _ _ (ix4 (0 : Fin 1) p q ci) ?_).trans rfl
  rw [Shape.rowMajor_val_four, Shape.rowMajor_val_three]
  show (((0 : ℕ) * 56 + p.val) * 56 + q.val) * 64 + ci.val = (p.val * 56 + q.val) * 64 + ci.val
  omega

/-- Rows put at column offset 1 inside 58-column words: columns 1 … 56 take the new rows, columns 0 and 57 keep the old. -/
theorem updateSlice_col1_apply (old : S56x58x64.Idx → EReal) (upd : S56x56x64.Idx → EReal) (p : Fin 56) (q : Fin 58) (ci : Fin 64) :
    updateSlice old upd ![0, 1, 0] slices_S56x58x64_S56x56x64_0_1_0 (ix3 p q ci)
      = if h : 1 ≤ q.val ∧ q.val < 57 then upd (ix3 p (⟨q.val - 1, by omega⟩ : Fin 56) ci) else old (ix3 p q ci) := by
  unfold updateSlice
  split_ifs with hin h h
  · congr 1
    funext d; apply Fin.ext
    match d with
    | ⟨0, _⟩ => show p.val - 0 = p.val; omega
    | ⟨1, _⟩ => rfl
    | ⟨2, _⟩ => show ci.val - 0 = ci.val; omega
  · exfalso
    have h1 := hin ⟨1, by decide⟩
    change 1 ≤ q.val ∧ q.val < 1 + 56 at h1
    omega
  · exfalso
    apply hin
    intro d
    match d with
    | ⟨0, _⟩ => show 0 ≤ p.val ∧ p.val < 0 + 56; omega
    | ⟨1, _⟩ => show 1 ≤ q.val ∧ q.val < 1 + 56; omega
    | ⟨2, _⟩ => show 0 ≤ ci.val ∧ ci.val < 0 + 64; omega
  · rfl

/-- What the zero fill left under the box of stored words. -/
theorem oldWords_apply (c : Dev nD) (arg6 : Memref sig .tc .vmem S62x62x64 .bf16) (y : S56x58x64.Idx) :
    kernelRun0.sl.old (F := Ideal) c arg6 y = 0 := by
  unfold kernelRun0.sl.old kernelRun0.sl.HS0_1
  rw [View.readCov_eq_canon']
  show View.canon _ _ = 0
  rw [View.canon_unit_zero hz3]
  exact zeroBlock_apply _

/-- The padded buffer after the zero fill and the interior store: entry (a, b, ci) is the image at (a - 3, b - 3)
    when both coordinates lie in 3 … 58, and zero on the border. The interior store writes whole words, columns
    2 … 59 of rows 3 … 58: the image in columns 3 … 58, and in columns 2 and 59 what the zero fill left. -/
theorem padBuf_apply (c : Dev nD) (arg1 : Memref sig .tc .vmem S1x56x56x64 .bf16) (harg1 : arg1.IsWhole)
    (arg6 : Memref sig .tc .vmem S62x62x64 .bf16) (x0 : Vec Ideal S1x56x56x64 .bf16) (a b : Fin 62) (ci : Fin 64) :
    View.canon (kernelRun0.sl.HS0_2 (F := Ideal) c arg1 harg1 arg6 x0) (ix3 a b ci)
      = Cert.Spec.padded (img x0) a.val b.val ci := by
  unfold kernelRun0.sl.HS0_2 kernelRun0.sl.HS0_1
  unfold Cert.Spec.padded
  by_cases hbox : (3 ≤ a.val ∧ a.val < 59) ∧ (2 ≤ b.val ∧ b.val < 60)
  · -- inside the box of stored words
    have he : (Rect.unit (s := S62x62x64) ![3, 2, 0] S56x58x64.size inb_S62x62x64_S56x58x64_3_2_0).emb
        (ix3 (⟨a.val - 3, by omega⟩ : Fin 56) (⟨b.val - 2, by omega⟩ : Fin 58) ci) = ix3 a b ci := by
      funext d; apply Fin.ext
      match d with
      | ⟨0, _⟩ => show 3 + 1 * (a.val - 3) = a.val; omega
      | ⟨1, _⟩ => show 2 + 1 * (b.val - 2) = b.val; omega
      | ⟨2, _⟩ => show 0 + 1 * ci.val = ci.val; omega
    rw [← he, View.canon_cons_emb]
    refine (updateSlice_col1_apply _ _ _ _ _).trans ?_
    by_cases hb : 3 ≤ b.val ∧ b.val < 59
    · rw [dif_pos (show 1 ≤ b.val - 2 ∧ b.val - 2 < 57 by omega), dif_pos ⟨hbox.1, hb⟩, imageBlock_apply]
      have hq : (⟨b.val - 2 - 1, by omega⟩ : Fin 56) = ⟨b.val - 3, by omega⟩ := Fin.ext (by show b.val - 2 - 1 = b.val - 3; omega)
      rw [hq]
    · rw [dif_neg (show ¬(1 ≤ b.val - 2 ∧ b.val - 2 < 57) by omega), dif_neg (fun h => hb h.2)]
      exact oldWords_apply c arg6 _
  · rw [dif_neg (fun h => hbox ⟨h.1, ⟨by omega, by omega⟩⟩)]
    refine (View.canon_cons_of_not_mem _ _ ?_).trans ?_
    · intro hm
      have hm' : ix3 a b ci ∈ (Rect.unit (s := S62x62x64) ![3, 2, 0] S56x58x64.size inb_S62x62x64_S56x58x64_3_2_0).set := hm
      rw [Rect.mem_set_unit] at hm'
      have h0 := hm' ⟨0, by decide⟩
      have h1 := hm' ⟨1, by decide⟩
      change 3 ≤ a.val ∧ a.val < 3 + 56 at h0
      change 2 ≤ b.val ∧ b.val < 2 + 58 at h1
      exact hbox ⟨⟨h0.1, by omega⟩, ⟨h1.1, by omega⟩⟩
    · rw [View.canon_unit_zero hz3]
      exact zeroBlock_apply _

end Cert.KernelIdeal.HandValue

end
-- ==== Proof.V0KPatch.lean ====
import proofs.«154663_g2000405482023969_pallasbulk_1176_2_alg».proof.Proof.V0KPad
import Idealize.ShloMosaic.Lib.Ring

set_option maxRecDepth 16384

/-!
# pallas_call 0 of the kernel: the patch buffer

For kw = 0 … 6 the columns kw … kw + 55 of the padded buffer (62 × 56 × 64), flattened to 3472 × 64 — row
`a·56 + b'` being the window's (a, b') —, are stored into columns kw·64 … kw·64 + 63 of the 3472 × 448 patch buffer.
So the buffer's entry (row, col) is the padded image at row `row / 56`, column `row % 56 + col / 64`, channel
`col % 64`, and its rows kh·56 … kh·56 + 3135 are the columns kh·448 … kh·448 + 447 of the patch matrix
`Cert.Spec.patch`: (r + kh·56) / 56 = r / 56 + kh and (r + kh·56) % 56 = r % 56.
-/

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.Tactic Idealize.ShloMosaic.ValueIdx
open scoped BigOperators

/-- A load of 56 consecutive columns of the padded buffer from column `kw` on: entry (a, b', ci) is the buffer at (a, b' + kw, ci). -/
theorem colWindow_apply (arg6 : Memref sig .tc .vmem S62x62x64 .bf16) (L : List (View.Piece (Elt Ideal) S62x62x64 .bf16))
    (kw : ℕ) (hkw : kw ≤ 6) (inb : ∀ d, (![0, kw, 0] : Fin 3 → ℕ) d + S62x56x64.size d ≤ S62x62x64.size d)
    (a : Fin 62) (b' : Fin 56) (ci : Fin 64) :
    arg6.view.readCov L (Rect.unit (s := S62x62x64) ![0, kw, 0] S62x56x64.size inb).toLoadRect (ix3 a b' ci)
      = View.canon L (ix3 a (⟨b'.val + kw, by omega⟩ : Fin 62) ci) := by
  rw [View.readCov_eq_canon']
  show View.canon L _ = View.canon L _
  congr 1
  funext d; apply Fin.ext
  match d with
  | ⟨0, _⟩ => show 0 + 1 * a.val = a.val; omega
  | ⟨1, _⟩ => show kw + 1 * b'.val = b'.val + kw; omega
  | ⟨2, _⟩ => show 0 + 1 * ci.val = ci.val; omega

/-- A 62 × 56 × 64 window flattened to 3472 × 64: row `row` is the window's row `row / 56`, column `row % 56`. -/
theorem flatten_apply (v : Vec Ideal S62x56x64 .bf16) (row : Fin 3472) (ci : Fin 64) :
    k0_pay6 (F := Ideal) v (ix2 row ci)
      = v (ix3 (⟨row.val / 56, by have := row.isLt; omega⟩ : Fin 62) (⟨row.val % 56, Nat.mod_lt _ (by norm_num)⟩ : Fin 56) ci) := by
  unfold k0_pay6
  rw [shapeCast_self]
  refine shapeCast_apply _ _ _ _ ?_
  rw [Shape.rowMajor_val_three, Shape.rowMajor_val_two]
  show (row.val / 56 * 56 + row.val % 56) * 64 + ci.val = row.val * 64 + ci.val
  have := Nat.div_add_mod row.val 56
  omega

/-- What the patch buffer holds at (row, col): the padded image at row `row / 56`, column `row % 56 + col / 64`,
    channel `col % 64`. -/
def patchG (z : Fin 56 → Fin 56 → Fin 64 → EReal) (y : S3472x448.Idx) : EReal :=
  Cert.Spec.padded z ((y 0).val / 56) ((y 0).val % 56 + (y 1).val / 64) ⟨(y 1).val % 64, Nat.mod_lt _ (by norm_num)⟩

/-- Each of the seven column slabs stored into the patch buffer is a block of that one function: slab `kw` sits at
    columns `kw·64 … kw·64 + 63` and carries the padded buffer's columns `kw … kw + 55`, flattened. -/
theorem slab_piece (c : Dev nD) (arg1 : Memref sig .tc .vmem S1x56x56x64 .bf16) (harg1 : arg1.IsWhole)
    (arg6 : Memref sig .tc .vmem S62x62x64 .bf16) (x0 : Vec Ideal S1x56x56x64 .bf16)
    (kw : ℕ) (hkw : kw ≤ 6) (o : ℕ) (ho : o = kw * 64)
    (inb6 : ∀ d, (![0, kw, 0] : Fin 3 → ℕ) d + S62x56x64.size d ≤ S62x62x64.size d)
    (inb7 : ∀ d, (![0, o] : Fin 2 → ℕ) d + S3472x64.size d ≤ S3472x448.size d) (x : S3472x64.Idx) :
    k0_pay6 (F := Ideal) (arg6.view.readCov (kernelRun0.sl.HS0_2 (F := Ideal) c arg1 harg1 arg6 x0)
        (Rect.unit (s := S62x62x64) ![0, kw, 0] S62x56x64.size inb6).toLoadRect) x
      = patchG (img x0) ((Rect.unit (s := S3472x448) ![0, o] S3472x64.size inb7).emb x) := by
  subst ho
  obtain ⟨row, ci, rfl⟩ : ∃ (row : Fin 3472) (ci : Fin 64), x = ix2 row ci := ⟨x 0, x 1, eq_ix2 x⟩
  rw [flatten_apply, colWindow_apply arg6 _ kw hkw, padBuf_apply]
  unfold patchG
  have e0 : (((Rect.unit (s := S3472x448) ![0, kw * 64] S3472x64.size inb7).emb (ix2 row ci)) 0).val = row.val := by
    show 0 + 1 * row.val = row.val; omega
  have e1 : (((Rect.unit (s := S3472x448) ![0, kw * 64] S3472x64.size inb7).emb (ix2 row ci)) 1).val = kw * 64 + ci.val := by
    show kw * 64 + 1 * ci.val = kw * 64 + ci.val; omega
  have hci := ci.isLt
  congr 1
  · show row.val / 56 = _; rw [e0]
  · show row.val % 56 + kw = _; rw [e0, e1]; omega
  · apply Fin.ext
    show ci.val = (((Rect.unit (s := S3472x448) ![0, kw * 64] S3472x64.size inb7).emb (ix2 row ci)) 1).val % 64
    rw [e1]; omega

/-- The seven flattenings are one function. -/
theorem pay7_eq (v : Vec Ideal S62x56x64 .bf16) : k0_pay7 (F := Ideal) v = k0_pay6 (F := Ideal) v := rfl
theorem pay8_eq (v : Vec Ideal S62x56x64 .bf16) : k0_pay8 (F := Ideal) v = k0_pay6 (F := Ideal) v := rfl
theorem pay9_eq (v : Vec Ideal S62x56x64 .bf16) : k0_pay9 (F := Ideal) v = k0_pay6 (F := Ideal) v := rfl
theorem pay10_eq (v : Vec Ideal S62x56x64 .bf16) : k0_pay10 (F := Ideal) v = k0_pay6 (F := Ideal) v := rfl
theorem pay11_eq (v : Vec Ideal S62x56x64 .bf16) : k0_pay11 (F := Ideal) v = k0_pay6 (F := Ideal) v := rfl
theorem pay12_eq (v : Vec Ideal S62x56x64 .bf16) : k0_pay12 (F := Ideal) v = k0_pay6 (F := Ideal) v := rfl

/-- Every entry of the patch buffer lies in one of the seven slabs. -/
theorem patchBuf_cover (c : Dev nD) (arg1 : Memref sig .tc .vmem S1x56x56x64 .bf16) (harg1 : arg1.IsWhole)
    (arg6 : Memref sig .tc .vmem S62x62x64 .bf16) (x0 : Vec Ideal S1x56x56x64 .bf16) (y : S3472x448.Idx) :
    ∃ p ∈ kernelRun0.sl.HS1_7 (F := Ideal) c arg1 harg1 arg6 x0, y ∈ p.1.set :=
  View.cover_of_tiledL (kernelRun0.sl.HS1_7 (F := Ideal) c arg1 harg1 arg6 x0) S3472x64.size (by sl_kernel_rfl) y

/-- The patch buffer after the seven slab stores: entry (row, col) is the padded image at row `row / 56`,
    column `row % 56 + col / 64`, channel `col % 64`. -/
theorem patchBuf_apply (c : Dev nD) (arg1 : Memref sig .tc .vmem S1x56x56x64 .bf16) (harg1 : arg1.IsWhole)
    (arg6 : Memref sig .tc .vmem S62x62x64 .bf16) (x0 : Vec Ideal S1x56x56x64 .bf16) (y : S3472x448.Idx) :
    View.canon (kernelRun0.sl.HS1_7 (F := Ideal) c arg1 harg1 arg6 x0) y = patchG (img x0) y := by
  refine View.canon_apply_of_pieces (patchG (img x0)) _ ?_ y (patchBuf_cover c arg1 harg1 arg6 x0 y)
  intro p hp
  unfold kernelRun0.sl.HS1_7 at hp
  simp only [List.mem_cons, List.mem_nil_iff, or_false] at hp
  rcases hp with rfl | rfl | rfl | rfl | rfl | rfl | rfl
  · intro x
    show k0_pay12 (F := Ideal) (kernelRun0.sl.v39 c arg1 harg1 arg6 x0) x = patchG (img x0) ((Rect.unit (s := S3472x448) ![0, 384] S3472x64.size inb_S3472x448_S3472x64_0_384).emb x)
    rw [pay12_eq]
    unfold kernelRun0.sl.v39
    exact slab_piece c arg1 harg1 arg6 x0 6 (by norm_num) 384 (by norm_num) inb_S62x62x64_S62x56x64_0_6_0 inb_S3472x448_S3472x64_0_384 x
  · intro x
    show k0_pay11 (F := Ideal) (kernelRun0.sl.v34 c arg1 harg1 arg6 x0) x = patchG (img x0) ((Rect.unit (s := S3472x448) ![0, 320] S3472x64.size inb_S3472x448_S3472x64_0_320).emb x)
    rw [pay11_eq]
    unfold kernelRun0.sl.v34
    exact slab_piece c arg1 harg1 arg6 x0 5 (by norm_num) 320 (by norm_num) inb_S62x62x64_S62x56x64_0_5_0 inb_S3472x448_S3472x64_0_320 x
  · intro x
    show k0_pay10 (F := Ideal) (kernelRun0.sl.v29 c arg1 harg1 arg6 x0) x = patchG (img x0) ((Rect.unit (s := S3472x448) ![0, 256] S3472x64.size inb_S3472x448_S3472x64_0_256).emb x)
    rw [pay10_eq]
    unfold kernelRun0.sl.v29
    exact slab_piece c arg1 harg1 arg6 x0 4 (by norm_num) 256 (by norm_num) inb_S62x62x64_S62x56x64_0_4_0 inb_S3472x448_S3472x64_0_256 x
  · intro x
    show k0_pay9 (F := Ideal) (kernelRun0.sl.v c arg1 harg1 arg6 x0) x = patchG (img x0) ((Rect.unit (s := S3472x448) ![0, 192] S3472x64.size inb_S3472x448_S3472x64_0_192).emb x)
    rw [pay9_eq]
    unfold kernelRun0.sl.v
    exact slab_piece c arg1 harg1 arg6 x0 3 (by norm_num) 192 (by norm_num) inb_S62x62x64_S62x56x64_0_3_0 inb_S3472x448_S3472x64_0_192 x
  · intro x
    show k0_pay8 (F := Ideal) (kernelRun0.sl.v19 c arg1 harg1 arg6 x0) x = patchG (img x0) ((Rect.unit (s := S3472x448) ![0, 128] S3472x64.size inb_S3472x448_S3472x64_0_128).emb x)
    rw [pay8_eq]
    unfold kernelRun0.sl.v19
    exact slab_piece c arg1 harg1 arg6 x0 2 (by norm_num) 128 (by norm_num) inb_S62x62x64_S62x56x64_0_2_0 inb_S3472x448_S3472x64_0_128 x
  · intro x
    show k0_pay7 (F := Ideal) (kernelRun0.sl.v14 c arg1 harg1 arg6 x0) x = patchG (img x0) ((Rect.unit (s := S3472x448) ![0, 64] S3472x64.size inb_S3472x448_S3472x64_0_64).emb x)
    rw [pay7_eq]
    unfold kernelRun0.sl.v14
    exact slab_piece c arg1 harg1 arg6 x0 1 (by norm_num) 64 (by norm_num) inb_S62x62x64_S62x56x64_0_1_0 inb_S3472x448_S3472x64_0_64 x
  · intro x
    show k0_pay6 (F := Ideal) (kernelRun0.sl.v9 c arg1 harg1 arg6 x0) x = patchG (img x0) ((Rect.unit (s := S3472x448) ![0, 0] S3472x64.size inb_S3472x448_S3472x64_0_0).emb x)
    unfold kernelRun0.sl.v9
    exact slab_piece c arg1 harg1 arg6 x0 0 (by norm_num) 0 (by norm_num) inb_S62x62x64_S62x56x64_0_0_0 inb_S3472x448_S3472x64_0_0 x

/-- A load of 3136 consecutive rows of the patch buffer from row `kh·56` on: its entry (r, k) is the patch matrix's
    entry at row `r`, column `kh·448 + k` — the padded image at row `r / 56 + kh`, column `r % 56 + k / 64`,
    channel `k % 64`. -/
theorem patchWindow_apply (c : Dev nD) (arg1 : Memref sig .tc .vmem S1x56x56x64 .bf16) (harg1 : arg1.IsWhole)
    (arg6 : Memref sig .tc .vmem S62x62x64 .bf16) (arg7 : Memref sig .tc .vmem S3472x448 .bf16)
    (x0 : Vec Ideal S1x56x56x64 .bf16) (kh : ℕ) (hkh : kh < 7) (o : ℕ) (ho : o = kh * 56)
    (inb : ∀ d, (![o, 0] : Fin 2 → ℕ) d + S3136x448.size d ≤ S3472x448.size d) (r : Fin 3136) (k : Fin 448) :
    arg7.view.readCov (kernelRun0.sl.HS1_7 (F := Ideal) c arg1 harg1 arg6 x0)
        (Rect.unit (s := S3472x448) ![o, 0] S3136x448.size inb).toLoadRect (ix2 r k)
      = Cert.Spec.patch (img x0) r (⟨kh * 448 + k.val, by have := k.isLt; omega⟩ : Fin 3136) := by
  subst ho
  rw [View.readCov_eq_canon']
  show View.canon _ _ = _
  rw [patchBuf_apply]
  unfold patchG Cert.Spec.patch
  have e0 : (((Rect.unit (s := S3472x448) ![kh * 56, 0] S3136x448.size inb).toLoadRect.idx (ix2 r k)) 0).val = kh * 56 + r.val := by
    show kh * 56 + 1 * r.val = _; omega
  have e1 : (((Rect.unit (s := S3472x448) ![kh * 56, 0] S3136x448.size inb).toLoadRect.idx (ix2 r k)) 1).val = k.val := by
    show 0 + 1 * k.val = _; omega
  have hr := r.isLt
  have hk := k.isLt
  congr 1
  · show _ / 56 = r.val / 56 + (kh * 448 + k.val) / 448
    rw [e0]; omega
  · show _ % 56 + _ / 64 = r.val % 56 + (kh * 448 + k.val) % 448 / 64
    rw [e0, e1]; omega
  · apply Fin.ext
    show _ % 64 = (kh * 448 + k.val) % 64
    rw [e1]; omega

end Cert.KernelIdeal.HandValue

end
-- ==== Proof.LibSplit.lean ====
/-
  Small facts on the extended reals, stated for any extents.

  * A sum over K = a + b + c consecutive indices is the sum over the first a, plus the sum over the next b, plus the
    sum over the last c.  Only associativity of addition is used, so it holds with infinite terms too.
  * Multiplying by the reciprocal 1 / d of a divisor d ≠ 0 is dividing by d, for every extended real numerator:
    off zero the quotient x / d is x · d⁻¹, and 1 / d is 1 · d⁻¹ = d⁻¹.
  * The larger of anything and 1 is not zero.
  * The product of an M×K by a K×N matrix, accumulated into a zero splat or not, has at entry (r, c) the sum over k of
    X(r,k) · W(k,c).
-/
import Idealize.ShloMosaic.Lib.StackMember
import Idealize.ShloMosaic.Lib.KernelVsHost
import Idealize.ShloMosaic.Lib.ValueIdx
import Idealize.ShloMosaic.PureOps.Ideal.Laws

noncomputable section

namespace Cert.Bridge.Split

open Idealize.ShloMosaic Idealize.ShloMosaic.ValueIdx
open scoped BigOperators

/-- A sum over a + b + c indices, taken in three consecutive runs. -/
theorem sum_three {M : Type*} [AddCommMonoid M] {a b c K : ℕ} (hK : a + b + c = K) (f : Fin K → M) :
    ∑ j : Fin K, f j
      = (∑ j : Fin a, f ⟨j.val, by omega⟩ + ∑ j : Fin b, f ⟨a + j.val, by omega⟩)
        + ∑ j : Fin c, f ⟨a + b + j.val, by omega⟩ := by
  subst hK
  rw [Fin.sum_univ_add, Fin.sum_univ_add]
  rfl

/-- The float word of 1.0 reads the real number one. -/
theorem ofBits_one_f32 : Ideal.ofBits .f32 0x3F800000#32 = 1 := by
  simp [Ideal.ofBits, Ideal.ieee, -EReal.coe_mul]; norm_num

/-- Times the reciprocal of a nonzero divisor is the quotient by it, whatever the numerator. -/
theorem mul_one_div {one d : EReal} (h1 : one = 1) (hd : d ≠ 0) (s : EReal) :
    s * Ideal.div one d = Ideal.div s d := by
  subst h1
  unfold Ideal.div
  rw [if_neg hd, if_neg hd, one_mul]

/-- The larger of anything and one is at least one, so it is not zero. -/
theorem max_one_ne_zero {one : EReal} (h1 : one = 1) (x : EReal) : max x one ≠ 0 := by
  subst h1
  exact ne_of_gt (lt_of_lt_of_le zero_lt_one (le_max_right x 1))

variable {M K N : ℕ}

/-- A kernel's product into the zero splat, with the plain contraction, at entry (r, c). -/
theorem matmul_zero_plain_apply {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (r : Fin M) (c : Fin N) :
    matmul d none X W (constant ⟨2, ![M, N]⟩ .f32 0x00000000#32) (ix2 r c) = ∑ k : Fin K, X (ix2 r k) * W (ix2 k c) := by
  subst hd
  rw [matmul_zero_eq_dotGeneral]
  exact StackMember.dotGeneral_plain_apply none X W r c

/-- A host's product with the plain contraction, at entry (r, c). -/
theorem dotGeneral_plain_apply {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (r : Fin M) (c : Fin N) :
    Host.dotGeneral d none X W (ix2 r c) = ∑ k : Fin K, X (ix2 r k) * W (ix2 k c) := by
  subst hd
  exact StackMember.dotGeneral_plain_apply none X W r c

end Cert.Bridge.Split

end
-- ==== Proof.V0KWeights.lean ====
import proofs.«154663_g2000405482023969_pallasbulk_1176_2_alg».proof.Proof.V0KDefs
import proofs.«154663_g2000405482023969_pallasbulk_1176_2_alg».proof.Proof.LibSplit
import Idealize.ShloMosaic.Lib.Pipeline.Value
import Idealize.ShloMosaic.Lib.Tactic

set_option maxRecDepth 16384

/-!
# pallas_call 0 of the kernel: the weight slabs and one matrix product

Slab `kh` of the 7 × 448 × 64 weights, loaded and viewed as a 448 × 64 matrix, has at (k, co) the weight at
(kh, k, co). A 3136 × 448 by 448 × 64 product accumulated into zeros has at (r, co) the sum over k of the products
of the two entries.
-/

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.Tactic Idealize.ShloMosaic.ValueIdx
open scoped BigOperators

/-- A load of weight slab `kh`, viewed 448 × 64: entry (k, co) is the weights at (kh, k, co). -/
theorem wslab_apply (arg2 : Memref sig .tc .vmem S7x448x64 .bf16) (harg2 : arg2.IsWhole) (x1 : Vec Ideal S7x448x64 .bf16)
    (kh : ℕ) (hkh : kh < 7) (inb : ∀ d, (![kh, 0, 0] : Fin 3 → ℕ) d + S1x448x64.size d ≤ S7x448x64.size d)
    (k : Fin 448) (co : Fin 64) :
    shapeCast S448x64 (View.readAt (Elt Ideal) arg2.view
        (Rect.unit (s := S7x448x64) ![kh, 0, 0] S1x448x64.size inb).toLoadRect (harg2.unread x1))
      shapeCasts_S1x448x64_S448x64 (ix2 k co) = x1 (ix3 (⟨kh, hkh⟩ : Fin 7) k co) := by
  rw [View.readAt_eq_ld, harg2.read_unread]
  refine (shapeCast_apply _ _ _ (ix3 (0 : Fin 1) k co) ?_).trans ?_
  · rw [Shape.rowMajor_val_three, Shape.rowMajor_val_two]
    show ((0 : ℕ) * 448 + k.val) * 64 + co.val = k.val * 64 + co.val
    omega
  · show x1 _ = x1 _
    congr 1
    funext d; apply Fin.ext
    match d with
    | ⟨0, _⟩ => show kh + 1 * 0 = kh; omega
    | ⟨1, _⟩ => show 0 + 1 * k.val = k.val; omega
    | ⟨2, _⟩ => show 0 + 1 * co.val = co.val; omega

/-- The product of a 3136 × 448 window with a 448 × 64 slab, accumulated into zeros: entry (r, co) is the sum over k. -/
theorem prod_apply (X : FVec Ideal S3136x448 .bf16) (W : FVec Ideal S448x64 .bf16) (r : Fin 3136) (co : Fin 64) :
    matmul dot_S3136x448_S448x64_S3136x64_1_0_0_1_n_n none X W (constant S3136x64 .f32 0x00000000#32) (ix2 r co)
      = ∑ k : Fin 448, X (ix2 r k) * W (ix2 k co) :=
  Cert.Bridge.Split.matmul_zero_plain_apply dot_S3136x448_S448x64_S3136x64_1_0_0_1_n_n rfl X W r co

end Cert.KernelIdeal.HandValue

end
-- ==== Proof.LibSumBlocks.lean ====
import Mathlib.Algebra.BigOperators.Fin
import Mathlib.Algebra.BigOperators.Intervals
import Mathlib.Tactic.NormNum
import Mathlib.Tactic.SplitIfs

/-!
# Three readings of one array of 40,000,000 entries

Let `g : ℕ → M` take values in an additive commutative monoid.

* `sum_fin_mul`: for any `a b`, summing `g (i * b + j)` over `i < a`, `j < b` is the sum of
  `g` over `range (a * b)` (row-major enumeration of an `a × b` grid).
* `sum_rows10`: 4,000,000 rows of 10 entries sum to the sum over `range 40000000`.
* `sum_blocks`: 312,500 rows of 128 entries, cut into 40 blocks of 7,816 rows; the last block
  overhangs (`39 * 7816 = 304824`, `312500 - 304824 = 7676` rows remain, 140 overhang) and the
  overhanging rows are replaced by zero.  The masked triple sum is the sum over `range 40000000`.
* `acc_two_halves`: an accumulator over 40 points that is reset at every point `≡ 0 (mod 20)`
  and otherwise adds the point's part to what the previous point left; the values at points
  19 and 39 are the totals of the two halves, so their sum is the total of all 40 parts.
-/

namespace Cert.SumBlocks

open Finset

variable {M : Type*} [AddCommMonoid M]

/-- Row-major enumeration of an `a × b` grid. -/
theorem sum_fin_mul (a b : ℕ) (g : ℕ → M) :
    (∑ i : Fin a, ∑ j : Fin b, g (i.val * b + j.val)) = ∑ e ∈ Finset.range (a * b), g e := by
  induction a with
  | zero => simp
  | succ a ih =>
    rw [Fin.sum_univ_castSucc, Nat.succ_mul, Finset.sum_range_add, ← ih]
    congr 1
    simp only [Fin.val_last]
    exact Fin.sum_univ_eq_sum_range (fun x => g (a * b + x)) b

/-- 4,000,000 rows of 10. -/
theorem sum_rows10 (g : ℕ → M) :
    (∑ n : Fin 4000000, ∑ k : Fin 10, g (n.val * 10 + k.val))
      = ∑ e ∈ Finset.range 40000000, g e := by
  have h := sum_fin_mul 4000000 10 g
  have e : (4000000 * 10 : ℕ) = 40000000 := by norm_num
  rw [e] at h
  exact h

/-- 40 blocks of 7,816 rows of 128, rows at or beyond 312,500 masked to zero. -/
theorem sum_blocks (g : ℕ → M) :
    (∑ t : Fin 40, ∑ r : Fin 7816, ∑ l : Fin 128,
        (if t.val * 7816 + r.val < 312500 then g ((t.val * 7816 + r.val) * 128 + l.val) else 0))
      = ∑ e ∈ Finset.range 40000000, g e := by
  -- the masked row sum as a function of the global row index
  set h : ℕ → M := fun R => if R < 312500 then ∑ l : Fin 128, g (R * 128 + l.val) else 0 with hh
  have step1 : (∑ t : Fin 40, ∑ r : Fin 7816, ∑ l : Fin 128,
        (if t.val * 7816 + r.val < 312500 then g ((t.val * 7816 + r.val) * 128 + l.val) else 0))
      = ∑ t : Fin 40, ∑ r : Fin 7816, h (t.val * 7816 + r.val) := by
    refine Finset.sum_congr rfl fun t _ => Finset.sum_congr rfl fun r _ => ?_
    simp only [hh]
    split_ifs
    · rfl
    · exact Finset.sum_const_zero
  rw [step1, sum_fin_mul 40 7816 h]
  have e1 : (40 * 7816 : ℕ) = 312640 := by norm_num
  rw [e1]
  have step2 : ∑ R ∈ Finset.range 312640, h R = ∑ R ∈ Finset.range 312500, h R := by
    symm
    apply Finset.sum_subset
    · intro x hx
      rw [Finset.mem_range] at hx ⊢
      omega
    · intro x _ hx
      rw [Finset.mem_range] at hx
      simp only [hh]
      rw [if_neg hx]
  have step3 : ∑ R ∈ Finset.range 312500, h R
      = ∑ R ∈ Finset.range 312500, ∑ l : Fin 128, g (R * 128 + l.val) := by
    refine Finset.sum_congr rfl fun R hR => ?_
    rw [Finset.mem_range] at hR
    simp only [hh]
    rw [if_pos hR]
  rw [step2, step3, ← Fin.sum_univ_eq_sum_range (fun R => ∑ l : Fin 128, g (R * 128 + l.val)) 312500,
    sum_fin_mul 312500 128 g]

/-- Within a stretch of 20 points starting at a reset point `c`, the accumulator at `c + k`
is the sum of the parts at `c, …, c + k`. -/
theorem acc_prefix (part S : ℕ → M)
    (h0 : ∀ n, n % 20 = 0 → S n = part n) (h1 : ∀ n, n % 20 ≠ 0 → S n = S (n - 1) + part n)
    (c : ℕ) (hc : c % 20 = 0) :
    ∀ k, k < 20 → S (c + k) = ∑ i ∈ Finset.range (k + 1), part (c + i) := by
  intro k
  induction k with
  | zero =>
    intro _
    simp [h0 c hc]
  | succ k ih =>
    intro hk
    have hne : (c + (k + 1)) % 20 ≠ 0 := by omega
    have hpred : c + (k + 1) - 1 = c + k := by omega
    rw [h1 _ hne, hpred, ih (by omega), Finset.sum_range_succ (fun i => part (c + i)) (k + 1)]

/-- The two halves' totals add up to the total of all 40 parts. -/
theorem acc_two_halves (part S : ℕ → M)
    (h0 : ∀ n, n % 20 = 0 → S n = part n) (h1 : ∀ n, n % 20 ≠ 0 → S n = S (n - 1) + part n) :
    S 19 + S 39 = ∑ t : Fin 40, part t.val := by
  have a := acc_prefix part S h0 h1 0 (by norm_num) 19 (by norm_num)
  have b := acc_prefix part S h0 h1 20 (by norm_num) 19 (by norm_num)
  simp only [Nat.zero_add] at a
  have e39 : (20 + 19 : ℕ) = 39 := by norm_num
  have e20 : (19 + 1 : ℕ) = 20 := by norm_num
  rw [e39] at b
  rw [e20] at a b
  rw [a, b, Fin.sum_univ_eq_sum_range (fun t => part t) 40]
  have e40 : (40 : ℕ) = 20 + 20 := by norm_num
  rw [e40, Finset.sum_range_add]

end Cert.SumBlocks
-- ==== Proof.V0KAcc.lean ====
import proofs.«154663_g2000405482023969_pallasbulk_1176_2_alg».proof.Proof.V0KPatch
import proofs.«154663_g2000405482023969_pallasbulk_1176_2_alg».proof.Proof.V0KWeights
import proofs.«154663_g2000405482023969_pallasbulk_1176_2_alg».proof.Proof.LibSumBlocks

set_option maxRecDepth 16384

/-!
# pallas_call 0 of the kernel: the seven accumulated matrix products

Product `kh` multiplies rows kh·56 … kh·56 + 3135 of the patch buffer — columns kh·448 … kh·448 + 447 of the patch
matrix — by weight slab `kh`; each is a sum over 448 indices, and the seven, added from a zero splat, are one sum
over the 3136 columns t = kh·448 + k of the patch matrix against the stacked weights. Sums here are finite sums in
the commutative monoid of the extended reals, so regrouping them needs no finiteness.
-/

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.Tactic Idealize.ShloMosaic.ValueIdx
open scoped BigOperators

/-- The summand of the convolution at output (r, co) as a function of the patch matrix's column number `e`:
    the padded image at row `r / 56 + e / 448`, column `r % 56 + e % 448 / 64`, channel `e % 64`, times the weight
    at row `e % 448` of slab `e / 448`. -/
def convTerm (z : Fin 56 → Fin 56 → Fin 64 → EReal) (x1 : Vec Ideal S7x448x64 .bf16) (r : Fin 3136) (co : Fin 64) (e : ℕ) : EReal :=
  Cert.Spec.padded z (r.val / 56 + e / 448) (r.val % 56 + e % 448 / 64) ⟨e % 64, Nat.mod_lt _ (by norm_num)⟩
    * x1 (ix3 (⟨e / 448 % 7, Nat.mod_lt _ (by norm_num)⟩ : Fin 7) (⟨e % 448, Nat.mod_lt _ (by norm_num)⟩ : Fin 448) co)

/-- Below 3136 it is the product of the patch matrix's entry and the stacked weights' entry. -/
theorem convTerm_eq (z : Fin 56 → Fin 56 → Fin 64 → EReal) (x1 : Vec Ideal S7x448x64 .bf16) (r : Fin 3136) (co : Fin 64)
    (t : Fin 3136) : convTerm z x1 r co t.val = Cert.Spec.patch z r t * wmat x1 t co := by
  unfold convTerm Cert.Spec.patch wmat
  have ht := t.isLt
  congr 2
  funext d; apply Fin.ext
  match d with
  | ⟨0, _⟩ => show t.val / 448 % 7 = t.val / 448; omega
  | ⟨1, _⟩ => rfl
  | ⟨2, _⟩ => rfl

/-- Seven consecutive runs of 448 columns make up the 3136 columns. -/
theorem sum_seven_slabs (g : ℕ → EReal) :
    (∑ k : Fin 448, g (0 * 448 + k.val)) + (∑ k : Fin 448, g (1 * 448 + k.val)) + (∑ k : Fin 448, g (2 * 448 + k.val))
        + (∑ k : Fin 448, g (3 * 448 + k.val)) + (∑ k : Fin 448, g (4 * 448 + k.val)) + (∑ k : Fin 448, g (5 * 448 + k.val))
        + (∑ k : Fin 448, g (6 * 448 + k.val))
      = ∑ t : Fin 3136, g t.val := by
  have e := Cert.SumBlocks.sum_fin_mul 7 448 g
  rw [show 7 * 448 = 3136 from by norm_num, ← Fin.sum_univ_eq_sum_range g 3136, Fin.sum_univ_seven] at e
  exact e

/-- The first product, added to the zero splat. -/
theorem pay13_apply (X : Vec Ideal S3136x448 .bf16) (W : Vec Ideal S1x448x64 .bf16) (r : Fin 3136) (co : Fin 64) :
    k0_pay13 (F := Ideal) X W (ix2 r co)
      = ∑ k : Fin 448, X (ix2 r k) * shapeCast S448x64 W shapeCasts_S1x448x64_S448x64 (ix2 k co) := by
  unfold k0_pay13
  rw [addf_apply, broadcast_apply, prod_apply]
  show Ideal.ofBits .f32 0x00000000#32 + _ = _
  rw [Ideal.ofBits_zero_f32, zero_add]

/-- The six further products, added one after the other. -/
theorem pay14_apply (A : FVec Ideal S3136x64 .f32)
    (X1 : Vec Ideal S3136x448 .bf16) (W1 : Vec Ideal S1x448x64 .bf16) (X2 : Vec Ideal S3136x448 .bf16) (W2 : Vec Ideal S1x448x64 .bf16)
    (X3 : Vec Ideal S3136x448 .bf16) (W3 : Vec Ideal S1x448x64 .bf16) (X4 : Vec Ideal S3136x448 .bf16) (W4 : Vec Ideal S1x448x64 .bf16)
    (X5 : Vec Ideal S3136x448 .bf16) (W5 : Vec Ideal S1x448x64 .bf16) (X6 : Vec Ideal S3136x448 .bf16) (W6 : Vec Ideal S1x448x64 .bf16)
    (r : Fin 3136) (co : Fin 64) :
    k0_pay14 (F := Ideal) A X1 W1 X2 W2 X3 W3 X4 W4 X5 W5 X6 W6 (ix2 r co)
      = A (ix2 r co)
        + (∑ k : Fin 448, X1 (ix2 r k) * shapeCast S448x64 W1 shapeCasts_S1x448x64_S448x64 (ix2 k co))
        + (∑ k : Fin 448, X2 (ix2 r k) * shapeCast S448x64 W2 shapeCasts_S1x448x64_S448x64 (ix2 k co))
        + (∑ k : Fin 448, X3 (ix2 r k) * shapeCast S448x64 W3 shapeCasts_S1x448x64_S448x64 (ix2 k co))
        + (∑ k : Fin 448, X4 (ix2 r k) * shapeCast S448x64 W4 shapeCasts_S1x448x64_S448x64 (ix2 k co))
        + (∑ k : Fin 448, X5 (ix2 r k) * shapeCast S448x64 W5 shapeCasts_S1x448x64_S448x64 (ix2 k co))
        + (∑ k : Fin 448, X6 (ix2 r k) * shapeCast S448x64 W6 shapeCasts_S1x448x64_S448x64 (ix2 k co)) := by
  unfold k0_pay14
  rw [addf_apply, addf_apply, addf_apply, addf_apply, addf_apply, addf_apply,
    prod_apply, prod_apply, prod_apply, prod_apply, prod_apply, prod_apply]

/-- One product read through the two buffers: window `kh` of the patch buffer against weight slab `kh` sums the
    convolution's summands over columns kh·448 … kh·448 + 447. -/
theorem slabSum_apply (c : Dev nD) (arg1 : Memref sig .tc .vmem S1x56x56x64 .bf16) (harg1 : arg1.IsWhole)
    (arg2 : Memref sig .tc .vmem S7x448x64 .bf16) (harg2 : arg2.IsWhole)
    (arg6 : Memref sig .tc .vmem S62x62x64 .bf16) (arg7 : Memref sig .tc .vmem S3472x448 .bf16)
    (x0 : Vec Ideal S1x56x56x64 .bf16) (x1 : Vec Ideal S7x448x64 .bf16)
    (kh : ℕ) (hkh : kh < 7) (o : ℕ) (ho : o = kh * 56)
    (inb7 : ∀ d, (![o, 0] : Fin 2 → ℕ) d + S3136x448.size d ≤ S3472x448.size d)
    (inb2 : ∀ d, (![kh, 0, 0] : Fin 3 → ℕ) d + S1x448x64.size d ≤ S7x448x64.size d)
    (r : Fin 3136) (co : Fin 64) :
    (∑ k : Fin 448,
        arg7.view.readCov (kernelRun0.sl.HS1_7 (F := Ideal) c arg1 harg1 arg6 x0)
            (Rect.unit (s := S3472x448) ![o, 0] S3136x448.size inb7).toLoadRect (ix2 r k)
          * shapeCast S448x64 (View.readAt (Elt Ideal) arg2.view
              (Rect.unit (s := S7x448x64) ![kh, 0, 0] S1x448x64.size inb2).toLoadRect (harg2.unread x1))
            shapeCasts_S1x448x64_S448x64 (ix2 k co))
      = ∑ k : Fin 448, convTerm (img x0) x1 r co (kh * 448 + k.val) := by
  refine Finset.sum_congr rfl fun k _ => ?_
  rw [patchWindow_apply c arg1 harg1 arg6 arg7 x0 kh hkh o ho inb7 r k, wslab_apply arg2 harg2 x1 kh hkh inb2 k co]
  have hk := k.isLt
  unfold convTerm Cert.Spec.patch
  congr 2
  funext d; apply Fin.ext
  match d with
  | ⟨0, _⟩ => show kh = (kh * 448 + k.val) / 448 % 7; omega
  | ⟨1, _⟩ => show k.val = (kh * 448 + k.val) % 448; omega
  | ⟨2, _⟩ => rfl

/-- The accumulated seven products: entry (r, co) is the convolution's sum over all 3136 columns of the patch matrix. -/
theorem acc_apply (c : Dev nD) (arg1 : Memref sig .tc .vmem S1x56x56x64 .bf16) (harg1 : arg1.IsWhole)
    (arg2 : Memref sig .tc .vmem S7x448x64 .bf16) (harg2 : arg2.IsWhole)
    (arg6 : Memref sig .tc .vmem S62x62x64 .bf16) (arg7 : Memref sig .tc .vmem S3472x448 .bf16)
    (x0 : Vec Ideal S1x56x56x64 .bf16) (x1 : Vec Ideal S7x448x64 .bf16) (r : Fin 3136) (co : Fin 64) :
    kernelRun0.sl.r_2 (F := Ideal) c arg1 harg1 arg2 harg2 arg6 arg7 x0 x1 (ix2 r co)
      = ∑ t : Fin 3136, Cert.Spec.patch (img x0) r t * wmat x1 t co := by
  unfold kernelRun0.sl.r_2 kernelRun0.sl.r
  rw [pay14_apply, pay13_apply]
  unfold kernelRun0.sl.r_1 kernelRun0.sl.v45 kernelRun0.sl.v50 kernelRun0.sl.v55 kernelRun0.sl.v60 kernelRun0.sl.v65 kernelRun0.sl.v70 kernelRun0.sl.v75
  rw [slabSum_apply c arg1 harg1 arg2 harg2 arg6 arg7 x0 x1 0 (by norm_num) 0 (by norm_num) inb_S3472x448_S3136x448_0_0 inb_S7x448x64_S1x448x64_0_0_0 r co,
    slabSum_apply c arg1 harg1 arg2 harg2 arg6 arg7 x0 x1 1 (by norm_num) 56 (by norm_num) inb_S3472x448_S3136x448_56_0 inb_S7x448x64_S1x448x64_1_0_0 r co,
    slabSum_apply c arg1 harg1 arg2 harg2 arg6 arg7 x0 x1 2 (by norm_num) 112 (by norm_num) inb_S3472x448_S3136x448_112_0 inb_S7x448x64_S1x448x64_2_0_0 r co,
    slabSum_apply c arg1 harg1 arg2 harg2 arg6 arg7 x0 x1 3 (by norm_num) 168 (by norm_num) inb_S3472x448_S3136x448_168_0 inb_S7x448x64_S1x448x64_3_0_0 r co,
    slabSum_apply c arg1 harg1 arg2 harg2 arg6 arg7 x0 x1 4 (by norm_num) 224 (by norm_num) inb_S3472x448_S3136x448_224_0 inb_S7x448x64_S1x448x64_4_0_0 r co,
    slabSum_apply c arg1 harg1 arg2 harg2 arg6 arg7 x0 x1 5 (by norm_num) 280 (by norm_num) inb_S3472x448_S3136x448_280_0 inb_S7x448x64_S1x448x64_5_0_0 r co,
    slabSum_apply c arg1 harg1 arg2 harg2 arg6 arg7 x0 x1 6 (by norm_num) 336 (by norm_num) inb_S3472x448_S3136x448_336_0 inb_S7x448x64_S1x448x64_6_0_0 r co]
  rw [sum_seven_slabs (convTerm (img x0) x1 r co)]
  exact Finset.sum_congr rfl fun t _ => convTerm_eq (img x0) x1 r co t

end Cert.KernelIdeal.HandValue

end
-- ==== Proof.V0KOut.lean ====
import proofs.«154663_g2000405482023969_pallasbulk_1176_2_alg».proof.Proof.V0KDefs
import Idealize.ShloMosaic.Lib.Pipeline.Value
import Idealize.ShloMosaic.Lib.IdealHost
import Idealize.ShloMosaic.PureOps.Ideal.Laws
import Idealize.ShloMosaic.Lib.Tactic

set_option maxRecDepth 16384

/-!
# pallas_call 0 of the kernel: what is computed from the accumulated products

The bias row is added along the 3136 rows and the positive part taken. The first output is that matrix with a
leading unit axis (the change of float format is the identity on the extended reals). The second output stacks two
rows: the sums down the columns of that matrix, and of its entrywise square.
-/

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.Tactic Idealize.ShloMosaic.ValueIdx
open scoped BigOperators

theorem hz2 : (![0, 0] : Fin 2 → Nat) = fun _ => 0 := funext fun a => by fin_cases a <;> rfl

/-- The bias row as loaded. -/
theorem biasLoad_eq (arg3 : Memref sig .tc .vmem S1x64 .f32) (harg3 : arg3.IsWhole) (x2 : Vec Ideal S1x64 .f32) :
    View.readAt (Elt Ideal) arg3.view (Rect.unit (s := S1x64) ![0, 0] S1x64.size inb_S1x64_S1x64_0_0).toLoadRect
      (harg3.unread x2) = x2 := by
  rw [View.readAt_eq_ld, harg3.read_unread, View.ld_unit_zero (S := S1x64) hz2]

/-- Bias added along the rows, then the positive part. -/
theorem pay1_apply (A : FVec Ideal S3136x64 .f32) (B : Vec Ideal S1x64 .f32) (r : Fin 3136) (co : Fin 64) :
    k0_pay1 (F := Ideal) A B (ix2 r co) = max (A (ix2 r co) + B (ix2 (0 : Fin 1) co)) 0 := by
  unfold k0_pay1
  rw [maximumf_apply, addf_apply, broadcast_apply, shapeCast_self,
    broadcastTo_apply B broadcasts_S1x64_S3136x64 (ix2 r co) (ix2 (0 : Fin 1) co)
      (fun a => by match a with | ⟨0, _⟩ => rfl | ⟨1, _⟩ => rfl)]
  show max _ (Ideal.ofBits .f32 0x00000000#32) = _
  rw [Ideal.ofBits_zero_f32]

/-- The first output's payload: the same entries with a leading unit axis. -/
theorem pay2_apply (A : FVec Ideal S3136x64 .f32) (B : Vec Ideal S1x64 .f32) (r : Fin 3136) (co : Fin 64) :
    k0_pay2 (F := Ideal) A B (ix3 (0 : Fin 1) r co) = k0_pay1 (F := Ideal) A B (ix2 r co) := by
  unfold k0_pay2
  refine (shapeCast_apply _ _ _ (ix2 r co) ?_).trans (truncf_apply _ _ _)
  rw [Shape.rowMajor_val_three, Shape.rowMajor_val_two]
  show r.val * 64 + co.val = ((0 : ℕ) * 3136 + r.val) * 64 + co.val
  omega

/-- A sum down the 3136 rows, read at channel `co`. -/
theorem colReduce_apply (src : FVec Ideal S3136x64 .f32) (hφ : FKind.Formats .f32)
    (hacc : (0x00000000#32 : BitVec 32) = FKind.add.neutral .f32 hφ) (co : Fin 64) :
    multiReduction .add [0] S64 src 0x00000000#32 reduces_S3136x64_S64 hφ hacc (ix1 co) = ∑ r : Fin 3136, src (ix2 r co) := by
  refine (Ideal.multiReduction_add_single src 0x00000000#32 reduces_S3136x64_S64 hφ hacc (ix1 co)).trans ?_
  refine Finset.sum_congr rfl fun k _ => ?_
  congr 1
  funext d
  match d with
  | ⟨0, _⟩ => rfl
  | ⟨1, _⟩ => rfl

/-- The second output's payload, row 0: the column sums of the result. -/
theorem pay3_row0 (A : FVec Ideal S3136x64 .f32) (B : Vec Ideal S1x64 .f32) (co : Fin 64) :
    k0_pay3 (F := Ideal) A B (ix3 (0 : Fin 1) (0 : Fin 2) co) = ∑ r : Fin 3136, k0_pay1 (F := Ideal) A B (ix2 r co) := by
  unfold k0_pay3
  refine (shapeCast_apply _ _ _ (ix2 (0 : Fin 2) co) ?_).trans ?_
  · rw [Shape.rowMajor_val_three, Shape.rowMajor_val_two]
    show (0 : ℕ) * 64 + co.val = ((0 : ℕ) * 2 + 0) * 64 + co.val
    omega
  refine (concatenate_pair_apply_left (t := S2x64) (s₁ := S1x64) (s₂ := S1x64) 0 _ _ concatenates_S1x64_S1x64_S2x64_d0
    (ix2 (0 : Fin 2) co) rfl (ix2 (0 : Fin 1) co) (fun b => by match b with | ⟨0, _⟩ => rfl | ⟨1, _⟩ => rfl)).trans ?_
  refine (shapeCast_apply _ _ _ (ix1 co) ?_).trans ?_
  · rw [Shape.rowMajor_val_one, Shape.rowMajor_val_two]
    show co.val = (0 : ℕ) * 64 + co.val
    omega
  exact colReduce_apply _ _ _ co

/-- The second output's payload, row 1: the column sums of the squares. -/
theorem pay3_row1 (A : FVec Ideal S3136x64 .f32) (B : Vec Ideal S1x64 .f32) (co : Fin 64) :
    k0_pay3 (F := Ideal) A B (ix3 (0 : Fin 1) (1 : Fin 2) co)
      = ∑ r : Fin 3136, k0_pay1 (F := Ideal) A B (ix2 r co) * k0_pay1 (F := Ideal) A B (ix2 r co) := by
  unfold k0_pay3
  refine (shapeCast_apply _ _ _ (ix2 (1 : Fin 2) co) ?_).trans ?_
  · rw [Shape.rowMajor_val_three, Shape.rowMajor_val_two]
    show (1 : ℕ) * 64 + co.val = ((0 : ℕ) * 2 + 1) * 64 + co.val
    omega
  refine (concatenate_pair_apply_right (t := S2x64) (s₁ := S1x64) (s₂ := S1x64) 0 _ _ concatenates_S1x64_S1x64_S2x64_d0
    (ix2 (1 : Fin 2) co) rfl rfl (ix2 (0 : Fin 1) co)
    (fun b hb => by match b with | ⟨0, _⟩ => exact absurd rfl hb | ⟨1, _⟩ => rfl) rfl).trans ?_
  refine (shapeCast_apply _ _ _ (ix1 co) ?_).trans ?_
  · rw [Shape.rowMajor_val_one, Shape.rowMajor_val_two]
    show co.val = (0 : ℕ) * 64 + co.val
    omega
  refine (colReduce_apply _ _ _ co).trans ?_
  rfl

end Cert.KernelIdeal.HandValue

end
-- ==== Proof.V0KMain.lean ====
import proofs.«154663_g2000405482023969_pallasbulk_1176_2_alg».proof.Proof.V0KAcc
import proofs.«154663_g2000405482023969_pallasbulk_1176_2_alg».proof.Proof.V0KOut
import proofs.«154663_g2000405482023969_pallasbulk_1176_2_alg».proof.Proof.Spec

set_option maxRecDepth 16384

/-!
# pallas_call 0 of the kernel: its two outputs are the specification

Each output buffer is overwritten by one store that covers it. The first holds, at (0, r, co), the 7×7 "same"
convolution of the image with the stacked weights, plus the bias, positive part: `Cert.Spec.conv`. The second holds
in row 0 the sums down the columns of the first, `Cert.Spec.colSum`, and in row 1 the sums of the squares,
`Cert.Spec.colSumSq`.
-/

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.Tactic Idealize.ShloMosaic.ValueIdx
open scoped BigOperators

/-- Before the column sums and the cast: the accumulated products plus the bias, positive part — the specification's
    convolution at (r, co). -/
theorem relu_apply (c : Dev nD) (arg1 : Memref sig .tc .vmem S1x56x56x64 .bf16) (harg1 : arg1.IsWhole)
    (arg2 : Memref sig .tc .vmem S7x448x64 .bf16) (harg2 : arg2.IsWhole) (arg3 : Memref sig .tc .vmem S1x64 .f32) (harg3 : arg3.IsWhole)
    (arg6 : Memref sig .tc .vmem S62x62x64 .bf16) (arg7 : Memref sig .tc .vmem S3472x448 .bf16)
    (x0 : Vec Ideal S1x56x56x64 .bf16) (x1 : Vec Ideal S7x448x64 .bf16) (x2 : Vec Ideal S1x64 .f32) (r : Fin 3136) (co : Fin 64) :
    k0_pay1 (F := Ideal) (kernelRun0.sl.r_2 (F := Ideal) c arg1 harg1 arg2 harg2 arg6 arg7 x0 x1)
        (View.readAt (Elt Ideal) arg3.view (Rect.unit (s := S1x64) ![0, 0] S1x64.size inb_S1x64_S1x64_0_0).toLoadRect (harg3.unread x2))
        (ix2 r co)
      = Cert.Spec.conv (img x0) (wmat x1) (bias x2) r co := by
  rw [pay1_apply, acc_apply, biasLoad_eq]
  rfl

/-- The first output of pallas_call 0 is the convolution with bias and positive part. -/
theorem out0_A_apply (c : Dev nD) (i : grid0.Coords) (arg1 : Memref sig .tc .vmem S1x56x56x64 .bf16) (harg1 : arg1.IsWhole) (arg2 : Memref sig .tc .vmem S7x448x64 .bf16) (harg2 : arg2.IsWhole) (arg3 : Memref sig .tc .vmem S1x64 .f32) (harg3 : arg3.IsWhole) (arg4 : Memref sig .tc .vmem S1x3136x64 .bf16) (harg4 : arg4.IsWhole) (arg5 : Memref sig .tc .vmem S1x2x64 .f32) (harg5 : arg5.IsWhole) (arg6 : Memref sig .tc .vmem S62x62x64 .bf16) (harg6 : arg6.IsWhole) (arg7 : Memref sig .tc .vmem S3472x448 .bf16) (harg7 : arg7.IsWhole)
    (x0 : Vec Ideal S1x56x56x64 .bf16) (x1 : Vec Ideal S7x448x64 .bf16) (x2 : Vec Ideal S1x64 .f32) (r : Fin 3136) (co : Fin 64) :
    out0_A (F := Ideal) c i arg1 harg1 arg2 harg2 arg3 harg3 arg4 harg4 arg5 harg5 arg6 harg6 arg7 harg7 x0 x1 x2 (ix3 (0 : Fin 1) r co)
      = Cert.Spec.conv (img x0) (wmat x1) (bias x2) r co := by
  unfold out0_A
  rw [View.read_writes_eq_canon _ _ _ (cover0_A c i arg1 harg1 arg2 harg2 arg3 harg3 arg4 harg4 arg5 harg5 arg6 harg6 arg7 harg7 x0 x1 x2)]
  unfold kernelRun0
  dsimp only
  rw [View.canon_unit_zero hz3, pay2_apply]
  exact relu_apply c arg1 harg1 arg2 harg2 arg3 harg3 arg6 arg7 x0 x1 x2 r co

/-- Row 0 of the second output is the column sums of the first. -/
theorem out0_B_sum (c : Dev nD) (i : grid0.Coords) (arg1 : Memref sig .tc .vmem S1x56x56x64 .bf16) (harg1 : arg1.IsWhole) (arg2 : Memref sig .tc .vmem S7x448x64 .bf16) (harg2 : arg2.IsWhole) (arg3 : Memref sig .tc .vmem S1x64 .f32) (harg3 : arg3.IsWhole) (arg4 : Memref sig .tc .vmem S1x3136x64 .bf16) (harg4 : arg4.IsWhole) (arg5 : Memref sig .tc .vmem S1x2x64 .f32) (harg5 : arg5.IsWhole) (arg6 : Memref sig .tc .vmem S62x62x64 .bf16) (harg6 : arg6.IsWhole) (arg7 : Memref sig .tc .vmem S3472x448 .bf16) (harg7 : arg7.IsWhole)
    (x0 : Vec Ideal S1x56x56x64 .bf16) (x1 : Vec Ideal S7x448x64 .bf16) (x2 : Vec Ideal S1x64 .f32) (co : Fin 64) :
    out0_B (F := Ideal) c i arg1 harg1 arg2 harg2 arg3 harg3 arg4 harg4 arg5 harg5 arg6 harg6 arg7 harg7 x0 x1 x2 (ix3 (0 : Fin 1) (0 : Fin 2) co)
      = Cert.Spec.colSum (Cert.Spec.conv (img x0) (wmat x1) (bias x2)) co := by
  unfold out0_B
  rw [View.read_writes_eq_canon _ _ _ (cover0_B c i arg1 harg1 arg2 harg2 arg3 harg3 arg4 harg4 arg5 harg5 arg6 harg6 arg7 harg7 x0 x1 x2)]
  unfold kernelRun0
  dsimp only
  rw [View.canon_unit_zero hz3, pay3_row0]
  unfold Cert.Spec.colSum
  exact Finset.sum_congr rfl fun r _ => relu_apply c arg1 harg1 arg2 harg2 arg3 harg3 arg6 arg7 x0 x1 x2 r co

/-- Row 1 of the second output is the column sums of the squares of the first. -/
theorem out0_B_sumsq (c : Dev nD) (i : grid0.Coords) (arg1 : Memref sig .tc .vmem S1x56x56x64 .bf16) (harg1 : arg1.IsWhole) (arg2 : Memref sig .tc .vmem S7x448x64 .bf16) (harg2 : arg2.IsWhole) (arg3 : Memref sig .tc .vmem S1x64 .f32) (harg3 : arg3.IsWhole) (arg4 : Memref sig .tc .vmem S1x3136x64 .bf16) (harg4 : arg4.IsWhole) (arg5 : Memref sig .tc .vmem S1x2x64 .f32) (harg5 : arg5.IsWhole) (arg6 : Memref sig .tc .vmem S62x62x64 .bf16) (harg6 : arg6.IsWhole) (arg7 : Memref sig .tc .vmem S3472x448 .bf16) (harg7 : arg7.IsWhole)
    (x0 : Vec Ideal S1x56x56x64 .bf16) (x1 : Vec Ideal S7x448x64 .bf16) (x2 : Vec Ideal S1x64 .f32) (co : Fin 64) :
    out0_B (F := Ideal) c i arg1 harg1 arg2 harg2 arg3 harg3 arg4 harg4 arg5 harg5 arg6 harg6 arg7 harg7 x0 x1 x2 (ix3 (0 : Fin 1) (1 : Fin 2) co)
      = Cert.Spec.colSumSq (Cert.Spec.conv (img x0) (wmat x1) (bias x2)) co := by
  unfold out0_B
  rw [View.read_writes_eq_canon _ _ _ (cover0_B c i arg1 harg1 arg2 harg2 arg3 harg3 arg4 harg4 arg5 harg5 arg6 harg6 arg7 harg7 x0 x1 x2)]
  unfold kernelRun0
  dsimp only
  rw [View.canon_unit_zero hz3, pay3_row1]
  unfold Cert.Spec.colSumSq
  exact Finset.sum_congr rfl fun r _ => by
    rw [relu_apply c arg1 harg1 arg2 harg2 arg3 harg3 arg6 arg7 x0 x1 x2 r co]

end Cert.KernelIdeal.HandValue

end
-- ==== Proof.StageK0.lean ====
import proofs.«154663_g2000405482023969_pallasbulk_1176_2_alg».proof.Proof.ArrK0
import proofs.«154663_g2000405482023969_pallasbulk_1176_2_alg».proof.Proof.V0KMain
import Idealize.ShloMosaic.Lib.Pipeline.Value
import Idealize.ShloMosaic.Lib.ValueIdx

set_option maxRecDepth 16384

/-!
# pallas_call 0 on the extended reals: the two output arrays from the entry arrays

For any contents of the buffers at region entry: after the 32 grid points the activation array holds, at image `n`,
the 7×7 convolution with bias and positive part of image `n` of the input array, and the column-sum array holds in
its two rows the sums down the columns of that result and the sums of their squares.
-/

noncomputable section

namespace Cert.KernelIdeal.HandValue

open Cert.KernelIdeal Cert.KernelIdeal.Gen Cert.KernelIdeal.GenP Cert.KernelIdeal.Hand
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The point that handles image `n`. -/
def pt0 (n : Fin 32) : Fin cfg0.N := ⟨n.val, lt_N0 n.isLt⟩

/-- What a point's body leaves in its two output buffers, spelled out. -/
theorem outsAt0_fst (c : Dev nD) (t : Fin cfg0.N) : (outsAt0 V c t).1 = out0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) (iblk0 V c 2 t) := by
  unfold outsAt0; dsimp only
theorem outsAt0_snd (c : Dev nD) (t : Fin cfg0.N) : (outsAt0 V c t).2 = out0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) (iblk0 V c 2 t) := by
  unfold outsAt0; dsimp only

/-- The three input blocks at the point of image `n`, read as the specification's arguments: image `n` of the input
    array, the seven weight slabs stacked, the bias by channel. -/
theorem img_iblk0 (c : Dev nD) (n : Fin 32) :
    img (iblk0 V c 0 (pt0 n)) = (fun h w ci => (V c main_v1 : S32x56x56x64.Idx → EReal) (ix4 n h w ci)) := by
  funext h w ci
  exact iblk0_0_apply V c (pt0 n) h w ci
theorem wmat_iblk0 (c : Dev nD) (n : Fin 32) :
    wmat (iblk0 V c 1 (pt0 n)) = (fun t co => (V c main_v3 : S7x448x64.Idx → EReal) (ix3 (⟨t.val / 448, by have := t.isLt; omega⟩ : Fin 7) (⟨t.val % 448, Nat.mod_lt _ (by norm_num)⟩ : Fin 448) co)) := by
  rw [iblk0_1_eq]; rfl
theorem bias_iblk0 (c : Dev nD) (n : Fin 32) :
    bias (iblk0 V c 2 (pt0 n)) = (fun co => (V c main_v6 : S1x64.Idx → EReal) (ix2 (0 : Fin 1) co)) := by
  rw [iblk0_2_eq]; rfl

/-- The activation array after pallas_call 0 is the convolution of each image. -/
theorem stage0_Y (c : Dev nD) (n : Fin 32) (r : Fin 3136) (co : Fin 64) :
    ((dat0 (F := Ideal) V c).arrAt 3 cfg0.N : S32x3136x64.Idx → EReal) (ix3 n r co)
      = Cert.Spec.conv (fun h w ci => (V c main_v1 : S32x56x56x64.Idx → EReal) (ix4 n h w ci))
          (fun t co => (V c main_v3 : S7x448x64.Idx → EReal) (ix3 (⟨t.val / 448, by have := t.isLt; omega⟩ : Fin 7) (⟨t.val % 448, Nat.mod_lt _ (by norm_num)⟩ : Fin 448) co))
          (fun co => (V c main_v6 : S1x64.Idx → EReal) (ix2 (0 : Fin 1) co)) r co := by
  rw [arrAt0_3, arr0_3_of V c (pt0 n) r co (ix3 n r co) rfl rfl rfl, outsAt0_fst,
    out0_A_apply c (grid0.coords (pt0 n)) (ms0_0 (pt0 n)) (hs0_0 (pt0 n)) (ms0_1 (pt0 n)) (hs0_1 (pt0 n)) (ms0_2 (pt0 n)) (hs0_2 (pt0 n)) (ms0_3 (pt0 n)) (hs0_3 (pt0 n)) (ms0_4 (pt0 n)) (hs0_4 (pt0 n)) scM0_0 (Memref.isWhole_whole _) scM0_1 (Memref.isWhole_whole _) (iblk0 V c 0 (pt0 n)) (iblk0 V c 1 (pt0 n)) (iblk0 V c 2 (pt0 n)) r co,
    img_iblk0 V c n, wmat_iblk0 V c n, bias_iblk0 V c n]

/-- Row 0 of the column-sum array is each image's column sums, -/
theorem stage0_S0 (c : Dev nD) (n : Fin 32) (co : Fin 64) :
    ((dat0 (F := Ideal) V c).arrAt 4 cfg0.N : S32x2x64.Idx → EReal) (ix3 n (0 : Fin 2) co)
      = Cert.Spec.colSum (Cert.Spec.conv (fun h w ci => (V c main_v1 : S32x56x56x64.Idx → EReal) (ix4 n h w ci))
          (fun t co => (V c main_v3 : S7x448x64.Idx → EReal) (ix3 (⟨t.val / 448, by have := t.isLt; omega⟩ : Fin 7) (⟨t.val % 448, Nat.mod_lt _ (by norm_num)⟩ : Fin 448) co))
          (fun co => (V c main_v6 : S1x64.Idx → EReal) (ix2 (0 : Fin 1) co))) co := by
  rw [arrAt0_4, arr0_4_of V c (pt0 n) (0 : Fin 2) co (ix3 n (0 : Fin 2) co) rfl rfl rfl, outsAt0_snd,
    out0_B_sum c (grid0.coords (pt0 n)) (ms0_0 (pt0 n)) (hs0_0 (pt0 n)) (ms0_1 (pt0 n)) (hs0_1 (pt0 n)) (ms0_2 (pt0 n)) (hs0_2 (pt0 n)) (ms0_3 (pt0 n)) (hs0_3 (pt0 n)) (ms0_4 (pt0 n)) (hs0_4 (pt0 n)) scM0_0 (Memref.isWhole_whole _) scM0_1 (Memref.isWhole_whole _) (iblk0 V c 0 (pt0 n)) (iblk0 V c 1 (pt0 n)) (iblk0 V c 2 (pt0 n)) co,
    img_iblk0 V c n, wmat_iblk0 V c n, bias_iblk0 V c n]

/-- and row 1 the column sums of the squares. -/
theorem stage0_S1 (c : Dev nD) (n : Fin 32) (co : Fin 64) :
    ((dat0 (F := Ideal) V c).arrAt 4 cfg0.N : S32x2x64.Idx → EReal) (ix3 n (1 : Fin 2) co)
      = Cert.Spec.colSumSq (Cert.Spec.conv (fun h w ci => (V c main_v1 : S32x56x56x64.Idx → EReal) (ix4 n h w ci))
          (fun t co => (V c main_v3 : S7x448x64.Idx → EReal) (ix3 (⟨t.val / 448, by have := t.isLt; omega⟩ : Fin 7) (⟨t.val % 448, Nat.mod_lt _ (by norm_num)⟩ : Fin 448) co))
          (fun co => (V c main_v6 : S1x64.Idx → EReal) (ix2 (0 : Fin 1) co))) co := by
  rw [arrAt0_4, arr0_4_of V c (pt0 n) (1 : Fin 2) co (ix3 n (1 : Fin 2) co) rfl rfl rfl, outsAt0_snd,
    out0_B_sumsq c (grid0.coords (pt0 n)) (ms0_0 (pt0 n)) (hs0_0 (pt0 n)) (ms0_1 (pt0 n)) (hs0_1 (pt0 n)) (ms0_2 (pt0 n)) (hs0_2 (pt0 n)) (ms0_3 (pt0 n)) (hs0_3 (pt0 n)) (ms0_4 (pt0 n)) (hs0_4 (pt0 n)) scM0_0 (Memref.isWhole_whole _) scM0_1 (Memref.isWhole_whole _) (iblk0 V c 0 (pt0 n)) (iblk0 V c 1 (pt0 n)) (iblk0 V c 2 (pt0 n)) co,
    img_iblk0 V c n, wmat_iblk0 V c n, bias_iblk0 V c n]

end Cert.KernelIdeal.HandValue

end
-- ==== Proof.ArrK1.lean ====
import proofs.«154663_g2000405482023969_pallasbulk_1176_2_alg».proof.Proof.DataKernelIdeal
import Idealize.ShloMosaic.Lib.Pipeline.Value
import Idealize.ShloMosaic.Lib.ValueIdx

set_option maxRecDepth 16384

/-!
# pallas_call 1: whole arrays and blocks

At an arbitrary valuation `V` of the buffers at region entry: the activation window's block at grid point `t` is
image `t` of the activation array; the scale, shift, filter and bias windows are their whole arrays at every point;
after the 32 points the pooled array and the column-sum array hold, image by image, what each point's body stored.
-/

noncomputable section

namespace Cert.KernelIdeal.HandValue

open Cert.KernelIdeal Cert.KernelIdeal.Gen Cert.KernelIdeal.GenP Cert.KernelIdeal.Hand
open Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-- The grid has 32 points. -/
theorem lt32_1 (t : Fin cfg1.N) : t.val < 32 := by have h := t.isLt; have e : cfg1.N = 32 := N_1; omega
theorem lt_N1 {n : Nat} (h : n < 32) : n < cfg1.N := by have e : cfg1.N = 32 := N_1; omega

/-! ## The input windows -/

/-- Window 0's block index at point `t` is `t` on the image axis and zero on the others. -/
theorem index1_0 : ∀ t : Fin cfg1.N, win1_0.index t (0 : Fin 3) = t.val ∧ win1_0.index t (1 : Fin 3) = 0 ∧ win1_0.index t (2 : Fin 3) = 0 :=
  (by decide +kernel : ∀ t : Fin grid1.N, _)

/-- The activation window: point `t` reads image `t`. -/
theorem iblk1_0_apply (c : Dev nD) (t : Fin cfg1.N) (x1 : Fin 3136) (x2 : Fin 64) :
    iblk1 V c 0 t (ix3 0 x1 x2) = (V c main_v8_0 : S32x3136x64.Idx → Elt F .bf16) (ix3 ⟨t.val, lt32_1 t⟩ x1 x2) := by
  obtain ⟨e0, e1, e2⟩ := index1_0 t
  unfold iblk1
  rw [View.read_apply]
  show V c main_v8_0 _ = V c main_v8_0 _
  congr 1
  funext a
  apply Fin.ext
  match a with
  | ⟨0, _⟩ => show win1_0.index t (0 : Fin 3) * 1 + 1 * 0 = t.val; omega
  | ⟨1, _⟩ => show win1_0.index t (1 : Fin 3) * 3136 + 1 * x1.val = x1.val; omega
  | ⟨2, _⟩ => show win1_0.index t (2 : Fin 3) * 64 + 1 * x2.val = x2.val; omega

/-- Window 1's block index is zero on every axis at every point. -/
theorem index1_1 : ∀ t : Fin cfg1.N, win1_1.index t (0 : Fin 2) = 0 ∧ win1_1.index t (1 : Fin 2) = 0 :=
  (by decide +kernel : ∀ t : Fin grid1.N, _)

/-- The scale row is read whole at every point. -/
theorem iblk1_1_eq (c : Dev nD) (t : Fin cfg1.N) :
    (iblk1 V c 1 t : S1x64.Idx → Elt F .f32) = (V c main_v28 : S1x64.Idx → Elt F .f32) := by
  obtain ⟨e0, e1⟩ := index1_1 t
  funext y
  unfold iblk1
  rw [View.read_apply]
  show V c main_v28 _ = V c main_v28 _
  congr 1
  funext a
  apply Fin.ext
  match a with
  | ⟨0, _⟩ => show win1_1.index t (0 : Fin 2) * 1 + 1 * (y 0).val = (y 0).val; omega
  | ⟨1, _⟩ => show win1_1.index t (1 : Fin 2) * 64 + 1 * (y 1).val = (y 1).val; omega

/-- Window 2's block index is zero on every axis at every point. -/
theorem index1_2 : ∀ t : Fin cfg1.N, win1_2.index t (0 : Fin 2) = 0 ∧ win1_2.index t (1 : Fin 2) = 0 :=
  (by decide +kernel : ∀ t : Fin grid1.N, _)

/-- The shift row is read whole at every point. -/
theorem iblk1_2_eq (c : Dev nD) (t : Fin cfg1.N) :
    (iblk1 V c 2 t : S1x64.Idx → Elt F .f32) = (V c main_v29 : S1x64.Idx → Elt F .f32) := by
  obtain ⟨e0, e1⟩ := index1_2 t
  funext y
  unfold iblk1
  rw [View.read_apply]
  show V c main_v29 _ = V c main_v29 _
  congr 1
  funext a
  apply Fin.ext
  match a with
  | ⟨0, _⟩ => show win1_2.index t (0 : Fin 2) * 1 + 1 * (y 0).val = (y 0).val; omega
  | ⟨1, _⟩ => show win1_2.index t (1 : Fin 2) * 64 + 1 * (y 1).val = (y 1).val; omega

/-- Window 3's block index is zero on every axis at every point. -/
theorem index1_3 : ∀ t : Fin cfg1.N, win1_3.index t (0 : Fin 3) = 0 ∧ win1_3.index t (1 : Fin 3) = 0 ∧ win1_3.index t (2 : Fin 3) = 0 :=
  (by decide +kernel : ∀ t : Fin grid1.N, _)

/-- The filter array is read whole at every point. -/
theorem iblk1_3_eq (c : Dev nD) (t : Fin cfg1.N) :
    (iblk1 V c 3 t : S7x448x64.Idx → Elt F .bf16) = (V c main_v5 : S7x448x64.Idx → Elt F .bf16) := by
  obtain ⟨e0, e1, e2⟩ := index1_3 t
  funext y
  unfold iblk1
  rw [View.read_apply]
  show V c main_v5 _ = V c main_v5 _
  congr 1
  funext a
  apply Fin.ext
  match a with
  | ⟨0, _⟩ => show win1_3.index t (0 : Fin 3) * 7 + 1 * (y 0).val = (y 0).val; omega
  | ⟨1, _⟩ => show win1_3.index t (1 : Fin 3) * 448 + 1 * (y 1).val = (y 1).val; omega
  | ⟨2, _⟩ => show win1_3.index t (2 : Fin 3) * 64 + 1 * (y 2).val = (y 2).val; omega

/-- Window 4's block index is zero on every axis at every point. -/
theorem index1_4 : ∀ t : Fin cfg1.N, win1_4.index t (0 : Fin 2) = 0 ∧ win1_4.index t (1 : Fin 2) = 0 :=
  (by decide +kernel : ∀ t : Fin grid1.N, _)

/-- The bias row is read whole at every point. -/
theorem iblk1_4_eq (c : Dev nD) (t : Fin cfg1.N) :
    (iblk1 V c 4 t : S1x64.Idx → Elt F .f32) = (V c main_v7 : S1x64.Idx → Elt F .f32) := by
  obtain ⟨e0, e1⟩ := index1_4 t
  funext y
  unfold iblk1
  rw [View.read_apply]
  show V c main_v7 _ = V c main_v7 _
  congr 1
  funext a
  apply Fin.ext
  match a with
  | ⟨0, _⟩ => show win1_4.index t (0 : Fin 2) * 1 + 1 * (y 0).val = (y 0).val; omega
  | ⟨1, _⟩ => show win1_4.index t (1 : Fin 2) * 64 + 1 * (y 1).val = (y 1).val; omega

/-! ## The two output arrays after the region -/

/-- Window 5's block index at point `t` is `t` on the image axis and zero on the others. -/
theorem index1_5 : ∀ t : Fin cfg1.N, win1_5.index t (0 : Fin 3) = t.val ∧ win1_5.index t (1 : Fin 3) = 0 ∧ win1_5.index t (2 : Fin 3) = 0 :=
  (by decide +kernel : ∀ t : Fin grid1.N, _)

/-- The pooled array after the region: image `n`'s part is what point `n` stored. -/
def arr1_5 (c : Dev nD) : S32x784x64.Idx → Elt F .bf16 := fun j =>
  (outsAt1 V c ⟨(j 0).val, lt_N1 (j 0).isLt⟩).1 (ix3 (0 : Fin 1) (⟨(j 1).val, (j 1).isLt⟩ : Fin 784) (⟨(j 2).val, (j 2).isLt⟩ : Fin 64))

/-- The same at an index given by its coordinates' values. -/
theorem arr1_5_of (c : Dev nD) (t : Fin cfg1.N) (r : Fin 784) (co : Fin 64) (j : S32x784x64.Idx)
    (h0 : (j 0).val = t.val) (h1 : (j 1).val = r.val) (h2 : (j 2).val = co.val) :
    arr1_5 V c j = (outsAt1 V c t).1 (ix3 0 r co) := by
  obtain rfl : t = ⟨(j 0).val, lt_N1 (j 0).isLt⟩ := Fin.ext h0.symm
  obtain rfl : r = ⟨(j 1).val, (j 1).isLt⟩ := Fin.ext h1.symm
  obtain rfl : co = ⟨(j 2).val, (j 2).isLt⟩ := Fin.ext h2.symm
  rfl

theorem arr1_5_apply (c : Dev nD) (t : Fin cfg1.N) (r : Fin 784) (co : Fin 64) :
    arr1_5 V c (ix3 ⟨t.val, lt32_1 t⟩ r co) = (outsAt1 V c t).1 (ix3 0 r co) :=
  arr1_5_of V c t r co _ rfl rfl rfl

/-- What point `t` writes back is block `t` of that array. -/
theorem flushed1_5 (c : Dev nD) (t : Fin cfg1.N) :
    (dat1 V c).flushed 5 t = ((cfg1.win 5).blk t).view.read (Elt F) (arr1_5 V c) := by
  obtain ⟨e0, e1, e2⟩ := index1_5 t
  show (cfg1.win 5).cut (grid1.coords t) ((dat1 V c).after 5 t) = _
  rw [after1_5]
  funext y
  obtain ⟨y0, r, co, rfl⟩ : ∃ (y0 : Fin 1) (r : Fin 784) (co : Fin 64), y = ix3 y0 r co := ⟨y 0, y 1, y 2, eq_ix3 y⟩
  obtain rfl : y0 = 0 := Subsingleton.elim _ _
  rw [View.read_apply]
  show (outsAt1 V c t).1 _ = arr1_5 V c _
  refine Eq.trans (congrArg _ ?_) (arr1_5_of V c t r co _ ?_ ?_ ?_).symm
  · funext a
    match a with
    | ⟨0, _⟩ => rfl
    | ⟨1, _⟩ => rfl
    | ⟨2, _⟩ => rfl
  · show win1_5.index t (0 : Fin 3) * 1 + 1 * 0 = t.val; omega
  · show win1_5.index t (1 : Fin 3) * 784 + 1 * r.val = r.val; omega
  · show win1_5.index t (2 : Fin 3) * 64 + 1 * co.val = co.val; omega

/-- An index of the array is in point `t`'s block iff each coordinate is in the block's range on its axis. -/
theorem mem_blk1_5 (t : Fin cfg1.N) (i : S32x784x64.Idx) :
    i ∈ ((cfg1.win 5).blk t).view.set ↔ ∀ a : Fin 3, win1_5.index t a * S1x784x64.size a ≤ (i a).val ∧ (i a).val < win1_5.index t a * S1x784x64.size a + S1x784x64.size a := by
  show i ∈ ((View.whole main_v30_0).slice (win1_5.rect t)).set ↔ _
  rw [View.set_slice_whole, Rect.mem_set_unit]
  exact Iff.rfl

/-- Every index of the array is in the block of the point numbered by its image coordinate. -/
theorem cover1_5 (i : S32x784x64.Idx) : ∃ t : Fin cfg1.N, (cfg1.win 5).flush t = true ∧ i ∈ ((cfg1.win 5).blk t).view.set := by
  have hi0 : (i 0).val < 32 := (i 0).isLt
  have hi1 : (i 1).val < 784 := (i 1).isLt
  have hi2 : (i 2).val < 64 := (i 2).isLt
  refine ⟨⟨(i 0).val, lt_N1 hi0⟩, flush1_5 _, ?_⟩
  obtain ⟨e0, e1, e2⟩ := index1_5 ⟨(i 0).val, lt_N1 hi0⟩
  rw [mem_blk1_5]
  intro a
  match a with
  | ⟨0, _⟩ => show win1_5.index ⟨(i 0).val, lt_N1 hi0⟩ (0 : Fin 3) * 1 ≤ (i 0).val ∧ (i 0).val < win1_5.index ⟨(i 0).val, lt_N1 hi0⟩ (0 : Fin 3) * 1 + 1; simp only [e0]; omega
  | ⟨1, _⟩ => show win1_5.index ⟨(i 0).val, lt_N1 hi0⟩ (1 : Fin 3) * 784 ≤ (i 1).val ∧ (i 1).val < win1_5.index ⟨(i 0).val, lt_N1 hi0⟩ (1 : Fin 3) * 784 + 784; omega
  | ⟨2, _⟩ => show win1_5.index ⟨(i 0).val, lt_N1 hi0⟩ (2 : Fin 3) * 64 ≤ (i 2).val ∧ (i 2).val < win1_5.index ⟨(i 0).val, lt_N1 hi0⟩ (2 : Fin 3) * 64 + 64; omega

/-- The pooled array after the whole grid. -/
theorem arrAt1_5 (c : Dev nD) : (dat1 V c).arrAt 5 cfg1.N = arr1_5 V c :=
  (dat1 V c).arrAt_eq_of_cover 5 (arr1_5 V c) (fun t _ => flushed1_5 V c t) cover1_5

/-- Window 6's block index at point `t` is `t` on the image axis and zero on the others. -/
theorem index1_6 : ∀ t : Fin cfg1.N, win1_6.index t (0 : Fin 3) = t.val ∧ win1_6.index t (1 : Fin 3) = 0 ∧ win1_6.index t (2 : Fin 3) = 0 :=
  (by decide +kernel : ∀ t : Fin grid1.N, _)

/-- The column-sum array after the region: image `n`'s part is what point `n` stored. -/
def arr1_6 (c : Dev nD) : S32x2x64.Idx → Elt F .f32 := fun j =>
  (outsAt1 V c ⟨(j 0).val, lt_N1 (j 0).isLt⟩).2 (ix3 (0 : Fin 1) (⟨(j 1).val, (j 1).isLt⟩ : Fin 2) (⟨(j 2).val, (j 2).isLt⟩ : Fin 64))

/-- The same at an index given by its coordinates' values. -/
theorem arr1_6_of (c : Dev nD) (t : Fin cfg1.N) (k : Fin 2) (co : Fin 64) (j : S32x2x64.Idx)
    (h0 : (j 0).val = t.val) (h1 : (j 1).val = k.val) (h2 : (j 2).val = co.val) :
    arr1_6 V c j = (outsAt1 V c t).2 (ix3 0 k co) := by
  obtain rfl : t = ⟨(j 0).val, lt_N1 (j 0).isLt⟩ := Fin.ext h0.symm
  obtain rfl : k = ⟨(j 1).val, (j 1).isLt⟩ := Fin.ext h1.symm
  obtain rfl : co = ⟨(j 2).val, (j 2).isLt⟩ := Fin.ext h2.symm
  rfl

theorem arr1_6_apply (c : Dev nD) (t : Fin cfg1.N) (k : Fin 2) (co : Fin 64) :
    arr1_6 V c (ix3 ⟨t.val, lt32_1 t⟩ k co) = (outsAt1 V c t).2 (ix3 0 k co) :=
  arr1_6_of V c t k co _ rfl rfl rfl

/-- What point `t` writes back is block `t` of that array. -/
theorem flushed1_6 (c : Dev nD) (t : Fin cfg1.N) :
    (dat1 V c).flushed 6 t = ((cfg1.win 6).blk t).view.read (Elt F) (arr1_6 V c) := by
  obtain ⟨e0, e1, e2⟩ := index1_6 t
  show (cfg1.win 6).cut (grid1.coords t) ((dat1 V c).after 6 t) = _
  rw [after1_6]
  funext y
  obtain ⟨y0, k, co, rfl⟩ : ∃ (y0 : Fin 1) (k : Fin 2) (co : Fin 64), y = ix3 y0 k co := ⟨y 0, y 1, y 2, eq_ix3 y⟩
  obtain rfl : y0 = 0 := Subsingleton.elim _ _
  rw [View.read_apply]
  show (outsAt1 V c t).2 _ = arr1_6 V c _
  refine Eq.trans (congrArg _ ?_) (arr1_6_of V c t k co _ ?_ ?_ ?_).symm
  · funext a
    match a with
    | ⟨0, _⟩ => rfl
    | ⟨1, _⟩ => rfl
    | ⟨2, _⟩ => rfl
  · show win1_6.index t (0 : Fin 3) * 1 + 1 * 0 = t.val; omega
  · show win1_6.index t (1 : Fin 3) * 2 + 1 * k.val = k.val; omega
  · show win1_6.index t (2 : Fin 3) * 64 + 1 * co.val = co.val; omega

/-- An index of the array is in point `t`'s block iff each coordinate is in the block's range on its axis. -/
theorem mem_blk1_6 (t : Fin cfg1.N) (i : S32x2x64.Idx) :
    i ∈ ((cfg1.win 6).blk t).view.set ↔ ∀ a : Fin 3, win1_6.index t a * S1x2x64.size a ≤ (i a).val ∧ (i a).val < win1_6.index t a * S1x2x64.size a + S1x2x64.size a := by
  show i ∈ ((View.whole main_v30_1).slice (win1_6.rect t)).set ↔ _
  rw [View.set_slice_whole, Rect.mem_set_unit]
  exact Iff.rfl

/-- Every index of the array is in the block of the point numbered by its image coordinate. -/
theorem cover1_6 (i : S32x2x64.Idx) : ∃ t : Fin cfg1.N, (cfg1.win 6).flush t = true ∧ i ∈ ((cfg1.win 6).blk t).view.set := by
  have hi0 : (i 0).val < 32 := (i 0).isLt
  have hi1 : (i 1).val < 2 := (i 1).isLt
  have hi2 : (i 2).val < 64 := (i 2).isLt
  refine ⟨⟨(i 0).val, lt_N1 hi0⟩, flush1_6 _, ?_⟩
  obtain ⟨e0, e1, e2⟩ := index1_6 ⟨(i 0).val, lt_N1 hi0⟩
  rw [mem_blk1_6]
  intro a
  match a with
  | ⟨0, _⟩ => show win1_6.index ⟨(i 0).val, lt_N1 hi0⟩ (0 : Fin 3) * 1 ≤ (i 0).val ∧ (i 0).val < win1_6.index ⟨(i 0).val, lt_N1 hi0⟩ (0 : Fin 3) * 1 + 1; simp only [e0]; omega
  | ⟨1, _⟩ => show win1_6.index ⟨(i 0).val, lt_N1 hi0⟩ (1 : Fin 3) * 2 ≤ (i 1).val ∧ (i 1).val < win1_6.index ⟨(i 0).val, lt_N1 hi0⟩ (1 : Fin 3) * 2 + 2; omega
  | ⟨2, _⟩ => show win1_6.index ⟨(i 0).val, lt_N1 hi0⟩ (2 : Fin 3) * 64 ≤ (i 2).val ∧ (i 2).val < win1_6.index ⟨(i 0).val, lt_N1 hi0⟩ (2 : Fin 3) * 64 + 64; omega

/-- The column-sum array after the whole grid. -/
theorem arrAt1_6 (c : Dev nD) : (dat1 V c).arrAt 6 cfg1.N = arr1_6 V c :=
  (dat1 V c).arrAt_eq_of_cover 6 (arr1_6 V c) (fun t _ => flushed1_6 V c t) cover1_6

end Cert.KernelIdeal.HandValue

end
-- ==== Proof.V1KDefs.lean ====
import proofs.«154663_g2000405482023969_pallasbulk_1176_2_alg».proof.Proof.Body1KernelIdeal
import proofs.«154663_g2000405482023969_pallasbulk_1176_2_alg».proof.Proof.V0KDefs
import proofs.«154663_g2000405482023969_pallasbulk_1176_2_alg».proof.Proof.Spec

set_option maxRecDepth 16384

/-!
# pallas_call 1 of the kernel: its operands as functions on the extended reals, and the second stage

The stage-1 block is read by row and channel; the scale, shift and bias rows by channel; the weights are stacked as in
pallas_call 0. The second stage applies the per-channel affine map, views the result as a 56 × 56 image, convolves it
with bias and positive part, and takes the 2×2 maximum.
-/

noncomputable section

namespace Cert.KernelIdeal.HandValue

open Cert.KernelIdeal
open Idealize.ShloMosaic Idealize.ShloMosaic.ValueIdx

/-- The stage-1 block as a function of row and channel. -/
def rows (x0 : Vec Ideal S1x3136x64 .bf16) : Fin 3136 → Fin 64 → EReal := fun r co => x0 (ix3 (0 : Fin 1) r co)

/-- A 1 × 64 row (scale, shift, bias) as a function of the channel. -/
def row (x : Vec Ideal S1x64 .f32) : Fin 64 → EReal := fun co => x (ix2 (0 : Fin 1) co)

/-- The image pallas_call 1 convolves: the stage-1 block under the per-channel affine map, as a 56 × 56 image. -/
def img1 (x0 : Vec Ideal S1x3136x64 .bf16) (x1 x2 : Vec Ideal S1x64 .f32) : Fin 56 → Fin 56 → Fin 64 → EReal :=
  Cert.Spec.unflat (Cert.Spec.affine (rows x0) (row x1) (row x2))

/-- The second stage: affine map, 7×7 convolution with bias and positive part, 2×2 maximum. -/
def stage2 (x0 : Vec Ideal S1x3136x64 .bf16) (x1 x2 : Vec Ideal S1x64 .f32) (x3 : Vec Ideal S7x448x64 .bf16)
    (x4 : Vec Ideal S1x64 .f32) : Fin 784 → Fin 64 → EReal :=
  Cert.Spec.pool (Cert.Spec.conv (Cert.Spec.unflat (Cert.Spec.affine (rows x0) (row x1) (row x2))) (wmat x3) (row x4))

end Cert.KernelIdeal.HandValue

end
-- ==== Proof.V1KPad.lean ====
import proofs.«154663_g2000405482023969_pallasbulk_1176_2_alg».proof.Proof.V1KDefs
import proofs.«154663_g2000405482023969_pallasbulk_1176_2_alg».proof.Proof.V0KPad

set_option maxRecDepth 16384

/-!
# pallas_call 1 of the kernel: the padded buffer

As in pallas_call 0 the 62 × 62 × 64 buffer is filled with zeros and a 56 × 56 × 64 block is stored into rows and
columns 3 … 58 through the words that contain it. The block is now computed: entry (p, q, ci) is row `p·56 + q` of the
stage-1 block times the scale plus the shift of channel `ci`. So the buffer reads the affine image with a border of
three zeros on each side.
-/

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.Tactic Idealize.ShloMosaic.ValueIdx
open scoped BigOperators

/-- A 1 × 64 row as loaded. -/
theorem rowLoad_eq (arg : Memref sig .tc .vmem S1x64 .f32) (harg : arg.IsWhole) (x : Vec Ideal S1x64 .f32) :
    View.readAt (Elt Ideal) arg.view (Rect.unit (s := S1x64) ![0, 0] S1x64.size inb_S1x64_S1x64_0_0).toLoadRect
      (harg.unread x) = x := by
  rw [View.readAt_eq_ld, harg.read_unread, View.ld_unit_zero (S := S1x64) (funext fun a => by fin_cases a <;> rfl)]

/-- The stage-1 block as loaded. -/
theorem rowsLoad_eq (arg1 : Memref sig .tc .vmem S1x3136x64 .bf16) (harg1 : arg1.IsWhole) (x0 : Vec Ideal S1x3136x64 .bf16) :
    View.readAt (Elt Ideal) arg1.view (Rect.unit (s := S1x3136x64) ![0, 0, 0] S1x3136x64.size inb_S1x3136x64_S1x3136x64_0_0_0).toLoadRect
      (harg1.unread x0) = x0 := by
  rw [View.readAt_eq_ld, harg1.read_unread, View.ld_unit_zero (S := S1x3136x64) hz3]

/-- The zero block the buffer is first filled with reads zero everywhere. -/
theorem zeroBlock1_apply (y : S62x62x64.Idx) : k1_pay1 (F := Ideal) y = 0 := by
  unfold k1_pay1
  rw [shapeCast_self]
  exact Ideal.ofBits_zero_bf16

/-- The block stored into the interior: entry (p, q, ci) is row `p·56 + q` of the stage-1 block under the affine map. -/
theorem affineBlock_apply (X : Vec Ideal S1x3136x64 .bf16) (S T : Vec Ideal S1x64 .f32) (p q : Fin 56) (ci : Fin 64) :
    k1_pay2 (F := Ideal) X S T (ix3 p q ci) = img1 X S T p q ci := by
  unfold k1_pay2
  simp only [shapeCast_self]
  have hp := p.isLt
  have hq := q.isLt
  refine (shapeCast_apply _ _ _ (ix2 (⟨p.val * 56 + q.val, by omega⟩ : Fin 3136) ci) ?_).trans ?_
  · rw [Shape.rowMajor_val_three, Shape.rowMajor_val_two]
    rfl
  rw [truncf_apply, addf_apply, mulf_apply, extf_apply,
    broadcastTo_apply S broadcasts_S1x64_S3136x64 (ix2 (⟨p.val * 56 + q.val, by omega⟩ : Fin 3136) ci) (ix2 (0 : Fin 1) ci)
      (fun a => by match a with | ⟨0, _⟩ => rfl | ⟨1, _⟩ => rfl),
    broadcastTo_apply T broadcasts_S1x64_S3136x64 (ix2 (⟨p.val * 56 + q.val, by omega⟩ : Fin 3136) ci) (ix2 (0 : Fin 1) ci)
      (fun a => by match a with | ⟨0, _⟩ => rfl | ⟨1, _⟩ => rfl)]
  refine congrArg (fun t => t * S (ix2 (0 : Fin 1) ci) + T (ix2 (0 : Fin 1) ci)) ?_
  refine (shapeCast_apply _ _ _ (ix3 (0 : Fin 1) (⟨p.val * 56 + q.val, by omega⟩ : Fin 3136) ci) ?_).trans rfl
  rw [Shape.rowMajor_val_three, Shape.rowMajor_val_two]
  show ((0 : ℕ) * 3136 + (p.val * 56 + q.val)) * 64 + ci.val = (p.val * 56 + q.val) * 64 + ci.val
  omega

/-- What the zero fill left under the box of stored words. -/
theorem oldWords1_apply (c : Dev nD) (arg8 : Memref sig .tc .vmem S62x62x64 .bf16) (y : S56x58x64.Idx) :
    kernelRun1.sl.old (F := Ideal) c arg8 y = 0 := by
  unfold kernelRun1.sl.old kernelRun1.sl.HS0_1
  rw [View.readCov_eq_canon']
  show View.canon _ _ = 0
  rw [View.canon_unit_zero hz3]
  exact zeroBlock1_apply _

/-- The padded buffer of pallas_call 1 after the zero fill and the interior store: the affine image with a border of
    three zeros on each side. -/
theorem padBuf1_apply (c : Dev nD) (arg1 : Memref sig .tc .vmem S1x3136x64 .bf16) (harg1 : arg1.IsWhole) (arg2 : Memref sig .tc .vmem S1x64 .f32) (harg2 : arg2.IsWhole) (arg3 : Memref sig .tc .vmem S1x64 .f32) (harg3 : arg3.IsWhole) (arg8 : Memref sig .tc .vmem S62x62x64 .bf16) (x0 : Vec Ideal S1x3136x64 .bf16) (x1 : Vec Ideal S1x64 .f32) (x2 : Vec Ideal S1x64 .f32) (a b : Fin 62) (ci : Fin 64) :
    View.canon (kernelRun1.sl.HS0_2 (F := Ideal) c arg1 harg1 arg2 harg2 arg3 harg3 arg8 x0 x1 x2) (ix3 a b ci)
      = Cert.Spec.padded (img1 x0 x1 x2) a.val b.val ci := by
  unfold kernelRun1.sl.HS0_2 kernelRun1.sl.HS0_1
  rw [rowsLoad_eq, rowLoad_eq, rowLoad_eq]
  unfold Cert.Spec.padded
  by_cases hbox : (3 ≤ a.val ∧ a.val < 59) ∧ (2 ≤ b.val ∧ b.val < 60)
  · have he : (Rect.unit (s := S62x62x64) ![3, 2, 0] S56x58x64.size inb_S62x62x64_S56x58x64_3_2_0).emb
        (ix3 (⟨a.val - 3, by omega⟩ : Fin 56) (⟨b.val - 2, by omega⟩ : Fin 58) ci) = ix3 a b ci := by
      funext d; apply Fin.ext
      match d with
      | ⟨0, _⟩ => show 3 + 1 * (a.val - 3) = a.val; omega
      | ⟨1, _⟩ => show 2 + 1 * (b.val - 2) = b.val; omega
      | ⟨2, _⟩ => show 0 + 1 * ci.val = ci.val; omega
    rw [← he, View.canon_cons_emb]
    refine (updateSlice_col1_apply _ _ _ _ _).trans ?_
    by_cases hb : 3 ≤ b.val ∧ b.val < 59
    · rw [dif_pos (show 1 ≤ b.val - 2 ∧ b.val - 2 < 57 by omega), dif_pos ⟨hbox.1, hb⟩, affineBlock_apply]
      have hq : (⟨b.val - 2 - 1, by omega⟩ : Fin 56) = ⟨b.val - 3, by omega⟩ := Fin.ext (by show b.val - 2 - 1 = b.val - 3; omega)
      rw [hq]
    · rw [dif_neg (show ¬(1 ≤ b.val - 2 ∧ b.val - 2 < 57) by omega), dif_neg (fun h => hb h.2)]
      exact oldWords1_apply c arg8 _
  · rw [dif_neg (fun h => hbox ⟨h.1, ⟨by omega, by omega⟩⟩)]
    refine (View.canon_cons_of_not_mem _ _ ?_).trans ?_
    · intro hm
      have hm' : ix3 a b ci ∈ (Rect.unit (s := S62x62x64) ![3, 2, 0] S56x58x64.size inb_S62x62x64_S56x58x64_3_2_0).set := hm
      rw [Rect.mem_set_unit] at hm'
      have h0 := hm' ⟨0, by decide⟩
      have h1 := hm' ⟨1, by decide⟩
      change 3 ≤ a.val ∧ a.val < 3 + 56 at h0
      change 2 ≤ b.val ∧ b.val < 2 + 58 at h1
      exact hbox ⟨⟨h0.1, by omega⟩, ⟨h1.1, by omega⟩⟩
    · rw [View.canon_unit_zero hz3]
      exact zeroBlock1_apply _

end Cert.KernelIdeal.HandValue

end
-- ==== Proof.V1KPatch.lean ====
import proofs.«154663_g2000405482023969_pallasbulk_1176_2_alg».proof.Proof.V1KPad
import proofs.«154663_g2000405482023969_pallasbulk_1176_2_alg».proof.Proof.V0KPatch

set_option maxRecDepth 16384

/-!
# pallas_call 1 of the kernel: the patch buffer

The same seven column slabs as in pallas_call 0, cut out of the padded affine image: the patch buffer's entry
(row, col) is that padded image at row `row / 56`, column `row % 56 + col / 64`, channel `col % 64`, and its rows
kh·56 … kh·56 + 3135 are the columns kh·448 … kh·448 + 447 of the patch matrix of the affine image.
-/

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.Tactic Idealize.ShloMosaic.ValueIdx
open scoped BigOperators

/-- The seven flattenings of pallas_call 1 are the flattening of pallas_call 0. -/
theorem pay1_3_eq (v : Vec Ideal S62x56x64 .bf16) : k1_pay3 (F := Ideal) v = k0_pay6 (F := Ideal) v := rfl
theorem pay1_4_eq (v : Vec Ideal S62x56x64 .bf16) : k1_pay4 (F := Ideal) v = k0_pay6 (F := Ideal) v := rfl
theorem pay1_5_eq (v : Vec Ideal S62x56x64 .bf16) : k1_pay5 (F := Ideal) v = k0_pay6 (F := Ideal) v := rfl
theorem pay1_6_eq (v : Vec Ideal S62x56x64 .bf16) : k1_pay6 (F := Ideal) v = k0_pay6 (F := Ideal) v := rfl
theorem pay1_7_eq (v : Vec Ideal S62x56x64 .bf16) : k1_pay7 (F := Ideal) v = k0_pay6 (F := Ideal) v := rfl
theorem pay1_8_eq (v : Vec Ideal S62x56x64 .bf16) : k1_pay8 (F := Ideal) v = k0_pay6 (F := Ideal) v := rfl
theorem pay1_9_eq (v : Vec Ideal S62x56x64 .bf16) : k1_pay9 (F := Ideal) v = k0_pay6 (F := Ideal) v := rfl
/-- Each of the seven column slabs stored into the patch buffer is a block of that one function: slab `kw` sits at
    columns `kw·64 … kw·64 + 63` and carries the padded buffer's columns `kw … kw + 55`, flattened. -/
theorem slab_piece1 (c : Dev nD) (arg1 : Memref sig .tc .vmem S1x3136x64 .bf16) (harg1 : arg1.IsWhole) (arg2 : Memref sig .tc .vmem S1x64 .f32) (harg2 : arg2.IsWhole) (arg3 : Memref sig .tc .vmem S1x64 .f32) (harg3 : arg3.IsWhole) (arg8 : Memref sig .tc .vmem S62x62x64 .bf16) (x0 : Vec Ideal S1x3136x64 .bf16) (x1 : Vec Ideal S1x64 .f32) (x2 : Vec Ideal S1x64 .f32)
    (kw : ℕ) (hkw : kw ≤ 6) (o : ℕ) (ho : o = kw * 64)
    (inb6 : ∀ d, (![0, kw, 0] : Fin 3 → ℕ) d + S62x56x64.size d ≤ S62x62x64.size d)
    (inb7 : ∀ d, (![0, o] : Fin 2 → ℕ) d + S3472x64.size d ≤ S3472x448.size d) (x : S3472x64.Idx) :
    k0_pay6 (F := Ideal) (arg8.view.readCov (kernelRun1.sl.HS0_2 (F := Ideal) c arg1 harg1 arg2 harg2 arg3 harg3 arg8 x0 x1 x2)
        (Rect.unit (s := S62x62x64) ![0, kw, 0] S62x56x64.size inb6).toLoadRect) x
      = patchG (img1 x0 x1 x2) ((Rect.unit (s := S3472x448) ![0, o] S3472x64.size inb7).emb x) := by
  subst ho
  obtain ⟨row, ci, rfl⟩ : ∃ (row : Fin 3472) (ci : Fin 64), x = ix2 row ci := ⟨x 0, x 1, eq_ix2 x⟩
  rw [flatten_apply, colWindow_apply arg8 _ kw hkw, padBuf1_apply]
  unfold patchG
  have e0 : (((Rect.unit (s := S3472x448) ![0, kw * 64] S3472x64.size inb7).emb (ix2 row ci)) 0).val = row.val := by
    show 0 + 1 * row.val = row.val; omega
  have e1 : (((Rect.unit (s := S3472x448) ![0, kw * 64] S3472x64.size inb7).emb (ix2 row ci)) 1).val = kw * 64 + ci.val := by
    show kw * 64 + 1 * ci.val = kw * 64 + ci.val; omega
  have hci := ci.isLt
  congr 1
  · show row.val / 56 = _; rw [e0]
  · show row.val % 56 + kw = _; rw [e0, e1]; omega
  · apply Fin.ext
    show ci.val = (((Rect.unit (s := S3472x448) ![0, kw * 64] S3472x64.size inb7).emb (ix2 row ci)) 1).val % 64
    rw [e1]; omega

/-- Every entry of the patch buffer lies in one of the seven slabs. -/
theorem patchBuf1_cover (c : Dev nD) (arg1 : Memref sig .tc .vmem S1x3136x64 .bf16) (harg1 : arg1.IsWhole) (arg2 : Memref sig .tc .vmem S1x64 .f32) (harg2 : arg2.IsWhole) (arg3 : Memref sig .tc .vmem S1x64 .f32) (harg3 : arg3.IsWhole) (arg8 : Memref sig .tc .vmem S62x62x64 .bf16) (x0 : Vec Ideal S1x3136x64 .bf16) (x1 : Vec Ideal S1x64 .f32) (x2 : Vec Ideal S1x64 .f32) (y : S3472x448.Idx) :
    ∃ p ∈ kernelRun1.sl.HS1_7 (F := Ideal) c arg1 harg1 arg2 harg2 arg3 harg3 arg8 x0 x1 x2, y ∈ p.1.set :=
  View.cover_of_tiledL (kernelRun1.sl.HS1_7 (F := Ideal) c arg1 harg1 arg2 harg2 arg3 harg3 arg8 x0 x1 x2) S3472x64.size (by sl_kernel_rfl) y

/-- The patch buffer after the seven slab stores: entry (row, col) is the padded image at row `row / 56`,
    column `row % 56 + col / 64`, channel `col % 64`. -/
theorem patchBuf1_apply (c : Dev nD) (arg1 : Memref sig .tc .vmem S1x3136x64 .bf16) (harg1 : arg1.IsWhole) (arg2 : Memref sig .tc .vmem S1x64 .f32) (harg2 : arg2.IsWhole) (arg3 : Memref sig .tc .vmem S1x64 .f32) (harg3 : arg3.IsWhole) (arg8 : Memref sig .tc .vmem S62x62x64 .bf16) (x0 : Vec Ideal S1x3136x64 .bf16) (x1 : Vec Ideal S1x64 .f32) (x2 : Vec Ideal S1x64 .f32) (y : S3472x448.Idx) :
    View.canon (kernelRun1.sl.HS1_7 (F := Ideal) c arg1 harg1 arg2 harg2 arg3 harg3 arg8 x0 x1 x2) y = patchG (img1 x0 x1 x2) y := by
  refine View.canon_apply_of_pieces (patchG (img1 x0 x1 x2)) _ ?_ y (patchBuf1_cover c arg1 harg1 arg2 harg2 arg3 harg3 arg8 x0 x1 x2 y)
  intro p hp
  unfold kernelRun1.sl.HS1_7 at hp
  simp only [List.mem_cons, List.mem_nil_iff, or_false] at hp
  rcases hp with rfl | rfl | rfl | rfl | rfl | rfl | rfl
  · intro x
    show k1_pay9 (F := Ideal) (kernelRun1.sl.v50 c arg1 harg1 arg2 harg2 arg3 harg3 arg8 x0 x1 x2) x = patchG (img1 x0 x1 x2) ((Rect.unit (s := S3472x448) ![0, 384] S3472x64.size inb_S3472x448_S3472x64_0_384).emb x)
    rw [pay1_9_eq]
    unfold kernelRun1.sl.v50
    exact slab_piece1 c arg1 harg1 arg2 harg2 arg3 harg3 arg8 x0 x1 x2 6 (by norm_num) 384 (by norm_num) inb_S62x62x64_S62x56x64_0_6_0 inb_S3472x448_S3472x64_0_384 x
  · intro x
    show k1_pay8 (F := Ideal) (kernelRun1.sl.v45 c arg1 harg1 arg2 harg2 arg3 harg3 arg8 x0 x1 x2) x = patchG (img1 x0 x1 x2) ((Rect.unit (s := S3472x448) ![0, 320] S3472x64.size inb_S3472x448_S3472x64_0_320).emb x)
    rw [pay1_8_eq]
    unfold kernelRun1.sl.v45
    exact slab_piece1 c arg1 harg1 arg2 harg2 arg3 harg3 arg8 x0 x1 x2 5 (by norm_num) 320 (by norm_num) inb_S62x62x64_S62x56x64_0_5_0 inb_S3472x448_S3472x64_0_320 x
  · intro x
    show k1_pay7 (F := Ideal) (kernelRun1.sl.v40 c arg1 harg1 arg2 harg2 arg3 harg3 arg8 x0 x1 x2) x = patchG (img1 x0 x1 x2) ((Rect.unit (s := S3472x448) ![0, 256] S3472x64.size inb_S3472x448_S3472x64_0_256).emb x)
    rw [pay1_7_eq]
    unfold kernelRun1.sl.v40
    exact slab_piece1 c arg1 harg1 arg2 harg2 arg3 harg3 arg8 x0 x1 x2 4 (by norm_num) 256 (by norm_num) inb_S62x62x64_S62x56x64_0_4_0 inb_S3472x448_S3472x64_0_256 x
  · intro x
    show k1_pay6 (F := Ideal) (kernelRun1.sl.v35 c arg1 harg1 arg2 harg2 arg3 harg3 arg8 x0 x1 x2) x = patchG (img1 x0 x1 x2) ((Rect.unit (s := S3472x448) ![0, 192] S3472x64.size inb_S3472x448_S3472x64_0_192).emb x)
    rw [pay1_6_eq]
    unfold kernelRun1.sl.v35
    exact slab_piece1 c arg1 harg1 arg2 harg2 arg3 harg3 arg8 x0 x1 x2 3 (by norm_num) 192 (by norm_num) inb_S62x62x64_S62x56x64_0_3_0 inb_S3472x448_S3472x64_0_192 x
  · intro x
    show k1_pay5 (F := Ideal) (kernelRun1.sl.v30 c arg1 harg1 arg2 harg2 arg3 harg3 arg8 x0 x1 x2) x = patchG (img1 x0 x1 x2) ((Rect.unit (s := S3472x448) ![0, 128] S3472x64.size inb_S3472x448_S3472x64_0_128).emb x)
    rw [pay1_5_eq]
    unfold kernelRun1.sl.v30
    exact slab_piece1 c arg1 harg1 arg2 harg2 arg3 harg3 arg8 x0 x1 x2 2 (by norm_num) 128 (by norm_num) inb_S62x62x64_S62x56x64_0_2_0 inb_S3472x448_S3472x64_0_128 x
  · intro x
    show k1_pay4 (F := Ideal) (kernelRun1.sl.v25 c arg1 harg1 arg2 harg2 arg3 harg3 arg8 x0 x1 x2) x = patchG (img1 x0 x1 x2) ((Rect.unit (s := S3472x448) ![0, 64] S3472x64.size inb_S3472x448_S3472x64_0_64).emb x)
    rw [pay1_4_eq]
    unfold kernelRun1.sl.v25
    exact slab_piece1 c arg1 harg1 arg2 harg2 arg3 harg3 arg8 x0 x1 x2 1 (by norm_num) 64 (by norm_num) inb_S62x62x64_S62x56x64_0_1_0 inb_S3472x448_S3472x64_0_64 x
  · intro x
    show k1_pay3 (F := Ideal) (kernelRun1.sl.v20 c arg1 harg1 arg2 harg2 arg3 harg3 arg8 x0 x1 x2) x = patchG (img1 x0 x1 x2) ((Rect.unit (s := S3472x448) ![0, 0] S3472x64.size inb_S3472x448_S3472x64_0_0).emb x)
    rw [pay1_3_eq]
    unfold kernelRun1.sl.v20
    exact slab_piece1 c arg1 harg1 arg2 harg2 arg3 harg3 arg8 x0 x1 x2 0 (by norm_num) 0 (by norm_num) inb_S62x62x64_S62x56x64_0_0_0 inb_S3472x448_S3472x64_0_0 x

/-- A load of 3136 consecutive rows of the patch buffer from row `kh·56` on: its entry (r, k) is the patch matrix's
    entry at row `r`, column `kh·448 + k` — the padded image at row `r / 56 + kh`, column `r % 56 + k / 64`,
    channel `k % 64`. -/
theorem patchWindow1_apply (c : Dev nD) (arg1 : Memref sig .tc .vmem S1x3136x64 .bf16) (harg1 : arg1.IsWhole) (arg2 : Memref sig .tc .vmem S1x64 .f32) (harg2 : arg2.IsWhole) (arg3 : Memref sig .tc .vmem S1x64 .f32) (harg3 : arg3.IsWhole) (arg8 : Memref sig .tc .vmem S62x62x64 .bf16) (x0 : Vec Ideal S1x3136x64 .bf16) (x1 : Vec Ideal S1x64 .f32) (x2 : Vec Ideal S1x64 .f32) (arg9 : Memref sig .tc .vmem S3472x448 .bf16) (kh : ℕ) (hkh : kh < 7) (o : ℕ) (ho : o = kh * 56)
    (inb : ∀ d, (![o, 0] : Fin 2 → ℕ) d + S3136x448.size d ≤ S3472x448.size d) (r : Fin 3136) (k : Fin 448) :
    arg9.view.readCov (kernelRun1.sl.HS1_7 (F := Ideal) c arg1 harg1 arg2 harg2 arg3 harg3 arg8 x0 x1 x2)
        (Rect.unit (s := S3472x448) ![o, 0] S3136x448.size inb).toLoadRect (ix2 r k)
      = Cert.Spec.patch (img1 x0 x1 x2) r (⟨kh * 448 + k.val, by have := k.isLt; omega⟩ : Fin 3136) := by
  subst ho
  rw [View.readCov_eq_canon']
  show View.canon _ _ = _
  rw [patchBuf1_apply]
  unfold patchG Cert.Spec.patch
  have e0 : (((Rect.unit (s := S3472x448) ![kh * 56, 0] S3136x448.size inb).toLoadRect.idx (ix2 r k)) 0).val = kh * 56 + r.val := by
    show kh * 56 + 1 * r.val = _; omega
  have e1 : (((Rect.unit (s := S3472x448) ![kh * 56, 0] S3136x448.size inb).toLoadRect.idx (ix2 r k)) 1).val = k.val := by
    show 0 + 1 * k.val = _; omega
  have hr := r.isLt
  have hk := k.isLt
  congr 1
  · show _ / 56 = r.val / 56 + (kh * 448 + k.val) / 448
    rw [e0]; omega
  · show _ % 56 + _ / 64 = r.val % 56 + (kh * 448 + k.val) % 448 / 64
    rw [e0, e1]; omega
  · apply Fin.ext
    show _ % 64 = (kh * 448 + k.val) % 64
    rw [e1]; omega

end Cert.KernelIdeal.HandValue

end
-- ==== Proof.V1KPool.lean ====
import proofs.«154663_g2000405482023969_pallasbulk_1176_2_alg».proof.Proof.Body1KernelIdeal
import proofs.«154663_g2000405482023969_pallasbulk_1176_2_alg».proof.Proof.Spec
import Idealize.ShloMosaic.Lib.Pipeline.Value
import Idealize.ShloMosaic.Lib.ValueIdx
import Idealize.ShloMosaic.Lib.Tactic

set_option maxRecDepth 16384

/-!
# pallas_call 1 of the kernel: the 2×2 maximum

The 3136 × 64 matrix, row `h·56 + w`, is viewed 28 × 2 × 56 × 64 (h = 2·ho + d), its two slices d = 0, 1 are compared
entrywise, the 28 × 56 × 64 result is viewed 28 × 28 × 2 × 64 (w = 2·wo + e), its two slices e = 0, 1 are compared, and
the 28 × 28 × 64 result is viewed 784 × 64, row `ho·28 + wo`. Each view keeps the row-major position, so row q of the
result is the largest of the entries at rows 2ho, 2ho + 1 and columns 2wo, 2wo + 1: `Cert.Spec.pool`.
-/

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.Tactic Idealize.ShloMosaic.ValueIdx
open scoped BigOperators

/-- One of the two rows of each pair: the 3136 × 64 matrix viewed 28 × 2 × 56 × 64, its slice at second coordinate
    `d`, viewed 28 × 56 × 64, has at (ho, w, co) the matrix's row `(2·ho + d)·56 + w`. -/
theorem rowHalf_apply (Y : FVec Ideal S3136x64 .f32) (d : ℕ) (hd : d < 2)
    (hsl : S28x2x56x64.Slices ![0, d, 0, 0] S28x1x56x64) (ho : Fin 28) (w : Fin 56) (co : Fin 64) :
    shapeCast S28x56x64 (extractStridedSlice S28x1x56x64 ![0, d, 0, 0]
        (shapeCast S28x2x56x64 Y shapeCasts_S3136x64_S28x2x56x64) hsl) shapeCasts_S28x1x56x64_S28x56x64 (ix3 ho w co)
      = Y (ix2 (⟨(2 * ho.val + d) * 56 + w.val, by have := ho.isLt; have := w.isLt; omega⟩ : Fin 3136) co) := by
  refine (shapeCast_apply _ _ _ (ix4 ho (0 : Fin 1) w co) ?_).trans ?_
  · rw [Shape.rowMajor_val_four, Shape.rowMajor_val_three]
    show ((ho.val * 1 + 0) * 56 + w.val) * 64 + co.val = (ho.val * 56 + w.val) * 64 + co.val
    omega
  refine (extractStridedSlice_apply _ _ hsl _ (ix4 ho (⟨d, hd⟩ : Fin 2) w co) (fun a => ?_)).trans ?_
  · match a with
    | ⟨0, _⟩ => show ho.val = 0 + ho.val; omega
    | ⟨1, _⟩ => show d = d + 0; omega
    | ⟨2, _⟩ => show w.val = 0 + w.val; omega
    | ⟨3, _⟩ => show co.val = 0 + co.val; omega
  refine shapeCast_apply _ _ _ _ ?_
  rw [Shape.rowMajor_val_two, Shape.rowMajor_val_four]
  show ((2 * ho.val + d) * 56 + w.val) * 64 + co.val = ((ho.val * 2 + d) * 56 + w.val) * 64 + co.val
  omega

/-- One of the two columns of each pair: a 28 × 56 × 64 array viewed 28 × 28 × 2 × 64, its slice at third coordinate
    `e`, viewed 28 × 28 × 64, has at (ho, wo, co) the array's column `2·wo + e`. -/
theorem colHalf_apply (Z : FVec Ideal S28x56x64 .f32) (e : ℕ) (he : e < 2)
    (hsl : S28x28x2x64.Slices ![0, 0, e, 0] S28x28x1x64) (ho wo : Fin 28) (co : Fin 64) :
    shapeCast S28x28x64 (extractStridedSlice S28x28x1x64 ![0, 0, e, 0]
        (shapeCast S28x28x2x64 Z shapeCasts_S28x56x64_S28x28x2x64) hsl) shapeCasts_S28x28x1x64_S28x28x64 (ix3 ho wo co)
      = Z (ix3 ho (⟨2 * wo.val + e, by have := wo.isLt; omega⟩ : Fin 56) co) := by
  refine (shapeCast_apply _ _ _ (ix4 ho wo (0 : Fin 1) co) ?_).trans ?_
  · rw [Shape.rowMajor_val_four, Shape.rowMajor_val_three]
    show ((ho.val * 28 + wo.val) * 1 + 0) * 64 + co.val = (ho.val * 28 + wo.val) * 64 + co.val
    omega
  refine (extractStridedSlice_apply _ _ hsl _ (ix4 ho wo (⟨e, he⟩ : Fin 2) co) (fun a => ?_)).trans ?_
  · match a with
    | ⟨0, _⟩ => show ho.val = 0 + ho.val; omega
    | ⟨1, _⟩ => show wo.val = 0 + wo.val; omega
    | ⟨2, _⟩ => show e = e + 0; omega
    | ⟨3, _⟩ => show co.val = 0 + co.val; omega
  refine shapeCast_apply _ _ _ _ ?_
  rw [Shape.rowMajor_val_three, Shape.rowMajor_val_four]
  show (ho.val * 56 + (2 * wo.val + e)) * 64 + co.val = ((ho.val * 28 + wo.val) * 2 + e) * 64 + co.val
  omega

/-- The larger of the two rows of each pair. -/
def rowMax (Y : FVec Ideal S3136x64 .f32) : FVec Ideal S28x56x64 .f32 :=
  maximumf
    (shapeCast S28x56x64 (extractStridedSlice S28x1x56x64 ![0, 0, 0, 0]
      (shapeCast S28x2x56x64 Y shapeCasts_S3136x64_S28x2x56x64) slices_S28x2x56x64_o0_0_0_0_S28x1x56x64) shapeCasts_S28x1x56x64_S28x56x64)
    (shapeCast S28x56x64 (extractStridedSlice S28x1x56x64 ![0, 1, 0, 0]
      (shapeCast S28x2x56x64 Y shapeCasts_S3136x64_S28x2x56x64) slices_S28x2x56x64_o0_1_0_0_S28x1x56x64) shapeCasts_S28x1x56x64_S28x56x64)

/-- The 2×2 maximum as the body computes it: first over the two rows, then over the two columns, then 784 × 64. -/
def poolOps (Y : FVec Ideal S3136x64 .f32) : FVec Ideal S784x64 .f32 :=
  shapeCast S784x64
    (maximumf
      (shapeCast S28x28x64 (extractStridedSlice S28x28x1x64 ![0, 0, 0, 0]
        (shapeCast S28x28x2x64 (rowMax Y) shapeCasts_S28x56x64_S28x28x2x64) slices_S28x28x2x64_o0_0_0_0_S28x28x1x64) shapeCasts_S28x28x1x64_S28x28x64)
      (shapeCast S28x28x64 (extractStridedSlice S28x28x1x64 ![0, 0, 1, 0]
        (shapeCast S28x28x2x64 (rowMax Y) shapeCasts_S28x56x64_S28x28x2x64) slices_S28x28x2x64_o0_0_1_0_S28x28x1x64) shapeCasts_S28x28x1x64_S28x28x64))
    shapeCasts_S28x28x64_S784x64

/-- Row `q = ho·28 + wo` of the pooled matrix is the largest of the four entries at rows 2ho, 2ho + 1 and columns
    2wo, 2wo + 1 of the 56 × 56 image: the specification's 2×2 maximum. -/
theorem poolOps_apply (Y : FVec Ideal S3136x64 .f32) (q : Fin 784) (co : Fin 64) :
    poolOps Y (ix2 q co) = Cert.Spec.pool (fun r co => Y (ix2 r co)) q co := by
  have hq := q.isLt
  unfold poolOps
  refine (shapeCast_apply _ _ _ (ix3 (⟨q.val / 28, by omega⟩ : Fin 28) (⟨q.val % 28, Nat.mod_lt _ (by norm_num)⟩ : Fin 28) co) ?_).trans ?_
  · rw [Shape.rowMajor_val_three, Shape.rowMajor_val_two]
    show (q.val / 28 * 28 + q.val % 28) * 64 + co.val = q.val * 64 + co.val
    have := Nat.div_add_mod q.val 28
    omega
  rw [maximumf_apply, colHalf_apply _ 0 (by norm_num), colHalf_apply _ 1 (by norm_num)]
  unfold rowMax
  rw [maximumf_apply, maximumf_apply, rowHalf_apply _ 0 (by norm_num), rowHalf_apply _ 1 (by norm_num),
    rowHalf_apply _ 0 (by norm_num), rowHalf_apply _ 1 (by norm_num)]
  unfold Cert.Spec.pool
  rfl

end Cert.KernelIdeal.HandValue

end
-- ==== Proof.V1KAcc.lean ====
import proofs.«154663_g2000405482023969_pallasbulk_1176_2_alg».proof.Proof.V1KPatch
import proofs.«154663_g2000405482023969_pallasbulk_1176_2_alg».proof.Proof.V1KPool
import proofs.«154663_g2000405482023969_pallasbulk_1176_2_alg».proof.Proof.V0KAcc

set_option maxRecDepth 16384

/-!
# pallas_call 1 of the kernel: the seven products, the bias, the positive part — and the pooled matrix

The seven products are the same as in pallas_call 0, now over the patch buffer of the affine image: five are added to
a zero splat before the last part of the body, the last two inside it. With the bias added along the rows and the
positive part taken, the 3136 × 64 matrix is the specification's convolution of the affine image; the body's last
payload is its 2×2 maximum, so it is the second stage.
-/

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.Tactic Idealize.ShloMosaic.ValueIdx
open scoped BigOperators

/-- One product read through the two buffers: window `kh` of the patch buffer against weight slab `kh` sums the
    convolution's summands over columns kh·448 … kh·448 + 447. -/
theorem slabSum1_apply (c : Dev nD) (arg1 : Memref sig .tc .vmem S1x3136x64 .bf16) (harg1 : arg1.IsWhole) (arg2 : Memref sig .tc .vmem S1x64 .f32) (harg2 : arg2.IsWhole) (arg3 : Memref sig .tc .vmem S1x64 .f32) (harg3 : arg3.IsWhole)
    (arg4 : Memref sig .tc .vmem S7x448x64 .bf16) (harg4 : arg4.IsWhole)
    (arg8 : Memref sig .tc .vmem S62x62x64 .bf16) (arg9 : Memref sig .tc .vmem S3472x448 .bf16)
    (x0 : Vec Ideal S1x3136x64 .bf16) (x1 : Vec Ideal S1x64 .f32) (x2 : Vec Ideal S1x64 .f32) (x3 : Vec Ideal S7x448x64 .bf16)
    (kh : ℕ) (hkh : kh < 7) (o : ℕ) (ho : o = kh * 56)
    (inb7 : ∀ d, (![o, 0] : Fin 2 → ℕ) d + S3136x448.size d ≤ S3472x448.size d)
    (inb2 : ∀ d, (![kh, 0, 0] : Fin 3 → ℕ) d + S1x448x64.size d ≤ S7x448x64.size d)
    (r : Fin 3136) (co : Fin 64) :
    (∑ k : Fin 448,
        arg9.view.readCov (kernelRun1.sl.HS1_7 (F := Ideal) c arg1 harg1 arg2 harg2 arg3 harg3 arg8 x0 x1 x2)
            (Rect.unit (s := S3472x448) ![o, 0] S3136x448.size inb7).toLoadRect (ix2 r k)
          * shapeCast S448x64 (View.readAt (Elt Ideal) arg4.view
              (Rect.unit (s := S7x448x64) ![kh, 0, 0] S1x448x64.size inb2).toLoadRect (harg4.unread x3))
            shapeCasts_S1x448x64_S448x64 (ix2 k co))
      = ∑ k : Fin 448, convTerm (img1 x0 x1 x2) x3 r co (kh * 448 + k.val) := by
  refine Finset.sum_congr rfl fun k _ => ?_
  rw [patchWindow1_apply c arg1 harg1 arg2 harg2 arg3 harg3 arg8 x0 x1 x2 arg9 kh hkh o ho inb7 r k, wslab_apply arg4 harg4 x3 kh hkh inb2 k co]
  have hk := k.isLt
  unfold convTerm Cert.Spec.patch
  congr 2
  funext d; apply Fin.ext
  match d with
  | ⟨0, _⟩ => show kh = (kh * 448 + k.val) / 448 % 7; omega
  | ⟨1, _⟩ => show k.val = (kh * 448 + k.val) % 448; omega
  | ⟨2, _⟩ => rfl

/-- The zero splat the products are added to. -/
theorem pay1_10_apply (y : S3136x64.Idx) : k1_pay10 (F := Ideal) y = 0 := by
  unfold k1_pay10
  exact Ideal.ofBits_zero_f32

/-- The first five products, added one after the other. -/
theorem pay1_11_apply (A : FVec Ideal S3136x64 .f32)
    (X0 : Vec Ideal S3136x448 .bf16) (W0 : Vec Ideal S1x448x64 .bf16) (X1 : Vec Ideal S3136x448 .bf16) (W1 : Vec Ideal S1x448x64 .bf16)
    (X2 : Vec Ideal S3136x448 .bf16) (W2 : Vec Ideal S1x448x64 .bf16) (X3 : Vec Ideal S3136x448 .bf16) (W3 : Vec Ideal S1x448x64 .bf16)
    (X4 : Vec Ideal S3136x448 .bf16) (W4 : Vec Ideal S1x448x64 .bf16) (r : Fin 3136) (co : Fin 64) :
    k1_pay11 (F := Ideal) A X0 W0 X1 W1 X2 W2 X3 W3 X4 W4 (ix2 r co)
      = A (ix2 r co)
        + (∑ k : Fin 448, X0 (ix2 r k) * shapeCast S448x64 W0 shapeCasts_S1x448x64_S448x64 (ix2 k co))
        + (∑ k : Fin 448, X1 (ix2 r k) * shapeCast S448x64 W1 shapeCasts_S1x448x64_S448x64 (ix2 k co))
        + (∑ k : Fin 448, X2 (ix2 r k) * shapeCast S448x64 W2 shapeCasts_S1x448x64_S448x64 (ix2 k co))
        + (∑ k : Fin 448, X3 (ix2 r k) * shapeCast S448x64 W3 shapeCasts_S1x448x64_S448x64 (ix2 k co))
        + (∑ k : Fin 448, X4 (ix2 r k) * shapeCast S448x64 W4 shapeCasts_S1x448x64_S448x64 (ix2 k co)) := by
  unfold k1_pay11
  rw [addf_apply, addf_apply, addf_apply, addf_apply, addf_apply,
    prod_apply, prod_apply, prod_apply, prod_apply, prod_apply]

/-- What is pooled: the last two products added, the bias added along the rows, the positive part. -/
def prePool (A : FVec Ideal S3136x64 .f32) (X5 : FVec Ideal S3136x448 .bf16) (W5 : FVec Ideal S448x64 .bf16)
    (C : FVec Ideal S3136x64 .f32) (X6 : FVec Ideal S3136x448 .bf16) (W6 : FVec Ideal S1x448x64 .bf16)
    (B : Vec Ideal S1x64 .f32) : FVec Ideal S3136x64 .f32 :=
  maximumf
    (addf
      (addf (addf A (matmul dot_S3136x448_S448x64_S3136x64_1_0_0_1_n_n none X5 W5 C))
        (matmul dot_S3136x448_S448x64_S3136x64_1_0_0_1_n_n none X6 (shapeCast S448x64 W6 shapeCasts_S1x448x64_S448x64)
          (constant S3136x64 .f32 0x00000000#32)))
      (broadcastTo S3136x64 (shapeCast S1x64 B shapeCasts_S1x64_S1x64) broadcasts_S1x64_S3136x64))
    (broadcast S3136x64 (Scalar.ofBits .f32 0x00000000#32))

/-- The pooled payload is the pooling of that matrix. -/
theorem pay1_13_eq (A : FVec Ideal S3136x64 .f32) (X5 : FVec Ideal S3136x448 .bf16) (W5 : FVec Ideal S448x64 .bf16)
    (C : FVec Ideal S3136x64 .f32) (X6 : FVec Ideal S3136x448 .bf16) (W6 : FVec Ideal S1x448x64 .bf16) (B : Vec Ideal S1x64 .f32) :
    k1_pay13 (F := Ideal) A X5 W5 C X6 W6 B = poolOps (prePool A X5 W5 C X6 W6 B) := rfl

theorem prePool_apply (A : FVec Ideal S3136x64 .f32) (X5 : FVec Ideal S3136x448 .bf16) (W5 : FVec Ideal S448x64 .bf16)
    (X6 : FVec Ideal S3136x448 .bf16) (W6 : FVec Ideal S1x448x64 .bf16) (B : Vec Ideal S1x64 .f32) (r : Fin 3136) (co : Fin 64) :
    prePool A X5 W5 (constant S3136x64 .f32 0x00000000#32) X6 W6 B (ix2 r co)
      = max (A (ix2 r co) + (∑ k : Fin 448, X5 (ix2 r k) * W5 (ix2 k co)) + (∑ k : Fin 448, X6 (ix2 r k) * shapeCast S448x64 W6 shapeCasts_S1x448x64_S448x64 (ix2 k co)) + B (ix2 (0 : Fin 1) co)) 0 := by
  unfold prePool
  rw [maximumf_apply, addf_apply, addf_apply, addf_apply, prod_apply, prod_apply, broadcast_apply, shapeCast_self,
    broadcastTo_apply B broadcasts_S1x64_S3136x64 (ix2 r co) (ix2 (0 : Fin 1) co)
      (fun a => by match a with | ⟨0, _⟩ => rfl | ⟨1, _⟩ => rfl)]
  show max _ (Ideal.ofBits .f32 0x00000000#32) = _
  rw [Ideal.ofBits_zero_f32]

/-- The matrix that is pooled is the specification's convolution of the affine image. -/
theorem conv1_apply (c : Dev nD) (arg1 : Memref sig .tc .vmem S1x3136x64 .bf16) (harg1 : arg1.IsWhole) (arg2 : Memref sig .tc .vmem S1x64 .f32) (harg2 : arg2.IsWhole) (arg3 : Memref sig .tc .vmem S1x64 .f32) (harg3 : arg3.IsWhole)
    (arg4 : Memref sig .tc .vmem S7x448x64 .bf16) (harg4 : arg4.IsWhole)
    (arg8 : Memref sig .tc .vmem S62x62x64 .bf16) (arg9 : Memref sig .tc .vmem S3472x448 .bf16)
    (x0 : Vec Ideal S1x3136x64 .bf16) (x1 : Vec Ideal S1x64 .f32) (x2 : Vec Ideal S1x64 .f32) (x3 : Vec Ideal S7x448x64 .bf16)
    (arg5 : Memref sig .tc .vmem S1x64 .f32) (harg5 : arg5.IsWhole) (x4 : Vec Ideal S1x64 .f32) (r : Fin 3136) (co : Fin 64) :
    prePool (kernelRun1.sl.r (F := Ideal) c arg1 harg1 arg2 harg2 arg3 harg3 arg4 harg4 arg8 arg9 x0 x1 x2 x3)
        (kernelRun1.sl.v81 (F := Ideal) c arg1 harg1 arg2 harg2 arg3 harg3 arg8 arg9 x0 x1 x2) (kernelRun1.sl.r_1 (F := Ideal) c arg4 harg4 x3) (kernelRun1.sl.cst_66 (F := Ideal))
        (kernelRun1.sl.v86 (F := Ideal) c arg1 harg1 arg2 harg2 arg3 harg3 arg8 arg9 x0 x1 x2)
        (View.readAt (Elt Ideal) arg4.view (Rect.unit (s := S7x448x64) ![6, 0, 0] S1x448x64.size inb_S7x448x64_S1x448x64_6_0_0).toLoadRect (harg4.unread x3))
        (View.readAt (Elt Ideal) arg5.view (Rect.unit (s := S1x64) ![0, 0] S1x64.size inb_S1x64_S1x64_0_0).toLoadRect (harg5.unread x4))
        (ix2 r co)
      = Cert.Spec.conv (img1 x0 x1 x2) (wmat x3) (row x4) r co := by
  unfold kernelRun1.sl.cst_66
  rw [prePool_apply]
  unfold kernelRun1.sl.r kernelRun1.sl.r_1 k1_pay12
  rw [pay1_11_apply, pay1_10_apply, zero_add, rowLoad_eq]
  unfold kernelRun1.sl.v56 kernelRun1.sl.v61 kernelRun1.sl.v66 kernelRun1.sl.v71 kernelRun1.sl.v76 kernelRun1.sl.v81 kernelRun1.sl.v86
  rw [slabSum1_apply c arg1 harg1 arg2 harg2 arg3 harg3 arg4 harg4 arg8 arg9 x0 x1 x2 x3 0 (by norm_num) 0 (by norm_num) inb_S3472x448_S3136x448_0_0 inb_S7x448x64_S1x448x64_0_0_0 r co,
    slabSum1_apply c arg1 harg1 arg2 harg2 arg3 harg3 arg4 harg4 arg8 arg9 x0 x1 x2 x3 1 (by norm_num) 56 (by norm_num) inb_S3472x448_S3136x448_56_0 inb_S7x448x64_S1x448x64_1_0_0 r co,
    slabSum1_apply c arg1 harg1 arg2 harg2 arg3 harg3 arg4 harg4 arg8 arg9 x0 x1 x2 x3 2 (by norm_num) 112 (by norm_num) inb_S3472x448_S3136x448_112_0 inb_S7x448x64_S1x448x64_2_0_0 r co,
    slabSum1_apply c arg1 harg1 arg2 harg2 arg3 harg3 arg4 harg4 arg8 arg9 x0 x1 x2 x3 3 (by norm_num) 168 (by norm_num) inb_S3472x448_S3136x448_168_0 inb_S7x448x64_S1x448x64_3_0_0 r co,
    slabSum1_apply c arg1 harg1 arg2 harg2 arg3 harg3 arg4 harg4 arg8 arg9 x0 x1 x2 x3 4 (by norm_num) 224 (by norm_num) inb_S3472x448_S3136x448_224_0 inb_S7x448x64_S1x448x64_4_0_0 r co,
    slabSum1_apply c arg1 harg1 arg2 harg2 arg3 harg3 arg4 harg4 arg8 arg9 x0 x1 x2 x3 5 (by norm_num) 280 (by norm_num) inb_S3472x448_S3136x448_280_0 inb_S7x448x64_S1x448x64_5_0_0 r co,
    slabSum1_apply c arg1 harg1 arg2 harg2 arg3 harg3 arg4 harg4 arg8 arg9 x0 x1 x2 x3 6 (by norm_num) 336 (by norm_num) inb_S3472x448_S3136x448_336_0 inb_S7x448x64_S1x448x64_6_0_0 r co]
  rw [sum_seven_slabs (convTerm (img1 x0 x1 x2) x3 r co)]
  unfold Cert.Spec.conv
  exact congrArg (fun s => max (s + x4 (ix2 (0 : Fin 1) co)) 0)
    (Finset.sum_congr rfl fun t _ => convTerm_eq (img1 x0 x1 x2) x3 r co t)

/-- The pooled matrix is the second stage. -/
theorem stage2_apply (c : Dev nD) (arg1 : Memref sig .tc .vmem S1x3136x64 .bf16) (harg1 : arg1.IsWhole) (arg2 : Memref sig .tc .vmem S1x64 .f32) (harg2 : arg2.IsWhole) (arg3 : Memref sig .tc .vmem S1x64 .f32) (harg3 : arg3.IsWhole)
    (arg4 : Memref sig .tc .vmem S7x448x64 .bf16) (harg4 : arg4.IsWhole)
    (arg8 : Memref sig .tc .vmem S62x62x64 .bf16) (arg9 : Memref sig .tc .vmem S3472x448 .bf16)
    (x0 : Vec Ideal S1x3136x64 .bf16) (x1 : Vec Ideal S1x64 .f32) (x2 : Vec Ideal S1x64 .f32) (x3 : Vec Ideal S7x448x64 .bf16)
    (arg5 : Memref sig .tc .vmem S1x64 .f32) (harg5 : arg5.IsWhole) (x4 : Vec Ideal S1x64 .f32) (q : Fin 784) (co : Fin 64) :
    k1_pay13 (F := Ideal) (kernelRun1.sl.r (F := Ideal) c arg1 harg1 arg2 harg2 arg3 harg3 arg4 harg4 arg8 arg9 x0 x1 x2 x3)
        (kernelRun1.sl.v81 (F := Ideal) c arg1 harg1 arg2 harg2 arg3 harg3 arg8 arg9 x0 x1 x2) (kernelRun1.sl.r_1 (F := Ideal) c arg4 harg4 x3) (kernelRun1.sl.cst_66 (F := Ideal))
        (kernelRun1.sl.v86 (F := Ideal) c arg1 harg1 arg2 harg2 arg3 harg3 arg8 arg9 x0 x1 x2)
        (View.readAt (Elt Ideal) arg4.view (Rect.unit (s := S7x448x64) ![6, 0, 0] S1x448x64.size inb_S7x448x64_S1x448x64_6_0_0).toLoadRect (harg4.unread x3))
        (View.readAt (Elt Ideal) arg5.view (Rect.unit (s := S1x64) ![0, 0] S1x64.size inb_S1x64_S1x64_0_0).toLoadRect (harg5.unread x4))
        (ix2 q co)
      = stage2 x0 x1 x2 x3 x4 q co := by
  rw [pay1_13_eq, poolOps_apply]
  have h : (fun (r : Fin 3136) (co : Fin 64) => prePool (kernelRun1.sl.r (F := Ideal) c arg1 harg1 arg2 harg2 arg3 harg3 arg4 harg4 arg8 arg9 x0 x1 x2 x3)
        (kernelRun1.sl.v81 (F := Ideal) c arg1 harg1 arg2 harg2 arg3 harg3 arg8 arg9 x0 x1 x2) (kernelRun1.sl.r_1 (F := Ideal) c arg4 harg4 x3) (kernelRun1.sl.cst_66 (F := Ideal))
        (kernelRun1.sl.v86 (F := Ideal) c arg1 harg1 arg2 harg2 arg3 harg3 arg8 arg9 x0 x1 x2)
        (View.readAt (Elt Ideal) arg4.view (Rect.unit (s := S7x448x64) ![6, 0, 0] S1x448x64.size inb_S7x448x64_S1x448x64_6_0_0).toLoadRect (harg4.unread x3))
        (View.readAt (Elt Ideal) arg5.view (Rect.unit (s := S1x64) ![0, 0] S1x64.size inb_S1x64_S1x64_0_0).toLoadRect (harg5.unread x4)) (ix2 r co))
      = Cert.Spec.conv (img1 x0 x1 x2) (wmat x3) (row x4) :=
    funext fun r => funext fun co => conv1_apply c arg1 harg1 arg2 harg2 arg3 harg3 arg4 harg4 arg8 arg9 x0 x1 x2 x3 arg5 harg5 x4 r co
  rw [h]
  rfl

end Cert.KernelIdeal.HandValue

end
-- ==== Proof.V1KOut.lean ====
import proofs.«154663_g2000405482023969_pallasbulk_1176_2_alg».proof.Proof.Body1KernelIdeal
import Idealize.ShloMosaic.Lib.Pipeline.Value
import Idealize.ShloMosaic.Lib.ValueIdx
import Idealize.ShloMosaic.PureOps.Ideal.Laws
import Idealize.ShloMosaic.Lib.Tactic

set_option maxRecDepth 16384

/-!
# pallas_call 1 of the kernel: its two outputs from the pooled matrix

The first output is the pooled 784 × 64 matrix with a leading unit axis (the change of float format is the identity
on the extended reals). The second stacks two rows: the sums down its columns, and of its entrywise square.
-/

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.Tactic Idealize.ShloMosaic.ValueIdx
open scoped BigOperators

/-- The first output's payload: the pooled matrix with a leading unit axis. -/
theorem pay1_14_apply (A : FVec Ideal S3136x64 .f32) (X5 : FVec Ideal S3136x448 .bf16) (W5 : FVec Ideal S448x64 .bf16)
    (C : FVec Ideal S3136x64 .f32) (X6 : FVec Ideal S3136x448 .bf16) (W6 : FVec Ideal S1x448x64 .bf16) (B : Vec Ideal S1x64 .f32)
    (q : Fin 784) (co : Fin 64) :
    k1_pay14 (F := Ideal) A X5 W5 C X6 W6 B (ix3 (0 : Fin 1) q co) = k1_pay13 (F := Ideal) A X5 W5 C X6 W6 B (ix2 q co) := by
  unfold k1_pay14
  refine (shapeCast_apply _ _ _ (ix2 q co) ?_).trans (truncf_apply _ _ _)
  rw [Shape.rowMajor_val_three, Shape.rowMajor_val_two]
  show q.val * 64 + co.val = ((0 : ℕ) * 784 + q.val) * 64 + co.val
  omega

/-- A sum down the 784 rows, read at channel `co`. -/
theorem colReduce784_apply (src : FVec Ideal S784x64 .f32) (hφ : FKind.Formats .f32)
    (hacc : (0x00000000#32 : BitVec 32) = FKind.add.neutral .f32 hφ) (co : Fin 64) :
    multiReduction .add [0] S64 src 0x00000000#32 reduces_S784x64_S64 hφ hacc (ix1 co) = ∑ q : Fin 784, src (ix2 q co) := by
  refine (Ideal.multiReduction_add_single src 0x00000000#32 reduces_S784x64_S64 hφ hacc (ix1 co)).trans ?_
  refine Finset.sum_congr rfl fun k _ => ?_
  congr 1
  funext d
  match d with
  | ⟨0, _⟩ => rfl
  | ⟨1, _⟩ => rfl

/-- The second output's payload, row 0: the column sums of the pooled matrix. -/
theorem pay1_15_row0 (A : FVec Ideal S3136x64 .f32) (X5 : FVec Ideal S3136x448 .bf16) (W5 : FVec Ideal S448x64 .bf16)
    (C : FVec Ideal S3136x64 .f32) (X6 : FVec Ideal S3136x448 .bf16) (W6 : FVec Ideal S1x448x64 .bf16) (B : Vec Ideal S1x64 .f32) (co : Fin 64) :
    k1_pay15 (F := Ideal) A X5 W5 C X6 W6 B (ix3 (0 : Fin 1) (0 : Fin 2) co)
      = ∑ q : Fin 784, k1_pay13 (F := Ideal) A X5 W5 C X6 W6 B (ix2 q co) := by
  unfold k1_pay15
  refine (shapeCast_apply _ _ _ (ix2 (0 : Fin 2) co) ?_).trans ?_
  · rw [Shape.rowMajor_val_three, Shape.rowMajor_val_two]
    show (0 : ℕ) * 64 + co.val = ((0 : ℕ) * 2 + 0) * 64 + co.val
    omega
  refine (concatenate_pair_apply_left (t := S2x64) (s₁ := S1x64) (s₂ := S1x64) 0 _ _ concatenates_S1x64_S1x64_S2x64_d0
    (ix2 (0 : Fin 2) co) rfl (ix2 (0 : Fin 1) co) (fun b => by match b with | ⟨0, _⟩ => rfl | ⟨1, _⟩ => rfl)).trans ?_
  refine (shapeCast_apply _ _ _ (ix1 co) ?_).trans ?_
  · rw [Shape.rowMajor_val_one, Shape.rowMajor_val_two]
    show co.val = (0 : ℕ) * 64 + co.val
    omega
  exact colReduce784_apply _ _ _ co

/-- The second output's payload, row 1: the column sums of the squares. -/
theorem pay1_15_row1 (A : FVec Ideal S3136x64 .f32) (X5 : FVec Ideal S3136x448 .bf16) (W5 : FVec Ideal S448x64 .bf16)
    (C : FVec Ideal S3136x64 .f32) (X6 : FVec Ideal S3136x448 .bf16) (W6 : FVec Ideal S1x448x64 .bf16) (B : Vec Ideal S1x64 .f32) (co : Fin 64) :
    k1_pay15 (F := Ideal) A X5 W5 C X6 W6 B (ix3 (0 : Fin 1) (1 : Fin 2) co)
      = ∑ q : Fin 784, k1_pay13 (F := Ideal) A X5 W5 C X6 W6 B (ix2 q co) * k1_pay13 (F := Ideal) A X5 W5 C X6 W6 B (ix2 q co) := by
  unfold k1_pay15
  refine (shapeCast_apply _ _ _ (ix2 (1 : Fin 2) co) ?_).trans ?_
  · rw [Shape.rowMajor_val_three, Shape.rowMajor_val_two]
    show (1 : ℕ) * 64 + co.val = ((0 : ℕ) * 2 + 1) * 64 + co.val
    omega
  refine (concatenate_pair_apply_right (t := S2x64) (s₁ := S1x64) (s₂ := S1x64) 0 _ _ concatenates_S1x64_S1x64_S2x64_d0
    (ix2 (1 : Fin 2) co) rfl rfl (ix2 (0 : Fin 1) co)
    (fun b hb => by match b with | ⟨0, _⟩ => exact absurd rfl hb | ⟨1, _⟩ => rfl) rfl).trans ?_
  refine (shapeCast_apply _ _ _ (ix1 co) ?_).trans ?_
  · rw [Shape.rowMajor_val_one, Shape.rowMajor_val_two]
    show co.val = (0 : ℕ) * 64 + co.val
    omega
  refine (colReduce784_apply _ _ _ co).trans ?_
  rfl

end Cert.KernelIdeal.HandValue

end
-- ==== Proof.V1KMain.lean ====
import proofs.«154663_g2000405482023969_pallasbulk_1176_2_alg».proof.Proof.V1KAcc
import proofs.«154663_g2000405482023969_pallasbulk_1176_2_alg».proof.Proof.V1KOut

set_option maxRecDepth 16384

/-!
# pallas_call 1 of the kernel: its two outputs are the specification

Each output buffer is overwritten by one store that covers it. The first holds, at (0, q, co), the second stage:
the per-channel affine map of the stage-1 block, its 7×7 "same" convolution with bias and positive part, and the 2×2
maximum. The second holds in row 0 the sums down the columns of the first and in row 1 the sums of the squares.
-/

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.Tactic Idealize.ShloMosaic.ValueIdx
open scoped BigOperators

/-- The first output of pallas_call 1 is the second stage. -/
theorem out1_A_apply (c : Dev nD) (i : grid1.Coords) (arg1 : Memref sig .tc .vmem S1x3136x64 .bf16) (harg1 : arg1.IsWhole) (arg2 : Memref sig .tc .vmem S1x64 .f32) (harg2 : arg2.IsWhole) (arg3 : Memref sig .tc .vmem S1x64 .f32) (harg3 : arg3.IsWhole) (arg4 : Memref sig .tc .vmem S7x448x64 .bf16) (harg4 : arg4.IsWhole) (arg5 : Memref sig .tc .vmem S1x64 .f32) (harg5 : arg5.IsWhole) (arg6 : Memref sig .tc .vmem S1x784x64 .bf16) (harg6 : arg6.IsWhole) (arg7 : Memref sig .tc .vmem S1x2x64 .f32) (harg7 : arg7.IsWhole) (arg8 : Memref sig .tc .vmem S62x62x64 .bf16) (harg8 : arg8.IsWhole) (arg9 : Memref sig .tc .vmem S3472x448 .bf16) (harg9 : arg9.IsWhole)
    (x0 : Vec Ideal S1x3136x64 .bf16) (x1 : Vec Ideal S1x64 .f32) (x2 : Vec Ideal S1x64 .f32) (x3 : Vec Ideal S7x448x64 .bf16) (x4 : Vec Ideal S1x64 .f32) (q : Fin 784) (co : Fin 64) :
    out1_A (F := Ideal) c i arg1 harg1 arg2 harg2 arg3 harg3 arg4 harg4 arg5 harg5 arg6 harg6 arg7 harg7 arg8 harg8 arg9 harg9 x0 x1 x2 x3 x4 (ix3 (0 : Fin 1) q co) = stage2 x0 x1 x2 x3 x4 q co := by
  unfold out1_A
  rw [View.read_writes_eq_canon _ _ _ (cover1_A c i arg1 harg1 arg2 harg2 arg3 harg3 arg4 harg4 arg5 harg5 arg6 harg6 arg7 harg7 arg8 harg8 arg9 harg9 x0 x1 x2 x3 x4)]
  unfold kernelRun1
  dsimp only
  rw [View.canon_unit_zero hz3, pay1_14_apply]
  exact stage2_apply c arg1 harg1 arg2 harg2 arg3 harg3 arg4 harg4 arg8 arg9 x0 x1 x2 x3 arg5 harg5 x4 q co

/-- Row 0 of the second output is the column sums of the first. -/
theorem out1_B_sum (c : Dev nD) (i : grid1.Coords) (arg1 : Memref sig .tc .vmem S1x3136x64 .bf16) (harg1 : arg1.IsWhole) (arg2 : Memref sig .tc .vmem S1x64 .f32) (harg2 : arg2.IsWhole) (arg3 : Memref sig .tc .vmem S1x64 .f32) (harg3 : arg3.IsWhole) (arg4 : Memref sig .tc .vmem S7x448x64 .bf16) (harg4 : arg4.IsWhole) (arg5 : Memref sig .tc .vmem S1x64 .f32) (harg5 : arg5.IsWhole) (arg6 : Memref sig .tc .vmem S1x784x64 .bf16) (harg6 : arg6.IsWhole) (arg7 : Memref sig .tc .vmem S1x2x64 .f32) (harg7 : arg7.IsWhole) (arg8 : Memref sig .tc .vmem S62x62x64 .bf16) (harg8 : arg8.IsWhole) (arg9 : Memref sig .tc .vmem S3472x448 .bf16) (harg9 : arg9.IsWhole)
    (x0 : Vec Ideal S1x3136x64 .bf16) (x1 : Vec Ideal S1x64 .f32) (x2 : Vec Ideal S1x64 .f32) (x3 : Vec Ideal S7x448x64 .bf16) (x4 : Vec Ideal S1x64 .f32) (co : Fin 64) :
    out1_B (F := Ideal) c i arg1 harg1 arg2 harg2 arg3 harg3 arg4 harg4 arg5 harg5 arg6 harg6 arg7 harg7 arg8 harg8 arg9 harg9 x0 x1 x2 x3 x4 (ix3 (0 : Fin 1) (0 : Fin 2) co)
      = Cert.Spec.colSum (stage2 x0 x1 x2 x3 x4) co := by
  unfold out1_B
  rw [View.read_writes_eq_canon _ _ _ (cover1_B c i arg1 harg1 arg2 harg2 arg3 harg3 arg4 harg4 arg5 harg5 arg6 harg6 arg7 harg7 arg8 harg8 arg9 harg9 x0 x1 x2 x3 x4)]
  unfold kernelRun1
  dsimp only
  rw [View.canon_unit_zero hz3]
  unfold kernelRun1.sl.r_2
  rw [pay1_15_row0]
  unfold Cert.Spec.colSum
  exact Finset.sum_congr rfl fun q _ => stage2_apply c arg1 harg1 arg2 harg2 arg3 harg3 arg4 harg4 arg8 arg9 x0 x1 x2 x3 arg5 harg5 x4 q co

/-- Row 1 of the second output is the column sums of the squares of the first. -/
theorem out1_B_sumsq (c : Dev nD) (i : grid1.Coords) (arg1 : Memref sig .tc .vmem S1x3136x64 .bf16) (harg1 : arg1.IsWhole) (arg2 : Memref sig .tc .vmem S1x64 .f32) (harg2 : arg2.IsWhole) (arg3 : Memref sig .tc .vmem S1x64 .f32) (harg3 : arg3.IsWhole) (arg4 : Memref sig .tc .vmem S7x448x64 .bf16) (harg4 : arg4.IsWhole) (arg5 : Memref sig .tc .vmem S1x64 .f32) (harg5 : arg5.IsWhole) (arg6 : Memref sig .tc .vmem S1x784x64 .bf16) (harg6 : arg6.IsWhole) (arg7 : Memref sig .tc .vmem S1x2x64 .f32) (harg7 : arg7.IsWhole) (arg8 : Memref sig .tc .vmem S62x62x64 .bf16) (harg8 : arg8.IsWhole) (arg9 : Memref sig .tc .vmem S3472x448 .bf16) (harg9 : arg9.IsWhole)
    (x0 : Vec Ideal S1x3136x64 .bf16) (x1 : Vec Ideal S1x64 .f32) (x2 : Vec Ideal S1x64 .f32) (x3 : Vec Ideal S7x448x64 .bf16) (x4 : Vec Ideal S1x64 .f32) (co : Fin 64) :
    out1_B (F := Ideal) c i arg1 harg1 arg2 harg2 arg3 harg3 arg4 harg4 arg5 harg5 arg6 harg6 arg7 harg7 arg8 harg8 arg9 harg9 x0 x1 x2 x3 x4 (ix3 (0 : Fin 1) (1 : Fin 2) co)
      = Cert.Spec.colSumSq (stage2 x0 x1 x2 x3 x4) co := by
  unfold out1_B
  rw [View.read_writes_eq_canon _ _ _ (cover1_B c i arg1 harg1 arg2 harg2 arg3 harg3 arg4 harg4 arg5 harg5 arg6 harg6 arg7 harg7 arg8 harg8 arg9 harg9 x0 x1 x2 x3 x4)]
  unfold kernelRun1
  dsimp only
  rw [View.canon_unit_zero hz3]
  unfold kernelRun1.sl.r_2
  rw [pay1_15_row1]
  unfold Cert.Spec.colSumSq
  exact Finset.sum_congr rfl fun q _ => by
    rw [stage2_apply c arg1 harg1 arg2 harg2 arg3 harg3 arg4 harg4 arg8 arg9 x0 x1 x2 x3 arg5 harg5 x4 q co]

end Cert.KernelIdeal.HandValue

end
-- ==== Proof.StageK1.lean ====
import proofs.«154663_g2000405482023969_pallasbulk_1176_2_alg».proof.Proof.ArrK1
import proofs.«154663_g2000405482023969_pallasbulk_1176_2_alg».proof.Proof.V1KMain
import Idealize.ShloMosaic.Lib.Pipeline.Value
import Idealize.ShloMosaic.Lib.ValueIdx

set_option maxRecDepth 16384

/-!
# pallas_call 1 on the extended reals: the two output arrays from the entry arrays

For any contents of the buffers at region entry: after the 32 grid points the pooled array holds, at image `n`, the
second stage of image `n` of the activation array — the per-channel affine map, the 7×7 convolution with bias and
positive part, the 2×2 maximum — and the column-sum array holds in its two rows the sums down the columns of that
result and the sums of their squares.
-/

noncomputable section

namespace Cert.KernelIdeal.HandValue

open Cert.KernelIdeal Cert.KernelIdeal.Gen Cert.KernelIdeal.GenP Cert.KernelIdeal.Hand
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The point that handles image `n`. -/
def pt1 (n : Fin 32) : Fin cfg1.N := ⟨n.val, lt_N1 n.isLt⟩

/-- What a point's body leaves in its two output buffers, spelled out. -/
theorem outsAt1_fst (c : Dev nD) (t : Fin cfg1.N) : (outsAt1 V c t).1 = out1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t) := by
  unfold outsAt1; dsimp only
theorem outsAt1_snd (c : Dev nD) (t : Fin cfg1.N) : (outsAt1 V c t).2 = out1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t) := by
  unfold outsAt1; dsimp only

/-- The five input blocks at the point of image `n`, read as the specification's arguments: image `n` of the activation
    array by row and channel, the scale, shift and bias rows by channel, the seven weight slabs stacked. -/
theorem rows_iblk1 (c : Dev nD) (n : Fin 32) :
    rows (iblk1 V c 0 (pt1 n)) = (fun r co => (V c main_v8_0 : S32x3136x64.Idx → EReal) (ix3 n r co)) := by
  funext r co
  exact iblk1_0_apply V c (pt1 n) r co
theorem row_iblk1_1 (c : Dev nD) (n : Fin 32) :
    row (iblk1 V c 1 (pt1 n)) = (fun co => (V c main_v28 : S1x64.Idx → EReal) (ix2 (0 : Fin 1) co)) := by
  rw [iblk1_1_eq]; rfl
theorem row_iblk1_2 (c : Dev nD) (n : Fin 32) :
    row (iblk1 V c 2 (pt1 n)) = (fun co => (V c main_v29 : S1x64.Idx → EReal) (ix2 (0 : Fin 1) co)) := by
  rw [iblk1_2_eq]; rfl
theorem wmat_iblk1 (c : Dev nD) (n : Fin 32) :
    wmat (iblk1 V c 3 (pt1 n)) = (fun t co => (V c main_v5 : S7x448x64.Idx → EReal) (ix3 (⟨t.val / 448, by have := t.isLt; omega⟩ : Fin 7) (⟨t.val % 448, Nat.mod_lt _ (by norm_num)⟩ : Fin 448) co)) := by
  rw [iblk1_3_eq]; rfl
theorem row_iblk1_4 (c : Dev nD) (n : Fin 32) :
    row (iblk1 V c 4 (pt1 n)) = (fun co => (V c main_v7 : S1x64.Idx → EReal) (ix2 (0 : Fin 1) co)) := by
  rw [iblk1_4_eq]; rfl

/-- The pooled array after pallas_call 1: affine map, convolution and 2×2 maximum of each image of the activation array. -/
theorem stage1_Y (c : Dev nD) (n : Fin 32) (q : Fin 784) (co : Fin 64) :
    ((dat1 (F := Ideal) V c).arrAt 5 cfg1.N : S32x784x64.Idx → EReal) (ix3 n q co)
      = (Cert.Spec.pool (Cert.Spec.conv (Cert.Spec.unflat (Cert.Spec.affine (fun r co => (V c main_v8_0 : S32x3136x64.Idx → EReal) (ix3 n r co))
          (fun co => (V c main_v28 : S1x64.Idx → EReal) (ix2 (0 : Fin 1) co))
          (fun co => (V c main_v29 : S1x64.Idx → EReal) (ix2 (0 : Fin 1) co))))
          (fun t co => (V c main_v5 : S7x448x64.Idx → EReal) (ix3 (⟨t.val / 448, by have := t.isLt; omega⟩ : Fin 7) (⟨t.val % 448, Nat.mod_lt _ (by norm_num)⟩ : Fin 448) co))
          (fun co => (V c main_v7 : S1x64.Idx → EReal) (ix2 (0 : Fin 1) co)))) q co := by
  rw [arrAt1_5, arr1_5_of V c (pt1 n) q co (ix3 n q co) rfl rfl rfl, outsAt1_fst,
    out1_A_apply c (grid1.coords (pt1 n)) (ms1_0 (pt1 n)) (hs1_0 (pt1 n)) (ms1_1 (pt1 n)) (hs1_1 (pt1 n)) (ms1_2 (pt1 n)) (hs1_2 (pt1 n)) (ms1_3 (pt1 n)) (hs1_3 (pt1 n)) (ms1_4 (pt1 n)) (hs1_4 (pt1 n)) (ms1_5 (pt1 n)) (hs1_5 (pt1 n)) (ms1_6 (pt1 n)) (hs1_6 (pt1 n)) scM1_0 (Memref.isWhole_whole _) scM1_1 (Memref.isWhole_whole _) (iblk1 V c 0 (pt1 n)) (iblk1 V c 1 (pt1 n)) (iblk1 V c 2 (pt1 n)) (iblk1 V c 3 (pt1 n)) (iblk1 V c 4 (pt1 n)) q co]
  unfold stage2
  rw [rows_iblk1 V c n, row_iblk1_1 V c n, row_iblk1_2 V c n, wmat_iblk1 V c n, row_iblk1_4 V c n]

/-- Row 0 of the column-sum array is each pooled image's column sums, -/
theorem stage1_S0 (c : Dev nD) (n : Fin 32) (co : Fin 64) :
    ((dat1 (F := Ideal) V c).arrAt 6 cfg1.N : S32x2x64.Idx → EReal) (ix3 n (0 : Fin 2) co)
      = Cert.Spec.colSum (Cert.Spec.pool (Cert.Spec.conv (Cert.Spec.unflat (Cert.Spec.affine (fun r co => (V c main_v8_0 : S32x3136x64.Idx → EReal) (ix3 n r co))
          (fun co => (V c main_v28 : S1x64.Idx → EReal) (ix2 (0 : Fin 1) co))
          (fun co => (V c main_v29 : S1x64.Idx → EReal) (ix2 (0 : Fin 1) co))))
          (fun t co => (V c main_v5 : S7x448x64.Idx → EReal) (ix3 (⟨t.val / 448, by have := t.isLt; omega⟩ : Fin 7) (⟨t.val % 448, Nat.mod_lt _ (by norm_num)⟩ : Fin 448) co))
          (fun co => (V c main_v7 : S1x64.Idx → EReal) (ix2 (0 : Fin 1) co)))) co := by
  rw [arrAt1_6, arr1_6_of V c (pt1 n) (0 : Fin 2) co (ix3 n (0 : Fin 2) co) rfl rfl rfl, outsAt1_snd,
    out1_B_sum c (grid1.coords (pt1 n)) (ms1_0 (pt1 n)) (hs1_0 (pt1 n)) (ms1_1 (pt1 n)) (hs1_1 (pt1 n)) (ms1_2 (pt1 n)) (hs1_2 (pt1 n)) (ms1_3 (pt1 n)) (hs1_3 (pt1 n)) (ms1_4 (pt1 n)) (hs1_4 (pt1 n)) (ms1_5 (pt1 n)) (hs1_5 (pt1 n)) (ms1_6 (pt1 n)) (hs1_6 (pt1 n)) scM1_0 (Memref.isWhole_whole _) scM1_1 (Memref.isWhole_whole _) (iblk1 V c 0 (pt1 n)) (iblk1 V c 1 (pt1 n)) (iblk1 V c 2 (pt1 n)) (iblk1 V c 3 (pt1 n)) (iblk1 V c 4 (pt1 n)) co]
  unfold stage2
  rw [rows_iblk1 V c n, row_iblk1_1 V c n, row_iblk1_2 V c n, wmat_iblk1 V c n, row_iblk1_4 V c n]

/-- and row 1 the column sums of the squares. -/
theorem stage1_S1 (c : Dev nD) (n : Fin 32) (co : Fin 64) :
    ((dat1 (F := Ideal) V c).arrAt 6 cfg1.N : S32x2x64.Idx → EReal) (ix3 n (1 : Fin 2) co)
      = Cert.Spec.colSumSq (Cert.Spec.pool (Cert.Spec.conv (Cert.Spec.unflat (Cert.Spec.affine (fun r co => (V c main_v8_0 : S32x3136x64.Idx → EReal) (ix3 n r co))
          (fun co => (V c main_v28 : S1x64.Idx → EReal) (ix2 (0 : Fin 1) co))
          (fun co => (V c main_v29 : S1x64.Idx → EReal) (ix2 (0 : Fin 1) co))))
          (fun t co => (V c main_v5 : S7x448x64.Idx → EReal) (ix3 (⟨t.val / 448, by have := t.isLt; omega⟩ : Fin 7) (⟨t.val % 448, Nat.mod_lt _ (by norm_num)⟩ : Fin 448) co))
          (fun co => (V c main_v7 : S1x64.Idx → EReal) (ix2 (0 : Fin 1) co)))) co := by
  rw [arrAt1_6, arr1_6_of V c (pt1 n) (1 : Fin 2) co (ix3 n (1 : Fin 2) co) rfl rfl rfl, outsAt1_snd,
    out1_B_sumsq c (grid1.coords (pt1 n)) (ms1_0 (pt1 n)) (hs1_0 (pt1 n)) (ms1_1 (pt1 n)) (hs1_1 (pt1 n)) (ms1_2 (pt1 n)) (hs1_2 (pt1 n)) (ms1_3 (pt1 n)) (hs1_3 (pt1 n)) (ms1_4 (pt1 n)) (hs1_4 (pt1 n)) (ms1_5 (pt1 n)) (hs1_5 (pt1 n)) (ms1_6 (pt1 n)) (hs1_6 (pt1 n)) scM1_0 (Memref.isWhole_whole _) scM1_1 (Memref.isWhole_whole _) (iblk1 V c 0 (pt1 n)) (iblk1 V c 1 (pt1 n)) (iblk1 V c 2 (pt1 n)) (iblk1 V c 3 (pt1 n)) (iblk1 V c 4 (pt1 n)) co]
  unfold stage2
  rw [rows_iblk1 V c n, row_iblk1_1 V c n, row_iblk1_2 V c n, wmat_iblk1 V c n, row_iblk1_4 V c n]

end Cert.KernelIdeal.HandValue

end
-- ==== Proof.ArrK2.lean ====
import proofs.«154663_g2000405482023969_pallasbulk_1176_2_alg».proof.Proof.DataKernelIdeal
import Idealize.ShloMosaic.Lib.Pipeline.Value
import Idealize.ShloMosaic.Lib.ValueIdx

set_option maxRecDepth 16384

/-!
# pallas_call 2: whole arrays and blocks

At an arbitrary valuation `V` of the buffers at region entry: the grid has four points and each handles eight
images, so image `n` sits in block `n / 8` at position `n % 8`; the scale and shift windows are their whole arrays
at every point; after the four points the result array holds, eight images at a time, the affine image of each
point's input block.
-/

noncomputable section

namespace Cert.KernelIdeal.HandValue

open Cert.KernelIdeal Cert.KernelIdeal.Gen Cert.KernelIdeal.GenP Cert.KernelIdeal.Hand
open Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-- The grid has 4 points, and eight images go to a point. -/
theorem lt4 (t : Fin cfg2.N) : t.val < 4 := by have h := t.isLt; have e : cfg2.N = 4 := N_2; omega
theorem lt_N2 {n : Nat} (h : n < 4) : n < cfg2.N := by have e : cfg2.N = 4 := N_2; omega
theorem div8_lt_N2 {n : Nat} (h : n < 32) : n / 8 < cfg2.N := lt_N2 (by omega)
theorem mod8_lt {n : Nat} : n % 8 < 8 := Nat.mod_lt _ (by decide)
theorem image_lt (t : Fin cfg2.N) (p : Fin 8) : t.val * 8 + p.val < 32 := by have := lt4 t; have := p.isLt; omega

/-! ## The input windows -/

/-- Window 0's block index at point `t` is `t` on the image axis and zero on the others. -/
theorem index2_0 : ∀ t : Fin cfg2.N, win2_0.index t (0 : Fin 3) = t.val ∧ win2_0.index t (1 : Fin 3) = 0 ∧ win2_0.index t (2 : Fin 3) = 0 :=
  (by decide +kernel : ∀ t : Fin grid2.N, _)

/-- The pooled window: position `p` of point `t`'s block is image `8 t + p`. -/
theorem iblk2_0_apply (c : Dev nD) (t : Fin cfg2.N) (p : Fin 8) (r : Fin 784) (co : Fin 64) :
    iblk2 V c 0 t (ix3 p r co) = (V c main_v30_0 : S32x784x64.Idx → Elt F .bf16) (ix3 ⟨t.val * 8 + p.val, image_lt t p⟩ r co) := by
  obtain ⟨e0, e1, e2⟩ := index2_0 t
  unfold iblk2
  rw [View.read_apply]
  show V c main_v30_0 _ = V c main_v30_0 _
  congr 1
  funext a
  apply Fin.ext
  match a with
  | ⟨0, _⟩ => show win2_0.index t (0 : Fin 3) * 8 + 1 * p.val = t.val * 8 + p.val; omega
  | ⟨1, _⟩ => show win2_0.index t (1 : Fin 3) * 784 + 1 * r.val = r.val; omega
  | ⟨2, _⟩ => show win2_0.index t (2 : Fin 3) * 64 + 1 * co.val = co.val; omega

/-- The same by image: image `n` is read at point `n / 8`, position `n % 8`. -/
theorem iblk2_0_image (c : Dev nD) (n : Fin 32) (r : Fin 784) (co : Fin 64) :
    iblk2 V c 0 ⟨n.val / 8, div8_lt_N2 n.isLt⟩ (ix3 (⟨n.val % 8, mod8_lt⟩ : Fin 8) r co) = (V c main_v30_0 : S32x784x64.Idx → Elt F .bf16) (ix3 n r co) := by
  rw [iblk2_0_apply]
  congr 1
  funext a
  apply Fin.ext
  match a with
  | ⟨0, _⟩ => show n.val / 8 * 8 + n.val % 8 = n.val; omega
  | ⟨1, _⟩ => rfl
  | ⟨2, _⟩ => rfl

/-- Window 1's block index is zero on every axis at every point. -/
theorem index2_1 : ∀ t : Fin cfg2.N, win2_1.index t (0 : Fin 2) = 0 ∧ win2_1.index t (1 : Fin 2) = 0 :=
  (by decide +kernel : ∀ t : Fin grid2.N, _)

/-- The scale row is read whole at every point. -/
theorem iblk2_1_eq (c : Dev nD) (t : Fin cfg2.N) :
    (iblk2 V c 1 t : S1x64.Idx → Elt F .f32) = (V c main_v50 : S1x64.Idx → Elt F .f32) := by
  obtain ⟨e0, e1⟩ := index2_1 t
  funext y
  unfold iblk2
  rw [View.read_apply]
  show V c main_v50 _ = V c main_v50 _
  congr 1
  funext a
  apply Fin.ext
  match a with
  | ⟨0, _⟩ => show win2_1.index t (0 : Fin 2) * 1 + 1 * (y 0).val = (y 0).val; omega
  | ⟨1, _⟩ => show win2_1.index t (1 : Fin 2) * 64 + 1 * (y 1).val = (y 1).val; omega

/-- Window 2's block index is zero on every axis at every point. -/
theorem index2_2 : ∀ t : Fin cfg2.N, win2_2.index t (0 : Fin 2) = 0 ∧ win2_2.index t (1 : Fin 2) = 0 :=
  (by decide +kernel : ∀ t : Fin grid2.N, _)

/-- The shift row is read whole at every point. -/
theorem iblk2_2_eq (c : Dev nD) (t : Fin cfg2.N) :
    (iblk2 V c 2 t : S1x64.Idx → Elt F .f32) = (V c main_v51 : S1x64.Idx → Elt F .f32) := by
  obtain ⟨e0, e1⟩ := index2_2 t
  funext y
  unfold iblk2
  rw [View.read_apply]
  show V c main_v51 _ = V c main_v51 _
  congr 1
  funext a
  apply Fin.ext
  match a with
  | ⟨0, _⟩ => show win2_2.index t (0 : Fin 2) * 1 + 1 * (y 0).val = (y 0).val; omega
  | ⟨1, _⟩ => show win2_2.index t (1 : Fin 2) * 64 + 1 * (y 1).val = (y 1).val; omega

/-! ## The output array after the region -/

/-- Window 3's block index at point `t` is `t` on the image axis and zero on the others. -/
theorem index2_3 : ∀ t : Fin cfg2.N, win2_3.index t (0 : Fin 3) = t.val ∧ win2_3.index t (1 : Fin 3) = 0 ∧ win2_3.index t (2 : Fin 3) = 0 :=
  (by decide +kernel : ∀ t : Fin grid2.N, _)

/-- The result array after the region: image `n` is position `n % 8` of what point `n / 8` stored, the affine image of
    that point's three input blocks. -/
def arr2_3 (c : Dev nD) : S32x784x64.Idx → Elt F .f32 := fun j =>
  out2 (iblk2 V c 0 ⟨(j 0).val / 8, div8_lt_N2 (j 0).isLt⟩) (iblk2 V c 1 ⟨(j 0).val / 8, div8_lt_N2 (j 0).isLt⟩) (iblk2 V c 2 ⟨(j 0).val / 8, div8_lt_N2 (j 0).isLt⟩)
    (ix3 (⟨(j 0).val % 8, mod8_lt⟩ : Fin 8) (⟨(j 1).val, (j 1).isLt⟩ : Fin 784) (⟨(j 2).val, (j 2).isLt⟩ : Fin 64))

/-- The same at an index given by its coordinates' values. -/
theorem arr2_3_of (c : Dev nD) (t : Fin cfg2.N) (p : Fin 8) (r : Fin 784) (co : Fin 64) (j : S32x784x64.Idx)
    (h0 : (j 0).val = t.val * 8 + p.val) (h1 : (j 1).val = r.val) (h2 : (j 2).val = co.val) :
    arr2_3 V c j = out2 (iblk2 V c 0 t) (iblk2 V c 1 t) (iblk2 V c 2 t) (ix3 p r co) := by
  have hp := p.isLt
  obtain rfl : t = ⟨(j 0).val / 8, div8_lt_N2 (j 0).isLt⟩ := Fin.ext (by show t.val = (j 0).val / 8; omega)
  obtain rfl : p = ⟨(j 0).val % 8, mod8_lt⟩ := Fin.ext (by show p.val = (j 0).val % 8; omega)
  obtain rfl : r = ⟨(j 1).val, (j 1).isLt⟩ := Fin.ext h1.symm
  obtain rfl : co = ⟨(j 2).val, (j 2).isLt⟩ := Fin.ext h2.symm
  rfl

theorem arr2_3_apply (c : Dev nD) (t : Fin cfg2.N) (p : Fin 8) (r : Fin 784) (co : Fin 64) :
    arr2_3 V c (ix3 ⟨t.val * 8 + p.val, image_lt t p⟩ r co) = out2 (iblk2 V c 0 t) (iblk2 V c 1 t) (iblk2 V c 2 t) (ix3 p r co) :=
  arr2_3_of V c t p r co _ rfl rfl rfl

/-- The same by image. -/
theorem arr2_3_image (c : Dev nD) (n : Fin 32) (r : Fin 784) (co : Fin 64) :
    arr2_3 V c (ix3 n r co) = out2 (iblk2 V c 0 ⟨n.val / 8, div8_lt_N2 n.isLt⟩) (iblk2 V c 1 ⟨n.val / 8, div8_lt_N2 n.isLt⟩) (iblk2 V c 2 ⟨n.val / 8, div8_lt_N2 n.isLt⟩)
      (ix3 (⟨n.val % 8, mod8_lt⟩ : Fin 8) r co) :=
  arr2_3_of V c _ _ r co _ (by show n.val = n.val / 8 * 8 + n.val % 8; omega) rfl rfl

/-- What point `t` writes back is block `t` of that array. -/
theorem flushed2_3 (c : Dev nD) (t : Fin cfg2.N) :
    (dat2 V c).flushed 3 t = ((cfg2.win 3).blk t).view.read (Elt F) (arr2_3 V c) := by
  obtain ⟨e0, e1, e2⟩ := index2_3 t
  show (cfg2.win 3).cut (grid2.coords t) ((dat2 V c).after 3 t) = _
  rw [after2_3]
  funext y
  obtain ⟨p, r, co, rfl⟩ : ∃ (p : Fin 8) (r : Fin 784) (co : Fin 64), y = ix3 p r co := ⟨y 0, y 1, y 2, eq_ix3 y⟩
  have hR : arr2_3 V c (((cfg2.win 3).blk t).view.emb (ix3 p r co) : S32x784x64.Idx)
      = out2 (iblk2 V c 0 t) (iblk2 V c 1 t) (iblk2 V c 2 t) (ix3 p r co) :=
    arr2_3_of V c t p r co _
      (show win2_3.index t (0 : Fin 3) * 8 + 1 * p.val = t.val * 8 + p.val by omega)
      (show win2_3.index t (1 : Fin 3) * 784 + 1 * r.val = r.val by omega)
      (show win2_3.index t (2 : Fin 3) * 64 + 1 * co.val = co.val by omega)
  rw [View.read_apply, cast_eq, hR]
  generalize out2 (iblk2 V c 0 t) (iblk2 V c 1 t) (iblk2 V c 2 t) = X
  exact congrArg X (funext fun a => by
    match a with
    | ⟨0, _⟩ => rfl
    | ⟨1, _⟩ => rfl
    | ⟨2, _⟩ => rfl)

/-- An index of the array is in point `t`'s block iff each coordinate is in the block's range on its axis. -/
theorem mem_blk2_3 (t : Fin cfg2.N) (i : S32x784x64.Idx) :
    i ∈ ((cfg2.win 3).blk t).view.set ↔ ∀ a : Fin 3, win2_3.index t a * S8x784x64.size a ≤ (i a).val ∧ (i a).val < win2_3.index t a * S8x784x64.size a + S8x784x64.size a := by
  show i ∈ ((View.whole main_v52).slice (win2_3.rect t)).set ↔ _
  rw [View.set_slice_whole, Rect.mem_set_unit]
  exact Iff.rfl

/-- Every index of the array is in the block of the point numbered by its image coordinate divided by eight. -/
theorem cover2_3 (i : S32x784x64.Idx) : ∃ t : Fin cfg2.N, (cfg2.win 3).flush t = true ∧ i ∈ ((cfg2.win 3).blk t).view.set := by
  have hi0 : (i 0).val < 32 := (i 0).isLt
  have hi1 : (i 1).val < 784 := (i 1).isLt
  have hi2 : (i 2).val < 64 := (i 2).isLt
  refine ⟨⟨(i 0).val / 8, div8_lt_N2 hi0⟩, flush2_3 _, ?_⟩
  obtain ⟨e0, e1, e2⟩ := index2_3 ⟨(i 0).val / 8, div8_lt_N2 hi0⟩
  rw [mem_blk2_3]
  intro a
  match a with
  | ⟨0, _⟩ => show win2_3.index ⟨(i 0).val / 8, div8_lt_N2 hi0⟩ (0 : Fin 3) * 8 ≤ (i 0).val ∧ (i 0).val < win2_3.index ⟨(i 0).val / 8, div8_lt_N2 hi0⟩ (0 : Fin 3) * 8 + 8; simp only [e0]; omega
  | ⟨1, _⟩ => show win2_3.index ⟨(i 0).val / 8, div8_lt_N2 hi0⟩ (1 : Fin 3) * 784 ≤ (i 1).val ∧ (i 1).val < win2_3.index ⟨(i 0).val / 8, div8_lt_N2 hi0⟩ (1 : Fin 3) * 784 + 784; omega
  | ⟨2, _⟩ => show win2_3.index ⟨(i 0).val / 8, div8_lt_N2 hi0⟩ (2 : Fin 3) * 64 ≤ (i 2).val ∧ (i 2).val < win2_3.index ⟨(i 0).val / 8, div8_lt_N2 hi0⟩ (2 : Fin 3) * 64 + 64; omega

/-- The result array after the whole grid. -/
theorem arrAt2_3 (c : Dev nD) : (dat2 V c).arrAt 3 cfg2.N = arr2_3 V c :=
  (dat2 V c).arrAt_eq_of_cover 3 (arr2_3 V c) (fun t _ => flushed2_3 V c t) cover2_3

end Cert.KernelIdeal.HandValue

end
-- ==== Proof.StageK2Val.lean ====
import proofs.«154663_g2000405482023969_pallasbulk_1176_2_alg».proof.Proof.DataKernelIdeal
import Idealize.ShloMosaic.Lib.Pipeline.Value
import Idealize.ShloMosaic.Lib.ValueIdx
import Idealize.ShloMosaic.Lib.ValueLayout

set_option maxRecDepth 16384

/-!
# The affine stage's block at an index

One store of a pointwise expression: each entry of the eight-image block times its channel's scale plus its
channel's shift, on the extended reals.
-/

noncomputable section

namespace Cert.KernelIdeal.HandValue

open Cert.KernelIdeal Cert.KernelIdeal.Gen Cert.KernelIdeal.GenP
open Idealize.ShloMosaic Idealize.ShloMosaic.TcCoe
open Idealize.ShloMosaic.ValueIdx

theorem zero_off3 : (![0, 0, 0] : Fin 3 → Nat) = fun _ => 0 := funext fun a => by fin_cases a <;> rfl
theorem zero_off2 : (![0, 0] : Fin 2 → Nat) = fun _ => 0 := funext fun a => by fin_cases a <;> rfl

/-- A 1 × 64 row viewed 1 × 1 × 64 and repeated over 8 × 784 positions reads, at `(p, q, co)`, the row at `co`. -/
theorem row_over_block_apply {α : Type} (x : S1x64.Idx → α) (p : Fin 8) (q : Fin 784) (co : Fin 64) :
    broadcastTo S8x784x64 (shapeCast S1x1x64 (shapeCast S1x64 x shapeCasts_S1x64_S1x64) shapeCasts_S1x64_S1x1x64)
      broadcasts_S1x1x64_S8x784x64 (ix3 p q co) = x (ix2 0 co) := by
  rw [shapeCast_self]
  refine (broadcastTo_apply _ _ (ix3 p q co) (ix3 (0 : Fin 1) (0 : Fin 1) co) fun ax => ?_).trans ?_
  · match ax with
    | ⟨0, _⟩ => rfl
    | ⟨1, _⟩ => rfl
    | ⟨2, _⟩ => rfl
  · exact shapeCast_ab_1ab_apply x _ 0 0 co

/-- The affine stage's output block at `(p, q, co)`: the input entry times the scale plus the shift. -/
theorem out2_apply (x0 : Vec Ideal S8x784x64 .bf16) (x1 x2 : Vec Ideal S1x64 .f32) (p : Fin 8) (q : Fin 784) (co : Fin 64) :
    Cert.KernelIdeal.Hand.out2 (F := Ideal) x0 x1 x2 (ix3 p q co) = x0 (ix3 p q co) * x1 (ix2 0 co) + x2 (ix2 0 co) := by
  unfold Cert.KernelIdeal.Hand.out2
  rw [View.canon_unit_zero zero_off3]
  simp only [View.ld_unit_zero (S := S8x784x64) zero_off3, View.ld_unit_zero (S := S1x64) zero_off2]
  unfold k2_pay1
  rw [addf_apply, mulf_apply, extf_apply, shapeCast_self, row_over_block_apply, row_over_block_apply]

end Cert.KernelIdeal.HandValue

end
-- ==== Proof.StageK2.lean ====
import proofs.«154663_g2000405482023969_pallasbulk_1176_2_alg».proof.Proof.ArrK2
import proofs.«154663_g2000405482023969_pallasbulk_1176_2_alg».proof.Proof.StageK2Val
import proofs.«154663_g2000405482023969_pallasbulk_1176_2_alg».proof.Proof.Spec
import Idealize.ShloMosaic.Lib.Pipeline.Value
import Idealize.ShloMosaic.Lib.ValueIdx

set_option maxRecDepth 16384

/-!
# pallas_call 2 on the extended reals: the result array from the entry arrays

For any contents of the buffers at region entry: after the four grid points the result array holds, at image `n`,
row `q`, channel `co`, the pooled array's entry times the channel's scale plus the channel's shift.
-/

noncomputable section

namespace Cert.KernelIdeal.HandValue

open Cert.KernelIdeal Cert.KernelIdeal.Gen Cert.KernelIdeal.GenP Cert.KernelIdeal.Hand
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The result array of the affine stage, entry by entry: the per-channel affine map of image `n` of the pooled array. -/
theorem stage2_Y (c : Dev nD) (n : Fin 32) (q : Fin 784) (co : Fin 64) :
    ((dat2 (F := Ideal) V c).arrAt 3 cfg2.N : S32x784x64.Idx → EReal) (ix3 n q co)
      = Cert.Spec.affine (fun q co => (V c main_v30_0 : S32x784x64.Idx → EReal) (ix3 n q co))
          (fun co => (V c main_v50 : S1x64.Idx → EReal) (ix2 (0 : Fin 1) co))
          (fun co => (V c main_v51 : S1x64.Idx → EReal) (ix2 (0 : Fin 1) co)) q co := by
  rw [arrAt2_3, arr2_3_image, out2_apply, iblk2_0_image, iblk2_1_eq, iblk2_2_eq]
  rfl

end Cert.KernelIdeal.HandValue

end
-- ==== Proof.ArrR0.lean ====
/- The reference program's first pallas_call (7x7 convolution, bias, ReLU, column sums), whole arrays against blocks,
   for any entry contents: each input block read at an index is its array at the shifted index (the image window moves with
   the grid point on the batch axis; the weights and the bias are whole windows), and each output array after the region
   is, image by image, the block the image's grid point wrote. -/
import proofs.«154663_g2000405482023969_pallasbulk_1176_2_alg».proof.Proof.PatchedFrameReferenceIdeal
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.ReferenceIdeal.HandValue

open Cert.ReferenceIdeal Cert.ReferenceIdeal.Gen Cert.ReferenceIdeal.GenP

variable {F : FTy → Type} [FloatOps F]
variable (V : (c : Dev nD) → (b : Ref sig .tc) → Buf (Elt F) ((c : Thread nD τ).loc b))

theorem lt_N0 (t : Fin cfg0.N) : t.val < 32 := t.isLt

/-- The index maps of pallas_call 0, decided over the grid: the image window and the two output windows move with the
    point on their leading axis; the weights and the bias stay at block 0. -/
theorem index0_0 : ∀ t : Fin cfg0.N, win0_0.index t (0 : Fin 4) = t.val ∧ win0_0.index t (1 : Fin 4) = 0 ∧ win0_0.index t (2 : Fin 4) = 0 ∧ win0_0.index t (3 : Fin 4) = 0 :=
  (by decide +kernel : ∀ t : Fin grid0.N, _)
theorem index0_1 : ∀ t : Fin cfg0.N, win0_1.index t (0 : Fin 2) = 0 ∧ win0_1.index t (1 : Fin 2) = 0 :=
  (by decide +kernel : ∀ t : Fin grid0.N, _)
theorem index0_2 : ∀ t : Fin cfg0.N, win0_2.index t (0 : Fin 2) = 0 ∧ win0_2.index t (1 : Fin 2) = 0 :=
  (by decide +kernel : ∀ t : Fin grid0.N, _)
theorem index0_3 : ∀ t : Fin cfg0.N, win0_3.index t (0 : Fin 3) = t.val ∧ win0_3.index t (1 : Fin 3) = 0 ∧ win0_3.index t (2 : Fin 3) = 0 :=
  (by decide +kernel : ∀ t : Fin grid0.N, _)
theorem index0_4 : ∀ t : Fin cfg0.N, win0_4.index t (0 : Fin 3) = t.val ∧ win0_4.index t (1 : Fin 3) = 0 ∧ win0_4.index t (2 : Fin 3) = 0 :=
  (by decide +kernel : ∀ t : Fin grid0.N, _)

/-! ## Input blocks are the arrays at the shifted index -/

theorem iblk0_0_apply (c : Dev nD) (t : Fin cfg0.N) (h w : Fin 56) (ci : Fin 64) :
    (iblk0 V c 0 t : Vec F S1x56x56x64 .f32) (ix4 0 h w ci)
      = (V c main_v0 : S32x56x56x64.Idx → Elt F .f32) (ix4 ⟨t.val, lt_N0 t⟩ h w ci) := by
  obtain ⟨e0, e1, e2, e3⟩ := index0_0 t
  unfold iblk0
  rw [View.read_apply]
  show V c main_v0 _ = V c main_v0 _
  congr 1
  funext a
  apply Fin.ext
  match a with
  | ⟨0, _⟩ => show win0_0.index t 0 * 1 + 1 * 0 = t.val; rw [e0]; omega
  | ⟨1, _⟩ => show win0_0.index t 1 * 56 + 1 * h.val = h.val; rw [e1]; omega
  | ⟨2, _⟩ => show win0_0.index t 2 * 56 + 1 * w.val = w.val; rw [e2]; omega
  | ⟨3, _⟩ => show win0_0.index t 3 * 64 + 1 * ci.val = ci.val; rw [e3]; omega

theorem iblk0_1_eq (c : Dev nD) (t : Fin cfg0.N) :
    (iblk0 V c 1 t : Vec F S3136x64 .f32) = (V c main_v1 : S3136x64.Idx → Elt F .f32) := by
  obtain ⟨e0, e1⟩ := index0_1 t
  funext y
  unfold iblk0
  rw [View.read_apply]
  show V c main_v1 _ = V c main_v1 _
  congr 1
  funext a
  apply Fin.ext
  match a with
  | ⟨0, _⟩ => show win0_1.index t 0 * 3136 + 1 * (y 0).val = (y 0).val; rw [e0]; omega
  | ⟨1, _⟩ => show win0_1.index t 1 * 64 + 1 * (y 1).val = (y 1).val; rw [e1]; omega

theorem iblk0_2_eq (c : Dev nD) (t : Fin cfg0.N) :
    (iblk0 V c 2 t : Vec F S1x64 .f32) = (V c main_v3 : S1x64.Idx → Elt F .f32) := by
  obtain ⟨e0, e1⟩ := index0_2 t
  funext y
  unfold iblk0
  rw [View.read_apply]
  show V c main_v3 _ = V c main_v3 _
  congr 1
  funext a
  apply Fin.ext
  match a with
  | ⟨0, _⟩ => show win0_2.index t 0 * 1 + 1 * (y 0).val = (y 0).val; rw [e0]; omega
  | ⟨1, _⟩ => show win0_2.index t 1 * 64 + 1 * (y 1).val = (y 1).val; rw [e1]; omega

/-! ## Output arrays are the blocks the points wrote -/

theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

/-- The point whose block holds image `n`. -/
abbrev pt0 (n : Nat) (h : n < 32) : Fin cfg0.N := ⟨n, h⟩

/-- The first output of pallas_call 0 as one array: image `n`'s rows are what point `n` left in its block. -/
def blocks0_3 (c : Dev nD) : S32x3136x64.Idx → Elt F .f32 :=
  fun j => (outsAt0 V c (pt0 (j 0).val (idx3_lt0 j))).1 (ix3 0 ⟨(j 1).val, idx3_lt1 j⟩ ⟨(j 2).val, idx3_lt2 j⟩)

/-- The second output of pallas_call 0 as one array. -/
def blocks0_4 (c : Dev nD) : S32x2x64.Idx → Elt F .f32 :=
  fun j => (outsAt0 V c (pt0 (j 0).val (idx3_lt0 j))).2 (ix3 0 ⟨(j 1).val, idx3_lt1 j⟩ ⟨(j 2).val, idx3_lt2 j⟩)

theorem blocks0_3_apply (c : Dev nD) (n : Fin 32) (r : Fin 3136) (co : Fin 64) :
    blocks0_3 V c (ix3 n r co) = (outsAt0 V c (pt0 n.val n.isLt)).1 (ix3 0 r co) := rfl

theorem blocks0_4_apply (c : Dev nD) (n : Fin 32) (r : Fin 2) (co : Fin 64) :
    blocks0_4 V c (ix3 n r co) = (outsAt0 V c (pt0 n.val n.isLt)).2 (ix3 0 r co) := rfl

/-- An index of the array whose leading coordinate is `t` reads point `t`'s block. -/
theorem blocks0_3_of (c : Dev nD) (t : Fin cfg0.N) (y : S1x3136x64.Idx) (j : S32x3136x64.Idx)
    (h0 : (j 0).val = t.val) (h1 : (j 1).val = (y 1).val) (h2 : (j 2).val = (y 2).val) :
    blocks0_3 V c j = (outsAt0 V c t).1 y := by
  unfold blocks0_3
  have ht : pt0 (j 0).val (idx3_lt0 j) = t := Fin.ext h0
  rw [ht]
  refine congrArg (outsAt0 V c t).1 ?_
  funext a
  apply Fin.ext
  match a with
  | ⟨0, _⟩ => show 0 = (y 0).val; have hy : (y 0).val < 1 := (y 0).isLt; omega
  | ⟨1, _⟩ => exact h1
  | ⟨2, _⟩ => exact h2

theorem blocks0_4_of (c : Dev nD) (t : Fin cfg0.N) (y : S1x2x64.Idx) (j : S32x2x64.Idx)
    (h0 : (j 0).val = t.val) (h1 : (j 1).val = (y 1).val) (h2 : (j 2).val = (y 2).val) :
    blocks0_4 V c j = (outsAt0 V c t).2 y := by
  unfold blocks0_4
  have ht : pt0 (j 0).val (idx3_lt0 j) = t := Fin.ext h0
  rw [ht]
  refine congrArg (outsAt0 V c t).2 ?_
  funext a
  apply Fin.ext
  match a with
  | ⟨0, _⟩ => show 0 = (y 0).val; have hy : (y 0).val < 1 := (y 0).isLt; omega
  | ⟨1, _⟩ => exact h1
  | ⟨2, _⟩ => exact h2

/-- What point `t` writes back to the first output is block `t` of `blocks0_3`. -/
theorem flushed0_3_eq (c : Dev nD) (t : Fin cfg0.N) :
    (dat0 V c).flushed 3 t = ((cfg0.win 3).blk t).view.read (Elt F) (blocks0_3 V c) := by
  obtain ⟨e0, e1, e2⟩ := index0_3 t
  show (cfg0.win 3).cut (grid0.coords t) ((dat0 V c).after 3 t) = _
  rw [after0_3]
  funext y
  rw [View.read_apply]
  refine (blocks0_3_of V c t _ _ ?_ ?_ ?_).symm
  · show win0_3.index t 0 * 1 + 1 * (y 0).val = t.val; have : (y 0).val < 1 := (y 0).isLt; rw [e0]; omega
  · show win0_3.index t 1 * 3136 + 1 * (y 1).val = (y 1).val; rw [e1]; omega
  · show win0_3.index t 2 * 64 + 1 * (y 2).val = (y 2).val; rw [e2]; omega

theorem mem_blk0_3 (t : Fin cfg0.N) (i : S32x3136x64.Idx) :
    i ∈ ((cfg0.win 3).blk t).view.set ↔ ∀ a : Fin 3, win0_3.index t a * S1x3136x64.size a ≤ (i a).val ∧ (i a).val < win0_3.index t a * S1x3136x64.size a + S1x3136x64.size a := by
  show i ∈ ((View.whole main_v5_0).slice (win0_3.rect t)).set ↔ _
  rw [View.set_slice_whole, Rect.mem_set_unit]
  exact Iff.rfl

theorem cover0_3 (i : S32x3136x64.Idx) : ∃ t : Fin cfg0.N, (cfg0.win 3).flush t = true ∧ i ∈ ((cfg0.win 3).blk t).view.set := by
  have h0 : (i 0).val < 32 := idx3_lt0 i
  have h1 : (i 1).val < 3136 := idx3_lt1 i
  have h2 : (i 2).val < 64 := idx3_lt2 i
  refine ⟨pt0 (i 0).val h0, flush0_3 _, ?_⟩
  obtain ⟨e0, e1, e2⟩ := index0_3 (pt0 (i 0).val h0)
  rw [mem_blk0_3]
  intro a
  match a with
  | ⟨0, _⟩ => show win0_3.index (pt0 (i 0).val h0) 0 * 1 ≤ (i 0).val ∧ (i 0).val < win0_3.index (pt0 (i 0).val h0) 0 * 1 + 1; rw [e0]; show (i 0).val * 1 ≤ (i 0).val ∧ (i 0).val < (i 0).val * 1 + 1; omega
  | ⟨1, _⟩ => show win0_3.index (pt0 (i 0).val h0) 1 * 3136 ≤ (i 1).val ∧ (i 1).val < win0_3.index (pt0 (i 0).val h0) 1 * 3136 + 3136; rw [e1]; omega
  | ⟨2, _⟩ => show win0_3.index (pt0 (i 0).val h0) 2 * 64 ≤ (i 2).val ∧ (i 2).val < win0_3.index (pt0 (i 0).val h0) 2 * 64 + 64; rw [e2]; omega

/-- THE FIRST OUTPUT ARRAY of pallas_call 0 after the region. -/
theorem arr0_3 (c : Dev nD) : (dat0 V c).arrAt 3 cfg0.N = blocks0_3 V c :=
  (dat0 V c).arrAt_eq_of_cover 3 (blocks0_3 V c) (fun t _ => flushed0_3_eq V c t) cover0_3

/-- What point `t` writes back to the second output is block `t` of `blocks0_4`. -/
theorem flushed0_4_eq (c : Dev nD) (t : Fin cfg0.N) :
    (dat0 V c).flushed 4 t = ((cfg0.win 4).blk t).view.read (Elt F) (blocks0_4 V c) := by
  obtain ⟨e0, e1, e2⟩ := index0_4 t
  show (cfg0.win 4).cut (grid0.coords t) ((dat0 V c).after 4 t) = _
  rw [after0_4]
  funext y
  rw [View.read_apply]
  refine (blocks0_4_of V c t _ _ ?_ ?_ ?_).symm
  · show win0_4.index t 0 * 1 + 1 * (y 0).val = t.val; have : (y 0).val < 1 := (y 0).isLt; rw [e0]; omega
  · show win0_4.index t 1 * 2 + 1 * (y 1).val = (y 1).val; rw [e1]; omega
  · show win0_4.index t 2 * 64 + 1 * (y 2).val = (y 2).val; rw [e2]; omega

theorem mem_blk0_4 (t : Fin cfg0.N) (i : S32x2x64.Idx) :
    i ∈ ((cfg0.win 4).blk t).view.set ↔ ∀ a : Fin 3, win0_4.index t a * S1x2x64.size a ≤ (i a).val ∧ (i a).val < win0_4.index t a * S1x2x64.size a + S1x2x64.size a := by
  show i ∈ ((View.whole main_v5_1).slice (win0_4.rect t)).set ↔ _
  rw [View.set_slice_whole, Rect.mem_set_unit]
  exact Iff.rfl

theorem cover0_4 (i : S32x2x64.Idx) : ∃ t : Fin cfg0.N, (cfg0.win 4).flush t = true ∧ i ∈ ((cfg0.win 4).blk t).view.set := by
  have h0 : (i 0).val < 32 := idx3_lt0 i
  have h1 : (i 1).val < 2 := idx3_lt1 i
  have h2 : (i 2).val < 64 := idx3_lt2 i
  refine ⟨pt0 (i 0).val h0, flush0_4 _, ?_⟩
  obtain ⟨e0, e1, e2⟩ := index0_4 (pt0 (i 0).val h0)
  rw [mem_blk0_4]
  intro a
  match a with
  | ⟨0, _⟩ => show win0_4.index (pt0 (i 0).val h0) 0 * 1 ≤ (i 0).val ∧ (i 0).val < win0_4.index (pt0 (i 0).val h0) 0 * 1 + 1; rw [e0]; show (i 0).val * 1 ≤ (i 0).val ∧ (i 0).val < (i 0).val * 1 + 1; omega
  | ⟨1, _⟩ => show win0_4.index (pt0 (i 0).val h0) 1 * 2 ≤ (i 1).val ∧ (i 1).val < win0_4.index (pt0 (i 0).val h0) 1 * 2 + 2; rw [e1]; omega
  | ⟨2, _⟩ => show win0_4.index (pt0 (i 0).val h0) 2 * 64 ≤ (i 2).val ∧ (i 2).val < win0_4.index (pt0 (i 0).val h0) 2 * 64 + 64; rw [e2]; omega

/-- THE SECOND OUTPUT ARRAY of pallas_call 0 after the region. -/
theorem arr0_4 (c : Dev nD) : (dat0 V c).arrAt 4 cfg0.N = blocks0_4 V c :=
  (dat0 V c).arrAt_eq_of_cover 4 (blocks0_4 V c) (fun t _ => flushed0_4_eq V c t) cover0_4

end Cert.ReferenceIdeal.HandValue

end
-- ==== Proof.V0RPieces.lean ====
import proofs.«154663_g2000405482023969_pallasbulk_1176_2_alg».proof.Proof.PatchedFrameReferenceIdeal
import Idealize.ShloMosaic.Lib.Pipeline.Value
import Idealize.ShloMosaic.Lib.Tactic

set_option maxRecDepth 16384

/-!
# pallas_call 0 of the reference: its two outputs as functions of the patch matrix

The body stores each output once, whole. The first output is the positive part of (patch matrix · weights + bias),
viewed 1 × 3136 × 64; the second stacks the column sums of that result and of its square, viewed 1 × 2 × 64. Both are
stated here over the patch matrix as the body loads it back from its 3136 × 3136 buffer, and over the weights and the
bias as the inputs hold them; the arithmetic itself stays folded in the payloads.
-/

noncomputable section

namespace Cert.ReferenceIdeal.HandValue

open Cert.ReferenceIdeal Cert.ReferenceIdeal.Gen Cert.ReferenceIdeal.GenP
open Idealize.ShloMosaic Idealize.ShloMosaic.TcCoe Idealize.ShloMosaic.Tactic
open Idealize.SL.Sem

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The patch matrix as the body reads it back: the whole 3136 × 3136 buffer after the forty-nine column slabs
    have been stored into it. -/
abbrev patchLoaded (c : Dev nD) (arg1 : Memref sig .tc .vmem S1x56x56x64 .f32) (harg1 : arg1.IsWhole)
    (arg6 : Memref sig .tc .vmem S62x62x64 .f32) (arg7 : Memref sig .tc .vmem S3136x3136 .f32)
    (x0 : Vec F S1x56x56x64 .f32) : Vec F S3136x3136 .f32 :=
  kernelRun0_A.sl.v254 c arg1 harg1 arg6 arg7 x0

/-- The first output is the one whole store of the activated product, over the loaded patch matrix, the weights
    and the bias. -/
theorem out0_A_3_eq_payload (c : Dev nD) (i : grid0.Coords) (arg1 : Memref sig .tc .vmem S1x56x56x64 .f32) (harg1 : arg1.IsWhole) (arg2 : Memref sig .tc .vmem S3136x64 .f32) (harg2 : arg2.IsWhole) (arg3 : Memref sig .tc .vmem S1x64 .f32) (harg3 : arg3.IsWhole) (arg4 : Memref sig .tc .vmem S1x3136x64 .f32) (harg4 : arg4.IsWhole) (arg5 : Memref sig .tc .vmem S1x2x64 .f32) (harg5 : arg5.IsWhole) (arg6 : Memref sig .tc .vmem S62x62x64 .f32) (harg6 : arg6.IsWhole) (arg7 : Memref sig .tc .vmem S3136x3136 .f32) (harg7 : arg7.IsWhole)
    (x0 : Vec F S1x56x56x64 .f32) (x1 : Vec F S3136x64 .f32) (x2 : Vec F S1x64 .f32) :
    out0_A_3 c i arg1 harg1 arg2 harg2 arg3 harg3 arg4 harg4 arg5 harg5 arg6 harg6 arg7 harg7 x0 x1 x2 = k0_pay58 (patchLoaded c arg1 harg1 arg6 arg7 x0) x1 x2 := by
  unfold out0_A_3
  rw [View.read_writes_eq_canon _ _ _ (cover0_A_3 c i arg1 harg1 arg2 harg2 arg3 harg3 arg4 harg4 arg5 harg5 arg6 harg6 arg7 harg7 x0 x1 x2)]
  unfold kernelRun0_A
  dsimp only
  rw [View.canon_unit_zero zeros3]
  simp only [View.readAt_eq_ld, harg2.read_unread, harg3.read_unread, View.ld_unit_zero (S := S3136x64) zeros2,
    View.ld_unit_zero (S := S1x64) zeros2]

/-- The second output is the one whole store of the two stacked column sums, over the same three values. -/
theorem out0_A_4_eq_payload (c : Dev nD) (i : grid0.Coords) (arg1 : Memref sig .tc .vmem S1x56x56x64 .f32) (harg1 : arg1.IsWhole) (arg2 : Memref sig .tc .vmem S3136x64 .f32) (harg2 : arg2.IsWhole) (arg3 : Memref sig .tc .vmem S1x64 .f32) (harg3 : arg3.IsWhole) (arg4 : Memref sig .tc .vmem S1x3136x64 .f32) (harg4 : arg4.IsWhole) (arg5 : Memref sig .tc .vmem S1x2x64 .f32) (harg5 : arg5.IsWhole) (arg6 : Memref sig .tc .vmem S62x62x64 .f32) (harg6 : arg6.IsWhole) (arg7 : Memref sig .tc .vmem S3136x3136 .f32) (harg7 : arg7.IsWhole)
    (x0 : Vec F S1x56x56x64 .f32) (x1 : Vec F S3136x64 .f32) (x2 : Vec F S1x64 .f32) :
    out0_A_4 c i arg1 harg1 arg2 harg2 arg3 harg3 arg4 harg4 arg5 harg5 arg6 harg6 arg7 harg7 x0 x1 x2 = k0_pay1 (k0_pay59 (patchLoaded c arg1 harg1 arg6 arg7 x0) x1 x2) := by
  unfold out0_A_4
  rw [View.read_writes_eq_canon _ _ _ (cover0_A_4 c i arg1 harg1 arg2 harg2 arg3 harg3 arg4 harg4 arg5 harg5 arg6 harg6 arg7 harg7 x0 x1 x2)]
  unfold kernelRun0_A
  dsimp only
  rw [View.canon_unit_zero zeros3]
  unfold kernelRun0_A.sl.r_4
  simp only [View.readAt_eq_ld, harg2.read_unread, harg3.read_unread, View.ld_unit_zero (S := S3136x64) zeros2,
    View.ld_unit_zero (S := S1x64) zeros2]

end Cert.ReferenceIdeal.HandValue

end
-- ==== Proof.V0RPadded.lean ====
import proofs.«154663_g2000405482023969_pallasbulk_1176_2_alg».proof.Proof.PatchedFrameReferenceIdeal
import proofs.«154663_g2000405482023969_pallasbulk_1176_2_alg».proof.Proof.Spec
import Idealize.ShloMosaic.PureOps.Ideal.Laws
import Idealize.ShloMosaic.Lib.ValueIdx
import Idealize.ShloMosaic.Lib.Pipeline.Value
import Idealize.ShloMosaic.Lib.Tactic

set_option maxRecDepth 16384

/-!
# pallas_call 0 of the reference: the zero-bordered image

The body first fills a 62 × 62 × 64 buffer with zeros and then writes the 56 × 56 × 64 image into its interior, rows
and columns 3 … 58. Read at padded coordinates `(a, b)` and channel `ci`, the buffer therefore holds the image at
`(a - 3, b - 3, ci)` inside the border and `0` on it: the later store wins where the two overlap, the zero fill
shows everywhere else.
-/

noncomputable section

namespace Cert.ReferenceIdeal.HandValue

open Cert.ReferenceIdeal Cert.ReferenceIdeal.Gen Cert.ReferenceIdeal.GenP
open Idealize.ShloMosaic Idealize.ShloMosaic.TcCoe Idealize.ShloMosaic.Tactic Idealize.ShloMosaic.ValueIdx
open Idealize.SL.Sem
open scoped BigOperators

/-- The image, the weight matrix and the bias as functions of their coordinates. -/
def img (x0 : Vec Ideal S1x56x56x64 .f32) : Fin 56 → Fin 56 → Fin 64 → EReal := fun h w ci => x0 (ValueIdx.ix4 0 h w ci)
def wmat (x1 : Vec Ideal S3136x64 .f32) : Fin 3136 → Fin 64 → EReal := fun t co => x1 (ValueIdx.ix2 t co)
def bias (x2 : Vec Ideal S1x64 .f32) : Fin 64 → EReal := fun co => x2 (ValueIdx.ix2 0 co)

private theorem z3 : (![0, 0, 0] : Fin 3 → Nat) = fun _ => 0 := funext fun a => by fin_cases a <;> rfl
private theorem z4 : (![0, 0, 0, 0] : Fin 4 → Nat) = fun _ => 0 := funext fun a => by fin_cases a <;> rfl

/-- What the zero fill and the interior store leave in the 62 × 62 × 64 buffer, as a function of its index. -/
abbrev paddedStored {F : FTy → Type} [FloatOps F] (c : Dev nD) (arg1 : Memref sig .tc .vmem S1x56x56x64 .f32)
    (harg1 : arg1.IsWhole) (x0 : Vec F S1x56x56x64 .f32) : S62x62x64.Idx → Elt F .f32 :=
  View.canon (kernelRun0_A.sl.HS0_2 c arg1 harg1 x0)

/-- The buffer holds the zero-bordered image. -/
theorem paddedStored_apply (c : Dev nD) (arg1 : Memref sig .tc .vmem S1x56x56x64 .f32) (harg1 : arg1.IsWhole)
    (x0 : Vec Ideal S1x56x56x64 .f32) (a b : Fin 62) (ci : Fin 64) :
    paddedStored (F := Ideal) c arg1 harg1 x0 (ix3 a b ci) = Cert.Spec.padded (img x0) a.val b.val ci := by
  unfold paddedStored kernelRun0_A.sl.HS0_2
  by_cases h : (3 ≤ a.val ∧ a.val < 59) ∧ (3 ≤ b.val ∧ b.val < 59)
  · have hy : (ix3 a b ci : S62x62x64.Idx)
        = (Rect.unit (s := S62x62x64) ![3, 3, 0] S56x56x64.size inb_S62x62x64_S56x56x64_3_3_0).emb
            (ix3 (⟨a.val - 3, by omega⟩ : Fin 56) (⟨b.val - 3, by omega⟩ : Fin 56) ci) :=
      funext fun d => Fin.ext (by
        match d with
        | ⟨0, _⟩ => show a.val = 3 + 1 * (a.val - 3); omega
        | ⟨1, _⟩ => show b.val = 3 + 1 * (b.val - 3); omega
        | ⟨2, _⟩ => show ci.val = 0 + 1 * ci.val; omega)
    rw [hy, View.canon_cons_emb]
    unfold Cert.Spec.padded
    rw [dif_pos h]
    unfold k0_pay3 img
    dsimp only
    refine (congrFun (shapeCast_self _ _) _).trans ?_
    refine (shapeCast_apply _ _ _ (ix4 (0 : Fin 1) (⟨a.val - 3, by omega⟩ : Fin 56) (⟨b.val - 3, by omega⟩ : Fin 56) ci) ?_).trans ?_
    · rw [Shape.rowMajor_val_four, Shape.rowMajor_val_three]
      show (((0 : ℕ) * 56 + (a.val - 3)) * 56 + (b.val - 3)) * 64 + ci.val = ((a.val - 3) * 56 + (b.val - 3)) * 64 + ci.val
      omega
    · simp only [View.readAt_eq_ld, harg1.read_unread]
      exact congrFun (View.ld_unit_zero (S := S1x56x56x64) z4 _ x0) _
  · have hn : (ix3 a b ci : S62x62x64.Idx)
        ∉ (Rect.unit (s := S62x62x64) ![3, 3, 0] S56x56x64.size inb_S62x62x64_S56x56x64_3_3_0).set := by
      rw [Rect.mem_set_unit]
      intro hall
      have h0 : 3 ≤ a.val ∧ a.val < 3 + 56 := hall 0
      have h1 : 3 ≤ b.val ∧ b.val < 3 + 56 := hall 1
      exact h ⟨⟨h0.1, by omega⟩, ⟨h1.1, by omega⟩⟩
    rw [View.canon_cons_of_not_mem
      (⟨Rect.unit (s := S62x62x64) ![3, 3, 0] S56x56x64.size inb_S62x62x64_S56x56x64_3_3_0, _⟩ :
        View.Piece (Elt Ideal) S62x62x64 .f32) _ hn, View.canon_unit_zero z3]
    unfold Cert.Spec.padded
    rw [dif_neg h]
    unfold k0_pay2
    refine (congrFun (shapeCast_self _ _) _).trans ?_
    exact Ideal.ofBits_zero_f32

end Cert.ReferenceIdeal.HandValue

end
-- ==== Proof.V0RPatch.lean ====
import proofs.«154663_g2000405482023969_pallasbulk_1176_2_alg».proof.Proof.PatchedFrameReferenceIdeal
import proofs.«154663_g2000405482023969_pallasbulk_1176_2_alg».proof.Proof.Spec
import Idealize.ShloMosaic.PureOps.Ideal.Laws
import Idealize.ShloMosaic.Lib.ValueIdx
import Idealize.ShloMosaic.Lib.Pipeline.Value
import Idealize.ShloMosaic.Lib.Tactic

set_option maxRecDepth 16384

/-!
# pallas_call 0 of the reference: the patch matrix

Forty-nine stores fill the 3136 × 3136 buffer, one per kernel offset `(kh, kw)`: the window of the zero-bordered
image that starts at `(kh, kw)`, 56 × 56 × 64, flattened to 3136 × 64, goes to columns `(kh·7 + kw)·64 …` of the
buffer. Every store is a block of ONE function of the buffer's index — row `r`, column `t` holds the bordered image
at `(r / 56 + t / 448, r % 56 + t % 448 / 64, t % 64)` — and the forty-nine column slabs tile the buffer, so the
whole buffer read back is that function. Nothing here depends on the float format or on what the bordered image holds.
-/

noncomputable section

namespace Cert.ReferenceIdeal.HandValue

open Cert.ReferenceIdeal Cert.ReferenceIdeal.Gen Cert.ReferenceIdeal.GenP
open Idealize.ShloMosaic Idealize.ShloMosaic.TcCoe Idealize.ShloMosaic.Tactic Idealize.ShloMosaic.ValueIdx
open Idealize.SL.Sem
open scoped BigOperators

variable {F : FTy → Type} [FloatOps F]

/-- One entry of the patch matrix over any contents `P` of the zero-bordered buffer: output row `r = h·56 + w`
    meets column `t = (kh·7 + kw)·64 + ci` at the bordered position `(h + kh, w + kw)`, channel `ci`. -/
def patchOf {α : Type} (P : S62x62x64.Idx → α) (r t : Fin 3136) : α :=
  P (ix3 (⟨r.val / 56 + t.val / 448, by omega⟩ : Fin 62) (⟨r.val % 56 + t.val % 448 / 64, by omega⟩ : Fin 62)
    (⟨t.val % 64, by omega⟩ : Fin 64))

/-- The same as a function of the buffer's index. -/
def patchAt {α : Type} (P : S62x62x64.Idx → α) (y : S3136x3136.Idx) : α := patchOf P (y 0) (y 1)

/-- One column slab: the window of the bordered buffer at offsets `(a, b)`, flattened, is the block of `patchAt`
    at columns `o = (a·7 + b)·64 …`. -/
theorem slab_payload_apply (V6 : View sig .tc .vmem S62x62x64 .f32) (L0 : List (View.Piece (Elt F) S62x62x64 .f32))
    (a b o : ℕ) (ha : a < 7) (hb : b < 7) (ho : o = (a * 7 + b) * 64)
    (inbL : ∀ d, (![a, b, 0] : Fin 3 → ℕ) d + S56x56x64.size d ≤ S62x62x64.size d)
    (inbS : ∀ d, (![0, o] : Fin 2 → ℕ) d + S3136x64.size d ≤ S3136x3136.size d)
    (x : (Rect.unit (s := S3136x3136) ![0, o] S3136x64.size inbS).shape.Idx) :
    k0_pay4 (V6.readCov L0 (Rect.unit (s := S62x62x64) ![a, b, 0] S56x56x64.size inbL).toLoadRect) x
      = patchAt (View.canon L0) ((Rect.unit (s := S3136x3136) ![0, o] S3136x64.size inbS).emb x) := by
  rw [View.readCov_eq_canon']
  obtain ⟨r, ci, rfl⟩ : ∃ (r : Fin 3136) (ci : Fin 64), x = ix2 r ci := ⟨x 0, x 1, eq_ix2 x⟩
  unfold k0_pay4
  dsimp only
  refine (congrFun (shapeCast_self _ _) _).trans ?_
  refine (shapeCast_apply _ _ (ix2 r ci)
    (ix3 (⟨r.val / 56, by omega⟩ : Fin 56) (⟨r.val % 56, by omega⟩ : Fin 56) ci) ?_).trans ?_
  · rw [Shape.rowMajor_val_three, Shape.rowMajor_val_two]
    show (r.val / 56 * 56 + r.val % 56) * 64 + ci.val = r.val * 64 + ci.val
    omega
  · unfold patchAt patchOf
    refine congrArg (View.canon L0) (funext fun d => Fin.ext ?_)
    match d with
    | ⟨0, _⟩ =>
      show a + 1 * (r.val / 56) = (0 + 1 * r.val) / 56 + (o + 1 * ci.val) / 448
      subst ho; omega
    | ⟨1, _⟩ =>
      show b + 1 * (r.val % 56) = (0 + 1 * r.val) % 56 + (o + 1 * ci.val) % 448 / 64
      subst ho; omega
    | ⟨2, _⟩ =>
      show 0 + 1 * ci.val = (o + 1 * ci.val) % 64
      subst ho; omega

private theorem z2 : (![0, 0] : Fin 2 → Nat) = fun _ => 0 := funext fun a => by fin_cases a <;> rfl

/-- The whole patch buffer read back: row `r`, column `t` is `patchOf` of what the bordered buffer holds. -/
theorem patchLoaded_apply (c : Dev nD) (arg1 : Memref sig .tc .vmem S1x56x56x64 .f32) (harg1 : arg1.IsWhole)
    (arg6 : Memref sig .tc .vmem S62x62x64 .f32) (arg7 : Memref sig .tc .vmem S3136x3136 .f32)
    (x0 : Vec F S1x56x56x64 .f32) (r t : Fin 3136) :
    kernelRun0_A.sl.v254 c arg1 harg1 arg6 arg7 x0 (ix2 r t)
      = patchOf (View.canon (kernelRun0_A.sl.HS0_2 c arg1 harg1 x0)) r t := by
  unfold kernelRun0_A.sl.v254
  rw [View.readCov_eq_canon']
  dsimp only
  have hidx : (Rect.unit (s := S3136x3136) ![0, 0] S3136x3136.size inb_S3136x3136_S3136x3136_0_0).toLoadRect.idx (ix2 r t)
      = (ix2 r t : S3136x3136.Idx) :=
    funext fun d => Fin.ext (by
      match d with
      | ⟨0, _⟩ => show 0 + 1 * r.val = r.val; omega
      | ⟨1, _⟩ => show 0 + 1 * t.val = t.val; omega)
  rw [hidx]
  refine (View.canon_apply_of_pieces (patchAt (View.canon (kernelRun0_A.sl.HS0_2 c arg1 harg1 x0))) _ ?_ (ix2 r t)
    (View.cover_of_tiledL (s := S3136x3136) (kernelRun0_A.sl.HS1_49 c arg1 harg1 arg6 x0) S3136x64.size
      (by sl_kernel_rfl) _)).trans rfl
  unfold kernelRun0_A.sl.HS1_49
  simp only [List.forall_mem_cons]
  repeat' apply And.intro
  all_goals first
    | (intro x; exact slab_payload_apply arg6.view _ _ _ _ (by decide) (by decide) (by decide) _ _ x)
    | (intro p hp; exact absurd hp List.not_mem_nil)

end Cert.ReferenceIdeal.HandValue

end
-- ==== Proof.V0RMain.lean ====
import proofs.«154663_g2000405482023969_pallasbulk_1176_2_alg».proof.Proof.PatchedFrameReferenceIdeal
import proofs.«154663_g2000405482023969_pallasbulk_1176_2_alg».proof.Proof.Spec
import proofs.«154663_g2000405482023969_pallasbulk_1176_2_alg».proof.Proof.V0RPieces
import proofs.«154663_g2000405482023969_pallasbulk_1176_2_alg».proof.Proof.V0RPadded
import proofs.«154663_g2000405482023969_pallasbulk_1176_2_alg».proof.Proof.V0RPatch
import proofs.«154663_g2000405482023969_pallasbulk_1176_2_alg».proof.Proof.LibSplit
import Idealize.ShloMosaic.PureOps.Ideal.Laws
import Idealize.ShloMosaic.Lib.ValueIdx
import Idealize.ShloMosaic.Lib.Pipeline.Value
import Idealize.ShloMosaic.Lib.Tactic

set_option maxRecDepth 16384

/-!
# pallas_call 0 of the reference: its two outputs are the specification

The body multiplies the 3136 × 3136 patch matrix by the 3136 × 64 weight matrix into a zero accumulator, adds the bias
to every row and takes the positive part; entry `(r, co)` of the result is therefore
`max (∑ₜ patch r t · w t co + b co) 0`, the specification's convolution. The first output is that matrix viewed
1 × 3136 × 64. The second stacks, as rows 0 and 1 of a 1 × 2 × 64 block, the sum of each column and the sum of the
squares of each column. All sums are finite sums of extended reals; no term is assumed finite.
-/

noncomputable section

namespace Cert.ReferenceIdeal.HandValue

open Cert.ReferenceIdeal Cert.ReferenceIdeal.Gen Cert.ReferenceIdeal.GenP
open Idealize.ShloMosaic Idealize.ShloMosaic.TcCoe Idealize.ShloMosaic.Tactic Idealize.ShloMosaic.ValueIdx
open Idealize.SL.Sem
open scoped BigOperators

/-- The product with bias and positive part, at one entry, over any left factor `P`. -/
theorem activated_apply (P : FVec Ideal S3136x3136 .f32) (x1 : FVec Ideal S3136x64 .f32) (x2 : FVec Ideal S1x64 .f32)
    (r : Fin 3136) (co : Fin 64) :
    k0_pay57 (F := Ideal) P x1 x2 (ix2 r co)
      = max ((∑ t : Fin 3136, P (ix2 r t) * wmat x1 t co) + bias x2 co) 0 := by
  unfold k0_pay57 wmat bias
  have hmm : matmul (F := Ideal) (φ₁ := .f32) (φ₂ := .f32) dot_S3136x3136_S3136x64_S3136x64_1_0_0_1_n_n none P
      (shapeCast S3136x64 x1 shapeCasts_S3136x64_S3136x64) (constant S3136x64 .f32 0x00000000#32) (ix2 r co)
      = ∑ t : Fin 3136, P (ix2 r t) * x1 (ix2 t co) := by
    rw [shapeCast_self]
    exact Cert.Bridge.Split.matmul_zero_plain_apply _ rfl P x1 r co
  have hb : broadcastTo S3136x64 (shapeCast S1x64 x2 shapeCasts_S1x64_S1x64) broadcasts_S1x64_S3136x64 (ix2 r co)
      = x2 (ix2 0 co) := by
    rw [shapeCast_self]
    exact broadcastTo_apply x2 _ (ix2 r co) (ix2 0 co) (fun a => by
      match a with
      | ⟨0, _⟩ => rfl
      | ⟨1, _⟩ => rfl)
  show max (_ + _) _ = _
  rw [hmm, hb]
  exact congrArg (max _) Ideal.ofBits_zero_f32

/-- The patch matrix the body reads back is the specification's. -/
theorem patchLoaded_eq_patch (c : Dev nD) (arg1 : Memref sig .tc .vmem S1x56x56x64 .f32) (harg1 : arg1.IsWhole) (arg6 : Memref sig .tc .vmem S62x62x64 .f32) (arg7 : Memref sig .tc .vmem S3136x3136 .f32)
    (x0 : Vec Ideal S1x56x56x64 .f32) (r t : Fin 3136) :
    patchLoaded (F := Ideal) c arg1 harg1 arg6 arg7 x0 (ix2 r t) = Cert.Spec.patch (img x0) r t := by
  refine (patchLoaded_apply (F := Ideal) c arg1 harg1 arg6 arg7 x0 r t).trans ?_
  unfold patchOf Cert.Spec.patch
  exact paddedStored_apply c arg1 harg1 x0 _ _ _

/-- So the activated product over it is the specification's convolution. -/
theorem activated_eq_conv (c : Dev nD) (arg1 : Memref sig .tc .vmem S1x56x56x64 .f32) (harg1 : arg1.IsWhole) (arg6 : Memref sig .tc .vmem S62x62x64 .f32) (arg7 : Memref sig .tc .vmem S3136x3136 .f32)
    (x0 : Vec Ideal S1x56x56x64 .f32) (x1 : Vec Ideal S3136x64 .f32) (x2 : Vec Ideal S1x64 .f32) (r : Fin 3136) (co : Fin 64) :
    k0_pay57 (F := Ideal) (patchLoaded (F := Ideal) c arg1 harg1 arg6 arg7 x0) x1 x2 (ix2 r co)
      = Cert.Spec.conv (img x0) (wmat x1) (bias x2) r co := by
  refine (activated_apply _ x1 x2 r co).trans ?_
  unfold Cert.Spec.conv
  refine congrArg (fun s => max (s + bias x2 co) 0) (Finset.sum_congr rfl fun t _ => ?_)
  exact congrArg (· * wmat x1 t co) (patchLoaded_eq_patch c arg1 harg1 arg6 arg7 x0 r t)

/-- The first output, entry by entry. -/
theorem out0_A_3_apply (c : Dev nD) (i : grid0.Coords) (arg1 : Memref sig .tc .vmem S1x56x56x64 .f32) (harg1 : arg1.IsWhole) (arg2 : Memref sig .tc .vmem S3136x64 .f32) (harg2 : arg2.IsWhole) (arg3 : Memref sig .tc .vmem S1x64 .f32) (harg3 : arg3.IsWhole) (arg4 : Memref sig .tc .vmem S1x3136x64 .f32) (harg4 : arg4.IsWhole) (arg5 : Memref sig .tc .vmem S1x2x64 .f32) (harg5 : arg5.IsWhole) (arg6 : Memref sig .tc .vmem S62x62x64 .f32) (harg6 : arg6.IsWhole) (arg7 : Memref sig .tc .vmem S3136x3136 .f32) (harg7 : arg7.IsWhole)
    (x0 : Vec Ideal S1x56x56x64 .f32) (x1 : Vec Ideal S3136x64 .f32) (x2 : Vec Ideal S1x64 .f32) (r : Fin 3136) (co : Fin 64) :
    out0_A_3 (F := Ideal) c i arg1 harg1 arg2 harg2 arg3 harg3 arg4 harg4 arg5 harg5 arg6 harg6 arg7 harg7 x0 x1 x2 (ix3 0 r co) = Cert.Spec.conv (img x0) (wmat x1) (bias x2) r co := by
  rw [out0_A_3_eq_payload]
  unfold k0_pay58
  refine (shapeCast_apply _ _ (ix3 (0 : Fin 1) r co) (ix2 r co) ?_).trans ?_
  · rw [Shape.rowMajor_val_two, Shape.rowMajor_val_three]
    show r.val * 64 + co.val = ((0 : ℕ) * 3136 + r.val) * 64 + co.val
    omega
  · exact activated_eq_conv c arg1 harg1 arg6 arg7 x0 x1 x2 r co

/-- The source index of a column sum: row `k` inserted above column `co`. -/
private theorem lift_row (co : Fin 64) (k : Fin (S3136x64.size 0)) :
    reduces_S3136x64_S64.lift (ix1 co) k = (ix2 k co : S3136x64.Idx) :=
  funext fun d => Fin.ext (by
    match d with
    | ⟨0, _⟩ => rfl
    | ⟨1, _⟩ => rfl)

/-- Row 0 of the stacked block is the sum of each column of the activated product. -/
theorem stacked_sum_apply (P : FVec Ideal S3136x3136 .f32) (x1 : FVec Ideal S3136x64 .f32) (x2 : FVec Ideal S1x64 .f32)
    (co : Fin 64) :
    k0_pay1 (F := Ideal) (k0_pay59 (F := Ideal) P x1 x2) (ix3 0 0 co)
      = ∑ k : Fin 3136, k0_pay57 (F := Ideal) P x1 x2 (ix2 k co) := by
  unfold k0_pay1
  refine (shapeCast_apply _ _ (ix3 (0 : Fin 1) (0 : Fin 2) co) (ix2 (0 : Fin 2) co) ?_).trans ?_
  · rw [Shape.rowMajor_val_two, Shape.rowMajor_val_three]
    show (0 : ℕ) * 64 + co.val = ((0 : ℕ) * 2 + 0) * 64 + co.val
    omega
  · unfold k0_pay59
    refine (concatenate_pair_apply_left _ _ _ concatenates_S1x64_S1x64_S2x64_d0 (ix2 (0 : Fin 2) co) rfl
      (ix2 (0 : Fin 1) co) (fun b => by
        match b with
        | ⟨0, _⟩ => rfl
        | ⟨1, _⟩ => rfl)).trans ?_
    refine (shapeCast_apply _ _ (ix2 (0 : Fin 1) co) (ix1 co) ?_).trans ?_
    · rw [Shape.rowMajor_val_one, Shape.rowMajor_val_two]
      show co.val = (0 : ℕ) * 64 + co.val
      omega
    · refine (Ideal.multiReduction_add_single _ 0x00000000#32 reduces_S3136x64_S64 _ _ (ix1 co)).trans ?_
      exact Finset.sum_congr rfl fun k _ => congrArg _ (lift_row co k)

/-- Row 1 of the stacked block is the sum of the squares of each column. -/
theorem stacked_sumsq_apply (P : FVec Ideal S3136x3136 .f32) (x1 : FVec Ideal S3136x64 .f32) (x2 : FVec Ideal S1x64 .f32)
    (co : Fin 64) :
    k0_pay1 (F := Ideal) (k0_pay59 (F := Ideal) P x1 x2) (ix3 0 1 co)
      = ∑ k : Fin 3136, k0_pay57 (F := Ideal) P x1 x2 (ix2 k co) * k0_pay57 (F := Ideal) P x1 x2 (ix2 k co) := by
  unfold k0_pay1
  refine (shapeCast_apply _ _ (ix3 (0 : Fin 1) (1 : Fin 2) co) (ix2 (1 : Fin 2) co) ?_).trans ?_
  · rw [Shape.rowMajor_val_two, Shape.rowMajor_val_three]
    show (1 : ℕ) * 64 + co.val = ((0 : ℕ) * 2 + 1) * 64 + co.val
    omega
  · unfold k0_pay59
    refine (concatenate_pair_apply_right _ _ _ concatenates_S1x64_S1x64_S2x64_d0 (ix2 (1 : Fin 2) co) rfl rfl
      (ix2 (0 : Fin 1) co) (fun b hb => by
        match b, hb with
        | ⟨0, _⟩, hb => exact absurd rfl hb
        | ⟨1, _⟩, _ => rfl) rfl).trans ?_
    refine (shapeCast_apply _ _ (ix2 (0 : Fin 1) co) (ix1 co) ?_).trans ?_
    · rw [Shape.rowMajor_val_one, Shape.rowMajor_val_two]
      show co.val = (0 : ℕ) * 64 + co.val
      omega
    · refine (Ideal.multiReduction_add_single _ 0x00000000#32 reduces_S3136x64_S64 _ _ (ix1 co)).trans ?_
      refine Finset.sum_congr rfl fun k _ => ?_
      rw [lift_row co k]
      rfl

/-- The second output's row 0: the column sums of the specification's convolution. -/
theorem out0_A_4_sum (c : Dev nD) (i : grid0.Coords) (arg1 : Memref sig .tc .vmem S1x56x56x64 .f32) (harg1 : arg1.IsWhole) (arg2 : Memref sig .tc .vmem S3136x64 .f32) (harg2 : arg2.IsWhole) (arg3 : Memref sig .tc .vmem S1x64 .f32) (harg3 : arg3.IsWhole) (arg4 : Memref sig .tc .vmem S1x3136x64 .f32) (harg4 : arg4.IsWhole) (arg5 : Memref sig .tc .vmem S1x2x64 .f32) (harg5 : arg5.IsWhole) (arg6 : Memref sig .tc .vmem S62x62x64 .f32) (harg6 : arg6.IsWhole) (arg7 : Memref sig .tc .vmem S3136x3136 .f32) (harg7 : arg7.IsWhole)
    (x0 : Vec Ideal S1x56x56x64 .f32) (x1 : Vec Ideal S3136x64 .f32) (x2 : Vec Ideal S1x64 .f32) (co : Fin 64) :
    out0_A_4 (F := Ideal) c i arg1 harg1 arg2 harg2 arg3 harg3 arg4 harg4 arg5 harg5 arg6 harg6 arg7 harg7 x0 x1 x2 (ix3 0 0 co)
      = Cert.Spec.colSum (Cert.Spec.conv (img x0) (wmat x1) (bias x2)) co := by
  rw [out0_A_4_eq_payload]
  refine (stacked_sum_apply _ x1 x2 co).trans ?_
  unfold Cert.Spec.colSum
  exact Finset.sum_congr rfl fun k _ => activated_eq_conv c arg1 harg1 arg6 arg7 x0 x1 x2 k co

/-- The second output's row 1: the column sums of its squares. -/
theorem out0_A_4_sumsq (c : Dev nD) (i : grid0.Coords) (arg1 : Memref sig .tc .vmem S1x56x56x64 .f32) (harg1 : arg1.IsWhole) (arg2 : Memref sig .tc .vmem S3136x64 .f32) (harg2 : arg2.IsWhole) (arg3 : Memref sig .tc .vmem S1x64 .f32) (harg3 : arg3.IsWhole) (arg4 : Memref sig .tc .vmem S1x3136x64 .f32) (harg4 : arg4.IsWhole) (arg5 : Memref sig .tc .vmem S1x2x64 .f32) (harg5 : arg5.IsWhole) (arg6 : Memref sig .tc .vmem S62x62x64 .f32) (harg6 : arg6.IsWhole) (arg7 : Memref sig .tc .vmem S3136x3136 .f32) (harg7 : arg7.IsWhole)
    (x0 : Vec Ideal S1x56x56x64 .f32) (x1 : Vec Ideal S3136x64 .f32) (x2 : Vec Ideal S1x64 .f32) (co : Fin 64) :
    out0_A_4 (F := Ideal) c i arg1 harg1 arg2 harg2 arg3 harg3 arg4 harg4 arg5 harg5 arg6 harg6 arg7 harg7 x0 x1 x2 (ix3 0 1 co)
      = Cert.Spec.colSumSq (Cert.Spec.conv (img x0) (wmat x1) (bias x2)) co := by
  rw [out0_A_4_eq_payload]
  refine (stacked_sumsq_apply _ x1 x2 co).trans ?_
  unfold Cert.Spec.colSumSq
  refine Finset.sum_congr rfl fun k _ => ?_
  rw [activated_eq_conv c arg1 harg1 arg6 arg7 x0 x1 x2 k co]

end Cert.ReferenceIdeal.HandValue

end
-- ==== Proof.StageR0.lean ====
/- The reference program's first pallas_call over the extended reals, for any entry contents: its two output arrays after
   the region are the specification's convolution stage of the entry arrays — image `n`'s rows are the 7x7 convolution of
   image `n` with the weights, plus the bias, positive part; its two statistics rows are that result's column sums and
   column sums of squares. -/
import proofs.«154663_g2000405482023969_pallasbulk_1176_2_alg».proof.Proof.ArrR0
import proofs.«154663_g2000405482023969_pallasbulk_1176_2_alg».proof.Proof.V0RMain

noncomputable section

open Idealize.ShloMosaic Idealize.ShloMosaic.TcCoe Idealize.SL.Sem
open Idealize.ShloMosaic.Pipeline (Dat)
open Idealize.ShloMosaic.ValueIdx

namespace Cert.ReferenceIdeal.HandValue

open Cert.ReferenceIdeal Cert.ReferenceIdeal.Gen Cert.ReferenceIdeal.GenP

variable (V : (c : Dev nD) → (b : Ref sig .tc) → Buf (Elt Ideal) ((c : Thread nD τ).loc b))

/-- Image `n` of the entry image array, the weight matrix and the bias row, as the specification's functions. -/
abbrev image0 (c : Dev nD) (n : Fin 32) : Fin 56 → Fin 56 → Fin 64 → EReal :=
  fun h w ci => (V c main_v0 : S32x56x56x64.Idx → Elt Ideal .f32) (ix4 n h w ci)
abbrev weights0 (c : Dev nD) : Fin 3136 → Fin 64 → EReal :=
  fun t co => (V c main_v1 : S3136x64.Idx → Elt Ideal .f32) (ix2 t co)
abbrev bias0 (c : Dev nD) : Fin 64 → EReal :=
  fun co => (V c main_v3 : S1x64.Idx → Elt Ideal .f32) (ix2 0 co)

/-- Point `n`'s image block is image `n`. -/
theorem img_iblk0 (c : Dev nD) (n : Fin 32) : img (iblk0 V c 0 (pt0 n.val n.isLt)) = image0 V c n :=
  funext fun h => funext fun w => funext fun ci => iblk0_0_apply V c (pt0 n.val n.isLt) h w ci

theorem wmat_iblk0 (c : Dev nD) (t : Fin cfg0.N) : wmat (iblk0 V c 1 t) = weights0 V c := by
  unfold wmat weights0; rw [iblk0_1_eq]

theorem bias_iblk0 (c : Dev nD) (t : Fin cfg0.N) : bias (iblk0 V c 2 t) = bias0 V c := by
  unfold bias bias0; rw [iblk0_2_eq]

/-- The first output array: the convolution stage, image by image. -/
theorem stage0_Y (c : Dev nD) (n : Fin 32) (r : Fin 3136) (co : Fin 64) :
    ((dat0 V c).arrAt 3 cfg0.N : S32x3136x64.Idx → Elt Ideal .f32) (ix3 n r co)
      = Cert.Spec.conv (image0 V c n) (weights0 V c) (bias0 V c) r co := by
  rw [arr0_3, blocks0_3_apply]
  unfold outsAt0
  dsimp only
  rw [out0_A_3_apply, img_iblk0, wmat_iblk0, bias_iblk0]

/-- The second output array's row 0: the column sums of the stage. -/
theorem stage0_S0 (c : Dev nD) (n : Fin 32) (co : Fin 64) :
    ((dat0 V c).arrAt 4 cfg0.N : S32x2x64.Idx → Elt Ideal .f32) (ix3 n 0 co)
      = Cert.Spec.colSum (Cert.Spec.conv (image0 V c n) (weights0 V c) (bias0 V c)) co := by
  rw [arr0_4, blocks0_4_apply]
  unfold outsAt0
  dsimp only
  rw [out0_A_4_sum, img_iblk0, wmat_iblk0, bias_iblk0]

/-- The second output array's row 1: the column sums of the stage's squares. -/
theorem stage0_S1 (c : Dev nD) (n : Fin 32) (co : Fin 64) :
    ((dat0 V c).arrAt 4 cfg0.N : S32x2x64.Idx → Elt Ideal .f32) (ix3 n 1 co)
      = Cert.Spec.colSumSq (Cert.Spec.conv (image0 V c n) (weights0 V c) (bias0 V c)) co := by
  rw [arr0_4, blocks0_4_apply]
  unfold outsAt0
  dsimp only
  rw [out0_A_4_sumsq, img_iblk0, wmat_iblk0, bias_iblk0]

end Cert.ReferenceIdeal.HandValue

end
-- ==== Proof.ArrR1.lean ====
/- The reference program's second pallas_call (per-channel affine, 7x7 convolution, bias, ReLU, 2x2 max-pool, column sums),
   whole arrays against blocks, for any entry contents: each input block read at an index is its array at the shifted index
   (the activation window moves with the grid point on the batch axis; scale, shift, weights and bias are whole windows),
   and each output array after the region is, image by image, the block the image's grid point wrote. -/
import proofs.«154663_g2000405482023969_pallasbulk_1176_2_alg».proof.Proof.PatchedFrameReferenceIdeal
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.ReferenceIdeal.HandValue

open Cert.ReferenceIdeal Cert.ReferenceIdeal.Gen Cert.ReferenceIdeal.GenP

variable {F : FTy → Type} [FloatOps F]
variable (V : (c : Dev nD) → (b : Ref sig .tc) → Buf (Elt F) ((c : Thread nD τ).loc b))

theorem lt_N1 (t : Fin cfg1.N) : t.val < 32 := t.isLt

theorem idx3_lt0_r1 {n0 n1 n2 : Nat} (j : (⟨3, ![n0, n1, n2]⟩ : Shape).Idx) : (j 0).val < n0 := (j 0).isLt
theorem idx3_lt1_r1 {n0 n1 n2 : Nat} (j : (⟨3, ![n0, n1, n2]⟩ : Shape).Idx) : (j 1).val < n1 := (j 1).isLt
theorem idx3_lt2_r1 {n0 n1 n2 : Nat} (j : (⟨3, ![n0, n1, n2]⟩ : Shape).Idx) : (j 2).val < n2 := (j 2).isLt

/-- The point whose block holds image `n`. -/
abbrev pt1 (n : Nat) (h : n < 32) : Fin cfg1.N := ⟨n, h⟩

/-- The index maps of pallas_call 1, decided over the grid: the activation window and the two output windows move with the
    point on their leading axis; scale, shift, weights and bias stay at block 0. -/
theorem index1_0 : ∀ t : Fin cfg1.N, win1_0.index t (0 : Fin 3) = t.val ∧ win1_0.index t (1 : Fin 3) = 0 ∧ win1_0.index t (2 : Fin 3) = 0 :=
  (by decide +kernel : ∀ t : Fin grid1.N, _)

theorem index1_1 : ∀ t : Fin cfg1.N, win1_1.index t (0 : Fin 2) = 0 ∧ win1_1.index t (1 : Fin 2) = 0 :=
  (by decide +kernel : ∀ t : Fin grid1.N, _)

theorem index1_2 : ∀ t : Fin cfg1.N, win1_2.index t (0 : Fin 2) = 0 ∧ win1_2.index t (1 : Fin 2) = 0 :=
  (by decide +kernel : ∀ t : Fin grid1.N, _)

theorem index1_3 : ∀ t : Fin cfg1.N, win1_3.index t (0 : Fin 2) = 0 ∧ win1_3.index t (1 : Fin 2) = 0 :=
  (by decide +kernel : ∀ t : Fin grid1.N, _)

theorem index1_4 : ∀ t : Fin cfg1.N, win1_4.index t (0 : Fin 2) = 0 ∧ win1_4.index t (1 : Fin 2) = 0 :=
  (by decide +kernel : ∀ t : Fin grid1.N, _)

theorem index1_5 : ∀ t : Fin cfg1.N, win1_5.index t (0 : Fin 3) = t.val ∧ win1_5.index t (1 : Fin 3) = 0 ∧ win1_5.index t (2 : Fin 3) = 0 :=
  (by decide +kernel : ∀ t : Fin grid1.N, _)

theorem index1_6 : ∀ t : Fin cfg1.N, win1_6.index t (0 : Fin 3) = t.val ∧ win1_6.index t (1 : Fin 3) = 0 ∧ win1_6.index t (2 : Fin 3) = 0 :=
  (by decide +kernel : ∀ t : Fin grid1.N, _)

/-! ## Input blocks are the arrays at the shifted index -/

theorem iblk1_0_apply (c : Dev nD) (t : Fin cfg1.N) (r : Fin 3136) (co : Fin 64) :
    (iblk1 V c 0 t : Vec F S1x3136x64 .f32) (ix3 0 r co)
      = (V c main_v5_0 : S32x3136x64.Idx → Elt F .f32) (ix3 ⟨t.val, lt_N1 t⟩ r co) := by
  obtain ⟨e0, e1, e2⟩ := index1_0 t
  unfold iblk1
  rw [View.read_apply]
  show V c main_v5_0 _ = V c main_v5_0 _
  congr 1
  funext a
  apply Fin.ext
  match a with
  | ⟨0, _⟩ => show win1_0.index t 0 * 1 + 1 * 0 = t.val; rw [e0]; omega
  | ⟨1, _⟩ => show win1_0.index t 1 * 3136 + 1 * r.val = r.val; rw [e1]; omega
  | ⟨2, _⟩ => show win1_0.index t 2 * 64 + 1 * co.val = co.val; rw [e2]; omega

theorem iblk1_1_eq (c : Dev nD) (t : Fin cfg1.N) :
    (iblk1 V c 1 t : Vec F S1x64 .f32) = (V c main_v25 : S1x64.Idx → Elt F .f32) := by
  obtain ⟨e0, e1⟩ := index1_1 t
  funext y
  unfold iblk1
  rw [View.read_apply]
  show V c main_v25 _ = V c main_v25 _
  congr 1
  funext a
  apply Fin.ext
  match a with
  | ⟨0, _⟩ => show win1_1.index t 0 * 1 + 1 * (y 0).val = (y 0).val; rw [e0]; omega
  | ⟨1, _⟩ => show win1_1.index t 1 * 64 + 1 * (y 1).val = (y 1).val; rw [e1]; omega

theorem iblk1_2_eq (c : Dev nD) (t : Fin cfg1.N) :
    (iblk1 V c 2 t : Vec F S1x64 .f32) = (V c main_v26 : S1x64.Idx → Elt F .f32) := by
  obtain ⟨e0, e1⟩ := index1_2 t
  funext y
  unfold iblk1
  rw [View.read_apply]
  show V c main_v26 _ = V c main_v26 _
  congr 1
  funext a
  apply Fin.ext
  match a with
  | ⟨0, _⟩ => show win1_2.index t 0 * 1 + 1 * (y 0).val = (y 0).val; rw [e0]; omega
  | ⟨1, _⟩ => show win1_2.index t 1 * 64 + 1 * (y 1).val = (y 1).val; rw [e1]; omega

theorem iblk1_3_eq (c : Dev nD) (t : Fin cfg1.N) :
    (iblk1 V c 3 t : Vec F S3136x64 .f32) = (V c main_v2 : S3136x64.Idx → Elt F .f32) := by
  obtain ⟨e0, e1⟩ := index1_3 t
  funext y
  unfold iblk1
  rw [View.read_apply]
  show V c main_v2 _ = V c main_v2 _
  congr 1
  funext a
  apply Fin.ext
  match a with
  | ⟨0, _⟩ => show win1_3.index t 0 * 3136 + 1 * (y 0).val = (y 0).val; rw [e0]; omega
  | ⟨1, _⟩ => show win1_3.index t 1 * 64 + 1 * (y 1).val = (y 1).val; rw [e1]; omega

theorem iblk1_4_eq (c : Dev nD) (t : Fin cfg1.N) :
    (iblk1 V c 4 t : Vec F S1x64 .f32) = (V c main_v4 : S1x64.Idx → Elt F .f32) := by
  obtain ⟨e0, e1⟩ := index1_4 t
  funext y
  unfold iblk1
  rw [View.read_apply]
  show V c main_v4 _ = V c main_v4 _
  congr 1
  funext a
  apply Fin.ext
  match a with
  | ⟨0, _⟩ => show win1_4.index t 0 * 1 + 1 * (y 0).val = (y 0).val; rw [e0]; omega
  | ⟨1, _⟩ => show win1_4.index t 1 * 64 + 1 * (y 1).val = (y 1).val; rw [e1]; omega

/-! ## Output arrays are the blocks the points wrote -/

/-- The first output of pallas_call 1 as one array: image `n`'s rows are what point `n` left in its block. -/
def blocks1_5 (c : Dev nD) : S32x784x64.Idx → Elt F .f32 :=
  fun j => ((outsAt1 V c (pt1 (j 0).val (idx3_lt0_r1 j))).1) (ix3 0 ⟨(j 1).val, idx3_lt1_r1 j⟩ ⟨(j 2).val, idx3_lt2_r1 j⟩)

theorem blocks1_5_apply (c : Dev nD) (n : Fin 32) (r : Fin 784) (co : Fin 64) :
    blocks1_5 V c (ix3 n r co) = ((outsAt1 V c (pt1 n.val n.isLt)).1) (ix3 0 r co) := rfl

/-- An index of the array whose leading coordinate is `t` reads point `t`'s block. -/
theorem blocks1_5_of (c : Dev nD) (t : Fin cfg1.N) (y : S1x784x64.Idx) (j : S32x784x64.Idx)
    (h0 : (j 0).val = t.val) (h1 : (j 1).val = (y 1).val) (h2 : (j 2).val = (y 2).val) :
    blocks1_5 V c j = ((outsAt1 V c t).1) y := by
  unfold blocks1_5
  have ht : pt1 (j 0).val (idx3_lt0_r1 j) = t := Fin.ext h0
  rw [ht]
  refine congrArg ((outsAt1 V c t).1) ?_
  funext a
  apply Fin.ext
  match a with
  | ⟨0, _⟩ => show 0 = (y 0).val; have hy : (y 0).val < 1 := (y 0).isLt; omega
  | ⟨1, _⟩ => exact h1
  | ⟨2, _⟩ => exact h2

/-- What point `t` writes back is block `t` of `blocks1_5`. -/
theorem flushed1_5_eq (c : Dev nD) (t : Fin cfg1.N) :
    (dat1 V c).flushed 5 t = ((cfg1.win 5).blk t).view.read (Elt F) (blocks1_5 V c) := by
  obtain ⟨e0, e1, e2⟩ := index1_5 t
  show (cfg1.win 5).cut (grid1.coords t) ((dat1 V c).after 5 t) = _
  rw [after1_5]
  funext y
  rw [View.read_apply]
  refine (blocks1_5_of V c t _ _ ?_ ?_ ?_).symm
  · show win1_5.index t 0 * 1 + 1 * (y 0).val = t.val; have : (y 0).val < 1 := (y 0).isLt; rw [e0]; omega
  · show win1_5.index t 1 * 784 + 1 * (y 1).val = (y 1).val; rw [e1]; omega
  · show win1_5.index t 2 * 64 + 1 * (y 2).val = (y 2).val; rw [e2]; omega

/-- An index of the array is in point `t`'s block iff each coordinate is in the block's range on its axis. -/
theorem mem_blk1_5 (t : Fin cfg1.N) (i : S32x784x64.Idx) :
    i ∈ ((cfg1.win 5).blk t).view.set ↔ ∀ a : Fin 3, win1_5.index t a * S1x784x64.size a ≤ (i a).val ∧ (i a).val < win1_5.index t a * S1x784x64.size a + S1x784x64.size a := by
  show i ∈ ((View.whole main_v27_0).slice (win1_5.rect t)).set ↔ _
  rw [View.set_slice_whole, Rect.mem_set_unit]
  exact Iff.rfl

/-- Every index of the array is in the block of the point named by its leading coordinate. -/
theorem cover1_5 (i : S32x784x64.Idx) : ∃ t : Fin cfg1.N, (cfg1.win 5).flush t = true ∧ i ∈ ((cfg1.win 5).blk t).view.set := by
  have h0 : (i 0).val < 32 := idx3_lt0_r1 i
  have h1 : (i 1).val < 784 := idx3_lt1_r1 i
  have h2 : (i 2).val < 64 := idx3_lt2_r1 i
  refine ⟨pt1 (i 0).val h0, flush1_5 _, ?_⟩
  obtain ⟨e0, e1, e2⟩ := index1_5 (pt1 (i 0).val h0)
  rw [mem_blk1_5]
  intro a
  match a with
  | ⟨0, _⟩ => show win1_5.index (pt1 (i 0).val h0) 0 * 1 ≤ (i 0).val ∧ (i 0).val < win1_5.index (pt1 (i 0).val h0) 0 * 1 + 1; rw [e0]; show (i 0).val * 1 ≤ (i 0).val ∧ (i 0).val < (i 0).val * 1 + 1; omega
  | ⟨1, _⟩ => show win1_5.index (pt1 (i 0).val h0) 1 * 784 ≤ (i 1).val ∧ (i 1).val < win1_5.index (pt1 (i 0).val h0) 1 * 784 + 784; rw [e1]; omega
  | ⟨2, _⟩ => show win1_5.index (pt1 (i 0).val h0) 2 * 64 ≤ (i 2).val ∧ (i 2).val < win1_5.index (pt1 (i 0).val h0) 2 * 64 + 64; rw [e2]; omega

/-- THE FIRST OUTPUT OF PALLAS_CALL 1 after the region. -/
theorem arr1_5 (c : Dev nD) : (dat1 V c).arrAt 5 cfg1.N = blocks1_5 V c :=
  (dat1 V c).arrAt_eq_of_cover 5 (blocks1_5 V c) (fun t _ => flushed1_5_eq V c t) cover1_5

/-- The second output of pallas_call 1 as one array: image `n`'s rows are what point `n` left in its block. -/
def blocks1_6 (c : Dev nD) : S32x2x64.Idx → Elt F .f32 :=
  fun j => ((outsAt1 V c (pt1 (j 0).val (idx3_lt0_r1 j))).2) (ix3 0 ⟨(j 1).val, idx3_lt1_r1 j⟩ ⟨(j 2).val, idx3_lt2_r1 j⟩)

theorem blocks1_6_apply (c : Dev nD) (n : Fin 32) (r : Fin 2) (co : Fin 64) :
    blocks1_6 V c (ix3 n r co) = ((outsAt1 V c (pt1 n.val n.isLt)).2) (ix3 0 r co) := rfl

/-- An index of the array whose leading coordinate is `t` reads point `t`'s block. -/
theorem blocks1_6_of (c : Dev nD) (t : Fin cfg1.N) (y : S1x2x64.Idx) (j : S32x2x64.Idx)
    (h0 : (j 0).val = t.val) (h1 : (j 1).val = (y 1).val) (h2 : (j 2).val = (y 2).val) :
    blocks1_6 V c j = ((outsAt1 V c t).2) y := by
  unfold blocks1_6
  have ht : pt1 (j 0).val (idx3_lt0_r1 j) = t := Fin.ext h0
  rw [ht]
  refine congrArg ((outsAt1 V c t).2) ?_
  funext a
  apply Fin.ext
  match a with
  | ⟨0, _⟩ => show 0 = (y 0).val; have hy : (y 0).val < 1 := (y 0).isLt; omega
  | ⟨1, _⟩ => exact h1
  | ⟨2, _⟩ => exact h2

/-- What point `t` writes back is block `t` of `blocks1_6`. -/
theorem flushed1_6_eq (c : Dev nD) (t : Fin cfg1.N) :
    (dat1 V c).flushed 6 t = ((cfg1.win 6).blk t).view.read (Elt F) (blocks1_6 V c) := by
  obtain ⟨e0, e1, e2⟩ := index1_6 t
  show (cfg1.win 6).cut (grid1.coords t) ((dat1 V c).after 6 t) = _
  rw [after1_6]
  funext y
  rw [View.read_apply]
  refine (blocks1_6_of V c t _ _ ?_ ?_ ?_).symm
  · show win1_6.index t 0 * 1 + 1 * (y 0).val = t.val; have : (y 0).val < 1 := (y 0).isLt; rw [e0]; omega
  · show win1_6.index t 1 * 2 + 1 * (y 1).val = (y 1).val; rw [e1]; omega
  · show win1_6.index t 2 * 64 + 1 * (y 2).val = (y 2).val; rw [e2]; omega

/-- An index of the array is in point `t`'s block iff each coordinate is in the block's range on its axis. -/
theorem mem_blk1_6 (t : Fin cfg1.N) (i : S32x2x64.Idx) :
    i ∈ ((cfg1.win 6).blk t).view.set ↔ ∀ a : Fin 3, win1_6.index t a * S1x2x64.size a ≤ (i a).val ∧ (i a).val < win1_6.index t a * S1x2x64.size a + S1x2x64.size a := by
  show i ∈ ((View.whole main_v27_1).slice (win1_6.rect t)).set ↔ _
  rw [View.set_slice_whole, Rect.mem_set_unit]
  exact Iff.rfl

/-- Every index of the array is in the block of the point named by its leading coordinate. -/
theorem cover1_6 (i : S32x2x64.Idx) : ∃ t : Fin cfg1.N, (cfg1.win 6).flush t = true ∧ i ∈ ((cfg1.win 6).blk t).view.set := by
  have h0 : (i 0).val < 32 := idx3_lt0_r1 i
  have h1 : (i 1).val < 2 := idx3_lt1_r1 i
  have h2 : (i 2).val < 64 := idx3_lt2_r1 i
  refine ⟨pt1 (i 0).val h0, flush1_6 _, ?_⟩
  obtain ⟨e0, e1, e2⟩ := index1_6 (pt1 (i 0).val h0)
  rw [mem_blk1_6]
  intro a
  match a with
  | ⟨0, _⟩ => show win1_6.index (pt1 (i 0).val h0) 0 * 1 ≤ (i 0).val ∧ (i 0).val < win1_6.index (pt1 (i 0).val h0) 0 * 1 + 1; rw [e0]; show (i 0).val * 1 ≤ (i 0).val ∧ (i 0).val < (i 0).val * 1 + 1; omega
  | ⟨1, _⟩ => show win1_6.index (pt1 (i 0).val h0) 1 * 2 ≤ (i 1).val ∧ (i 1).val < win1_6.index (pt1 (i 0).val h0) 1 * 2 + 2; rw [e1]; omega
  | ⟨2, _⟩ => show win1_6.index (pt1 (i 0).val h0) 2 * 64 ≤ (i 2).val ∧ (i 2).val < win1_6.index (pt1 (i 0).val h0) 2 * 64 + 64; rw [e2]; omega

/-- THE SECOND OUTPUT OF PALLAS_CALL 1 after the region. -/
theorem arr1_6 (c : Dev nD) : (dat1 V c).arrAt 6 cfg1.N = blocks1_6 V c :=
  (dat1 V c).arrAt_eq_of_cover 6 (blocks1_6 V c) (fun t _ => flushed1_6_eq V c t) cover1_6

end Cert.ReferenceIdeal.HandValue

end
-- ==== Proof.V1RPieces.lean ====
import proofs.«154663_g2000405482023969_pallasbulk_1176_2_alg».proof.Proof.PatchedFrameReferenceIdeal
import proofs.«154663_g2000405482023969_pallasbulk_1176_2_alg».proof.Proof.V0RPieces
import Idealize.ShloMosaic.Lib.ValueIdx
import Idealize.ShloMosaic.Lib.Pipeline.Value
import Idealize.ShloMosaic.Lib.Tactic

set_option maxRecDepth 16384

/-!
# pallas_call 1 of the reference: its two outputs as functions of the patch matrix

As in pallas_call 0 the body stores each output once, whole. The first output is the pooled activation viewed
1 × 784 × 64, the second the stacked column sums of the pooled activation and of its square. Both are stated over
the patch matrix as the body loads it back, the weights and the bias as the inputs hold them, and the table of row
numbers the two selection matrices are built from.
-/

noncomputable section

namespace Cert.ReferenceIdeal.HandValue

open Cert.ReferenceIdeal Cert.ReferenceIdeal.Gen Cert.ReferenceIdeal.GenP
open Idealize.ShloMosaic Idealize.ShloMosaic.TcCoe Idealize.ShloMosaic.Tactic Idealize.ShloMosaic.ValueIdx
open Idealize.SL.Sem

variable {F : FTy → Type} [FloatOps F]

/-- The patch matrix of the second stage as the body reads it back. -/
abbrev patchLoaded1 (c : Dev nD) (arg1 : Memref sig .tc .vmem S1x3136x64 .f32) (harg1 : arg1.IsWhole) (arg2 : Memref sig .tc .vmem S1x64 .f32) (harg2 : arg2.IsWhole) (arg3 : Memref sig .tc .vmem S1x64 .f32) (harg3 : arg3.IsWhole) (arg8 : Memref sig .tc .vmem S62x62x64 .f32) (arg9 : Memref sig .tc .vmem S3136x3136 .f32)
    (x0 : Vec F S1x3136x64 .f32) (x1 : Vec F S1x64 .f32) (x2 : Vec F S1x64 .f32) : Vec F S3136x3136 .f32 :=
  kernelRun1_A.sl.v263 c arg1 harg1 arg2 harg2 arg3 harg3 arg8 arg9 x0 x1 x2

/-- The table whose entry `(q, col)` is the row number `q`. -/
abbrev rowNumbers : IVec S784x1568 32 := iota .tc S784x1568 32 [0] iota_S784x1568_d0_w32

/-- The first output is the one whole store of the pooled activation. -/
theorem out1_A_5_eq_payload (c : Dev nD) (i : grid1.Coords) (arg1 : Memref sig .tc .vmem S1x3136x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S3136x64 .f32) (harg4 : arg4.IsWhole) (arg5 : Memref sig .tc .vmem S1x64 .f32) (harg5 : arg5.IsWhole) (arg6 : Memref sig .tc .vmem S1x784x64 .f32) (harg6 : arg6.IsWhole) (arg7 : Memref sig .tc .vmem S1x2x64 .f32) (harg7 : arg7.IsWhole) (arg8 : Memref sig .tc .vmem S62x62x64 .f32) (harg8 : arg8.IsWhole) (arg9 : Memref sig .tc .vmem S3136x3136 .f32) (harg9 : arg9.IsWhole)
    (x0 : Vec F S1x3136x64 .f32) (x1 : Vec F S1x64 .f32) (x2 : Vec F S1x64 .f32) (x3 : Vec F S3136x64 .f32) (x4 : Vec F S1x64 .f32) :
    out1_A_5 c i arg1 harg1 arg2 harg2 arg3 harg3 arg4 harg4 arg5 harg5 arg6 harg6 arg7 harg7 arg8 harg8 arg9 harg9 x0 x1 x2 x3 x4
      = k1_pay2 (k1_pay59 (patchLoaded1 c arg1 harg1 arg2 harg2 arg3 harg3 arg8 arg9 x0 x1 x2) x3 x4) rowNumbers := by
  unfold out1_A_5
  rw [View.read_writes_eq_canon _ _ _ (cover1_A_5 c i arg1 harg1 arg2 harg2 arg3 harg3 arg4 harg4 arg5 harg5 arg6 harg6 arg7 harg7 arg8 harg8 arg9 harg9 x0 x1 x2 x3 x4)]
  unfold kernelRun1_A
  dsimp only
  rw [View.canon_unit_zero zeros3]
  unfold kernelRun1_A.sl.r_5 kernelRun1_A.sl.v280
  simp only [View.readAt_eq_ld, harg4.read_unread, harg5.read_unread, View.ld_unit_zero (S := S3136x64) zeros2,
    View.ld_unit_zero (S := S1x64) zeros2]

/-- The second output is the one whole store of the two stacked column sums. -/
theorem out1_A_6_eq_payload (c : Dev nD) (i : grid1.Coords) (arg1 : Memref sig .tc .vmem S1x3136x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S3136x64 .f32) (harg4 : arg4.IsWhole) (arg5 : Memref sig .tc .vmem S1x64 .f32) (harg5 : arg5.IsWhole) (arg6 : Memref sig .tc .vmem S1x784x64 .f32) (harg6 : arg6.IsWhole) (arg7 : Memref sig .tc .vmem S1x2x64 .f32) (harg7 : arg7.IsWhole) (arg8 : Memref sig .tc .vmem S62x62x64 .f32) (harg8 : arg8.IsWhole) (arg9 : Memref sig .tc .vmem S3136x3136 .f32) (harg9 : arg9.IsWhole)
    (x0 : Vec F S1x3136x64 .f32) (x1 : Vec F S1x64 .f32) (x2 : Vec F S1x64 .f32) (x3 : Vec F S3136x64 .f32) (x4 : Vec F S1x64 .f32) :
    out1_A_6 c i arg1 harg1 arg2 harg2 arg3 harg3 arg4 harg4 arg5 harg5 arg6 harg6 arg7 harg7 arg8 harg8 arg9 harg9 x0 x1 x2 x3 x4
      = k1_pay3 (k1_pay59 (patchLoaded1 c arg1 harg1 arg2 harg2 arg3 harg3 arg8 arg9 x0 x1 x2) x3 x4) rowNumbers := by
  unfold out1_A_6
  rw [View.read_writes_eq_canon _ _ _ (cover1_A_6 c i arg1 harg1 arg2 harg2 arg3 harg3 arg4 harg4 arg5 harg5 arg6 harg6 arg7 harg7 arg8 harg8 arg9 harg9 x0 x1 x2 x3 x4)]
  unfold kernelRun1_A
  dsimp only
  rw [View.canon_unit_zero zeros3]
  unfold kernelRun1_A.sl.r_5 kernelRun1_A.sl.v280
  simp only [View.readAt_eq_ld, harg4.read_unread, harg5.read_unread, View.ld_unit_zero (S := S3136x64) zeros2,
    View.ld_unit_zero (S := S1x64) zeros2]

end Cert.ReferenceIdeal.HandValue

end
-- ==== Proof.V1RPadded.lean ====
import proofs.«154663_g2000405482023969_pallasbulk_1176_2_alg».proof.Proof.PatchedFrameReferenceIdeal
import proofs.«154663_g2000405482023969_pallasbulk_1176_2_alg».proof.Proof.Spec
import Idealize.ShloMosaic.PureOps.Ideal.Laws
import Idealize.ShloMosaic.Lib.ValueIdx
import Idealize.ShloMosaic.Lib.Pipeline.Value
import Idealize.ShloMosaic.Lib.Tactic

set_option maxRecDepth 16384

/-!
# pallas_call 1 of the reference: the zero-bordered normalised image

The second stage first applies the per-channel affine map to its 3136 × 64 input, views the result 56 × 56 × 64, and
writes it into the interior of a zeroed 62 × 62 × 64 buffer. Read at padded coordinates `(a, b)` and channel `ci`
the buffer holds `y (h·56 + w) ci · scale ci + shift ci` at `(h, w) = (a - 3, b - 3)` inside the border and `0`
on it.
-/

noncomputable section

namespace Cert.ReferenceIdeal.HandValue

open Cert.ReferenceIdeal Cert.ReferenceIdeal.Gen Cert.ReferenceIdeal.GenP
open Idealize.ShloMosaic Idealize.ShloMosaic.TcCoe Idealize.ShloMosaic.Tactic Idealize.ShloMosaic.ValueIdx
open Idealize.SL.Sem
open scoped BigOperators

/-- The stage-1 block as rows, and a 1 × 64 block as a function of the channel. -/
def rows (x0 : Vec Ideal S1x3136x64 .f32) : Fin 3136 → Fin 64 → EReal := fun r co => x0 (ix3 0 r co)
def row (x : Vec Ideal S1x64 .f32) : Fin 64 → EReal := fun co => x (ix2 0 co)

/-- The normalised image the second stage convolves. -/
def image1 (x0 : Vec Ideal S1x3136x64 .f32) (x1 x2 : Vec Ideal S1x64 .f32) : Fin 56 → Fin 56 → Fin 64 → EReal :=
  Cert.Spec.unflat (Cert.Spec.affine (rows x0) (row x1) (row x2))

private theorem z2 : (![0, 0] : Fin 2 → Nat) = fun _ => 0 := funext fun a => by fin_cases a <;> rfl
private theorem z3 : (![0, 0, 0] : Fin 3 → Nat) = fun _ => 0 := funext fun a => by fin_cases a <;> rfl

/-- What the zero fill and the interior store leave in the second stage's 62 × 62 × 64 buffer. -/
abbrev paddedStored1 {F : FTy → Type} [FloatOps F] (c : Dev nD) (arg1 : Memref sig .tc .vmem S1x3136x64 .f32) (harg1 : arg1.IsWhole) (arg2 : Memref sig .tc .vmem S1x64 .f32) (harg2 : arg2.IsWhole) (arg3 : Memref sig .tc .vmem S1x64 .f32) (harg3 : arg3.IsWhole)
    (x0 : Vec F S1x3136x64 .f32) (x1 x2 : Vec F S1x64 .f32) : S62x62x64.Idx → Elt F .f32 :=
  View.canon (kernelRun1_A.sl.HS0_2 c arg1 harg1 arg2 harg2 arg3 harg3 x0 x1 x2)

/-- A 1 × 64 block broadcast down 3136 rows reads its channel. -/
private theorem rowBroadcast_apply (x : FVec Ideal S1x64 .f32) (r : Fin 3136) (ci : Fin 64) :
    broadcastTo S3136x64 (shapeCast S1x64 x shapeCasts_S1x64_S1x64) broadcasts_S1x64_S3136x64 (ix2 r ci)
      = x (ix2 0 ci) := by
  rw [shapeCast_self]
  exact broadcastTo_apply x _ (ix2 r ci) (ix2 0 ci) (fun a => by
    match a with
    | ⟨0, _⟩ => rfl
    | ⟨1, _⟩ => rfl)

/-- The interior store's value: the affine map of the input, viewed 56 × 56 × 64. -/
private theorem affineImage_apply (v0 : FVec Ideal S1x3136x64 .f32) (v2 v6 : FVec Ideal S1x64 .f32)
    (h w : Fin 56) (ci : Fin 64) :
    k1_pay5 (F := Ideal) v0 v2 v6 (ix3 h w ci)
      = v0 (ix3 0 (⟨h.val * 56 + w.val, by omega⟩ : Fin 3136) ci) * v2 (ix2 0 ci) + v6 (ix2 0 ci) := by
  unfold k1_pay5
  refine (congrFun (shapeCast_self _ _) _).trans ?_
  refine (shapeCast_apply _ _ (ix3 h w ci) (ix2 (⟨h.val * 56 + w.val, by omega⟩ : Fin 3136) ci) ?_).trans ?_
  · rw [Shape.rowMajor_val_two, Shape.rowMajor_val_three]
    show (h.val * 56 + w.val) * 64 + ci.val = (h.val * 56 + w.val) * 64 + ci.val
    rfl
  · show shapeCast S3136x64 v0 shapeCasts_S1x3136x64_S3136x64 (ix2 _ ci) * _ + _ = _
    rw [rowBroadcast_apply, rowBroadcast_apply]
    refine congrArg (fun s => s * v2 (ix2 0 ci) + v6 (ix2 0 ci)) ?_
    refine shapeCast_apply _ _ _ (ix3 (0 : Fin 1) (⟨h.val * 56 + w.val, by omega⟩ : Fin 3136) ci) ?_
    rw [Shape.rowMajor_val_three, Shape.rowMajor_val_two]
    show ((0 : ℕ) * 3136 + (h.val * 56 + w.val)) * 64 + ci.val = (h.val * 56 + w.val) * 64 + ci.val
    omega

/-- The second stage's buffer holds the zero-bordered normalised image. -/
theorem paddedStored1_apply (c : Dev nD) (arg1 : Memref sig .tc .vmem S1x3136x64 .f32) (harg1 : arg1.IsWhole) (arg2 : Memref sig .tc .vmem S1x64 .f32) (harg2 : arg2.IsWhole) (arg3 : Memref sig .tc .vmem S1x64 .f32) (harg3 : arg3.IsWhole)
    (x0 : Vec Ideal S1x3136x64 .f32) (x1 x2 : Vec Ideal S1x64 .f32) (a b : Fin 62) (ci : Fin 64) :
    paddedStored1 (F := Ideal) c arg1 harg1 arg2 harg2 arg3 harg3 x0 x1 x2 (ix3 a b ci)
      = Cert.Spec.padded (image1 x0 x1 x2) a.val b.val ci := by
  unfold paddedStored1 kernelRun1_A.sl.HS0_2
  by_cases h : (3 ≤ a.val ∧ a.val < 59) ∧ (3 ≤ b.val ∧ b.val < 59)
  · have hy : (ix3 a b ci : S62x62x64.Idx)
        = (Rect.unit (s := S62x62x64) ![3, 3, 0] S56x56x64.size inb_S62x62x64_S56x56x64_3_3_0).emb
            (ix3 (⟨a.val - 3, by omega⟩ : Fin 56) (⟨b.val - 3, by omega⟩ : Fin 56) ci) :=
      funext fun d => Fin.ext (by
        match d with
        | ⟨0, _⟩ => show a.val = 3 + 1 * (a.val - 3); omega
        | ⟨1, _⟩ => show b.val = 3 + 1 * (b.val - 3); omega
        | ⟨2, _⟩ => show ci.val = 0 + 1 * ci.val; omega)
    rw [hy, View.canon_cons_emb]
    unfold Cert.Spec.padded
    rw [dif_pos h]
    refine (affineImage_apply _ _ _ _ _ ci).trans ?_
    simp only [View.readAt_eq_ld, harg1.read_unread, harg2.read_unread, harg3.read_unread]
    rw [congrFun (View.ld_unit_zero (S := S1x3136x64) z3 _ x0) _, congrFun (View.ld_unit_zero (S := S1x64) z2 _ x1) _,
      congrFun (View.ld_unit_zero (S := S1x64) z2 _ x2) _]
    rfl
  · have hn : (ix3 a b ci : S62x62x64.Idx)
        ∉ (Rect.unit (s := S62x62x64) ![3, 3, 0] S56x56x64.size inb_S62x62x64_S56x56x64_3_3_0).set := by
      rw [Rect.mem_set_unit]
      intro hall
      have h0 : 3 ≤ a.val ∧ a.val < 3 + 56 := hall 0
      have h1 : 3 ≤ b.val ∧ b.val < 3 + 56 := hall 1
      exact h ⟨⟨h0.1, by omega⟩, ⟨h1.1, by omega⟩⟩
    rw [View.canon_cons_of_not_mem
      (⟨Rect.unit (s := S62x62x64) ![3, 3, 0] S56x56x64.size inb_S62x62x64_S56x56x64_3_3_0, _⟩ :
        View.Piece (Elt Ideal) S62x62x64 .f32) _ hn, View.canon_unit_zero z3]
    unfold Cert.Spec.padded
    rw [dif_neg h]
    unfold k1_pay4
    refine (congrFun (shapeCast_self _ _) _).trans ?_
    exact Ideal.ofBits_zero_f32

end Cert.ReferenceIdeal.HandValue

end
-- ==== Proof.V1RPatch.lean ====
import proofs.«154663_g2000405482023969_pallasbulk_1176_2_alg».proof.Proof.PatchedFrameReferenceIdeal
import proofs.«154663_g2000405482023969_pallasbulk_1176_2_alg».proof.Proof.V0RPatch
import Idealize.ShloMosaic.Lib.ValueIdx
import Idealize.ShloMosaic.Lib.Pipeline.Value
import Idealize.ShloMosaic.Lib.Tactic

set_option maxRecDepth 16384

/-!
# pallas_call 1 of the reference: the patch matrix

The second stage fills its 3136 × 3136 buffer exactly as the first does: forty-nine column slabs, each the flattened
56 × 56 × 64 window of the zero-bordered buffer at one kernel offset. So the buffer read back is again the patch
function of what the bordered buffer holds, whatever that is.
-/

noncomputable section

namespace Cert.ReferenceIdeal.HandValue

open Cert.ReferenceIdeal Cert.ReferenceIdeal.Gen Cert.ReferenceIdeal.GenP
open Idealize.ShloMosaic Idealize.ShloMosaic.TcCoe Idealize.ShloMosaic.Tactic Idealize.ShloMosaic.ValueIdx
open Idealize.SL.Sem

variable {F : FTy → Type} [FloatOps F]

/-- The whole patch buffer of the second stage read back: row `r`, column `t` is `patchOf` of what its bordered
    buffer holds. -/
theorem patchLoaded1_apply (c : Dev nD) (arg1 : Memref sig .tc .vmem S1x3136x64 .f32) (harg1 : arg1.IsWhole) (arg2 : Memref sig .tc .vmem S1x64 .f32) (harg2 : arg2.IsWhole) (arg3 : Memref sig .tc .vmem S1x64 .f32) (harg3 : arg3.IsWhole) (arg8 : Memref sig .tc .vmem S62x62x64 .f32) (arg9 : Memref sig .tc .vmem S3136x3136 .f32)
    (x0 : Vec F S1x3136x64 .f32) (x1 : Vec F S1x64 .f32) (x2 : Vec F S1x64 .f32) (r t : Fin 3136) :
    kernelRun1_A.sl.v263 c arg1 harg1 arg2 harg2 arg3 harg3 arg8 arg9 x0 x1 x2 (ix2 r t)
      = patchOf (View.canon (kernelRun1_A.sl.HS0_2 c arg1 harg1 arg2 harg2 arg3 harg3 x0 x1 x2)) r t := by
  unfold kernelRun1_A.sl.v263
  rw [View.readCov_eq_canon']
  dsimp only
  have hidx : (Rect.unit (s := S3136x3136) ![0, 0] S3136x3136.size inb_S3136x3136_S3136x3136_0_0).toLoadRect.idx (ix2 r t)
      = (ix2 r t : S3136x3136.Idx) :=
    funext fun d => Fin.ext (by
      match d with
      | ⟨0, _⟩ => show 0 + 1 * r.val = r.val; omega
      | ⟨1, _⟩ => show 0 + 1 * t.val = t.val; omega)
  rw [hidx]
  refine (View.canon_apply_of_pieces
    (patchAt (View.canon (kernelRun1_A.sl.HS0_2 c arg1 harg1 arg2 harg2 arg3 harg3 x0 x1 x2))) _ ?_ (ix2 r t)
    (View.cover_of_tiledL (s := S3136x3136) (kernelRun1_A.sl.HS1_49 c arg1 harg1 arg2 harg2 arg3 harg3 arg8 x0 x1 x2)
      S3136x64.size (by sl_kernel_rfl) _)).trans rfl
  unfold kernelRun1_A.sl.HS1_49
  simp only [List.forall_mem_cons]
  repeat' apply And.intro
  all_goals first
    | (intro x; exact slab_payload_apply arg8.view _ _ _ _ (by decide) (by decide) (by decide) _ _ x)
    | (intro p hp; exact absurd hp List.not_mem_nil)

end Cert.ReferenceIdeal.HandValue

end
-- ==== Proof.V1RPool.lean ====
import proofs.«154663_g2000405482023969_pallasbulk_1176_2_alg».proof.Proof.PatchedFrameReferenceIdeal
import proofs.«154663_g2000405482023969_pallasbulk_1176_2_alg».proof.Proof.Spec
import proofs.«154663_g2000405482023969_pallasbulk_1176_2_alg».proof.Proof.LibSplit
import Idealize.ShloMosaic.PureOps.Ideal.Laws
import Idealize.ShloMosaic.Lib.ValueIdx
import Idealize.ShloMosaic.Lib.Pipeline.Value
import Idealize.ShloMosaic.Lib.Tactic

set_option maxRecDepth 16384

/-!
# pallas_call 1 of the reference: the 2 × 2 maximum through two selection products

The activated 3136 × 64 result is viewed 28 × 2 × 56 × 64 and the larger of each pair of rows kept: a 1568 × 64
matrix `ph` whose row `ho·56 + w` is the larger of rows `(2ho)·56 + w` and `(2ho + 1)·56 + w`. Two 784 × 1568
matrices of zeros and ones then pick, for pooled row `q`, rows `2q` and `2q + 1` of `ph`: entry `(q, c)` of the
first is one exactly when `c = 2q`, of the second when `c = 2q + 1`. A product with such a matrix has, at `(q, co)`,
the sum over `c` of `sel q c · ph c co`; every term but one is `0 · x = 0` — true of every extended real `x`,
infinite ones included — so the sum is the one selected entry. The pooled value is the larger of the two.
-/

noncomputable section

namespace Cert.ReferenceIdeal.HandValue

open Cert.ReferenceIdeal Cert.ReferenceIdeal.Gen Cert.ReferenceIdeal.GenP
open Idealize.ShloMosaic Idealize.ShloMosaic.TcCoe Idealize.ShloMosaic.Tactic Idealize.ShloMosaic.ValueIdx
open Idealize.SL.Sem
open scoped BigOperators

/-- A 32-bit word below 1568 equals twice a word below 784 exactly when the numbers do. -/
theorem word_eq_double {c q : ℕ} (hc : c < 1568) (hq : q < 784) :
    BitVec.ofNat 32 c = 2#32 * BitVec.ofNat 32 q ↔ c = 2 * q := by
  constructor
  · intro he
    have ht := congrArg BitVec.toNat he
    rw [BitVec.toNat_mul, BitVec.toNat_ofNat, BitVec.toNat_ofNat, BitVec.toNat_ofNat] at ht
    norm_num at ht
    omega
  · rintro rfl
    apply BitVec.eq_of_toNat_eq
    rw [BitVec.toNat_mul, BitVec.toNat_ofNat, BitVec.toNat_ofNat, BitVec.toNat_ofNat]
    norm_num <;> omega

/-- The same for twice the word plus one. -/
theorem word_eq_double_succ {c q : ℕ} (hc : c < 1568) (hq : q < 784) :
    BitVec.ofNat 32 c = 2#32 * BitVec.ofNat 32 q + 1#32 ↔ c = 2 * q + 1 := by
  constructor
  · intro he
    have ht := congrArg BitVec.toNat he
    rw [BitVec.toNat_add, BitVec.toNat_mul, BitVec.toNat_ofNat, BitVec.toNat_ofNat, BitVec.toNat_ofNat,
      BitVec.toNat_ofNat] at ht
    norm_num at ht
    omega
  · rintro rfl
    apply BitVec.eq_of_toNat_eq
    rw [BitVec.toNat_add, BitVec.toNat_mul, BitVec.toNat_ofNat, BitVec.toNat_ofNat, BitVec.toNat_ofNat,
      BitVec.toNat_ofNat]
    norm_num <;> omega

/-- A comparison of two words, widened and converted, is one where they agree and zero where they differ. -/
theorem indicator_word (x y : BitVec 32) :
    (((((BitVec.ofBool (x == y)).setWidth 32).toInt : ℝ)) : EReal) = if x = y then 1 else 0 := by
  by_cases h : x = y
  · subst h
    simp
  · have hb : (x == y) = false := beq_eq_false_iff_ne.mpr h
    rw [hb, if_neg h]
    simp

/-- A sum whose terms are `sel c · f c` with `sel` one at `c₀` and zero elsewhere is `f c₀`: zero times any extended
    real is zero. -/
theorem sum_indicator_mul {n : ℕ} (c₀ : Fin n) (f : Fin n → EReal) :
    ∑ c : Fin n, (if c.val = c₀.val then (1 : EReal) else 0) * f c = f c₀ := by
  rw [Finset.sum_eq_single c₀]
  · rw [if_pos rfl, one_mul]
  · intro b _ hb
    rw [if_neg (fun h => hb (Fin.ext h)), zero_mul]
  · intro h
    exact absurd (Finset.mem_univ c₀) h

/-- The table of row numbers the selection matrices are built from. -/
abbrev rowNumberTable : IVec S784x1568 32 := iota .tc S784x1568 32 [0] iota_S784x1568_d0_w32

/-- Entry `(q, c)` of the first selection matrix: one exactly when `c = 2q`. -/
theorem selEven_apply (q : Fin 784) (c : Fin 1568) :
    (sitofp .f32 (extui 32 (cmpi .eq (iota .tc S784x1568 32 [1] iota_S784x1568_d1_w32)
        (muli (broadcast S784x1568 2#32) rowNumberTable)) natLt_1_32) : FVec Ideal S784x1568 .f32) (ix2 q c)
      = if c.val = 2 * q.val then 1 else 0 := by
  have hcol : iota .tc S784x1568 32 [1] iota_S784x1568_d1_w32 (ix2 q c) = BitVec.ofNat 32 c.val :=
    iota_single_apply .tc S784x1568 32 1 iota_S784x1568_d1_w32 (ix2 q c)
  have hrow : rowNumberTable (ix2 q c) = BitVec.ofNat 32 q.val :=
    iota_single_apply .tc S784x1568 32 0 iota_S784x1568_d0_w32 (ix2 q c)
  show (((((BitVec.ofBool (iota .tc S784x1568 32 [1] iota_S784x1568_d1_w32 (ix2 q c)
    == 2#32 * rowNumberTable (ix2 q c))).setWidth 32).toInt : ℝ)) : EReal) = _
  rw [hcol, hrow, indicator_word]
  exact if_congr (word_eq_double c.isLt q.isLt) rfl rfl

/-- Entry `(q, c)` of the second selection matrix: one exactly when `c = 2q + 1`. -/
theorem selOdd_apply (q : Fin 784) (c : Fin 1568) :
    (sitofp .f32 (extui 32 (cmpi .eq (iota .tc S784x1568 32 [1] iota_S784x1568_d1_w32)
        (addi (muli (broadcast S784x1568 2#32) rowNumberTable) (broadcast S784x1568 1#32))) natLt_1_32) :
          FVec Ideal S784x1568 .f32) (ix2 q c)
      = if c.val = 2 * q.val + 1 then 1 else 0 := by
  have hcol : iota .tc S784x1568 32 [1] iota_S784x1568_d1_w32 (ix2 q c) = BitVec.ofNat 32 c.val :=
    iota_single_apply .tc S784x1568 32 1 iota_S784x1568_d1_w32 (ix2 q c)
  have hrow : rowNumberTable (ix2 q c) = BitVec.ofNat 32 q.val :=
    iota_single_apply .tc S784x1568 32 0 iota_S784x1568_d0_w32 (ix2 q c)
  show (((((BitVec.ofBool (iota .tc S784x1568 32 [1] iota_S784x1568_d1_w32 (ix2 q c)
    == 2#32 * rowNumberTable (ix2 q c) + 1#32)).setWidth 32).toInt : ℝ)) : EReal) = _
  rw [hcol, hrow, indicator_word]
  exact if_congr (word_eq_double_succ c.isLt q.isLt) rfl rfl

/-- The pooled value over any row-pair matrix `ph`: the larger of its rows `2q` and `2q + 1`. -/
theorem pooled_apply (ph : FVec Ideal S1568x64 .f32) (q : Fin 784) (co : Fin 64) :
    k1_pay1 (F := Ideal) ph rowNumberTable (ix2 q co)
      = max (ph (ix2 (⟨2 * q.val, by omega⟩ : Fin 1568) co)) (ph (ix2 (⟨2 * q.val + 1, by omega⟩ : Fin 1568) co)) := by
  unfold k1_pay1
  show max _ _ = max _ _
  refine congrArg₂ max ?_ ?_
  · refine (Cert.Bridge.Split.matmul_zero_plain_apply _ rfl _ ph q co).trans ?_
    refine (Finset.sum_congr rfl fun c _ => congrArg (· * ph (ix2 c co)) (selEven_apply q c)).trans ?_
    exact sum_indicator_mul (⟨2 * q.val, by omega⟩ : Fin 1568) (fun c => ph (ix2 c co))
  · refine (Cert.Bridge.Split.matmul_zero_plain_apply _ rfl _ ph q co).trans ?_
    refine (Finset.sum_congr rfl fun c _ => congrArg (· * ph (ix2 c co)) (selOdd_apply q c)).trans ?_
    exact sum_indicator_mul (⟨2 * q.val + 1, by omega⟩ : Fin 1568) (fun c => ph (ix2 c co))

/-- The larger of each pair of rows: the 3136 × 64 matrix viewed 28 × 2 × 56 × 64, its two slices along the second
    axis compared, the result viewed 1568 × 64. -/
def rowPairMax {F : FTy → Type} [FloatOps F] (Y : FVec F S3136x64 .f32) : FVec F S1568x64 .f32 :=
  shapeCast S1568x64
    (maximumf
      (shapeCast S28x56x64
        (extractStridedSlice S28x1x56x64 ![0, 0, 0, 0] (shapeCast S28x2x56x64 Y shapeCasts_S3136x64_S28x2x56x64)
          slices_S28x2x56x64_o0_0_0_0_S28x1x56x64) shapeCasts_S28x1x56x64_S28x56x64)
      (shapeCast S28x56x64
        (extractStridedSlice S28x1x56x64 ![0, 1, 0, 0] (shapeCast S28x2x56x64 Y shapeCasts_S3136x64_S28x2x56x64)
          slices_S28x2x56x64_o0_1_0_0_S28x1x56x64) shapeCasts_S28x1x56x64_S28x56x64))
    shapeCasts_S28x56x64_S1568x64

/-- The second stage's row-pair matrix is that of the activated product, which is computed exactly as in the first
    stage. -/
theorem k1_pay59_eq_rowPairMax {F : FTy → Type} [FloatOps F] (P : Vec F S3136x3136 .f32) (x3 : Vec F S3136x64 .f32)
    (x4 : Vec F S1x64 .f32) : k1_pay59 P x3 x4 = rowPairMax (k0_pay57 P x3 x4) := rfl

/-- One slice of the 28 × 2 × 56 × 64 view, flattened: row `ho·56 + w` reads row `(2ho + e)·56 + w`. -/
private theorem rowSlice_apply (Y : FVec Ideal S3136x64 .f32) (e : Fin 2) (off : Fin 4 → ℕ) (hoff : off = ![0, e.val, 0, 0])
    (hs : S28x2x56x64.Slices off S28x1x56x64) (ho : Fin 28) (w : Fin 56) (co : Fin 64) :
    shapeCast S28x56x64
        (extractStridedSlice S28x1x56x64 off (shapeCast S28x2x56x64 Y shapeCasts_S3136x64_S28x2x56x64) hs)
        shapeCasts_S28x1x56x64_S28x56x64 (ix3 ho w co)
      = Y (ix2 (⟨(ho.val * 2 + e.val) * 56 + w.val, by omega⟩ : Fin 3136) co) := by
  subst hoff
  refine (shapeCast_apply _ _ (ix3 ho w co) (ix4 ho (0 : Fin 1) w co) ?_).trans ?_
  · rw [Shape.rowMajor_val_four, Shape.rowMajor_val_three]
    show ((ho.val * 1 + 0) * 56 + w.val) * 64 + co.val = (ho.val * 56 + w.val) * 64 + co.val
    omega
  · refine (extractStridedSlice_apply _ _ _ (ix4 ho (0 : Fin 1) w co) (ix4 ho e w co) (fun a => ?_)).trans ?_
    · match a with
      | ⟨0, _⟩ => show ho.val = 0 + ho.val; omega
      | ⟨1, _⟩ => show e.val = e.val + 0; omega
      | ⟨2, _⟩ => show w.val = 0 + w.val; omega
      | ⟨3, _⟩ => show co.val = 0 + co.val; omega
    · refine shapeCast_apply _ _ (ix4 ho e w co) (ix2 (⟨(ho.val * 2 + e.val) * 56 + w.val, by omega⟩ : Fin 3136) co) ?_
      rw [Shape.rowMajor_val_two, Shape.rowMajor_val_four]
      show ((ho.val * 2 + e.val) * 56 + w.val) * 64 + co.val = ((ho.val * 2 + e.val) * 56 + w.val) * 64 + co.val
      rfl

/-- Row `c = ho·56 + w` of the row-pair matrix is the larger of rows `(2ho)·56 + w` and `(2ho + 1)·56 + w`. -/
theorem rowPairMax_apply (Y : FVec Ideal S3136x64 .f32) (c : Fin 1568) (co : Fin 64) :
    rowPairMax (F := Ideal) Y (ix2 c co)
      = max (Y (ix2 (⟨(c.val / 56 * 2 + 0) * 56 + c.val % 56, by omega⟩ : Fin 3136) co))
          (Y (ix2 (⟨(c.val / 56 * 2 + 1) * 56 + c.val % 56, by omega⟩ : Fin 3136) co)) := by
  unfold rowPairMax
  refine (shapeCast_apply _ _ (ix2 c co)
    (ix3 (⟨c.val / 56, by omega⟩ : Fin 28) (⟨c.val % 56, by omega⟩ : Fin 56) co) ?_).trans ?_
  · rw [Shape.rowMajor_val_three, Shape.rowMajor_val_two]
    show (c.val / 56 * 56 + c.val % 56) * 64 + co.val = c.val * 64 + co.val
    omega
  · show max _ _ = max _ _
    exact congrArg₂ max
      (rowSlice_apply Y (0 : Fin 2) _ rfl _ (⟨c.val / 56, by omega⟩ : Fin 28) (⟨c.val % 56, by omega⟩ : Fin 56) co)
      (rowSlice_apply Y (1 : Fin 2) _ rfl _ (⟨c.val / 56, by omega⟩ : Fin 28) (⟨c.val % 56, by omega⟩ : Fin 56) co)

/-- The source index of a column sum over the 784 pooled rows: row `k` inserted above column `co`. -/
private theorem lift_row784 (co : Fin 64) (k : Fin (S784x64.size 0)) :
    reduces_S784x64_S64.lift (ix1 co) k = (ix2 k co : S784x64.Idx) :=
  funext fun d => Fin.ext (by
    match d with
    | ⟨0, _⟩ => rfl
    | ⟨1, _⟩ => rfl)

/-- Row 0 of the second stage's stacked block: the sum of each column of the pooled value. -/
theorem stacked1_sum_apply (ph : FVec Ideal S1568x64 .f32) (tbl : IVec S784x1568 32) (co : Fin 64) :
    k1_pay3 (F := Ideal) ph tbl (ix3 0 0 co) = ∑ q : Fin 784, k1_pay1 (F := Ideal) ph tbl (ix2 q co) := by
  unfold k1_pay3
  refine (shapeCast_apply _ _ (ix3 (0 : Fin 1) (0 : Fin 2) co) (ix2 (0 : Fin 2) co) ?_).trans ?_
  · rw [Shape.rowMajor_val_two, Shape.rowMajor_val_three]
    show (0 : ℕ) * 64 + co.val = ((0 : ℕ) * 2 + 0) * 64 + co.val
    omega
  · refine (concatenate_pair_apply_left _ _ _ concatenates_S1x64_S1x64_S2x64_d0 (ix2 (0 : Fin 2) co) rfl
      (ix2 (0 : Fin 1) co) (fun b => by
        match b with
        | ⟨0, _⟩ => rfl
        | ⟨1, _⟩ => rfl)).trans ?_
    refine (shapeCast_apply _ _ (ix2 (0 : Fin 1) co) (ix1 co) ?_).trans ?_
    · rw [Shape.rowMajor_val_one, Shape.rowMajor_val_two]
      show co.val = (0 : ℕ) * 64 + co.val
      omega
    · refine (Ideal.multiReduction_add_single _ 0x00000000#32 reduces_S784x64_S64 _ _ (ix1 co)).trans ?_
      exact Finset.sum_congr rfl fun k _ => congrArg _ (lift_row784 co k)

/-- Row 1: the sum of the squares of each column of the pooled value. -/
theorem stacked1_sumsq_apply (ph : FVec Ideal S1568x64 .f32) (tbl : IVec S784x1568 32) (co : Fin 64) :
    k1_pay3 (F := Ideal) ph tbl (ix3 0 1 co)
      = ∑ q : Fin 784, k1_pay1 (F := Ideal) ph tbl (ix2 q co) * k1_pay1 (F := Ideal) ph tbl (ix2 q co) := by
  unfold k1_pay3
  refine (shapeCast_apply _ _ (ix3 (0 : Fin 1) (1 : Fin 2) co) (ix2 (1 : Fin 2) co) ?_).trans ?_
  · rw [Shape.rowMajor_val_two, Shape.rowMajor_val_three]
    show (1 : ℕ) * 64 + co.val = ((0 : ℕ) * 2 + 1) * 64 + co.val
    omega
  · refine (concatenate_pair_apply_right _ _ _ concatenates_S1x64_S1x64_S2x64_d0 (ix2 (1 : Fin 2) co) rfl rfl
      (ix2 (0 : Fin 1) co) (fun b hb => by
        match b, hb with
        | ⟨0, _⟩, hb => exact absurd rfl hb
        | ⟨1, _⟩, _ => rfl) rfl).trans ?_
    refine (shapeCast_apply _ _ (ix2 (0 : Fin 1) co) (ix1 co) ?_).trans ?_
    · rw [Shape.rowMajor_val_one, Shape.rowMajor_val_two]
      show co.val = (0 : ℕ) * 64 + co.val
      omega
    · refine (Ideal.multiReduction_add_single _ 0x00000000#32 reduces_S784x64_S64 _ _ (ix1 co)).trans ?_
      refine Finset.sum_congr rfl fun k _ => ?_
      rw [lift_row784 co k]
      rfl

end Cert.ReferenceIdeal.HandValue

end
-- ==== Proof.V1RMain.lean ====
import proofs.«154663_g2000405482023969_pallasbulk_1176_2_alg».proof.Proof.PatchedFrameReferenceIdeal
import proofs.«154663_g2000405482023969_pallasbulk_1176_2_alg».proof.Proof.Spec
import proofs.«154663_g2000405482023969_pallasbulk_1176_2_alg».proof.Proof.V0RMain
import proofs.«154663_g2000405482023969_pallasbulk_1176_2_alg».proof.Proof.V1RPieces
import proofs.«154663_g2000405482023969_pallasbulk_1176_2_alg».proof.Proof.V1RPadded
import proofs.«154663_g2000405482023969_pallasbulk_1176_2_alg».proof.Proof.V1RPatch
import proofs.«154663_g2000405482023969_pallasbulk_1176_2_alg».proof.Proof.V1RPool
import Idealize.ShloMosaic.PureOps.Ideal.Laws
import Idealize.ShloMosaic.Lib.ValueIdx
import Idealize.ShloMosaic.Lib.Pipeline.Value
import Idealize.ShloMosaic.Lib.Tactic

set_option maxRecDepth 16384

/-!
# pallas_call 1 of the reference: its two outputs are the specification

The second stage normalises its input per channel, convolves the normalised image exactly as the first stage convolves
its image, and keeps the largest of every 2 × 2 block of positions: first the larger of the two rows, then, through the
two selection products, the larger of the two columns — the order in which the specification's pooling takes them. Its
first output is the pooled 784 × 64 matrix viewed 1 × 784 × 64; its second stacks the column sums of that matrix and
of its square.
-/

noncomputable section

namespace Cert.ReferenceIdeal.HandValue

open Cert.ReferenceIdeal Cert.ReferenceIdeal.Gen Cert.ReferenceIdeal.GenP
open Idealize.ShloMosaic Idealize.ShloMosaic.TcCoe Idealize.ShloMosaic.Tactic Idealize.ShloMosaic.ValueIdx
open Idealize.SL.Sem
open scoped BigOperators

/-- The second stage as the specification writes it. -/
def stage2 (x0 : Vec Ideal S1x3136x64 .f32) (x1 : Vec Ideal S1x64 .f32) (x2 : Vec Ideal S1x64 .f32) (x3 : Vec Ideal S3136x64 .f32) (x4 : Vec Ideal S1x64 .f32) : Fin 784 → Fin 64 → EReal :=
  Cert.Spec.pool (Cert.Spec.conv (Cert.Spec.unflat (Cert.Spec.affine (rows x0) (row x1) (row x2))) (wmat x3) (row x4))

/-- The patch matrix the second stage reads back is the specification's, of the normalised image. -/
theorem patchLoaded1_eq_patch (c : Dev nD) (arg1 : Memref sig .tc .vmem S1x3136x64 .f32) (harg1 : arg1.IsWhole) (arg2 : Memref sig .tc .vmem S1x64 .f32) (harg2 : arg2.IsWhole) (arg3 : Memref sig .tc .vmem S1x64 .f32) (harg3 : arg3.IsWhole) (arg8 : Memref sig .tc .vmem S62x62x64 .f32) (arg9 : Memref sig .tc .vmem S3136x3136 .f32)
    (x0 : Vec Ideal S1x3136x64 .f32) (x1 : Vec Ideal S1x64 .f32) (x2 : Vec Ideal S1x64 .f32) (r t : Fin 3136) :
    patchLoaded1 (F := Ideal) c arg1 harg1 arg2 harg2 arg3 harg3 arg8 arg9 x0 x1 x2 (ix2 r t) = Cert.Spec.patch (image1 x0 x1 x2) r t := by
  refine (patchLoaded1_apply (F := Ideal) c arg1 harg1 arg2 harg2 arg3 harg3 arg8 arg9 x0 x1 x2 r t).trans ?_
  unfold patchOf Cert.Spec.patch
  exact paddedStored1_apply c arg1 harg1 arg2 harg2 arg3 harg3 x0 x1 x2 _ _ _

/-- The activated product over it is the specification's convolution of the normalised image. -/
theorem activated1_eq_conv (c : Dev nD) (arg1 : Memref sig .tc .vmem S1x3136x64 .f32) (harg1 : arg1.IsWhole) (arg2 : Memref sig .tc .vmem S1x64 .f32) (harg2 : arg2.IsWhole) (arg3 : Memref sig .tc .vmem S1x64 .f32) (harg3 : arg3.IsWhole) (arg8 : Memref sig .tc .vmem S62x62x64 .f32) (arg9 : Memref sig .tc .vmem S3136x3136 .f32)
    (x0 : Vec Ideal S1x3136x64 .f32) (x1 : Vec Ideal S1x64 .f32) (x2 : Vec Ideal S1x64 .f32) (x3 : Vec Ideal S3136x64 .f32) (x4 : Vec Ideal S1x64 .f32) (r : Fin 3136) (co : Fin 64) :
    k0_pay57 (F := Ideal) (patchLoaded1 (F := Ideal) c arg1 harg1 arg2 harg2 arg3 harg3 arg8 arg9 x0 x1 x2) x3 x4 (ix2 r co)
      = Cert.Spec.conv (image1 x0 x1 x2) (wmat x3) (row x4) r co := by
  refine (activated_apply _ x3 x4 r co).trans ?_
  unfold Cert.Spec.conv
  refine congrArg (fun s => max (s + row x4 co) 0) (Finset.sum_congr rfl fun t _ => ?_)
  exact congrArg (· * wmat x3 t co) (patchLoaded1_eq_patch c arg1 harg1 arg2 harg2 arg3 harg3 arg8 arg9 x0 x1 x2 r t)

/-- The pooled value is the specification's second stage. -/
theorem pooledStage_apply (c : Dev nD) (arg1 : Memref sig .tc .vmem S1x3136x64 .f32) (harg1 : arg1.IsWhole) (arg2 : Memref sig .tc .vmem S1x64 .f32) (harg2 : arg2.IsWhole) (arg3 : Memref sig .tc .vmem S1x64 .f32) (harg3 : arg3.IsWhole) (arg8 : Memref sig .tc .vmem S62x62x64 .f32) (arg9 : Memref sig .tc .vmem S3136x3136 .f32)
    (x0 : Vec Ideal S1x3136x64 .f32) (x1 : Vec Ideal S1x64 .f32) (x2 : Vec Ideal S1x64 .f32) (x3 : Vec Ideal S3136x64 .f32) (x4 : Vec Ideal S1x64 .f32) (q : Fin 784) (co : Fin 64) :
    k1_pay1 (F := Ideal) (k1_pay59 (F := Ideal) (patchLoaded1 (F := Ideal) c arg1 harg1 arg2 harg2 arg3 harg3 arg8 arg9 x0 x1 x2) x3 x4) rowNumbers (ix2 q co)
      = stage2 x0 x1 x2 x3 x4 q co := by
  rw [k1_pay59_eq_rowPairMax]
  refine (pooled_apply _ q co).trans ?_
  rw [rowPairMax_apply, rowPairMax_apply, activated1_eq_conv, activated1_eq_conv, activated1_eq_conv, activated1_eq_conv]
  unfold stage2 Cert.Spec.pool
  show max (max _ _) (max _ _) = max (max _ _) (max _ _)
  refine congrArg₂ max (congrArg₂ max ?_ ?_) (congrArg₂ max ?_ ?_)
  all_goals
    refine congrArg (fun j => Cert.Spec.conv _ _ _ j co) (Fin.ext ?_)
    dsimp only
    omega

/-- The first output, entry by entry. -/
theorem out1_A_5_apply (c : Dev nD) (i : grid1.Coords) (arg1 : Memref sig .tc .vmem S1x3136x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S3136x64 .f32) (harg4 : arg4.IsWhole) (arg5 : Memref sig .tc .vmem S1x64 .f32) (harg5 : arg5.IsWhole) (arg6 : Memref sig .tc .vmem S1x784x64 .f32) (harg6 : arg6.IsWhole) (arg7 : Memref sig .tc .vmem S1x2x64 .f32) (harg7 : arg7.IsWhole) (arg8 : Memref sig .tc .vmem S62x62x64 .f32) (harg8 : arg8.IsWhole) (arg9 : Memref sig .tc .vmem S3136x3136 .f32) (harg9 : arg9.IsWhole)
    (x0 : Vec Ideal S1x3136x64 .f32) (x1 : Vec Ideal S1x64 .f32) (x2 : Vec Ideal S1x64 .f32) (x3 : Vec Ideal S3136x64 .f32) (x4 : Vec Ideal S1x64 .f32) (q : Fin 784) (co : Fin 64) :
    out1_A_5 (F := Ideal) c i arg1 harg1 arg2 harg2 arg3 harg3 arg4 harg4 arg5 harg5 arg6 harg6 arg7 harg7 arg8 harg8 arg9 harg9 x0 x1 x2 x3 x4 (ix3 0 q co) = stage2 x0 x1 x2 x3 x4 q co := by
  rw [out1_A_5_eq_payload]
  unfold k1_pay2
  refine (shapeCast_apply _ _ (ix3 (0 : Fin 1) q co) (ix2 q co) ?_).trans ?_
  · rw [Shape.rowMajor_val_two, Shape.rowMajor_val_three]
    show q.val * 64 + co.val = ((0 : ℕ) * 784 + q.val) * 64 + co.val
    omega
  · exact pooledStage_apply c arg1 harg1 arg2 harg2 arg3 harg3 arg8 arg9 x0 x1 x2 x3 x4 q co

/-- The second output's row 0: the column sums of the second stage. -/
theorem out1_A_6_sum (c : Dev nD) (i : grid1.Coords) (arg1 : Memref sig .tc .vmem S1x3136x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S3136x64 .f32) (harg4 : arg4.IsWhole) (arg5 : Memref sig .tc .vmem S1x64 .f32) (harg5 : arg5.IsWhole) (arg6 : Memref sig .tc .vmem S1x784x64 .f32) (harg6 : arg6.IsWhole) (arg7 : Memref sig .tc .vmem S1x2x64 .f32) (harg7 : arg7.IsWhole) (arg8 : Memref sig .tc .vmem S62x62x64 .f32) (harg8 : arg8.IsWhole) (arg9 : Memref sig .tc .vmem S3136x3136 .f32) (harg9 : arg9.IsWhole)
    (x0 : Vec Ideal S1x3136x64 .f32) (x1 : Vec Ideal S1x64 .f32) (x2 : Vec Ideal S1x64 .f32) (x3 : Vec Ideal S3136x64 .f32) (x4 : Vec Ideal S1x64 .f32) (co : Fin 64) :
    out1_A_6 (F := Ideal) c i arg1 harg1 arg2 harg2 arg3 harg3 arg4 harg4 arg5 harg5 arg6 harg6 arg7 harg7 arg8 harg8 arg9 harg9 x0 x1 x2 x3 x4 (ix3 0 0 co) = Cert.Spec.colSum (stage2 x0 x1 x2 x3 x4) co := by
  rw [out1_A_6_eq_payload]
  refine (stacked1_sum_apply _ _ co).trans ?_
  unfold Cert.Spec.colSum
  exact Finset.sum_congr rfl fun q _ => pooledStage_apply c arg1 harg1 arg2 harg2 arg3 harg3 arg8 arg9 x0 x1 x2 x3 x4 q co

/-- The second output's row 1: the column sums of its squares. -/
theorem out1_A_6_sumsq (c : Dev nD) (i : grid1.Coords) (arg1 : Memref sig .tc .vmem S1x3136x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S3136x64 .f32) (harg4 : arg4.IsWhole) (arg5 : Memref sig .tc .vmem S1x64 .f32) (harg5 : arg5.IsWhole) (arg6 : Memref sig .tc .vmem S1x784x64 .f32) (harg6 : arg6.IsWhole) (arg7 : Memref sig .tc .vmem S1x2x64 .f32) (harg7 : arg7.IsWhole) (arg8 : Memref sig .tc .vmem S62x62x64 .f32) (harg8 : arg8.IsWhole) (arg9 : Memref sig .tc .vmem S3136x3136 .f32) (harg9 : arg9.IsWhole)
    (x0 : Vec Ideal S1x3136x64 .f32) (x1 : Vec Ideal S1x64 .f32) (x2 : Vec Ideal S1x64 .f32) (x3 : Vec Ideal S3136x64 .f32) (x4 : Vec Ideal S1x64 .f32) (co : Fin 64) :
    out1_A_6 (F := Ideal) c i arg1 harg1 arg2 harg2 arg3 harg3 arg4 harg4 arg5 harg5 arg6 harg6 arg7 harg7 arg8 harg8 arg9 harg9 x0 x1 x2 x3 x4 (ix3 0 1 co) = Cert.Spec.colSumSq (stage2 x0 x1 x2 x3 x4) co := by
  rw [out1_A_6_eq_payload]
  refine (stacked1_sumsq_apply _ _ co).trans ?_
  unfold Cert.Spec.colSumSq
  refine Finset.sum_congr rfl fun q _ => ?_
  rw [pooledStage_apply c arg1 harg1 arg2 harg2 arg3 harg3 arg8 arg9 x0 x1 x2 x3 x4 q co]

end Cert.ReferenceIdeal.HandValue

end
-- ==== Proof.StageR1.lean ====
/- The reference program's second pallas_call over the extended reals, for any entry contents: its two output arrays after
   the region are the specification's second stage of the entry arrays — image `n`'s pooled rows are the 2x2 maximum of the
   7x7 convolution (plus bias, positive part) of the per-channel affine map of image `n`'s activations; its two statistics
   rows are that result's column sums and column sums of squares. -/
import proofs.«154663_g2000405482023969_pallasbulk_1176_2_alg».proof.Proof.ArrR1
import proofs.«154663_g2000405482023969_pallasbulk_1176_2_alg».proof.Proof.V1RMain

noncomputable section

open Idealize.ShloMosaic Idealize.ShloMosaic.TcCoe Idealize.SL.Sem
open Idealize.ShloMosaic.Pipeline (Dat)
open Idealize.ShloMosaic.ValueIdx

namespace Cert.ReferenceIdeal.HandValue

open Cert.ReferenceIdeal Cert.ReferenceIdeal.Gen Cert.ReferenceIdeal.GenP

variable (V : (c : Dev nD) → (b : Ref sig .tc) → Buf (Elt Ideal) ((c : Thread nD τ).loc b))

/-- Image `n` of the entry activation array, the scale and shift rows, the weight matrix and the bias row, as the
    specification's functions. -/
abbrev acts1 (c : Dev nD) (n : Fin 32) : Fin 3136 → Fin 64 → EReal :=
  fun r co => (V c main_v5_0 : S32x3136x64.Idx → Elt Ideal .f32) (ix3 n r co)
abbrev scale1 (c : Dev nD) : Fin 64 → EReal := fun co => (V c main_v25 : S1x64.Idx → Elt Ideal .f32) (ix2 0 co)
abbrev shift1 (c : Dev nD) : Fin 64 → EReal := fun co => (V c main_v26 : S1x64.Idx → Elt Ideal .f32) (ix2 0 co)
abbrev weights1 (c : Dev nD) : Fin 3136 → Fin 64 → EReal := fun t co => (V c main_v2 : S3136x64.Idx → Elt Ideal .f32) (ix2 t co)
abbrev bias1 (c : Dev nD) : Fin 64 → EReal := fun co => (V c main_v4 : S1x64.Idx → Elt Ideal .f32) (ix2 0 co)

/-- The specification's second stage of image `n`. -/
abbrev pooled1 (c : Dev nD) (n : Fin 32) : Fin 784 → Fin 64 → EReal :=
  Cert.Spec.pool (Cert.Spec.conv (Cert.Spec.unflat (Cert.Spec.affine (acts1 V c n) (scale1 V c) (shift1 V c))) (weights1 V c) (bias1 V c))

/-- Point `n`'s activation block is image `n`'s activations. -/
theorem rows_iblk1 (c : Dev nD) (n : Fin 32) : rows (iblk1 V c 0 (pt1 n.val n.isLt)) = acts1 V c n :=
  funext fun r => funext fun co => iblk1_0_apply V c (pt1 n.val n.isLt) r co

theorem scale_iblk1 (c : Dev nD) (t : Fin cfg1.N) : row (iblk1 V c 1 t) = scale1 V c := by
  unfold row scale1; rw [iblk1_1_eq]

theorem shift_iblk1 (c : Dev nD) (t : Fin cfg1.N) : row (iblk1 V c 2 t) = shift1 V c := by
  unfold row shift1; rw [iblk1_2_eq]

theorem wmat_iblk1 (c : Dev nD) (t : Fin cfg1.N) : wmat (iblk1 V c 3 t) = weights1 V c := by
  unfold wmat weights1; rw [iblk1_3_eq]

theorem bias_iblk1 (c : Dev nD) (t : Fin cfg1.N) : row (iblk1 V c 4 t) = bias1 V c := by
  unfold row bias1; rw [iblk1_4_eq]

/-- The stage of point `n`'s blocks is the stage of image `n`. -/
theorem stage2_iblk1 (c : Dev nD) (n : Fin 32) :
    stage2 (iblk1 V c 0 (pt1 n.val n.isLt)) (iblk1 V c 1 (pt1 n.val n.isLt)) (iblk1 V c 2 (pt1 n.val n.isLt))
        (iblk1 V c 3 (pt1 n.val n.isLt)) (iblk1 V c 4 (pt1 n.val n.isLt)) = pooled1 V c n := by
  unfold stage2
  rw [rows_iblk1, scale_iblk1, shift_iblk1, wmat_iblk1, bias_iblk1]

/-- The first output array: the pooled stage, image by image. -/
theorem stage1_Y (c : Dev nD) (n : Fin 32) (q : Fin 784) (co : Fin 64) :
    ((dat1 V c).arrAt 5 cfg1.N : S32x784x64.Idx → Elt Ideal .f32) (ix3 n q co) = pooled1 V c n q co := by
  rw [arr1_5, blocks1_5_apply]
  unfold outsAt1
  dsimp only
  rw [out1_A_5_apply, stage2_iblk1]

/-- The second output array's row 0: the column sums of the pooled stage. -/
theorem stage1_S0 (c : Dev nD) (n : Fin 32) (co : Fin 64) :
    ((dat1 V c).arrAt 6 cfg1.N : S32x2x64.Idx → Elt Ideal .f32) (ix3 n 0 co) = Cert.Spec.colSum (pooled1 V c n) co := by
  rw [arr1_6, blocks1_6_apply]
  unfold outsAt1
  dsimp only
  rw [out1_A_6_sum, stage2_iblk1]

/-- The second output array's row 1: the column sums of the pooled stage's squares. -/
theorem stage1_S1 (c : Dev nD) (n : Fin 32) (co : Fin 64) :
    ((dat1 V c).arrAt 6 cfg1.N : S32x2x64.Idx → Elt Ideal .f32) (ix3 n 1 co) = Cert.Spec.colSumSq (pooled1 V c n) co := by
  rw [arr1_6, blocks1_6_apply]
  unfold outsAt1
  dsimp only
  rw [out1_A_6_sumsq, stage2_iblk1]

end Cert.ReferenceIdeal.HandValue

end
-- ==== Proof.ArrR2.lean ====
/- The reference program's third pallas_call (per-channel affine), whole arrays against blocks, for any entry contents:
   each input block read at an index is its array at the shifted index (the pooled-activation window moves with the grid
   point on the batch axis; scale and shift are whole windows), and the output array after the region is, image by image,
   the block the image's grid point wrote. -/
import proofs.«154663_g2000405482023969_pallasbulk_1176_2_alg».proof.Proof.PatchedFrameReferenceIdeal
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.ReferenceIdeal.HandValue

open Cert.ReferenceIdeal Cert.ReferenceIdeal.Gen Cert.ReferenceIdeal.GenP

variable {F : FTy → Type} [FloatOps F]
variable (V : (c : Dev nD) → (b : Ref sig .tc) → Buf (Elt F) ((c : Thread nD τ).loc b))

theorem lt_N2 (t : Fin cfg2.N) : t.val < 32 := t.isLt

theorem idx3_lt0_r2 {n0 n1 n2 : Nat} (j : (⟨3, ![n0, n1, n2]⟩ : Shape).Idx) : (j 0).val < n0 := (j 0).isLt
theorem idx3_lt1_r2 {n0 n1 n2 : Nat} (j : (⟨3, ![n0, n1, n2]⟩ : Shape).Idx) : (j 1).val < n1 := (j 1).isLt
theorem idx3_lt2_r2 {n0 n1 n2 : Nat} (j : (⟨3, ![n0, n1, n2]⟩ : Shape).Idx) : (j 2).val < n2 := (j 2).isLt

/-- The point whose block holds image `n`. -/
abbrev pt2 (n : Nat) (h : n < 32) : Fin cfg2.N := ⟨n, h⟩

/-- The index maps of pallas_call 2, decided over the grid: the pooled-activation window and the output window move with
    the point on their leading axis; scale and shift stay at block 0. -/
theorem index2_0 : ∀ t : Fin cfg2.N, win2_0.index t (0 : Fin 3) = t.val ∧ win2_0.index t (1 : Fin 3) = 0 ∧ win2_0.index t (2 : Fin 3) = 0 :=
  (by decide +kernel : ∀ t : Fin grid2.N, _)

theorem index2_1 : ∀ t : Fin cfg2.N, win2_1.index t (0 : Fin 2) = 0 ∧ win2_1.index t (1 : Fin 2) = 0 :=
  (by decide +kernel : ∀ t : Fin grid2.N, _)

theorem index2_2 : ∀ t : Fin cfg2.N, win2_2.index t (0 : Fin 2) = 0 ∧ win2_2.index t (1 : Fin 2) = 0 :=
  (by decide +kernel : ∀ t : Fin grid2.N, _)

theorem index2_3 : ∀ t : Fin cfg2.N, win2_3.index t (0 : Fin 3) = t.val ∧ win2_3.index t (1 : Fin 3) = 0 ∧ win2_3.index t (2 : Fin 3) = 0 :=
  (by decide +kernel : ∀ t : Fin grid2.N, _)

/-! ## Input blocks are the arrays at the shifted index -/

theorem iblk2_0_apply (c : Dev nD) (t : Fin cfg2.N) (r : Fin 784) (co : Fin 64) :
    (iblk2 V c 0 t : Vec F S1x784x64 .f32) (ix3 0 r co)
      = (V c main_v27_0 : S32x784x64.Idx → Elt F .f32) (ix3 ⟨t.val, lt_N2 t⟩ r co) := by
  obtain ⟨e0, e1, e2⟩ := index2_0 t
  unfold iblk2
  rw [View.read_apply]
  show V c main_v27_0 _ = V c main_v27_0 _
  congr 1
  funext a
  apply Fin.ext
  match a with
  | ⟨0, _⟩ => show win2_0.index t 0 * 1 + 1 * 0 = t.val; rw [e0]; omega
  | ⟨1, _⟩ => show win2_0.index t 1 * 784 + 1 * r.val = r.val; rw [e1]; omega
  | ⟨2, _⟩ => show win2_0.index t 2 * 64 + 1 * co.val = co.val; rw [e2]; omega

theorem iblk2_1_eq (c : Dev nD) (t : Fin cfg2.N) :
    (iblk2 V c 1 t : Vec F S1x64 .f32) = (V c main_v47 : S1x64.Idx → Elt F .f32) := by
  obtain ⟨e0, e1⟩ := index2_1 t
  funext y
  unfold iblk2
  rw [View.read_apply]
  show V c main_v47 _ = V c main_v47 _
  congr 1
  funext a
  apply Fin.ext
  match a with
  | ⟨0, _⟩ => show win2_1.index t 0 * 1 + 1 * (y 0).val = (y 0).val; rw [e0]; omega
  | ⟨1, _⟩ => show win2_1.index t 1 * 64 + 1 * (y 1).val = (y 1).val; rw [e1]; omega

theorem iblk2_2_eq (c : Dev nD) (t : Fin cfg2.N) :
    (iblk2 V c 2 t : Vec F S1x64 .f32) = (V c main_v48 : S1x64.Idx → Elt F .f32) := by
  obtain ⟨e0, e1⟩ := index2_2 t
  funext y
  unfold iblk2
  rw [View.read_apply]
  show V c main_v48 _ = V c main_v48 _
  congr 1
  funext a
  apply Fin.ext
  match a with
  | ⟨0, _⟩ => show win2_2.index t 0 * 1 + 1 * (y 0).val = (y 0).val; rw [e0]; omega
  | ⟨1, _⟩ => show win2_2.index t 1 * 64 + 1 * (y 1).val = (y 1).val; rw [e1]; omega

/-! ## The output array is the blocks the points wrote -/

/-- What point `t` leaves in the output's block: the body's result of the three input blocks at `t`. -/
def outAt2 (c : Dev nD) (t : Fin cfg2.N) : Vec F S1x784x64 .f32 :=
  out2_3 (iblk2 V c 0 t) (iblk2 V c 1 t) (iblk2 V c 2 t)

theorem outAt2_eq (c : Dev nD) (t : Fin cfg2.N) :
    outAt2 V c t = out2_3 (iblk2 V c 0 t) (iblk2 V c 1 t) (iblk2 V c 2 t) := rfl

theorem after2_3' (c : Dev nD) (t : Fin cfg2.N) : (dat2 V c).after 3 t = outAt2 V c t := after2_3 V c t

/-- The output of pallas_call 2 as one array: image `n`'s rows are what point `n` left in its block. -/
def blocks2_3 (c : Dev nD) : S32x784x64.Idx → Elt F .f32 :=
  fun j => (outAt2 V c (pt2 (j 0).val (idx3_lt0_r2 j))) (ix3 0 ⟨(j 1).val, idx3_lt1_r2 j⟩ ⟨(j 2).val, idx3_lt2_r2 j⟩)

theorem blocks2_3_apply (c : Dev nD) (n : Fin 32) (r : Fin 784) (co : Fin 64) :
    blocks2_3 V c (ix3 n r co) = (outAt2 V c (pt2 n.val n.isLt)) (ix3 0 r co) := rfl

/-- An index of the array whose leading coordinate is `t` reads point `t`'s block. -/
theorem blocks2_3_of (c : Dev nD) (t : Fin cfg2.N) (y : S1x784x64.Idx) (j : S32x784x64.Idx)
    (h0 : (j 0).val = t.val) (h1 : (j 1).val = (y 1).val) (h2 : (j 2).val = (y 2).val) :
    blocks2_3 V c j = (outAt2 V c t) y := by
  unfold blocks2_3
  have ht : pt2 (j 0).val (idx3_lt0_r2 j) = t := Fin.ext h0
  rw [ht]
  refine congrArg (outAt2 V c t) ?_
  funext a
  apply Fin.ext
  match a with
  | ⟨0, _⟩ => show 0 = (y 0).val; have hy : (y 0).val < 1 := (y 0).isLt; omega
  | ⟨1, _⟩ => exact h1
  | ⟨2, _⟩ => exact h2

/-- What a write-back moves of a block's contents, at an index: the contents at the same coordinates. -/
theorem cut2_3_apply (t : Fin cfg2.N) (X : Vec F S1x784x64 .f32) (y : ((cfg2.win 3).xblock (grid2.coords t)).Idx) :
    (cfg2.win 3).cut (grid2.coords t) X y = X ((cfg2.win 3).xinj (grid2.coords t) y) := rfl

/-- An array read through point `t`'s block, at an index of the block: the array where the block's index sits. -/
theorem read_blk2_3_apply (t : Fin cfg2.N) (G : S32x784x64.Idx → Elt F .f32) (y : ((cfg2.win 3).xblock (grid2.coords t)).Idx) :
    ((cfg2.win 3).blk t).view.read (Elt F) G y = G (((cfg2.win 3).blk t).view.emb y) := by
  rw [View.read_apply]; rfl

/-- What point `t` writes back is block `t` of `blocks2_3`. -/
theorem flushed2_3_eq (c : Dev nD) (t : Fin cfg2.N) :
    (dat2 V c).flushed 3 t = ((cfg2.win 3).blk t).view.read (Elt F) (blocks2_3 V c) := by
  obtain ⟨e0, e1, e2⟩ := index2_3 t
  show (cfg2.win 3).cut (grid2.coords t) ((dat2 V c).after 3 t) = _
  rw [after2_3']
  funext y
  rw [cut2_3_apply, read_blk2_3_apply]
  refine (blocks2_3_of V c t _ _ ?_ ?_ ?_).symm
  · show win2_3.index t 0 * 1 + 1 * (y 0).val = t.val; have : (y 0).val < 1 := (y 0).isLt; rw [e0]; omega
  · show win2_3.index t 1 * 784 + 1 * (y 1).val = (y 1).val; rw [e1]; omega
  · show win2_3.index t 2 * 64 + 1 * (y 2).val = (y 2).val; rw [e2]; omega

/-- An index of the array is in point `t`'s block iff each coordinate is in the block's range on its axis. -/
theorem mem_blk2_3 (t : Fin cfg2.N) (i : S32x784x64.Idx) :
    i ∈ ((cfg2.win 3).blk t).view.set ↔ ∀ a : Fin 3, win2_3.index t a * S1x784x64.size a ≤ (i a).val ∧ (i a).val < win2_3.index t a * S1x784x64.size a + S1x784x64.size a := by
  show i ∈ ((View.whole main_v49).slice (win2_3.rect t)).set ↔ _
  rw [View.set_slice_whole, Rect.mem_set_unit]
  exact Iff.rfl

/-- Every index of the array is in the block of the point named by its leading coordinate. -/
theorem cover2_3 (i : S32x784x64.Idx) : ∃ t : Fin cfg2.N, (cfg2.win 3).flush t = true ∧ i ∈ ((cfg2.win 3).blk t).view.set := by
  have h0 : (i 0).val < 32 := idx3_lt0_r2 i
  have h1 : (i 1).val < 784 := idx3_lt1_r2 i
  have h2 : (i 2).val < 64 := idx3_lt2_r2 i
  refine ⟨pt2 (i 0).val h0, flush2_3 _, ?_⟩
  obtain ⟨e0, e1, e2⟩ := index2_3 (pt2 (i 0).val h0)
  rw [mem_blk2_3]
  intro a
  match a with
  | ⟨0, _⟩ => show win2_3.index (pt2 (i 0).val h0) 0 * 1 ≤ (i 0).val ∧ (i 0).val < win2_3.index (pt2 (i 0).val h0) 0 * 1 + 1; rw [e0]; show (i 0).val * 1 ≤ (i 0).val ∧ (i 0).val < (i 0).val * 1 + 1; omega
  | ⟨1, _⟩ => show win2_3.index (pt2 (i 0).val h0) 1 * 784 ≤ (i 1).val ∧ (i 1).val < win2_3.index (pt2 (i 0).val h0) 1 * 784 + 784; rw [e1]; omega
  | ⟨2, _⟩ => show win2_3.index (pt2 (i 0).val h0) 2 * 64 ≤ (i 2).val ∧ (i 2).val < win2_3.index (pt2 (i 0).val h0) 2 * 64 + 64; rw [e2]; omega

/-- THE OUTPUT OF PALLAS_CALL 2 after the region. -/
theorem arr2_3 (c : Dev nD) : (dat2 V c).arrAt 3 cfg2.N = blocks2_3 V c :=
  (dat2 V c).arrAt_eq_of_cover 3 (blocks2_3 V c) (fun t _ => flushed2_3_eq V c t) cover2_3

end Cert.ReferenceIdeal.HandValue

end
-- ==== Proof.StageR2Val.lean ====
/- The body of the reference program's third pallas_call, read at an index over the extended reals: the per-channel affine map. -/
import proofs.«154663_g2000405482023969_pallasbulk_1176_2_alg».proof.Proof.PatchedFrameReferenceIdeal
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.ReferenceIdeal.HandValue

open Cert.ReferenceIdeal Cert.ReferenceIdeal.Gen Cert.ReferenceIdeal.GenP

theorem offsets3_zero : (![0, 0, 0] : Fin 3 → Nat) = fun _ => 0 := funext fun a => by fin_cases a <;> rfl
theorem offsets2_zero : (![0, 0] : Fin 2 → Nat) = fun _ => 0 := funext fun a => by fin_cases a <;> rfl

/-- The body's payload at an index: the activation times the channel's scale plus the channel's shift. -/
theorem k2_pay1_apply (x0 : Vec Ideal S1x784x64 .f32) (x1 x2 : Vec Ideal S1x64 .f32) (q : Fin 784) (co : Fin 64) :
    k2_pay1 (F := Ideal) x0 x1 x2 (ix3 0 q co) = x0 (ix3 0 q co) * x1 (ix2 0 co) + x2 (ix2 0 co) := by
  unfold k2_pay1
  rw [shapeCast_ab_1ab_apply, addf_apply, mulf_apply, broadcastTo_1b_ab_apply, broadcastTo_1b_ab_apply,
    shapeCast_self, shapeCast_self, shapeCast_1ab_ab_apply]

/-- What the body leaves in the output block, at an index. -/
theorem out2_3_apply (x0 : Vec Ideal S1x784x64 .f32) (x1 x2 : Vec Ideal S1x64 .f32) (q : Fin 784) (co : Fin 64) :
    out2_3 (F := Ideal) x0 x1 x2 (ix3 0 q co) = x0 (ix3 0 q co) * x1 (ix2 0 co) + x2 (ix2 0 co) := by
  unfold out2_3
  rw [View.canon_unit_zero offsets3_zero]
  rw [View.ld_unit_zero (S := S1x784x64) offsets3_zero, View.ld_unit_zero (S := S1x64) offsets2_zero,
    View.ld_unit_zero (S := S1x64) offsets2_zero]
  exact k2_pay1_apply x0 x1 x2 q co

end Cert.ReferenceIdeal.HandValue

end
-- ==== Proof.StageR2.lean ====
/- The reference program's third pallas_call over the extended reals, for any entry contents: its output array after the
   region is the per-channel affine map of the pooled activations — entry by entry, the activation times its channel's
   scale plus its channel's shift. -/
import proofs.«154663_g2000405482023969_pallasbulk_1176_2_alg».proof.Proof.ArrR2
import proofs.«154663_g2000405482023969_pallasbulk_1176_2_alg».proof.Proof.StageR2Val
import proofs.«154663_g2000405482023969_pallasbulk_1176_2_alg».proof.Proof.Spec

noncomputable section

open Idealize.ShloMosaic Idealize.ShloMosaic.TcCoe Idealize.SL.Sem
open Idealize.ShloMosaic.Pipeline (Dat)
open Idealize.ShloMosaic.ValueIdx

namespace Cert.ReferenceIdeal.HandValue

open Cert.ReferenceIdeal Cert.ReferenceIdeal.Gen Cert.ReferenceIdeal.GenP

variable (V : (c : Dev nD) → (b : Ref sig .tc) → Buf (Elt Ideal) ((c : Thread nD τ).loc b))

/-- Image `n` of the entry pooled-activation array, and the scale and shift rows, as functions into the extended reals. -/
abbrev acts2 (c : Dev nD) (n : Fin 32) : Fin 784 → Fin 64 → EReal :=
  fun q co => (V c main_v27_0 : S32x784x64.Idx → Elt Ideal .f32) (ix3 n q co)
abbrev scale2 (c : Dev nD) : Fin 64 → EReal := fun co => (V c main_v47 : S1x64.Idx → Elt Ideal .f32) (ix2 0 co)
abbrev shift2 (c : Dev nD) : Fin 64 → EReal := fun co => (V c main_v48 : S1x64.Idx → Elt Ideal .f32) (ix2 0 co)

/-- The output array: the affine map of the pooled activations, entry by entry. -/
theorem stage2_Y (c : Dev nD) (n : Fin 32) (q : Fin 784) (co : Fin 64) :
    ((dat2 V c).arrAt 3 cfg2.N : S32x784x64.Idx → Elt Ideal .f32) (ix3 n q co)
      = acts2 V c n q co * scale2 V c co + shift2 V c co := by
  rw [arr2_3, blocks2_3_apply, outAt2_eq, out2_3_apply, iblk2_0_apply, iblk2_1_eq, iblk2_2_eq]

/-- The same, as the specification's affine map of image `n`. -/
theorem stage2_Y_affine (c : Dev nD) (n : Fin 32) (q : Fin 784) (co : Fin 64) :
    ((dat2 V c).arrAt 3 cfg2.N : S32x784x64.Idx → Elt Ideal .f32) (ix3 n q co)
      = Cert.Spec.affine (acts2 V c n) (scale2 V c) (shift2 V c) q co :=
  stage2_Y V c n q co

end Cert.ReferenceIdeal.HandValue

end
-- ==== Proof.Bridge1.lean ====
import proofs.«154663_g2000405482023969_pallasbulk_1176_2_alg».proof.Proof.Bridge0
import proofs.«154663_g2000405482023969_pallasbulk_1176_2_alg».proof.Proof.SpecLaws
import proofs.«154663_g2000405482023969_pallasbulk_1176_2_alg».proof.Proof.StageK0
import proofs.«154663_g2000405482023969_pallasbulk_1176_2_alg».proof.Proof.StageK1
import proofs.«154663_g2000405482023969_pallasbulk_1176_2_alg».proof.Proof.StageK2
import proofs.«154663_g2000405482023969_pallasbulk_1176_2_alg».proof.Proof.StageR0
import proofs.«154663_g2000405482023969_pallasbulk_1176_2_alg».proof.Proof.StageR1
import proofs.«154663_g2000405482023969_pallasbulk_1176_2_alg».proof.Proof.StageR2
import Idealize.ShloMosaic.Lib.Pipeline.Value
import Idealize.ShloMosaic.Lib.ValueIdx

set_option maxRecDepth 16384

/-!
# Stage by stage, the two programs hold the same arrays

From memories that agree on the arguments: after the first pallas_call the two programs hold the same 32 × 3136 × 64
array of activations and the same 32 × 2 × 64 array of column sums (each is the convolution specification of entry
arrays that agree); hence the same scale and shift rows; hence, after the second pallas_call, the same pooled
activations and column sums; hence the same second scale and shift; hence the same normalised array, and the same
result after the final recast and transposition.
-/

noncomputable section

namespace Cert.Bridge

open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (ρ' : Dev Cert.ReferenceIdeal.nD → PrngReg)

/-- Two functions of a rank-3 index that agree at every triple of coordinates are equal. -/
theorem ext_ix3 {n0 n1 n2 : ℕ} {α : Type} (f g : (⟨3, ![n0, n1, n2]⟩ : Shape).Idx → α)
    (h : ∀ (a : Fin n0) (b : Fin n1) (c : Fin n2), f (ix3 a b c) = g (ix3 a b c)) : f = g :=
  funext fun j => by rw [eq_ix3 j]; exact h _ _ _

theorem ext_ix2 {n0 n1 : ℕ} {α : Type} (f g : (⟨2, ![n0, n1]⟩ : Shape).Idx → α)
    (h : ∀ (a : Fin n0) (b : Fin n1), f (ix2 a b) = g (ix2 a b)) : f = g :=
  funext fun j => by rw [eq_ix2 j]; exact h _ _

/-- A buffer the second host stretch does not write holds at the second pallas_call's entry what the first left. -/
theorem kernel_W3_of_W2 (c : Dev Cert.KernelIdeal.nD) (r : Ref Cert.KernelIdeal.sig .tc) (h : r ∉ Cert.KernelIdeal.GenP.hostOps1_W) :
    Cert.KernelIdeal.Hand.W3 (F := Ideal) m ρ c (Proc.devRef .tc r) = Cert.KernelIdeal.Hand.W2 (F := Ideal) m ρ c (Proc.devRef .tc r) :=
  StableHlo.after_of_writes_sub Cert.KernelIdeal.GenP.hostOps1 _ Cert.KernelIdeal.GenP.hostOps1_writes h

variable
    (h0 : ∀ c : Dev Cert.KernelIdeal.nD, m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : ∀ c : Dev Cert.KernelIdeal.nD, m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : ∀ c : Dev Cert.KernelIdeal.nD, m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : ∀ c : Dev Cert.KernelIdeal.nD, m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : ∀ c : Dev Cert.KernelIdeal.nD, m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : ∀ c : Dev Cert.KernelIdeal.nD, m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : ∀ c : Dev Cert.KernelIdeal.nD, m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : ∀ c : Dev Cert.KernelIdeal.nD, m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : ∀ c : Dev Cert.KernelIdeal.nD, m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))

include h0 h1 h2 h3 h4 h5 h6 h7 h8

/-! ## Gamma and beta reach the normalisation stretches as launched -/

theorem gamma1_eq (c : Dev Cert.KernelIdeal.nD) : Cert.KernelIdeal.Hand.W2 (F := Ideal) m ρ c (Proc.devRef .tc Cert.KernelIdeal.main_arg3) = Cert.ReferenceIdeal.GenP.W2 (F := Ideal) m' ρ' c (Proc.devRef .tc Cert.ReferenceIdeal.main_arg3) :=
  ((Cert.KernelIdeal.HandValue.W2_keep m ρ c Cert.KernelIdeal.main_arg3 (by decide)).trans (Cert.KernelIdeal.HandValue.W1_keep m ρ c Cert.KernelIdeal.main_arg3 (by decide))).trans
    ((h3 c).symm.trans ((Cert.ReferenceIdeal.GenP.W2_of_ne m' ρ' c Cert.ReferenceIdeal.main_arg3 (by decide)).trans (Cert.ReferenceIdeal.HandValue.W1_arg3 m' ρ' c)).symm)

theorem beta1_eq (c : Dev Cert.KernelIdeal.nD) : Cert.KernelIdeal.Hand.W2 (F := Ideal) m ρ c (Proc.devRef .tc Cert.KernelIdeal.main_arg4) = Cert.ReferenceIdeal.GenP.W2 (F := Ideal) m' ρ' c (Proc.devRef .tc Cert.ReferenceIdeal.main_arg4) :=
  ((Cert.KernelIdeal.HandValue.W2_keep m ρ c Cert.KernelIdeal.main_arg4 (by decide)).trans (Cert.KernelIdeal.HandValue.W1_keep m ρ c Cert.KernelIdeal.main_arg4 (by decide))).trans
    ((h4 c).symm.trans ((Cert.ReferenceIdeal.GenP.W2_of_ne m' ρ' c Cert.ReferenceIdeal.main_arg4 (by decide)).trans (Cert.ReferenceIdeal.HandValue.W1_arg4 m' ρ' c)).symm)

theorem gamma2_eq (c : Dev Cert.KernelIdeal.nD) : Cert.KernelIdeal.Hand.W4 (F := Ideal) m ρ c (Proc.devRef .tc Cert.KernelIdeal.main_arg7) = Cert.ReferenceIdeal.GenP.W4 (F := Ideal) m' ρ' c (Proc.devRef .tc Cert.ReferenceIdeal.main_arg7) :=
  ((Cert.KernelIdeal.HandValue.W4_keep m ρ c Cert.KernelIdeal.main_arg7 (by decide)).trans ((Cert.KernelIdeal.HandValue.W3_keep m ρ c Cert.KernelIdeal.main_arg7 (by decide) (by decide)).trans (Cert.KernelIdeal.HandValue.W1_keep m ρ c Cert.KernelIdeal.main_arg7 (by decide)))).trans
    ((h7 c).symm.trans ((Cert.ReferenceIdeal.GenP.W4_of_ne m' ρ' c Cert.ReferenceIdeal.main_arg7 (by decide)).trans ((Cert.ReferenceIdeal.HandValue.W3_arg7 m' ρ' c).trans ((Cert.ReferenceIdeal.GenP.W2_of_ne m' ρ' c Cert.ReferenceIdeal.main_arg7 (by decide)).trans (Cert.ReferenceIdeal.HandValue.W1_arg7 m' ρ' c)))).symm)

theorem beta2_eq (c : Dev Cert.KernelIdeal.nD) : Cert.KernelIdeal.Hand.W4 (F := Ideal) m ρ c (Proc.devRef .tc Cert.KernelIdeal.main_arg8) = Cert.ReferenceIdeal.GenP.W4 (F := Ideal) m' ρ' c (Proc.devRef .tc Cert.ReferenceIdeal.main_arg8) :=
  ((Cert.KernelIdeal.HandValue.W4_keep m ρ c Cert.KernelIdeal.main_arg8 (by decide)).trans ((Cert.KernelIdeal.HandValue.W3_keep m ρ c Cert.KernelIdeal.main_arg8 (by decide) (by decide)).trans (Cert.KernelIdeal.HandValue.W1_keep m ρ c Cert.KernelIdeal.main_arg8 (by decide)))).trans
    ((h8 c).symm.trans ((Cert.ReferenceIdeal.GenP.W4_of_ne m' ρ' c Cert.ReferenceIdeal.main_arg8 (by decide)).trans ((Cert.ReferenceIdeal.HandValue.W3_arg8 m' ρ' c).trans ((Cert.ReferenceIdeal.GenP.W2_of_ne m' ρ' c Cert.ReferenceIdeal.main_arg8 (by decide)).trans (Cert.ReferenceIdeal.HandValue.W1_arg8 m' ρ' c)))).symm)

/-! ## After the first pallas_call -/

/-- The first stage's specification on the two programs' entry arrays is one function. -/
theorem conv1_eq (c : Dev Cert.KernelIdeal.nD) (n : Fin 32) :
    Cert.Spec.conv (fun h w ci => Cert.KernelIdeal.Hand.V1 (F := Ideal) m ρ c Cert.KernelIdeal.main_v1 (ix4 n h w ci))
        (fun t co => Cert.KernelIdeal.Hand.V1 (F := Ideal) m ρ c Cert.KernelIdeal.main_v3 (ix3 (⟨t.val / 448, by have := t.isLt; omega⟩ : Fin 7) (⟨t.val % 448, by omega⟩ : Fin 448) co))
        (fun co => Cert.KernelIdeal.Hand.V1 (F := Ideal) m ρ c Cert.KernelIdeal.main_v6 (ix2 0 co))
      = Cert.Spec.conv (fun h w ci => Cert.ReferenceIdeal.GenP.V1 (F := Ideal) m' ρ' c Cert.ReferenceIdeal.main_v0 (ix4 n h w ci))
        (fun t co => Cert.ReferenceIdeal.GenP.V1 (F := Ideal) m' ρ' c Cert.ReferenceIdeal.main_v1 (ix2 t co))
        (fun co => Cert.ReferenceIdeal.GenP.V1 (F := Ideal) m' ρ' c Cert.ReferenceIdeal.main_v3 (ix2 0 co)) :=
  Cert.Spec.conv_congr (fun h w ci => congrFun (image_eq m ρ m' ρ' h0 c) _) (fun t co => weights1_eq m ρ m' ρ' h1 c t co)
    (fun co => congrFun (bias1_eq m ρ m' ρ' h2 c) _)

theorem stage1_eq (c : Dev Cert.KernelIdeal.nD) (n : Fin 32) (r : Fin 3136) (co : Fin 64) :
    Cert.KernelIdeal.Hand.W2 (F := Ideal) m ρ c (Proc.devRef .tc Cert.KernelIdeal.main_v8_0) (ix3 n r co) = Cert.ReferenceIdeal.GenP.W2 (F := Ideal) m' ρ' c (Proc.devRef .tc Cert.ReferenceIdeal.main_v5_0) (ix3 n r co) := by
  have hK : Cert.KernelIdeal.Hand.W2 (F := Ideal) m ρ c (Proc.devRef .tc Cert.KernelIdeal.main_v8_0) = (Cert.KernelIdeal.Hand.dat0 (F := Ideal) (Cert.KernelIdeal.Hand.V1 m ρ) c).arrAt 3 Cert.KernelIdeal.cfg0.N := Cert.KernelIdeal.Hand.W2_arr m ρ c 3
  have hR : Cert.ReferenceIdeal.GenP.W2 (F := Ideal) m' ρ' c (Proc.devRef .tc Cert.ReferenceIdeal.main_v5_0) = (Cert.ReferenceIdeal.GenP.dat0 (F := Ideal) (Cert.ReferenceIdeal.GenP.V1 m' ρ') c).arrAt 3 Cert.ReferenceIdeal.cfg0.N := Cert.ReferenceIdeal.GenP.W2_arr m' ρ' c 3
  exact (congrFun hK _).trans ((Cert.KernelIdeal.HandValue.stage0_Y (Cert.KernelIdeal.Hand.V1 m ρ) c n r co).trans
    ((congrFun (congrFun (conv1_eq m ρ m' ρ' h0 h1 h2 h3 h4 h5 h6 h7 h8 c n) r) co).trans
      ((Cert.ReferenceIdeal.HandValue.stage0_Y (Cert.ReferenceIdeal.GenP.V1 m' ρ') c n r co).symm.trans (congrFun hR _).symm)))

theorem sums1_eq (c : Dev Cert.KernelIdeal.nD) : Cert.KernelIdeal.Hand.W2 (F := Ideal) m ρ c (Proc.devRef .tc Cert.KernelIdeal.main_v8_1) = Cert.ReferenceIdeal.GenP.W2 (F := Ideal) m' ρ' c (Proc.devRef .tc Cert.ReferenceIdeal.main_v5_1) := by
  have hK : Cert.KernelIdeal.Hand.W2 (F := Ideal) m ρ c (Proc.devRef .tc Cert.KernelIdeal.main_v8_1) = (Cert.KernelIdeal.Hand.dat0 (F := Ideal) (Cert.KernelIdeal.Hand.V1 m ρ) c).arrAt 4 Cert.KernelIdeal.cfg0.N := Cert.KernelIdeal.Hand.W2_arr m ρ c 4
  have hR : Cert.ReferenceIdeal.GenP.W2 (F := Ideal) m' ρ' c (Proc.devRef .tc Cert.ReferenceIdeal.main_v5_1) = (Cert.ReferenceIdeal.GenP.dat0 (F := Ideal) (Cert.ReferenceIdeal.GenP.V1 m' ρ') c).arrAt 4 Cert.ReferenceIdeal.cfg0.N := Cert.ReferenceIdeal.GenP.W2_arr m' ρ' c 4
  refine ext_ix3 (n0 := 32) (n1 := 2) (n2 := 64) (α := EReal) _ _ fun n k co => ?_
  match k with
  | ⟨0, _⟩ =>
    exact (congrFun hK _).trans ((Cert.KernelIdeal.HandValue.stage0_S0 (Cert.KernelIdeal.Hand.V1 m ρ) c n co).trans
      ((congrArg (fun f => Cert.Spec.colSum f co) (conv1_eq m ρ m' ρ' h0 h1 h2 h3 h4 h5 h6 h7 h8 c n)).trans
        ((Cert.ReferenceIdeal.HandValue.stage0_S0 (Cert.ReferenceIdeal.GenP.V1 m' ρ') c n co).symm.trans (congrFun hR _).symm)))
  | ⟨1, _⟩ =>
    exact (congrFun hK _).trans ((Cert.KernelIdeal.HandValue.stage0_S1 (Cert.KernelIdeal.Hand.V1 m ρ) c n co).trans
      ((congrArg (fun f => Cert.Spec.colSumSq f co) (conv1_eq m ρ m' ρ' h0 h1 h2 h3 h4 h5 h6 h7 h8 c n)).trans
        ((Cert.ReferenceIdeal.HandValue.stage0_S1 (Cert.ReferenceIdeal.GenP.V1 m' ρ') c n co).symm.trans (congrFun hR _).symm)))

/-! ## The first scale and shift -/

theorem scale1_eq (c : Dev Cert.KernelIdeal.nD) : Cert.KernelIdeal.Hand.W3 (F := Ideal) m ρ c (Proc.devRef .tc Cert.KernelIdeal.main_v28) = Cert.ReferenceIdeal.GenP.W3 (F := Ideal) m' ρ' c (Proc.devRef .tc Cert.ReferenceIdeal.main_v25) := by
  rw [Cert.KernelIdeal.HandValue.W3_scale, Cert.ReferenceIdeal.HandValue.W3_scale, sums1_eq m ρ m' ρ' h0 h1 h2 h3 h4 h5 h6 h7 h8 c, gamma1_eq m ρ m' ρ' h0 h1 h2 h3 h4 h5 h6 h7 h8 c]

theorem shift1_eq (c : Dev Cert.KernelIdeal.nD) : Cert.KernelIdeal.Hand.W3 (F := Ideal) m ρ c (Proc.devRef .tc Cert.KernelIdeal.main_v29) = Cert.ReferenceIdeal.GenP.W3 (F := Ideal) m' ρ' c (Proc.devRef .tc Cert.ReferenceIdeal.main_v26) := by
  rw [Cert.KernelIdeal.HandValue.W3_shift, Cert.ReferenceIdeal.HandValue.W3_shift, sums1_eq m ρ m' ρ' h0 h1 h2 h3 h4 h5 h6 h7 h8 c, gamma1_eq m ρ m' ρ' h0 h1 h2 h3 h4 h5 h6 h7 h8 c, beta1_eq m ρ m' ρ' h0 h1 h2 h3 h4 h5 h6 h7 h8 c]

/-! ## After the second pallas_call -/

/-- The second stage's specification on the two programs' entry arrays is one function. -/
theorem stage2_fun_eq (c : Dev Cert.KernelIdeal.nD) (n : Fin 32) :
    Cert.Spec.pool (Cert.Spec.conv (Cert.Spec.unflat (Cert.Spec.affine (fun r co => Cert.KernelIdeal.Hand.V3 (F := Ideal) m ρ c Cert.KernelIdeal.main_v8_0 (ix3 n r co))
          (fun co => Cert.KernelIdeal.Hand.V3 (F := Ideal) m ρ c Cert.KernelIdeal.main_v28 (ix2 0 co)) (fun co => Cert.KernelIdeal.Hand.V3 (F := Ideal) m ρ c Cert.KernelIdeal.main_v29 (ix2 0 co))))
        (fun t co => Cert.KernelIdeal.Hand.V3 (F := Ideal) m ρ c Cert.KernelIdeal.main_v5 (ix3 (⟨t.val / 448, by have := t.isLt; omega⟩ : Fin 7) (⟨t.val % 448, by omega⟩ : Fin 448) co))
        (fun co => Cert.KernelIdeal.Hand.V3 (F := Ideal) m ρ c Cert.KernelIdeal.main_v7 (ix2 0 co)))
      = Cert.Spec.pool (Cert.Spec.conv (Cert.Spec.unflat (Cert.Spec.affine (fun r co => Cert.ReferenceIdeal.GenP.V3 (F := Ideal) m' ρ' c Cert.ReferenceIdeal.main_v5_0 (ix3 n r co))
          (fun co => Cert.ReferenceIdeal.GenP.V3 (F := Ideal) m' ρ' c Cert.ReferenceIdeal.main_v25 (ix2 0 co)) (fun co => Cert.ReferenceIdeal.GenP.V3 (F := Ideal) m' ρ' c Cert.ReferenceIdeal.main_v26 (ix2 0 co))))
        (fun t co => Cert.ReferenceIdeal.GenP.V3 (F := Ideal) m' ρ' c Cert.ReferenceIdeal.main_v2 (ix2 t co))
        (fun co => Cert.ReferenceIdeal.GenP.V3 (F := Ideal) m' ρ' c Cert.ReferenceIdeal.main_v4 (ix2 0 co))) := by
  have ey : ∀ (r : Fin 3136) (co : Fin 64), Cert.KernelIdeal.Hand.V3 (F := Ideal) m ρ c Cert.KernelIdeal.main_v8_0 (ix3 n r co) = Cert.ReferenceIdeal.GenP.V3 (F := Ideal) m' ρ' c Cert.ReferenceIdeal.main_v5_0 (ix3 n r co) := fun r co =>
    (congrFun (kernel_W3_of_W2 m ρ c Cert.KernelIdeal.main_v8_0 (by decide)) _).trans
      ((stage1_eq m ρ m' ρ' h0 h1 h2 h3 h4 h5 h6 h7 h8 c n r co).trans (congrFun (Cert.ReferenceIdeal.HandValue.W3_stage1 m' ρ' c) _).symm)
  have esc : ∀ co : Fin 64, Cert.KernelIdeal.Hand.V3 (F := Ideal) m ρ c Cert.KernelIdeal.main_v28 (ix2 0 co) = Cert.ReferenceIdeal.GenP.V3 (F := Ideal) m' ρ' c Cert.ReferenceIdeal.main_v25 (ix2 0 co) := fun co =>
    congrFun (scale1_eq m ρ m' ρ' h0 h1 h2 h3 h4 h5 h6 h7 h8 c) _
  have esh : ∀ co : Fin 64, Cert.KernelIdeal.Hand.V3 (F := Ideal) m ρ c Cert.KernelIdeal.main_v29 (ix2 0 co) = Cert.ReferenceIdeal.GenP.V3 (F := Ideal) m' ρ' c Cert.ReferenceIdeal.main_v26 (ix2 0 co) := fun co =>
    congrFun (shift1_eq m ρ m' ρ' h0 h1 h2 h3 h4 h5 h6 h7 h8 c) _
  have ew : ∀ (t : Fin 3136) (co : Fin 64), Cert.KernelIdeal.Hand.V3 (F := Ideal) m ρ c Cert.KernelIdeal.main_v5 (ix3 (⟨t.val / 448, by have := t.isLt; omega⟩ : Fin 7) (⟨t.val % 448, by omega⟩ : Fin 448) co) = Cert.ReferenceIdeal.GenP.V3 (F := Ideal) m' ρ' c Cert.ReferenceIdeal.main_v2 (ix2 t co) := fun t co =>
    (congrFun (Cert.KernelIdeal.HandValue.W3_keep m ρ c Cert.KernelIdeal.main_v5 (by decide) (by decide)) _).trans
      ((weights2_eq m ρ m' ρ' h5 c t co).trans
        (congrFun ((Cert.ReferenceIdeal.HandValue.W3_weights2 m' ρ' c).trans (Cert.ReferenceIdeal.GenP.W2_of_ne m' ρ' c Cert.ReferenceIdeal.main_v2 (by decide))) _).symm)
  have eb : ∀ co : Fin 64, Cert.KernelIdeal.Hand.V3 (F := Ideal) m ρ c Cert.KernelIdeal.main_v7 (ix2 0 co) = Cert.ReferenceIdeal.GenP.V3 (F := Ideal) m' ρ' c Cert.ReferenceIdeal.main_v4 (ix2 0 co) := fun co =>
    (congrFun (Cert.KernelIdeal.HandValue.W3_keep m ρ c Cert.KernelIdeal.main_v7 (by decide) (by decide)) _).trans
      ((congrFun (bias2_eq m ρ m' ρ' h6 c) _).trans
        (congrFun ((Cert.ReferenceIdeal.HandValue.W3_bias2 m' ρ' c).trans (Cert.ReferenceIdeal.GenP.W2_of_ne m' ρ' c Cert.ReferenceIdeal.main_v4 (by decide))) _).symm)
  exact congrArg Cert.Spec.pool (Cert.Spec.conv_congr
    (fun h w ci => congrFun (congrFun (congrFun (congrArg Cert.Spec.unflat (Cert.Spec.affine_congr ey esc esh)) h) w) ci) ew eb)

theorem stage2_eq (c : Dev Cert.KernelIdeal.nD) (n : Fin 32) (q : Fin 784) (co : Fin 64) :
    Cert.KernelIdeal.Hand.W4 (F := Ideal) m ρ c (Proc.devRef .tc Cert.KernelIdeal.main_v30_0) (ix3 n q co) = Cert.ReferenceIdeal.GenP.W4 (F := Ideal) m' ρ' c (Proc.devRef .tc Cert.ReferenceIdeal.main_v27_0) (ix3 n q co) := by
  have hK : Cert.KernelIdeal.Hand.W4 (F := Ideal) m ρ c (Proc.devRef .tc Cert.KernelIdeal.main_v30_0) = (Cert.KernelIdeal.Hand.dat1 (F := Ideal) (Cert.KernelIdeal.Hand.V3 m ρ) c).arrAt 5 Cert.KernelIdeal.cfg1.N := Cert.KernelIdeal.Hand.W4_arr m ρ c 5
  have hR : Cert.ReferenceIdeal.GenP.W4 (F := Ideal) m' ρ' c (Proc.devRef .tc Cert.ReferenceIdeal.main_v27_0) = (Cert.ReferenceIdeal.GenP.dat1 (F := Ideal) (Cert.ReferenceIdeal.GenP.V3 m' ρ') c).arrAt 5 Cert.ReferenceIdeal.cfg1.N := Cert.ReferenceIdeal.GenP.W4_arr m' ρ' c 5
  exact (congrFun hK _).trans ((Cert.KernelIdeal.HandValue.stage1_Y (Cert.KernelIdeal.Hand.V3 m ρ) c n q co).trans
    ((congrFun (congrFun (stage2_fun_eq m ρ m' ρ' h0 h1 h2 h3 h4 h5 h6 h7 h8 c n) q) co).trans
      ((Cert.ReferenceIdeal.HandValue.stage1_Y (Cert.ReferenceIdeal.GenP.V3 m' ρ') c n q co).symm.trans (congrFun hR _).symm)))

theorem sums2_eq (c : Dev Cert.KernelIdeal.nD) : Cert.KernelIdeal.Hand.W4 (F := Ideal) m ρ c (Proc.devRef .tc Cert.KernelIdeal.main_v30_1) = Cert.ReferenceIdeal.GenP.W4 (F := Ideal) m' ρ' c (Proc.devRef .tc Cert.ReferenceIdeal.main_v27_1) := by
  have hK : Cert.KernelIdeal.Hand.W4 (F := Ideal) m ρ c (Proc.devRef .tc Cert.KernelIdeal.main_v30_1) = (Cert.KernelIdeal.Hand.dat1 (F := Ideal) (Cert.KernelIdeal.Hand.V3 m ρ) c).arrAt 6 Cert.KernelIdeal.cfg1.N := Cert.KernelIdeal.Hand.W4_arr m ρ c 6
  have hR : Cert.ReferenceIdeal.GenP.W4 (F := Ideal) m' ρ' c (Proc.devRef .tc Cert.ReferenceIdeal.main_v27_1) = (Cert.ReferenceIdeal.GenP.dat1 (F := Ideal) (Cert.ReferenceIdeal.GenP.V3 m' ρ') c).arrAt 6 Cert.ReferenceIdeal.cfg1.N := Cert.ReferenceIdeal.GenP.W4_arr m' ρ' c 6
  refine ext_ix3 (n0 := 32) (n1 := 2) (n2 := 64) (α := EReal) _ _ fun n k co => ?_
  match k with
  | ⟨0, _⟩ =>
    exact (congrFun hK _).trans ((Cert.KernelIdeal.HandValue.stage1_S0 (Cert.KernelIdeal.Hand.V3 m ρ) c n co).trans
      ((congrArg (fun f => Cert.Spec.colSum f co) (stage2_fun_eq m ρ m' ρ' h0 h1 h2 h3 h4 h5 h6 h7 h8 c n)).trans
        ((Cert.ReferenceIdeal.HandValue.stage1_S0 (Cert.ReferenceIdeal.GenP.V3 m' ρ') c n co).symm.trans (congrFun hR _).symm)))
  | ⟨1, _⟩ =>
    exact (congrFun hK _).trans ((Cert.KernelIdeal.HandValue.stage1_S1 (Cert.KernelIdeal.Hand.V3 m ρ) c n co).trans
      ((congrArg (fun f => Cert.Spec.colSumSq f co) (stage2_fun_eq m ρ m' ρ' h0 h1 h2 h3 h4 h5 h6 h7 h8 c n)).trans
        ((Cert.ReferenceIdeal.HandValue.stage1_S1 (Cert.ReferenceIdeal.GenP.V3 m' ρ') c n co).symm.trans (congrFun hR _).symm)))

/-! ## The second scale and shift -/

theorem scale2_eq (c : Dev Cert.KernelIdeal.nD) : Cert.KernelIdeal.Hand.W5 (F := Ideal) m ρ c (Proc.devRef .tc Cert.KernelIdeal.main_v50) = Cert.ReferenceIdeal.GenP.W5 (F := Ideal) m' ρ' c (Proc.devRef .tc Cert.ReferenceIdeal.main_v47) := by
  rw [Cert.KernelIdeal.HandValue.W5_scale, Cert.ReferenceIdeal.HandValue.W5_scale, sums2_eq m ρ m' ρ' h0 h1 h2 h3 h4 h5 h6 h7 h8 c, gamma2_eq m ρ m' ρ' h0 h1 h2 h3 h4 h5 h6 h7 h8 c]

theorem shift2_eq (c : Dev Cert.KernelIdeal.nD) : Cert.KernelIdeal.Hand.W5 (F := Ideal) m ρ c (Proc.devRef .tc Cert.KernelIdeal.main_v51) = Cert.ReferenceIdeal.GenP.W5 (F := Ideal) m' ρ' c (Proc.devRef .tc Cert.ReferenceIdeal.main_v48) := by
  rw [Cert.KernelIdeal.HandValue.W5_shift, Cert.ReferenceIdeal.HandValue.W5_shift, sums2_eq m ρ m' ρ' h0 h1 h2 h3 h4 h5 h6 h7 h8 c, gamma2_eq m ρ m' ρ' h0 h1 h2 h3 h4 h5 h6 h7 h8 c, beta2_eq m ρ m' ρ' h0 h1 h2 h3 h4 h5 h6 h7 h8 c]

/-! ## After the third pallas_call, and the result -/

theorem stage3_eq (c : Dev Cert.KernelIdeal.nD) (n : Fin 32) (q : Fin 784) (co : Fin 64) :
    Cert.KernelIdeal.Hand.W6 (F := Ideal) m ρ c (Proc.devRef .tc Cert.KernelIdeal.main_v52) (ix3 n q co) = Cert.ReferenceIdeal.GenP.W6 (F := Ideal) m' ρ' c (Proc.devRef .tc Cert.ReferenceIdeal.main_v49) (ix3 n q co) := by
  have hK : Cert.KernelIdeal.Hand.W6 (F := Ideal) m ρ c (Proc.devRef .tc Cert.KernelIdeal.main_v52) = (Cert.KernelIdeal.Hand.dat2 (F := Ideal) (Cert.KernelIdeal.Hand.V5 m ρ) c).arrAt 3 Cert.KernelIdeal.cfg2.N := Cert.KernelIdeal.Hand.W6_arr m ρ c 3
  have hR : Cert.ReferenceIdeal.GenP.W6 (F := Ideal) m' ρ' c (Proc.devRef .tc Cert.ReferenceIdeal.main_v49) = (Cert.ReferenceIdeal.GenP.dat2 (F := Ideal) (Cert.ReferenceIdeal.GenP.V5 m' ρ') c).arrAt 3 Cert.ReferenceIdeal.cfg2.N := Cert.ReferenceIdeal.GenP.W6_arr m' ρ' c 3
  have ey : ∀ (q : Fin 784) (co : Fin 64), Cert.KernelIdeal.Hand.V5 (F := Ideal) m ρ c Cert.KernelIdeal.main_v30_0 (ix3 n q co) = Cert.ReferenceIdeal.GenP.V5 (F := Ideal) m' ρ' c Cert.ReferenceIdeal.main_v27_0 (ix3 n q co) := fun q co =>
    (congrFun (Cert.KernelIdeal.HandValue.W5_keep m ρ c Cert.KernelIdeal.main_v30_0 (by decide)) _).trans
      ((stage2_eq m ρ m' ρ' h0 h1 h2 h3 h4 h5 h6 h7 h8 c n q co).trans (congrFun (Cert.ReferenceIdeal.HandValue.W5_stage2 m' ρ' c) _).symm)
  have esc : ∀ co : Fin 64, Cert.KernelIdeal.Hand.V5 (F := Ideal) m ρ c Cert.KernelIdeal.main_v50 (ix2 0 co) = Cert.ReferenceIdeal.GenP.V5 (F := Ideal) m' ρ' c Cert.ReferenceIdeal.main_v47 (ix2 0 co) := fun co => congrFun (scale2_eq m ρ m' ρ' h0 h1 h2 h3 h4 h5 h6 h7 h8 c) _
  have esh : ∀ co : Fin 64, Cert.KernelIdeal.Hand.V5 (F := Ideal) m ρ c Cert.KernelIdeal.main_v51 (ix2 0 co) = Cert.ReferenceIdeal.GenP.V5 (F := Ideal) m' ρ' c Cert.ReferenceIdeal.main_v48 (ix2 0 co) := fun co => congrFun (shift2_eq m ρ m' ρ' h0 h1 h2 h3 h4 h5 h6 h7 h8 c) _
  exact (congrFun hK _).trans ((Cert.KernelIdeal.HandValue.stage2_Y (Cert.KernelIdeal.Hand.V5 m ρ) c n q co).trans
    ((congrFun (congrFun (Cert.Spec.affine_congr ey esc esh) q) co).trans
      ((Cert.ReferenceIdeal.HandValue.stage2_Y_affine (Cert.ReferenceIdeal.GenP.V5 m' ρ') c n q co).symm.trans (congrFun hR _).symm)))

/-- THE RESULT: from memories that agree on the arguments, the two programs' result arrays are equal. -/
theorem result_eq (c : Dev Cert.KernelIdeal.nD) : Cert.ReferenceIdeal.GenP.W7 (F := Ideal) m' ρ' c (Proc.devRef .tc Cert.ReferenceIdeal.main_v51) = Cert.KernelIdeal.Hand.W7 (F := Ideal) m ρ c (Proc.devRef .tc Cert.KernelIdeal.main_v54) := by
  rw [Cert.KernelIdeal.HandValue.W7_result, Cert.ReferenceIdeal.HandValue.W7_result]
  refine congrArg Cert.KernelIdeal.HandValue.tail (ext_ix3 (n0 := 32) (n1 := 784) (n2 := 64) (α := EReal) _ _ fun n q co => ?_)
  exact (stage3_eq m ρ m' ρ' h0 h1 h2 h3 h4 h5 h6 h7 h8 c n q co).symm

end Cert.Bridge

end
-- ==== Proof.lean ====
/-
  The certificate of an encoder block: 7×7 "same" convolution + bias + positive part, batch normalisation from
  per-image column sums, a second such convolution, a 2×2 maximum with stride 2, and a second normalisation, on 32
  images of 56 × 56 positions and 64 channels.

  The kernel program runs three pallas_calls between stretches of host operations; so does the reference. Each
  program's frame — every weakly fair execution terminates, nothing faults, the argument arrays end as launched —
  follows from following the TensorCore's buffer contents through @main: a host stretch changes them to the fold of
  its operations, a pallas_call only its windows' arrays. The kernel's two convolution bodies are run once symbolically
  on arbitrary whole memrefs (the padded image and the patch buffer are scratch operands that ride in the invariant);
  the word-level kernel and its idealization are one text, and the argument is generic in the float instance.
  The idealization rewrote no operation, so there is nothing to preserve.

  The two idealized programs end with equal results. Each pallas_call's output arrays are the blocks its grid points
  wrote; each block, read off the symbolic run's stored pieces, is a specification function of the input blocks — the
  convolution as one sum over the 3136 = 7·7·64 weight rows of the zero-bordered image times the weights (the kernel
  adds seven products over row windows of a 3472 × 448 patch buffer, the reference multiplies one 3136 × 3136 patch
  matrix: regroupings of one finite sum), the 2 × 2 maximum (the reference picks the even and odd columns by 0/1
  matrix products, which on the extended reals are the picked entries because 0 · x = 0), the column sums. The host
  operations between the calls are the same in both programs and are carried as one function; the entry arrays agree
  because the arguments do and a change of float format is the identity on extended reals.
-/
import proofs.«154663_g2000405482023969_pallasbulk_1176_2_alg».proof.Defs
import proofs.«154663_g2000405482023969_pallasbulk_1176_2_alg».proof.Proof.Gen.Kernel
import proofs.«154663_g2000405482023969_pallasbulk_1176_2_alg».proof.Proof.Gen.KernelIdeal
import proofs.«154663_g2000405482023969_pallasbulk_1176_2_alg».proof.Proof.Gen.ReferenceIdeal
import proofs.«154663_g2000405482023969_pallasbulk_1176_2_alg».proof.Proof.Gen.Pre_finite_inputs
import proofs.«154663_g2000405482023969_pallasbulk_1176_2_alg».proof.Proof.RunKernel
import proofs.«154663_g2000405482023969_pallasbulk_1176_2_alg».proof.Proof.RunKernelIdeal
import proofs.«154663_g2000405482023969_pallasbulk_1176_2_alg».proof.Proof.RunReferenceIdeal
import proofs.«154663_g2000405482023969_pallasbulk_1176_2_alg».proof.Proof.Bridge1
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Hand.frame (F := Bits) m ρ

theorem frame_kernelIdeal : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_referenceIdeal : Cert.frame_ReferenceIdeal (hReferenceIdeal := Cert.ReferenceIdeal.Gen.facts) (hPre_finite_inputs := Cert.Pre_finite_inputs.Gen.facts) :=
  fun m ρ _ => Cert.ReferenceIdeal.GenP.frame (F := Ideal) m ρ

theorem preserves : Cert.preserves_Kernel_KernelIdeal := trivial

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Hand.W7 (F := Ideal) m ρ c (Proc.devRef .tc Cert.KernelIdeal.main_v54), ?_, ?_⟩
  · exact (θ_run Cert.KernelIdeal.defs _ _).mono (fun r h c =>
      ⟨h c _ (Cert.KernelIdeal.Hand.mem_uc Cert.KernelIdeal.main_v54 (by decide)),
        (h c _ (Cert.KernelIdeal.Hand.mem_uc Cert.KernelIdeal.main_arg0 (by decide))).trans (Cert.KernelIdeal.Hand.W7_main_arg0 m ρ c),
        (h c _ (Cert.KernelIdeal.Hand.mem_uc Cert.KernelIdeal.main_arg1 (by decide))).trans (Cert.KernelIdeal.Hand.W7_main_arg1 m ρ c),
        (h c _ (Cert.KernelIdeal.Hand.mem_uc Cert.KernelIdeal.main_arg2 (by decide))).trans (Cert.KernelIdeal.Hand.W7_main_arg2 m ρ c),
        (h c _ (Cert.KernelIdeal.Hand.mem_uc Cert.KernelIdeal.main_arg3 (by decide))).trans (Cert.KernelIdeal.Hand.W7_main_arg3 m ρ c),
        (h c _ (Cert.KernelIdeal.Hand.mem_uc Cert.KernelIdeal.main_arg4 (by decide))).trans (Cert.KernelIdeal.Hand.W7_main_arg4 m ρ c),
        (h c _ (Cert.KernelIdeal.Hand.mem_uc Cert.KernelIdeal.main_arg5 (by decide))).trans (Cert.KernelIdeal.Hand.W7_main_arg5 m ρ c),
        (h c _ (Cert.KernelIdeal.Hand.mem_uc Cert.KernelIdeal.main_arg6 (by decide))).trans (Cert.KernelIdeal.Hand.W7_main_arg6 m ρ c),
        (h c _ (Cert.KernelIdeal.Hand.mem_uc Cert.KernelIdeal.main_arg7 (by decide))).trans (Cert.KernelIdeal.Hand.W7_main_arg7 m ρ c),
        (h c _ (Cert.KernelIdeal.Hand.mem_uc Cert.KernelIdeal.main_arg8 (by decide))).trans (Cert.KernelIdeal.Hand.W7_main_arg8 m ρ c)⟩)
      (Cert.KernelIdeal.Hand.run_all (F := Ideal) m ρ)
  · exact (θ_run Cert.ReferenceIdeal.defs _ _).mono (fun r h c =>
      ⟨(h c _ (Cert.ReferenceIdeal.GenP.mem_uc Cert.ReferenceIdeal.main_v51 (by decide))).trans
          (Cert.Bridge.result_eq m ρ m' ρ' (fun c => (hagree c).1) (fun c => (hagree c).2.1) (fun c => (hagree c).2.2.1) (fun c => (hagree c).2.2.2.1) (fun c => (hagree c).2.2.2.2.1) (fun c => (hagree c).2.2.2.2.2.1) (fun c => (hagree c).2.2.2.2.2.2.1) (fun c => (hagree c).2.2.2.2.2.2.2.1) (fun c => (hagree c).2.2.2.2.2.2.2.2) c),
        (h c _ (Cert.ReferenceIdeal.GenP.mem_uc Cert.ReferenceIdeal.main_arg0 (by decide))).trans (Cert.ReferenceIdeal.GenP.W7_main_arg0 m' ρ' c),
        (h c _ (Cert.ReferenceIdeal.GenP.mem_uc Cert.ReferenceIdeal.main_arg1 (by decide))).trans (Cert.ReferenceIdeal.GenP.W7_main_arg1 m' ρ' c),
        (h c _ (Cert.ReferenceIdeal.GenP.mem_uc Cert.ReferenceIdeal.main_arg2 (by decide))).trans (Cert.ReferenceIdeal.GenP.W7_main_arg2 m' ρ' c),
        (h c _ (Cert.ReferenceIdeal.GenP.mem_uc Cert.ReferenceIdeal.main_arg3 (by decide))).trans (Cert.ReferenceIdeal.GenP.W7_main_arg3 m' ρ' c),
        (h c _ (Cert.ReferenceIdeal.GenP.mem_uc Cert.ReferenceIdeal.main_arg4 (by decide))).trans (Cert.ReferenceIdeal.GenP.W7_main_arg4 m' ρ' c),
        (h c _ (Cert.ReferenceIdeal.GenP.mem_uc Cert.ReferenceIdeal.main_arg5 (by decide))).trans (Cert.ReferenceIdeal.GenP.W7_main_arg5 m' ρ' c),
        (h c _ (Cert.ReferenceIdeal.GenP.mem_uc Cert.ReferenceIdeal.main_arg6 (by decide))).trans (Cert.ReferenceIdeal.GenP.W7_main_arg6 m' ρ' c),
        (h c _ (Cert.ReferenceIdeal.GenP.mem_uc Cert.ReferenceIdeal.main_arg7 (by decide))).trans (Cert.ReferenceIdeal.GenP.W7_main_arg7 m' ρ' c),
        (h c _ (Cert.ReferenceIdeal.GenP.mem_uc Cert.ReferenceIdeal.main_arg8 (by decide))).trans (Cert.ReferenceIdeal.GenP.W7_main_arg8 m' ρ' c)⟩)
      (Cert.ReferenceIdeal.Hand.run_all (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
